-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048x2048 : Shape := ⟨3, ![8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S_S2048x2048 : S_.BroadcastsInDim S2048x2048 (![] : Fin 0 → Fin S2048x2048.rank)
  reducesTo_S8x2048x2048_S8x2048_d2 : S8x2048x2048.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  reducesTo_S8x2048x1_S_d0_1_2 : S8x2048x1.ReducesTo [0, 1, 2] S_
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]

variable [Facts]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def fn_part3 {F : FTy → Type} [FloatOps F] (main_v28 : IVec S_ 1) (main_v54 : FVec F S8x2048x1 .f32) : IVec S_ 1 :=
  let main_cst_15 : FVec F S_ .f32 := constant S_ .f32 0x00000000#32
  let main_v55 : FVec F S8x2048x1 .f32 := broadcastInDim S8x2048x1 ![] bcast_S_S8x2048x1 main_cst_15
  let main_v56 : IVec S8x2048x1 1 := cmpf .une main_v54 main_v55
  let main_c_16 : IVec S_ 1 := constantI S_ 1 1#1
  let main_v57 : IVec S_ 1 := (fun x v => Host.reduce IntOp.andi x v reducesTo_S8x2048x1_S_d0_1_2 h_S_) main_v56 main_c_16
  let main_v58 : IVec S_ 1 := andi main_v28 main_v57
  main_v58

def fn_part2 {F : FTy → Type} [FloatOps F] (main_v28 : IVec S_ 1) (main_v31 : FVec F S8x2048x1024 .f32) (main_v32 : FVec F S8x2048x1024 .f32) (main_v33 : FVec F S8x2048x1024 .f32) : IVec S_ 1 :=
  let main_v34 : FVec F S8x2048x1024 .f32 := mulf main_v32 main_v33
  let main_v35 : FVec F S8x2048x2048 .f32 := (fun l r => Host.dotGeneral dot_S8x2048x1024_S8x2048x1024_S8x2048x2048_2_2_1_1_0_0 none l r) main_v31 main_v34
  let main_v36 : IVec S2048 32 := iotaInDim S2048 32 0
  let main_v37 : IVec S2048x1 32 := broadcastInDim S2048x1 ![0] bcast_S2048_S2048x1_0 main_v36
  let main_v38 : IVec S1x2048 32 := broadcastInDim S1x2048 ![1] bcast_S2048_S1x2048_1 main_v36
  let main_v39 : IVec S2048x2048 32 := broadcastInDim S2048x2048 ![0, 1] bcast_S2048x1_S2048x2048_0_1 main_v37
  let main_v40 : IVec S2048x2048 32 := broadcastInDim S2048x2048 ![0, 1] bcast_S1x2048_S2048x2048_0_1 main_v38
  let main_v41 : IVec S2048x2048 1 := cmpi .sge main_v39 main_v40
  let main_v42 : FVec F S2048x2048 .f32 := uitofp .f32 main_v41
  let main_v43 : FVec F S1x2048x2048 .f32 := broadcastInDim S1x2048x2048 ![1, 2] bcast_S2048x2048_S1x2048x2048_1_2 main_v42
  let main_v44 : FVec F S8x2048x2048 .f32 := broadcastInDim S8x2048x2048 ![0, 1, 2] bcast_S1x2048x2048_S8x2048x2048_0_1_2 main_v43
  let main_v45 : FVec F S8x2048x2048 .f32 := mulf main_v35 main_v44
  let main_cst_12 : FVec F S_ .f32 := constant S_ .f32 0x3F800000#32
  let main_v46 : FVec F S2048x2048 .f32 := broadcastInDim S2048x2048 ![] bcast_S_S2048x2048 main_cst_12
  let main_v47 : FVec F S2048x2048 .f32 := subf main_v46 main_v42
  let main_v48 : FVec F S1x2048x2048 .f32 := broadcastInDim S1x2048x2048 ![1, 2] bcast_S2048x2048_S1x2048x2048_1_2 main_v47
  let main_v49 : FVec F S8x2048x2048 .f32 := broadcastInDim S8x2048x2048 ![0, 1, 2] bcast_S1x2048x2048_S8x2048x2048_0_1_2 main_v48
  let main_v50 : FVec F S8x2048x2048 .f32 := subf main_v45 main_v49
  let main_cst_13 : FVec F S_ .f32 := constant S_ .f32 0x00000000#32
  let main_v51 : FVec F S8x2048 .f32 := (fun x v => Host.reduceAdd x v reducesTo_S8x2048x2048_S8x2048_d2 h_S_) main_v50 main_cst_13
  let main_v52 : FVec F S8x2048x1 .f32 := broadcastInDim S8x2048x1 ![0, 1] bcast_S8x2048_S8x2048x1_0_1 main_v51
  let main_cst_14 : FVec F S_ .f32 := constant S_ .f32 0x3727C5AC#32
  let main_v53 : FVec F S8x2048x1 .f32 := broadcastInDim S8x2048x1 ![] bcast_S_S8x2048x1 main_cst_14
  let main_v54 : FVec F S8x2048x1 .f32 := addf main_v52 main_v53
  fn_part3 (F := F) main_v28 main_v54

def fn_part1 {F : FTy → Type} [FloatOps F] (main_arg0 : FVec F S8x2048x1024 .f32) (main_arg1 : FVec F S1024x1024 .f32) (main_arg2 : FVec F S1024x1024 .f32) (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8x2048x1024 .f32 := (fun l r => Host.dotGeneral dot_S8x2048x1024_S1024x1024_S8x2048x1024_2_1_01_0_n_n none l r) main_arg0 main_arg1
  let main_cst_10 : FVec F S_ .f32 := constant S_ .f32 0x3DCCCCCD#32
  let main_v30 : FVec F S8x2048x1024 .f32 := broadcastInDim S8x2048x1024 ![] bcast_S_S8x2048x1024 main_cst_10
  let main_v31 : FVec F S8x2048x1024 .f32 := mulf main_v29 main_v30
  let main_v32 : FVec F S8x2048x1024 .f32 := (fun l r => Host.dotGeneral dot_S8x2048x1024_S1024x1024_S8x2048x1024_2_1_01_0_n_n none l r) main_arg0 main_arg2
  let main_cst_11 : FVec F S_ .f32 := constant S_ .f32 0x3DCCCCCD#32
  let main_v33 : FVec F S8x2048x1024 .f32 := broadcastInDim S8x2048x1024 ![] bcast_S_S8x2048x1024 main_cst_11
  fn_part2 (F := F) main_v28 main_v31 main_v32 main_v33

def fn {F : FTy → Type} [FloatOps F] (main_arg0 : FVec F S8x2048x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg0 main_arg1 main_arg2 main_arg4 main_arg5 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S3072x1024 : Shape := ⟨2, ![3072, 1024]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩
abbrev S8x2048x3072 : Shape := ⟨3, ![8, 2048, 3072]⟩
abbrev S1x1024 : Shape := ⟨2, ![1, 1024]⟩
abbrev S1x512x1024 : Shape := ⟨3, ![1, 512, 1024]⟩
abbrev S1x2048x1024 : Shape := ⟨3, ![1, 2048, 1024]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩

abbrev nBuf : Space → Nat
  | .hbm => 22
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S3072x1024, .f32⟩
  | .hbm, ⟨14, _⟩ => ⟨S1024x3072, .f32⟩
  | .hbm, ⟨15, _⟩ => ⟨S1024x3072, .bf16⟩
  | .hbm, ⟨16, _⟩ => ⟨S16384x3072, .bf16⟩
  | .hbm, ⟨17, _⟩ => ⟨S8x2048x3072, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1024x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S512x1, .f32⟩
  | .local _ .vmem, ⟨16, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc1_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 4], ![false, false, false]⟩

def k1_mult1 (i : grid1.Coords) : BitVec 32 :=
  let arg2 : BitVec 32 := BitVec.ofNat 32 (i 2).val
  let c512_i32 : BitVec 32 := 512#32
  let v5 : BitVec 32 := Scalar.muli arg2 c512_i32
  v5
def k1_off1 (i : grid1.Coords) : Fin 3 → Nat :=
  let c0_3 : Index := 0#32
  let arg2 : BitVec 32 := BitVec.ofNat 32 (i 2).val
  let c512_i32 : BitVec 32 := 512#32
  let v5 : BitVec 32 := Scalar.muli arg2 c512_i32
  let v6 : BitVec 32 := v5
  let v7 : Index := Scalar.indexCast v6
  let c0_4 : Index := 0#32
  ![0, v7.toNat, 0]
def k1_cond5 (i : grid1.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_10 : BitVec 32 := 0#32
  let v24 : BitVec 1 := Scalar.cmpi .ne v23 c0_i32_10
  v24

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S8x2048x1024_S16384x1024 : S8x2048x1024.ShapeCasts S16384x1024
  bcast_S_S1024x1024 : S_.BroadcastsInDim S1024x1024 (![] : Fin 0 → Fin S1024x1024.rank)
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S8x2048x3072 : S16384x3072.ShapeCasts S8x2048x3072
  transposes_S1024x1024_S1024x1024_1_0 : S1024x1024.Transposes [1, 0] S1024x1024
  shapeCasts_S1024_S1x1024 : S1024.ShapeCasts S1x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S512x512_S512 : S512x512.Reduces [1] S512
  shapeCasts_S512_S512x1 : S512.ShapeCasts S512x1
  iota_S512x512_d0_w32 : S512x512.Iotas .tc 32 [0]
  iota_S512x512_d1_w32 : S512x512.Iotas .tc 32 [1]
  reduces_S512x1024_S1024 : S512x1024.Reduces [0] S1024
  shapeCasts_S1x1024_S1x1024 : S1x1024.ShapeCasts S1x1024
  broadcasts_S1x1024_S512x1024 : S1x1024.Broadcasts S512x1024
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S16384x3072.size a
  hwx0_2 : ∀ i : grid0.Coords, EltTy.bits .bf16 = 32 ∨ (Rect.block (s := S16384x3072) S512x3072.size (cc0_transform_2 i) (hinb0_2 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S1x512x1024.size a ≤ S1x2048x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x3072.size a
  hwx1_0 : ∀ i : grid1.Coords, EltTy.bits .bf16 = 32 ∨ (Rect.block (s := S8x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x3072.size a
  hwx1_1 : ∀ i : grid1.Coords, EltTy.bits .bf16 = 32 ∨ (Rect.block (s := S8x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x3072.size a
  hwx1_2 : ∀ i : grid1.Coords, EltTy.bits .bf16 = 32 ∨ (Rect.block (s := S8x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S8x2048x1024.size a
  hwx1_5 : ∀ i : grid1.Coords, EltTy.bits .f32 = 32 ∨ (Rect.block (s := S8x2048x1024) S1x512x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond5 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048x2048 : Shape := ⟨3, ![8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x2048, .f32⟩
  | .hbm, ⟨16, _⟩ => ⟨S2048, .i32⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2048x2048, .f32⟩
  | .hbm, ⟨23, _⟩ => ⟨S1x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S1x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S_S8x2048x1024 : S_.BroadcastsInDim S8x2048x1024 (![] : Fin 0 → Fin S8x2048x1024.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S_S2048x2048 : S_.BroadcastsInDim S2048x2048 (![] : Fin 0 → Fin S2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  The two arrangements of the computation, as plain functions over the extended reals with literal index types.

  Arguments: x[b,t,c] (8 batches, 2048 rows, 1024 channels), four 1024×1024 weights W[d,c] (output channel d, input channel c),
  a bias bo[d], the scale a (the word of 0.1) and the offset e (the word of 1e-5).

  Reference arrangement (suffix R): q = (x·Wqᵀ)·a, k = (x·Wkᵀ)·a, v = x·Wvᵀ; the score s[b,i,j] = ⟨q[b,i,:], k[b,j,:]⟩;
  the masked score m = s·μ − (1 − μ) with μ[i,j] = 1 for j ≤ i and 0 above the diagonal; the row denominator
  D[b,i] = (0 + Σ_j m[b,i,j]) + e; the weights p = m / D; y[b,i,d] = Σ_j p[b,i,j]·v[b,j,d]; out = y·Woᵀ + bo.

  Kernel arrangement (suffix K): the scale folded into the weight, q = x·(Wq·a)ᵀ; a query row is (its tile qi, its row r inside
  the tile), the keys are visited tile by tile (ki = 0,1,2,3, 512 keys each): a tile strictly below the diagonal adds its 512
  scores to the running row sum l and score·v to the running accumulator acc; the diagonal tile does the same with −1 in place of
  the scores above the diagonal; a tile above the diagonal adds −512 to l and minus the column sum of its v rows to acc;
  at the end y = acc / (l + e), out = y·Woᵀ + bo.
-/
import Idealize.ShloMosaic.PureOps.Ideal

noncomputable section

namespace Attn

variable (x : Fin 8 → Fin 2048 → Fin 1024 → EReal) (Wq Wk Wv Wo : Fin 1024 → Fin 1024 → EReal) (bo : Fin 1024 → EReal)
  (a e : EReal)

/-- Row `qi * 512 + r` of a sequence of 2048 rows cut into 4 tiles of 512. -/
def row (qi : Fin 4) (r : Fin 512) : Fin 2048 := ⟨qi.val * 512 + r.val, by have := qi.isLt; have := r.isLt; omega⟩

/-! ## The reference's arrangement -/

def qR (b : Fin 8) (t : Fin 2048) (d : Fin 1024) : EReal := (∑ c : Fin 1024, x b t c * Wq d c) * a
def kR (b : Fin 8) (t : Fin 2048) (d : Fin 1024) : EReal := (∑ c : Fin 1024, x b t c * Wk d c) * a
def vR (b : Fin 8) (t : Fin 2048) (d : Fin 1024) : EReal := ∑ c : Fin 1024, x b t c * Wv d c
def sR (b : Fin 8) (i j : Fin 2048) : EReal := ∑ d : Fin 1024, qR x Wq a b i d * kR x Wk a b j d
/-- The causal mask as a number: 1 on and below the diagonal, 0 above it. -/
def mu (i j : Fin 2048) : EReal := if j.val ≤ i.val then 1 else 0
def mR (b : Fin 8) (i j : Fin 2048) : EReal := sR x Wq Wk a b i j * mu i j - (1 - mu i j)
/-- The row's denominator. -/
def DR (b : Fin 8) (i : Fin 2048) : EReal := (0 + ∑ j : Fin 2048, mR x Wq Wk a b i j) + e
def pR (b : Fin 8) (i j : Fin 2048) : EReal := Idealize.ShloMosaic.Ideal.div (mR x Wq Wk a b i j) (DR x Wq Wk a e b i)
def yR (b : Fin 8) (i : Fin 2048) (d : Fin 1024) : EReal := ∑ j : Fin 2048, pR x Wq Wk a e b i j * vR x Wv b j d
def outR (b : Fin 8) (i : Fin 2048) (n : Fin 1024) : EReal := (∑ c : Fin 1024, yR x Wq Wk Wv a e b i c * Wo n c) + bo n

/-! ## The kernel's arrangement -/

def qK (b : Fin 8) (t : Fin 2048) (d : Fin 1024) : EReal := ∑ c : Fin 1024, x b t c * (Wq d c * a)
def kK (b : Fin 8) (t : Fin 2048) (d : Fin 1024) : EReal := ∑ c : Fin 1024, x b t c * (Wk d c * a)
def vK (b : Fin 8) (t : Fin 2048) (d : Fin 1024) : EReal := ∑ c : Fin 1024, x b t c * Wv d c
def sK (b : Fin 8) (i j : Fin 2048) : EReal := ∑ d : Fin 1024, qK x Wq a b i d * kK x Wk a b j d
/-- The score the diagonal tile uses at (row r, column jj) of the tile: the score on and below the diagonal, −1 above. -/
def dK (b : Fin 8) (qi : Fin 4) (r jj : Fin 512) : EReal := if jj.val ≤ r.val then sK x Wq Wk a b (row qi r) (row qi jj) else -1
/-- What key tile ki adds to the row sum of query row (qi, r). -/
def lC (b : Fin 8) (qi : Fin 4) (r : Fin 512) (ki : Fin 4) : EReal :=
  if ki.val < qi.val then ∑ jj : Fin 512, sK x Wq Wk a b (row qi r) (row ki jj)
  else if ki.val = qi.val then ∑ jj : Fin 512, dK x Wq Wk a b qi r jj
  else -512
/-- What key tile ki adds to channel d of the accumulator of query row (qi, r). -/
def accC (b : Fin 8) (qi : Fin 4) (r : Fin 512) (ki : Fin 4) (d : Fin 1024) : EReal :=
  if ki.val < qi.val then ∑ jj : Fin 512, sK x Wq Wk a b (row qi r) (row ki jj) * vK x Wv b (row ki jj) d
  else if ki.val = qi.val then ∑ jj : Fin 512, dK x Wq Wk a b qi r jj * vK x Wv b (row qi jj) d
  else -(∑ jj : Fin 512, vK x Wv b (row ki jj) d)
/-- The running row sum after the four key tiles, accumulated left to right from 0. -/
def lK (b : Fin 8) (qi : Fin 4) (r : Fin 512) : EReal :=
  (((0 + lC x Wq Wk a b qi r 0) + lC x Wq Wk a b qi r 1) + lC x Wq Wk a b qi r 2) + lC x Wq Wk a b qi r 3
def accK (b : Fin 8) (qi : Fin 4) (r : Fin 512) (d : Fin 1024) : EReal :=
  (((0 + accC x Wq Wk Wv a b qi r 0 d) + accC x Wq Wk Wv a b qi r 1 d) + accC x Wq Wk Wv a b qi r 2 d) + accC x Wq Wk Wv a b qi r 3 d
def yK (b : Fin 8) (qi : Fin 4) (r : Fin 512) (d : Fin 1024) : EReal :=
  Idealize.ShloMosaic.Ideal.div (accK x Wq Wk Wv a b qi r d) (lK x Wq Wk a b qi r + e)
def outK (b : Fin 8) (qi : Fin 4) (r : Fin 512) (n : Fin 1024) : EReal :=
  (∑ c : Fin 1024, yK x Wq Wk Wv a e b qi r c * Wo n c) + bo n

end Attn

end
-- ==== Proof.Views.lean ====
/-
  The argument arrays seen at explicit coordinates, and the two constants of the computation as their words:
  a three-axis array as a function of (batch, row, channel), a weight as a function of (output channel, input channel),
  the bias as a function of its channel; the scale a is the word of 0.1 and the offset e the word of 1e-5.
-/
import proofs.«148243_j7679401525936_2_alg».proof.Proof.Spec
import Idealize.ShloMosaic.Lib.ValueIdx

noncomputable section

namespace Attn

open Idealize.ShloMosaic Idealize.ShloMosaic.ValueIdx

/-- A [8, 2048, 1024] array at (batch, row, channel). -/
def arr3 {φ : FTy} (x : FVec Ideal ⟨3, ![8, 2048, 1024]⟩ φ) : Fin 8 → Fin 2048 → Fin 1024 → EReal := fun b t c => x (ix3 b t c)
/-- A [1024, 1024] weight at (output channel, input channel). -/
def arr2 {φ : FTy} (w : FVec Ideal ⟨2, ![1024, 1024]⟩ φ) : Fin 1024 → Fin 1024 → EReal := fun d c => w (ix2 d c)
/-- A [1024] vector at its channel. -/
def arr1 {φ : FTy} (v : FVec Ideal ⟨1, ![1024]⟩ φ) : Fin 1024 → EReal := fun d => v (ix1 d)

/-- The scale: the word of 0.1. -/
def aW : EReal := Ideal.ofBits .f32 0x3DCCCCCD#32
/-- The offset of the denominator: the word of 1e-5. -/
def eW : EReal := Ideal.ofBits .f32 0x3727C5AC#32

end Attn

end
-- ==== Proof.KernelGoal.lean ====
/-
  What the idealized kernel program computes, as a statement: run from any memory, it terminates without a fault, its result
  array holds, at (batch b, row i, channel n), the kernel arrangement `Attn.outK` of the six argument arrays at
  (b, the tile i / 512, the row i % 512 inside the tile, n), and the argument arrays are unchanged.
  No precondition is needed for this: it says what the program computes, corner values of the division included.
-/
import proofs.«148243_j7679401525936_2_alg».proof.Defs
import proofs.«148243_j7679401525936_2_alg».proof.Proof.Views

noncomputable section

namespace Cert.KernelSide

open Idealize.ShloMosaic Idealize.SL.Sem

/-- The key tile a row lies in, and its place inside the tile. -/
def tileOf (i : Fin 2048) : Fin 4 := ⟨i.val / 512, by have := i.isLt; omega⟩
def inTile (i : Fin 2048) : Fin 512 := ⟨i.val % 512, Nat.mod_lt _ (by norm_num)⟩

theorem row_tile (i : Fin 2048) : Attn.row (tileOf i) (inTile i) = i :=
  Fin.ext (by simp only [Attn.row, tileOf, inTile]; omega)

/-- The kernel arrangement as a whole [8, 2048, 1024] array of the six argument arrays. -/
def outVec (x : FVec Ideal ⟨3, ![8, 2048, 1024]⟩ .f32) (Wq Wk Wv Wo : FVec Ideal ⟨2, ![1024, 1024]⟩ .f32)
    (bo : FVec Ideal ⟨1, ![1024]⟩ .f32) : FVec Ideal ⟨3, ![8, 2048, 1024]⟩ .f32 :=
  fun j => Attn.outK (Attn.arr3 x) (Attn.arr2 Wq) (Attn.arr2 Wk) (Attn.arr2 Wv) (Attn.arr2 Wo) (Attn.arr1 bo) Attn.aW Attn.eW
    (j 0) (tileOf (j 1)) (inTile (j 1)) (j 2)

/-- The idealized kernel's run: its result is the kernel arrangement of its arguments, which it leaves unchanged. -/
def KernelRun [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v13)
        = outVec (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

end Cert.KernelSide

end
-- ==== Proof.RefIsSpec.lean ====
/-
  The reference's result, read index by index, is the reference arrangement `Attn.outR` of the argument arrays.
  Stage by stage: the three projections, the score, the causal mask as a number, the masked score, the row sum and the
  row denominator, the weights, the weighted sum of the values, and the output projection with its bias.
-/
import proofs.«148243_j7679401525936_2_alg».proof.Proof.Gen.ReferenceIdeal.Read
import proofs.«148243_j7679401525936_2_alg».proof.Proof.Spec
import proofs.«148243_j7679401525936_2_alg».proof.Proof.Views
import Idealize.ShloMosaic.Lib.ValueIdx
import Idealize.ShloMosaic.Lib.IdealHost
import Idealize.ShloMosaic.Lib.Pipeline.Value
import Idealize.ShloMosaic.PureOps.Ideal.Laws

noncomputable section

namespace Cert.RefIsSpec

open Cert.ReferenceIdeal Cert.ReferenceIdeal.Gen Cert.ReferenceIdeal.Read Idealize.ShloMosaic Idealize.ShloMosaic.ValueIdx

variable (x0 : (⟨S8x2048x1024, .f32⟩ : BufTy).Contents (Elt Ideal))
  (x1 x2 x3 x4 : (⟨S1024x1024, .f32⟩ : BufTy).Contents (Elt Ideal))
  (x5 : (⟨S1024, .f32⟩ : BufTy).Contents (Elt Ideal))

/-! ## The projections q, k, v

Each is a contraction of x[b, t, :] with a weight's row W[d, :]; q and k are then multiplied by the scale. -/

theorem lidx_q (b : Fin 8) (t : Fin 2048) (d k : Fin 1024) : lidx_main_v0 (ix3 b t d) k = ix3 b t k :=
  funext fun a => Fin.ext (by match a with | ⟨0, _⟩ => rfl | ⟨1, _⟩ => rfl | ⟨2, _⟩ => rfl)
theorem ridx_q (b : Fin 8) (t : Fin 2048) (d k : Fin 1024) : ridx_main_v0 (ix3 b t d) k = ix2 d k :=
  funext fun a => Fin.ext (by match a with | ⟨0, _⟩ => rfl | ⟨1, _⟩ => rfl)
theorem lidx_k (b : Fin 8) (t : Fin 2048) (d k : Fin 1024) : lidx_main_v3 (ix3 b t d) k = ix3 b t k :=
  funext fun a => Fin.ext (by match a with | ⟨0, _⟩ => rfl | ⟨1, _⟩ => rfl | ⟨2, _⟩ => rfl)
theorem ridx_k (b : Fin 8) (t : Fin 2048) (d k : Fin 1024) : ridx_main_v3 (ix3 b t d) k = ix2 d k :=
  funext fun a => Fin.ext (by match a with | ⟨0, _⟩ => rfl | ⟨1, _⟩ => rfl)
theorem lidx_v (b : Fin 8) (t : Fin 2048) (d k : Fin 1024) : lidx_main_v6 (ix3 b t d) k = ix3 b t k :=
  funext fun a => Fin.ext (by match a with | ⟨0, _⟩ => rfl | ⟨1, _⟩ => rfl | ⟨2, _⟩ => rfl)
theorem ridx_v (b : Fin 8) (t : Fin 2048) (d k : Fin 1024) : ridx_main_v6 (ix3 b t d) k = ix2 d k :=
  funext fun a => Fin.ext (by match a with | ⟨0, _⟩ => rfl | ⟨1, _⟩ => rfl)

/-- The query: the projection by Wq, times the scale. -/
theorem q_stage (b : Fin 8) (t : Fin 2048) (d : Fin 1024) :
    val_main_v2 (F := Ideal) x0 x1 (ix3 b t d)
      = Attn.qR (Attn.arr3 (φ := .f32) x0) (Attn.arr2 (φ := .f32) x1) Attn.aW b t d := by
  rw [val_main_v2_apply, val_main_v0_apply, val_main_v1_apply, val_main_cst_apply]
  simp only [lidx_q, ridx_q, Ideal.mulf_def, Ideal.ofBits_def]
  rfl

/-- The key: the projection by Wk, times the scale. -/
theorem k_stage (b : Fin 8) (t : Fin 2048) (d : Fin 1024) :
    val_main_v5 (F := Ideal) x0 x2 (ix3 b t d)
      = Attn.kR (Attn.arr3 (φ := .f32) x0) (Attn.arr2 (φ := .f32) x2) Attn.aW b t d := by
  rw [val_main_v5_apply, val_main_v3_apply, val_main_v4_apply, val_main_cst_0_apply]
  simp only [lidx_k, ridx_k, Ideal.mulf_def, Ideal.ofBits_def]
  rfl

/-- The value: the projection by Wv. -/
theorem v_stage (b : Fin 8) (t : Fin 2048) (d : Fin 1024) :
    val_main_v6 (F := Ideal) x0 x3 (ix3 b t d)
      = Attn.vR (Attn.arr3 (φ := .f32) x0) (Attn.arr2 (φ := .f32) x3) b t d := by
  rw [val_main_v6_apply]
  simp only [lidx_v, ridx_v]
  rfl

/-! ## The score -/

theorem lidx_s (b : Fin 8) (i j : Fin 2048) (k : Fin 1024) : lidx_main_v7 (ix3 b i j) k = ix3 b i k :=
  funext fun a => Fin.ext (by match a with | ⟨0, _⟩ => rfl | ⟨1, _⟩ => rfl | ⟨2, _⟩ => rfl)
theorem ridx_s (b : Fin 8) (i j : Fin 2048) (k : Fin 1024) : ridx_main_v7 (ix3 b i j) k = ix3 b j k :=
  funext fun a => Fin.ext (by match a with | ⟨0, _⟩ => rfl | ⟨1, _⟩ => rfl | ⟨2, _⟩ => rfl)

/-- The score of query row i against key row j: the inner product of q[b, i, :] and k[b, j, :]. -/
theorem s_stage (b : Fin 8) (i j : Fin 2048) :
    val_main_v7 (F := Ideal) x0 x1 x2 (ix3 b i j)
      = Attn.sR (Attn.arr3 (φ := .f32) x0) (Attn.arr2 (φ := .f32) x1) (Attn.arr2 (φ := .f32) x2) Attn.aW b i j := by
  rw [val_main_v7_apply]
  simp only [lidx_s, ridx_s, q_stage, k_stage]
  rfl

/-! ## The causal mask as a number

The comparison row ≥ column of two iotas, as a one-bit word, converted to a float: 1 on and below the diagonal, 0 above. -/

/-- A row number below 2048, as a 32-bit word read signed, is itself. -/
theorem toInt_ofNat32 (n : Nat) (h : n < 2048) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The one-bit word of "row i ≥ column j", read unsigned as a float, is the mask's number. -/
theorem mask_word (i j : Fin 2048) :
    FloatOps.uitofp (F := Ideal) .f32 (IntOp.cmpi .sge (BitVec.ofNat 32 i.val) (BitVec.ofNat 32 j.val)) = Attn.mu i j := by
  unfold Attn.mu
  by_cases h : j.val ≤ i.val
  · have hc : IntOp.cmpi .sge (BitVec.ofNat 32 i.val) (BitVec.ofNat 32 j.val) = 1#1 :=
      IntOp.cmpi_sge.mpr (by rw [toInt_ofNat32 _ i.isLt, toInt_ofNat32 _ j.isLt]; exact_mod_cast h)
    rw [hc, if_pos h]
    show (((1#1 : BitVec 1).toNat : ℝ) : EReal) = 1
    norm_num
  · have hc : IntOp.cmpi .sge (BitVec.ofNat 32 i.val) (BitVec.ofNat 32 j.val) = 0#1 := by
      have hne : IntOp.cmpi .sge (BitVec.ofNat 32 i.val) (BitVec.ofNat 32 j.val) ≠ 1#1 := fun e => h (by
        have := IntOp.cmpi_sge.mp e
        rw [toInt_ofNat32 _ i.isLt, toInt_ofNat32 _ j.isLt] at this; exact_mod_cast this)
      generalize IntOp.cmpi .sge (BitVec.ofNat 32 i.val) (BitVec.ofNat 32 j.val) = c at hne
      revert c; decide
    rw [hc, if_neg h]
    show (((0#1 : BitVec 1).toNat : ℝ) : EReal) = 0
    norm_num

/-- The mask at (row i, column j). -/
theorem mask_stage (i j : Fin 2048) : val_main_v14 (F := Ideal) (ix2 i j) = Attn.mu i j := by
  rw [val_main_v14_apply, val_main_v13_apply, val_main_v11_apply, val_main_v9_apply, val_main_v8_apply,
    val_main_v12_apply, val_main_v10_apply, val_main_v8_apply]
  exact mask_word i j

/-! ## The masked score -/

theorem idx_mask (b : Fin 8) (i j : Fin 2048) : idx_main_v15 (idx_main_v16 (ix3 b i j)) = ix2 i j :=
  funext fun a => Fin.ext (by match a with | ⟨0, _⟩ => rfl | ⟨1, _⟩ => rfl)
theorem idx_comask (b : Fin 8) (i j : Fin 2048) : idx_main_v20 (idx_main_v21 (ix3 b i j)) = ix2 i j :=
  funext fun a => Fin.ext (by match a with | ⟨0, _⟩ => rfl | ⟨1, _⟩ => rfl)

/-- The masked score: score · mask − (1 − mask). -/
theorem m_stage (b : Fin 8) (i j : Fin 2048) :
    val_main_v22 (F := Ideal) x0 x1 x2 (ix3 b i j)
      = Attn.mR (Attn.arr3 (φ := .f32) x0) (Attn.arr2 (φ := .f32) x1) (Attn.arr2 (φ := .f32) x2) Attn.aW b i j := by
  rw [val_main_v22_apply, val_main_v17_apply, val_main_v16_apply, val_main_v15_apply, val_main_v21_apply,
    val_main_v20_apply, val_main_v19_apply, val_main_v18_apply, val_main_cst_1_apply]
  simp only [idx_mask, idx_comask, s_stage, mask_stage, Ideal.mulf_def, Ideal.subf_def, Ideal.ofBits_def,
    Ideal.ofBits_one_f32]
  rfl

/-! ## The row sum and the row denominator -/

theorem idx_sum (b : Fin 8) (i k : Fin 2048) : idx_main_v23 (ix2 b i) k = ix3 b i k :=
  funext fun a => Fin.ext (by match a with | ⟨0, _⟩ => rfl | ⟨1, _⟩ => rfl | ⟨2, _⟩ => rfl)

/-- The row sum: zero plus the sum of the row's masked scores. -/
theorem sum_stage (b : Fin 8) (i : Fin 2048) :
    val_main_v23 (F := Ideal) x0 x1 x2 (ix2 b i)
      = 0 + ∑ j : Fin 2048,
          Attn.mR (Attn.arr3 (φ := .f32) x0) (Attn.arr2 (φ := .f32) x1) (Attn.arr2 (φ := .f32) x2) Attn.aW b i j := by
  rw [val_main_v23_apply, val_main_cst_2_apply]
  simp only [idx_sum, m_stage, Ideal.ofBits_def, Ideal.ofBits_zero_f32]

theorem idx_den (b : Fin 8) (i : Fin 2048) (z : Fin 1) : idx_main_v24 (ix3 b i z) = ix2 b i :=
  funext fun a => Fin.ext (by match a with | ⟨0, _⟩ => rfl | ⟨1, _⟩ => rfl)

/-- The row denominator (kept as a column of width one): the row sum plus the offset. -/
theorem den_stage (b : Fin 8) (i : Fin 2048) (z : Fin 1) :
    val_main_v26 (F := Ideal) x0 x1 x2 (ix3 b i z)
      = Attn.DR (Attn.arr3 (φ := .f32) x0) (Attn.arr2 (φ := .f32) x1) (Attn.arr2 (φ := .f32) x2) Attn.aW Attn.eW b i := by
  rw [val_main_v26_apply, val_main_v24_apply, val_main_v25_apply, val_main_cst_3_apply]
  simp only [idx_den, sum_stage, Ideal.addf_def, Ideal.ofBits_def]
  rfl

theorem idx_denb (b : Fin 8) (i j : Fin 2048) : idx_main_v27 (ix3 b i j) = ix3 b i (⟨0, Nat.one_pos⟩ : Fin 1) :=
  funext fun a => Fin.ext (by match a with | ⟨0, _⟩ => rfl | ⟨1, _⟩ => rfl | ⟨2, _⟩ => rfl)

/-- The row denominator spread along the row. -/
theorem denb_stage (b : Fin 8) (i j : Fin 2048) :
    val_main_v27 (F := Ideal) x0 x1 x2 (ix3 b i j)
      = Attn.DR (Attn.arr3 (φ := .f32) x0) (Attn.arr2 (φ := .f32) x1) (Attn.arr2 (φ := .f32) x2) Attn.aW Attn.eW b i := by
  rw [val_main_v27_apply, idx_denb, den_stage]

/-! ## The weights, the weighted sum of the values, the output -/

/-- The weight of key row j for query row i: the masked score over the row's denominator. -/
theorem p_stage (b : Fin 8) (i j : Fin 2048) :
    val_main_v28 (F := Ideal) x0 x1 x2 (ix3 b i j)
      = Attn.pR (Attn.arr3 (φ := .f32) x0) (Attn.arr2 (φ := .f32) x1) (Attn.arr2 (φ := .f32) x2) Attn.aW Attn.eW b i j := by
  rw [val_main_v28_apply, m_stage, denb_stage]
  simp only [Ideal.hostDivf_def]
  rfl

theorem lidx_y (b : Fin 8) (i : Fin 2048) (d : Fin 1024) (k : Fin 2048) : lidx_main_v29 (ix3 b i d) k = ix3 b i k :=
  funext fun a => Fin.ext (by match a with | ⟨0, _⟩ => rfl | ⟨1, _⟩ => rfl | ⟨2, _⟩ => rfl)
theorem ridx_y (b : Fin 8) (i : Fin 2048) (d : Fin 1024) (k : Fin 2048) : ridx_main_v29 (ix3 b i d) k = ix3 b k d :=
  funext fun a => Fin.ext (by match a with | ⟨0, _⟩ => rfl | ⟨1, _⟩ => rfl | ⟨2, _⟩ => rfl)

/-- The attention output before the last projection: the weights applied to the values. -/
theorem y_stage (b : Fin 8) (i : Fin 2048) (d : Fin 1024) :
    val_main_v29 (F := Ideal) x0 x1 x2 x3 (ix3 b i d)
      = Attn.yR (Attn.arr3 (φ := .f32) x0) (Attn.arr2 (φ := .f32) x1) (Attn.arr2 (φ := .f32) x2)
          (Attn.arr2 (φ := .f32) x3) Attn.aW Attn.eW b i d := by
  rw [val_main_v29_apply]
  simp only [lidx_y, ridx_y, p_stage, v_stage]
  rfl

theorem lidx_o (b : Fin 8) (i : Fin 2048) (n k : Fin 1024) : lidx_main_v30 (ix3 b i n) k = ix3 b i k :=
  funext fun a => Fin.ext (by match a with | ⟨0, _⟩ => rfl | ⟨1, _⟩ => rfl | ⟨2, _⟩ => rfl)
theorem ridx_o (b : Fin 8) (i : Fin 2048) (n k : Fin 1024) : ridx_main_v30 (ix3 b i n) k = ix2 n k :=
  funext fun a => Fin.ext (by match a with | ⟨0, _⟩ => rfl | ⟨1, _⟩ => rfl)
theorem idx_bias (b : Fin 8) (i : Fin 2048) (n : Fin 1024) : idx_main_v31 (idx_main_v32 (ix3 b i n)) = ix1 n :=
  funext fun a => Fin.ext (by match a with | ⟨0, _⟩ => rfl)

/-- The reference's result at (batch b, row i, channel n) is the reference arrangement's output there. -/
theorem ref_eq_outR (b : Fin 8) (i : Fin 2048) (n : Fin 1024) :
    val_main_v33 (F := Ideal) x0 x1 x2 x3 x4 x5 (ix3 b i n)
      = Attn.outR (Attn.arr3 (φ := .f32) x0) (Attn.arr2 (φ := .f32) x1) (Attn.arr2 (φ := .f32) x2)
          (Attn.arr2 (φ := .f32) x3) (Attn.arr2 (φ := .f32) x4) (Attn.arr1 (φ := .f32) x5) Attn.aW Attn.eW b i n := by
  rw [val_main_v33_apply, val_main_v30_apply, val_main_v32_apply, val_main_v31_apply]
  simp only [lidx_o, ridx_o, idx_bias, y_stage, Ideal.addf_def]
  rfl

/-! ## The result as an array, and the reference's run -/

/-- The reference arrangement's output as an array over the result buffer's indices (batch, row, channel). -/
def outArr : (⟨S8x2048x1024, .f32⟩ : BufTy).Contents (Elt Ideal) := fun j =>
  Attn.outR (Attn.arr3 (φ := .f32) x0) (Attn.arr2 (φ := .f32) x1) (Attn.arr2 (φ := .f32) x2)
    (Attn.arr2 (φ := .f32) x3) (Attn.arr2 (φ := .f32) x4) (Attn.arr1 (φ := .f32) x5) Attn.aW Attn.eW (j 0) (j 1) (j 2)

/-- The array at explicit coordinates. -/
theorem outArr_ix3 (b : Fin 8) (i : Fin 2048) (n : Fin 1024) :
    outArr x0 x1 x2 x3 x4 x5 (ix3 b i n)
      = Attn.outR (Attn.arr3 (φ := .f32) x0) (Attn.arr2 (φ := .f32) x1) (Attn.arr2 (φ := .f32) x2)
          (Attn.arr2 (φ := .f32) x3) (Attn.arr2 (φ := .f32) x4) (Attn.arr1 (φ := .f32) x5) Attn.aW Attn.eW b i n := rfl

/-- The reference's result array is the reference arrangement's output array. -/
theorem val_eq_outArr : val_main_v33 (F := Ideal) x0 x1 x2 x3 x4 x5 = outArr x0 x1 x2 x3 x4 x5 := by
  funext j
  obtain ⟨b, i, n, rfl⟩ : ∃ (b : Fin 8) (i : Fin 2048) (n : Fin 1024), j = ix3 b i n := ⟨j 0, j 1, j 2, eq_ix3 j⟩
  rw [ref_eq_outR, outArr_ix3]

open Idealize.ShloMosaic.TcCoe Idealize.SL.Sem Idealize.ShloMosaic.StableHlo in
/-- Every weakly fair execution of the reference terminates with its result buffer holding the reference arrangement's
    output array of the argument arrays as launched, and the arguments unchanged. -/
theorem run_outR (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33)
        = outArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨by rw [(h c).1, val_main_v33_eq, val_eq_outArr], (h c).2⟩)
    (Cert.ReferenceIdeal.Value.run (F := Ideal) m ρ)

end Cert.RefIsSpec

end
-- ==== Proof.SpecLawTiles.lean ====
/-
  The tile split of a row sum: a sum over 2048 keys is the sum over the 4 tiles of the sums over the 512 keys of each tile,
  and how the position of a key relative to the diagonal reads off (tile, offset) coordinates.
-/
import proofs.«148243_j7679401525936_2_alg».proof.Proof.Spec

namespace Attn

/-- (tile, offset) ↦ row is a bijection of Fin 4 × Fin 512 with Fin 2048 (quotient and remainder by 512). -/
def rowEquiv : Fin 4 × Fin 512 ≃ Fin 2048 where
  toFun p := row p.1 p.2
  invFun j := (⟨j.val / 512, by have := j.isLt; omega⟩, ⟨j.val % 512, by omega⟩)
  left_inv p := by
    obtain ⟨⟨k, hk⟩, ⟨t, ht⟩⟩ := p
    simp only [row, Prod.mk.injEq, Fin.mk.injEq]
    constructor <;> omega
  right_inv j := by
    obtain ⟨j, hj⟩ := j
    simp only [row, Fin.mk.injEq]
    omega

/-- A sum over the 2048 keys, tile by tile. -/
theorem sum_tiles {M : Type*} [AddCommMonoid M] (f : Fin 2048 → M) :
    ∑ j : Fin 2048, f j = ∑ ki : Fin 4, ∑ jj : Fin 512, f (row ki jj) := by
  rw [← rowEquiv.sum_comp f, Fintype.sum_prod_type]
  rfl

/-- Key (ki, jj) is on or below the diagonal at query (qi, r) exactly when its tile is strictly below, or it is the
    diagonal tile and the offset is on or below. -/
theorem row_le_row (qi ki : Fin 4) (r jj : Fin 512) :
    (row ki jj).val ≤ (row qi r).val ↔ ki.val < qi.val ∨ (ki.val = qi.val ∧ jj.val ≤ r.val) := by
  have h1 := r.isLt
  have h2 := jj.isLt
  show ki.val * 512 + jj.val ≤ qi.val * 512 + r.val ↔ _
  omega

end Attn
-- ==== Proof.SpecLawReal.lean ====
/-
  Every quantity of both arrangements is a real number when the inputs are: real-valued twins of the functions of the
  specification, and the statements that the functions of the specification, at inputs that are (coercions of) reals,
  are the coercions of the twins.
-/
import proofs.«148243_j7679401525936_2_alg».proof.Proof.Spec

open Idealize.ShloMosaic

/-- The coercion of a finite sum of reals is the sum of the coercions. -/
theorem EReal.coe_finsum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

namespace Attn

/-- Real arrays read as arrays of extended reals. -/
def up3 (x : Fin 8 → Fin 2048 → Fin 1024 → ℝ) : Fin 8 → Fin 2048 → Fin 1024 → EReal := fun b t c => (x b t c : EReal)
def up2 (W : Fin 1024 → Fin 1024 → ℝ) : Fin 1024 → Fin 1024 → EReal := fun d c => (W d c : EReal)
def up1 (v : Fin 1024 → ℝ) : Fin 1024 → EReal := fun d => (v d : EReal)

namespace Re

variable (x : Fin 8 → Fin 2048 → Fin 1024 → ℝ) (Wq Wk Wv Wo : Fin 1024 → Fin 1024 → ℝ) (bo : Fin 1024 → ℝ) (a e : ℝ)

/-- The scaled projection (queries with Wq, keys with Wk). -/
def q (b : Fin 8) (t : Fin 2048) (d : Fin 1024) : ℝ := (∑ c : Fin 1024, x b t c * Wq d c) * a
def v (b : Fin 8) (t : Fin 2048) (d : Fin 1024) : ℝ := ∑ c : Fin 1024, x b t c * Wv d c
def s (b : Fin 8) (i j : Fin 2048) : ℝ := ∑ d : Fin 1024, q x Wq a b i d * q x Wk a b j d
/-- The masked score: the score on and below the diagonal, −1 above it. -/
def m (b : Fin 8) (i j : Fin 2048) : ℝ := if j.val ≤ i.val then s x Wq Wk a b i j else -1
/-- The row denominator. -/
def D (b : Fin 8) (i : Fin 2048) : ℝ := (∑ j : Fin 2048, m x Wq Wk a b i j) + e
/-- The unnormalised row of the output of the attention. -/
def acc (b : Fin 8) (i : Fin 2048) (d : Fin 1024) : ℝ := ∑ j : Fin 2048, m x Wq Wk a b i j * v x Wv b j d

end Re

variable (x : Fin 8 → Fin 2048 → Fin 1024 → ℝ) (Wq Wk Wv Wo : Fin 1024 → Fin 1024 → ℝ) (bo : Fin 1024 → ℝ) (a e : ℝ)

/-! ## The projections and the scores -/

theorem qR_up (b : Fin 8) (t : Fin 2048) (d : Fin 1024) :
    qR (up3 x) (up2 Wq) (a : EReal) b t d = (Re.q x Wq a b t d : EReal) := by
  simp only [qR, Re.q, up3, up2, EReal.coe_mul, EReal.coe_finsum]

theorem kR_up (b : Fin 8) (t : Fin 2048) (d : Fin 1024) :
    kR (up3 x) (up2 Wk) (a : EReal) b t d = (Re.q x Wk a b t d : EReal) := by
  simp only [kR, Re.q, up3, up2, EReal.coe_mul, EReal.coe_finsum]

theorem vR_up (b : Fin 8) (t : Fin 2048) (d : Fin 1024) :
    vR (up3 x) (up2 Wv) b t d = (Re.v x Wv b t d : EReal) := by
  simp only [vR, Re.v, up3, up2, EReal.coe_mul, EReal.coe_finsum]

theorem vK_up (b : Fin 8) (t : Fin 2048) (d : Fin 1024) :
    vK (up3 x) (up2 Wv) b t d = (Re.v x Wv b t d : EReal) := by
  simp only [vK, Re.v, up3, up2, EReal.coe_mul, EReal.coe_finsum]

/-- Folding the scale into the weight: Σ_c x·(W·a) = (Σ_c x·W)·a over the reals. -/
theorem qK_up (b : Fin 8) (t : Fin 2048) (d : Fin 1024) :
    qK (up3 x) (up2 Wq) (a : EReal) b t d = (Re.q x Wq a b t d : EReal) := by
  simp only [qK, Re.q, up3, up2, ← EReal.coe_mul, ← EReal.coe_finsum]
  congr 1
  rw [Finset.sum_mul]
  exact Finset.sum_congr rfl fun c _ => (mul_assoc _ _ _).symm

theorem kK_up (b : Fin 8) (t : Fin 2048) (d : Fin 1024) :
    kK (up3 x) (up2 Wk) (a : EReal) b t d = (Re.q x Wk a b t d : EReal) :=
  qK_up x Wk a b t d

theorem sR_up (b : Fin 8) (i j : Fin 2048) :
    sR (up3 x) (up2 Wq) (up2 Wk) (a : EReal) b i j = (Re.s x Wq Wk a b i j : EReal) := by
  simp only [sR, Re.s, qR_up, kR_up, EReal.coe_mul, EReal.coe_finsum]

theorem sK_up (b : Fin 8) (i j : Fin 2048) :
    sK (up3 x) (up2 Wq) (up2 Wk) (a : EReal) b i j = (Re.s x Wq Wk a b i j : EReal) := by
  simp only [sK, Re.s, qK_up, kK_up, EReal.coe_mul, EReal.coe_finsum]

/-! ## The reference's masked score, denominator, weights and output row -/

/-- With μ ∈ {0, 1}: s·μ − (1 − μ) is s where μ = 1 and −1 where μ = 0. -/
theorem mR_up (b : Fin 8) (i j : Fin 2048) :
    mR (up3 x) (up2 Wq) (up2 Wk) (a : EReal) b i j = (Re.m x Wq Wk a b i j : EReal) := by
  simp only [mR, Re.m, mu, sR_up]
  split_ifs with h
  · rw [← EReal.coe_one, ← EReal.coe_sub, ← EReal.coe_mul, ← EReal.coe_sub]
    congr 1
    ring
  · rw [← EReal.coe_one, ← EReal.coe_zero, ← EReal.coe_sub, ← EReal.coe_mul, ← EReal.coe_sub]
    congr 1
    ring

theorem DR_up (b : Fin 8) (i : Fin 2048) :
    DR (up3 x) (up2 Wq) (up2 Wk) (a : EReal) (e : EReal) b i = (Re.D x Wq Wk a e b i : EReal) := by
  simp only [DR, Re.D, mR_up, ← EReal.coe_finsum, zero_add, ← EReal.coe_add]

/-- The reference's output row of the attention, when the row denominator is not zero: Σ_j (m_j / D)·v_j. -/
theorem yR_up (b : Fin 8) (i : Fin 2048) (d : Fin 1024) (hD : Re.D x Wq Wk a e b i ≠ 0) :
    yR (up3 x) (up2 Wq) (up2 Wk) (up2 Wv) (a : EReal) (e : EReal) b i d
      = (Re.acc x Wq Wk Wv a b i d * (1 / Re.D x Wq Wk a e b i) : ℝ) := by
  simp only [yR, pR, DR_up, mR_up, vR_up, Ideal.div_coe hD, ← EReal.coe_mul, ← EReal.coe_finsum]
  congr 1
  rw [Re.acc, Finset.sum_mul]
  exact Finset.sum_congr rfl fun j _ => mul_right_comm _ _ _

end Attn
-- ==== Proof.SpecLaw.lean ====
/-
  The kernel's arrangement equals the reference's arrangement: for finite inputs whose row denominators are not zero,
  outK = outR at every row.

  Both sides are brought to the same real number.  The running row sum of the kernel is the sum over the four key tiles of
  the masked scores of each tile, which is the row sum of the masked scores; likewise the accumulator.  The two sides then
  differ only in where the division by the row denominator D sits: (Σ_j m_j·v_j)/D against Σ_j (m_j/D)·v_j.
-/
import proofs.«148243_j7679401525936_2_alg».proof.Proof.SpecLawTiles
import proofs.«148243_j7679401525936_2_alg».proof.Proof.SpecLawReal

open Idealize.ShloMosaic

namespace Attn

section RealInputs

variable (x : Fin 8 → Fin 2048 → Fin 1024 → ℝ) (Wq Wk Wv : Fin 1024 → Fin 1024 → ℝ) (a e : ℝ)

/-! ## What one key tile adds -/

/-- The masked score is −1 at every key of a tile strictly above the diagonal. -/
theorem Re.m_above (b : Fin 8) (qi ki : Fin 4) (r jj : Fin 512) (h1 : ¬ ki.val < qi.val) (h2 : ¬ ki.val = qi.val) :
    Re.m x Wq Wk a b (row qi r) (row ki jj) = -1 := by
  rw [Re.m, if_neg]
  rw [row_le_row]
  omega

/-- The masked score is the score at every key of a tile strictly below the diagonal. -/
theorem Re.m_below (b : Fin 8) (qi ki : Fin 4) (r jj : Fin 512) (h1 : ki.val < qi.val) :
    Re.m x Wq Wk a b (row qi r) (row ki jj) = Re.s x Wq Wk a b (row qi r) (row ki jj) := by
  rw [Re.m, if_pos ((row_le_row qi ki r jj).2 (Or.inl h1))]

/-- The score the diagonal tile uses is the masked score. -/
theorem dK_up (b : Fin 8) (qi : Fin 4) (r jj : Fin 512) :
    dK (up3 x) (up2 Wq) (up2 Wk) (a : EReal) b qi r jj = (Re.m x Wq Wk a b (row qi r) (row qi jj) : EReal) := by
  have h : (row qi jj).val ≤ (row qi r).val ↔ jj.val ≤ r.val := by
    rw [row_le_row]
    omega
  simp only [dK, Re.m, sK_up]
  by_cases hj : jj.val ≤ r.val
  · rw [if_pos hj, if_pos (h.2 hj)]
  · rw [if_neg hj, if_neg (mt h.1 hj), EReal.coe_neg, EReal.coe_one]

/-- What key tile ki adds to the row sum: the sum of the masked scores of its 512 keys. -/
theorem lC_up (b : Fin 8) (qi : Fin 4) (r : Fin 512) (ki : Fin 4) :
    lC (up3 x) (up2 Wq) (up2 Wk) (a : EReal) b qi r ki
      = ((∑ jj : Fin 512, Re.m x Wq Wk a b (row qi r) (row ki jj) : ℝ) : EReal) := by
  unfold lC
  split_ifs with h1 h2
  · simp only [sK_up, ← EReal.coe_finsum, Re.m_below x Wq Wk a b qi ki r _ h1]
  · obtain rfl : ki = qi := Fin.ext h2
    simp only [dK_up, ← EReal.coe_finsum]
  · have hs : (∑ jj : Fin 512, Re.m x Wq Wk a b (row qi r) (row ki jj)) = -512 := by
      simp only [Re.m_above x Wq Wk a b qi ki r _ h1 h2, Finset.sum_const, Finset.card_univ, Fintype.card_fin,
        nsmul_eq_mul]
      norm_num
    rw [hs]
    rfl

/-- What key tile ki adds to channel d of the accumulator: the sum of masked score times value over its 512 keys. -/
theorem accC_up (b : Fin 8) (qi : Fin 4) (r : Fin 512) (ki : Fin 4) (d : Fin 1024) :
    accC (up3 x) (up2 Wq) (up2 Wk) (up2 Wv) (a : EReal) b qi r ki d
      = ((∑ jj : Fin 512, Re.m x Wq Wk a b (row qi r) (row ki jj) * Re.v x Wv b (row ki jj) d : ℝ) : EReal) := by
  unfold accC
  split_ifs with h1 h2
  · simp only [sK_up, vK_up, ← EReal.coe_mul, ← EReal.coe_finsum, Re.m_below x Wq Wk a b qi ki r _ h1]
  · obtain rfl : ki = qi := Fin.ext h2
    simp only [dK_up, vK_up, ← EReal.coe_mul, ← EReal.coe_finsum]
  · simp only [vK_up, ← EReal.coe_finsum, ← EReal.coe_neg, Re.m_above x Wq Wk a b qi ki r _ h1 h2, neg_one_mul,
      Finset.sum_neg_distrib]

/-! ## The four tiles together -/

/-- The kernel's running row sum is the row sum of the masked scores. -/
theorem lK_up (b : Fin 8) (qi : Fin 4) (r : Fin 512) :
    lK (up3 x) (up2 Wq) (up2 Wk) (a : EReal) b qi r
      = ((∑ j : Fin 2048, Re.m x Wq Wk a b (row qi r) j : ℝ) : EReal) := by
  simp only [lK, lC_up, zero_add, ← EReal.coe_add]
  rw [sum_tiles, Fin.sum_univ_four]

/-- The kernel's accumulator is the row sum of masked score times value. -/
theorem accK_up (b : Fin 8) (qi : Fin 4) (r : Fin 512) (d : Fin 1024) :
    accK (up3 x) (up2 Wq) (up2 Wk) (up2 Wv) (a : EReal) b qi r d
      = (Re.acc x Wq Wk Wv a b (row qi r) d : EReal) := by
  simp only [accK, accC_up, zero_add, ← EReal.coe_add]
  rw [Re.acc, sum_tiles, Fin.sum_univ_four]

/-- The kernel's output row of the attention, when the row denominator is not zero: (Σ_j m_j·v_j) / D. -/
theorem yK_up (b : Fin 8) (qi : Fin 4) (r : Fin 512) (d : Fin 1024) (hD : Re.D x Wq Wk a e b (row qi r) ≠ 0) :
    yK (up3 x) (up2 Wq) (up2 Wk) (up2 Wv) (a : EReal) (e : EReal) b qi r d
      = (Re.acc x Wq Wk Wv a b (row qi r) d * (1 / Re.D x Wq Wk a e b (row qi r)) : ℝ) := by
  have hl : lK (up3 x) (up2 Wq) (up2 Wk) (a : EReal) b qi r + (e : EReal) = (Re.D x Wq Wk a e b (row qi r) : EReal) := by
    rw [lK_up, ← EReal.coe_add, Re.D]
  rw [yK, hl, accK_up, Ideal.div_coe hD, ← EReal.coe_mul]

/-- The two arrangements agree at real inputs with nonzero row denominators (the output projection's weight and bias
    may be anything: both sides apply the same projection to the same row). -/
theorem outK_eq_outR_up (Wo : Fin 1024 → Fin 1024 → EReal) (bo : Fin 1024 → EReal)
    (hD : ∀ b i, Re.D x Wq Wk a e b i ≠ 0) (b : Fin 8) (qi : Fin 4) (r : Fin 512) (n : Fin 1024) :
    outK (up3 x) (up2 Wq) (up2 Wk) (up2 Wv) Wo bo (a : EReal) (e : EReal) b qi r n
      = outR (up3 x) (up2 Wq) (up2 Wk) (up2 Wv) Wo bo (a : EReal) (e : EReal) b (row qi r) n := by
  simp only [outK, outR, yK_up x Wq Wk Wv a e b qi r _ (hD b (row qi r)), yR_up x Wq Wk Wv a e b (row qi r) _ (hD b (row qi r))]

end RealInputs

/-! ## The statement over the extended reals -/

variable (x : Fin 8 → Fin 2048 → Fin 1024 → EReal) (Wq Wk Wv Wo : Fin 1024 → Fin 1024 → EReal) (bo : Fin 1024 → EReal)
  (a e : EReal)

theorem outK_eq_outR
    (hx : ∀ b t c, ∃ r : ℝ, x b t c = (r : EReal)) (hWq : ∀ d c, ∃ r : ℝ, Wq d c = (r : EReal))
    (hWk : ∀ d c, ∃ r : ℝ, Wk d c = (r : EReal)) (hWv : ∀ d c, ∃ r : ℝ, Wv d c = (r : EReal))
    (hWo : ∀ d c, ∃ r : ℝ, Wo d c = (r : EReal)) (hbo : ∀ d, ∃ r : ℝ, bo d = (r : EReal))
    (ha : ∃ r : ℝ, a = (r : EReal)) (he : ∃ r : ℝ, e = (r : EReal))
    (hD : ∀ b i, DR x Wq Wk a e b i ≠ 0) :
    ∀ b qi r n, outK x Wq Wk Wv Wo bo a e b qi r n = outR x Wq Wk Wv Wo bo a e b (row qi r) n := by
  choose xr hxr using hx
  choose Wqr hWqr using hWq
  choose Wkr hWkr using hWk
  choose Wvr hWvr using hWv
  obtain ⟨ar, rfl⟩ := ha
  obtain ⟨er, rfl⟩ := he
  obtain rfl : x = up3 xr := by
    funext b t c
    exact hxr b t c
  obtain rfl : Wq = up2 Wqr := by
    funext d c
    exact hWqr d c
  obtain rfl : Wk = up2 Wkr := by
    funext d c
    exact hWkr d c
  obtain rfl : Wv = up2 Wvr := by
    funext d c
    exact hWvr d c
  have hD' : ∀ b i, Re.D xr Wqr Wkr ar er b i ≠ 0 := fun b i h =>
    hD b i (by rw [DR_up, h, EReal.coe_zero])
  exact outK_eq_outR_up xr Wqr Wkr Wvr ar er Wo bo hD'

end Attn
-- ==== Proof.Consts.lean ====
/-
  The printed words as numbers: the scale a (the word of 0.1) and the offset e (the word of 1e-5) are real numbers
  (the dyadic rationals 13421773·2⁻²⁷ and 10995116·2⁻⁴⁰), and the words of 1, −1 and −512 are those numbers.
-/
import proofs.«148243_j7679401525936_2_alg».proof.Proof.Views
import Idealize.ShloMosaic.PureOps.Ideal.Laws

open Idealize.ShloMosaic

namespace Attn

/-- 0x3F800000: sign +, exponent 127, fraction 0: the number 2²³·2⁻²³ = 1. -/
theorem one_word : Ideal.ofBits .f32 0x3F800000#32 = 1 := by
  simp [Ideal.ofBits, Ideal.ieee, -EReal.coe_mul]
  norm_num

/-- 0xBF800000: sign −, exponent 127, fraction 0: the number −1. -/
theorem negOne_word : Ideal.ofBits .f32 0xBF800000#32 = -1 := by
  simp [Ideal.ofBits, Ideal.ieee, -EReal.coe_mul]
  norm_num

/-- 0xC4000000: sign −, exponent 136, fraction 0: the number −2²³·2⁻¹⁴ = −512. -/
theorem neg512_word : Ideal.ofBits .f32 0xC4000000#32 = -512 := by
  have h : Ideal.ofBits .f32 0xC4000000#32 = ((-512 : ℝ) : EReal) := by
    simp [Ideal.ofBits, Ideal.ieee, -EReal.coe_mul]
    norm_num
  exact h

/-- 0x3DCCCCCD: sign +, exponent 123, fraction 5033165: the number (2²³ + 5033165)·2⁻²⁷. -/
theorem aW_eq : aW = ((13421773 * (2 : ℝ) ^ (-27 : ℤ) : ℝ) : EReal) := by
  simp [aW, Ideal.ofBits, Ideal.ieee, -EReal.coe_mul]

/-- 0x3727C5AC: sign +, exponent 110, fraction 2606508: the number (2²³ + 2606508)·2⁻⁴⁰. -/
theorem eW_eq : eW = ((10995116 * (2 : ℝ) ^ (-40 : ℤ) : ℝ) : EReal) := by
  simp [eW, Ideal.ofBits, Ideal.ieee, -EReal.coe_mul]

theorem aW_real : ∃ r : ℝ, aW = (r : EReal) := ⟨_, aW_eq⟩

theorem eW_real : ∃ r : ℝ, eW = (r : EReal) := ⟨_, eW_eq⟩

end Attn
-- ==== Proof.PreDecode.lean ====
/-
  The precondition read back. The printed predicate is a conjunction of seven tests, each a reduction by "and" over a whole
  array of one-bit words: for each of the six argument arrays "every entry x has |x| < +∞", and "every row denominator is not 0".
  That the predicate is 1 gives each test at each index; on the extended reals |x| = max x (−x) < ⊤ says that x is a real,
  and a comparison "≠" with the word of 0.0 says that the value is not 0.

  The row denominator `den` is the term the predicate prints: the two projections (x·W₁ᵀ)·a and (x·W₂ᵀ)·a, their batched
  product over the channel, times the mask, minus (1 − mask), summed over the last axis from 0, plus e.
-/
import proofs.«148243_j7679401525936_2_alg».proof.Pre_finite_inputs
import proofs.«148243_j7679401525936_2_alg».proof.Proof.Views
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx Cert.Pre_finite_inputs Cert.Pre_finite_inputs.Facts

variable [hF : Cert.Pre_finite_inputs.Facts]

/-- The shape of rank zero has one index. -/
instance subsingleton_S_Idx : Subsingleton S_.Idx := ⟨fun a b => funext fun d => d.elim0⟩

/-- An extended real whose absolute value max x (−x) is below the word of +∞ is a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by
    simp [Ideal.ofBits, Ideal.ieee]
  rw [htop] at h
  induction x using EReal.rec with
  | bot => simp [Ideal.cmp] at h
  | coe r => exact ⟨r, rfl⟩
  | top => simp [Ideal.cmp] at h

/-- An extended real that the comparison "≠" tells apart from the word of 0.0 is not 0. -/
theorem ne_zero_of_une (x : EReal) (h : Ideal.cmp .une x (Ideal.ofBits .f32 0x00000000#32) = 1#1) : x ≠ 0 := by
  rw [Ideal.ofBits_zero_f32] at h
  intro hx
  rw [hx] at h
  simp [Ideal.cmp] at h

/-- The causal mask as the predicate prints it: 1 where the row's number is at least the column's, as a float. -/
def maskP : FVec Ideal S2048x2048 .f32 :=
  uitofp .f32
    (cmpi CmpIPredicate.sge
      (broadcastInDim S2048x2048 ![0, 1] bcast_S2048x1_S2048x2048_0_1
        (broadcastInDim S2048x1 ![0] bcast_S2048_S2048x1_0 (iotaInDim S2048 32 0)))
      (broadcastInDim S2048x2048 ![0, 1] bcast_S1x2048_S2048x2048_0_1
        (broadcastInDim S1x2048 ![1] bcast_S2048_S1x2048_1 (iotaInDim S2048 32 0))))

/-- The masked scores as the predicate prints them: score · mask − (1 − mask). -/
def maskedP (x0 : FVec Ideal S8x2048x1024 .f32) (x1 x2 : FVec Ideal S1024x1024 .f32) : FVec Ideal S8x2048x2048 .f32 :=
  subf
    (mulf
      (Host.dotGeneral dot_S8x2048x1024_S8x2048x1024_S8x2048x2048_2_2_1_1_0_0 none
        (mulf (Host.dotGeneral dot_S8x2048x1024_S1024x1024_S8x2048x1024_2_1_01_0_n_n none x0 x1)
          (broadcastInDim S8x2048x1024 ![] bcast_S_S8x2048x1024 (constant S_ .f32 0x3DCCCCCD#32)))
        (mulf (Host.dotGeneral dot_S8x2048x1024_S1024x1024_S8x2048x1024_2_1_01_0_n_n none x0 x2)
          (broadcastInDim S8x2048x1024 ![] bcast_S_S8x2048x1024 (constant S_ .f32 0x3DCCCCCD#32))))
      (broadcastInDim S8x2048x2048 ![0, 1, 2] bcast_S1x2048x2048_S8x2048x2048_0_1_2
        (broadcastInDim S1x2048x2048 ![1, 2] bcast_S2048x2048_S1x2048x2048_1_2 maskP)))
    (broadcastInDim S8x2048x2048 ![0, 1, 2] bcast_S1x2048x2048_S8x2048x2048_0_1_2
      (broadcastInDim S1x2048x2048 ![1, 2] bcast_S2048x2048_S1x2048x2048_1_2
        (subf (broadcastInDim S2048x2048 ![] bcast_S_S2048x2048 (constant S_ .f32 0x3F800000#32)) maskP)))

/-- The row denominators as the predicate prints them: the masked scores summed over the last axis from 0, plus e. -/
def den (x0 : FVec Ideal S8x2048x1024 .f32) (x1 x2 : FVec Ideal S1024x1024 .f32) : FVec Ideal S8x2048x1 .f32 :=
  addf
    (broadcastInDim S8x2048x1 ![0, 1] bcast_S8x2048_S8x2048x1_0_1
      (Host.reduceAdd (maskedP x0 x1 x2) (constant S_ .f32 0x00000000#32) reducesTo_S8x2048x2048_S8x2048_d2 h_S_))
    (broadcastInDim S8x2048x1 ![] bcast_S_S8x2048x1 (constant S_ .f32 0x3727C5AC#32))

section
variable (x0 : FVec Ideal S8x2048x1024 .f32) (x1 x2 x3 x4 : FVec Ideal S1024x1024 .f32) (x5 : FVec Ideal S1024 .f32)
  (h : Cert.Pre_finite_inputs.fn (F := Ideal) x0 x1 x2 x3 x4 x5 = fun _ => 1#1)

include h

/-- The seven tests, each at every index. -/
theorem tests :
    (∀ j, ∃ r : ℝ, x0 j = (r : EReal)) ∧ (∀ j, ∃ r : ℝ, x1 j = (r : EReal)) ∧ (∀ j, ∃ r : ℝ, x2 j = (r : EReal))
    ∧ (∀ j, ∃ r : ℝ, x3 j = (r : EReal)) ∧ (∀ j, ∃ r : ℝ, x4 j = (r : EReal)) ∧ (∀ j, ∃ r : ℝ, x5 j = (r : EReal))
    ∧ (∀ j, den x0 x1 x2 j ≠ 0) := by
  have h0 := congrFun h ValueIdx.ix0
  dsimp only [fn, fn_part1, fn_part2, fn_part3] at h0
  obtain ⟨h0, t6⟩ := IntOp.andi_eq_one.1 h0
  obtain ⟨h0, t5⟩ := IntOp.andi_eq_one.1 h0
  obtain ⟨h0, t4⟩ := IntOp.andi_eq_one.1 h0
  obtain ⟨h0, t3⟩ := IntOp.andi_eq_one.1 h0
  obtain ⟨h0, t2⟩ := IntOp.andi_eq_one.1 h0
  obtain ⟨t0, t1⟩ := IntOp.andi_eq_one.1 h0
  refine ⟨fun j => ?_, fun j => ?_, fun j => ?_, fun j => ?_, fun j => ?_, fun j => ?_, fun j => ?_⟩
  · exact real_of_abs_lt_top (x0 j) (Host.reduce_andi_all _ _ _ _ _ t0 j)
  · exact real_of_abs_lt_top (x1 j) (Host.reduce_andi_all _ _ _ _ _ t1 j)
  · exact real_of_abs_lt_top (x2 j) (Host.reduce_andi_all _ _ _ _ _ t2 j)
  · exact real_of_abs_lt_top (x3 j) (Host.reduce_andi_all _ _ _ _ _ t3 j)
  · exact real_of_abs_lt_top (x4 j) (Host.reduce_andi_all _ _ _ _ _ t4 j)
  · exact real_of_abs_lt_top (x5 j) (Host.reduce_andi_all _ _ _ _ _ t5 j)
  · exact ne_zero_of_une (den x0 x1 x2 j) (Host.reduce_andi_all _ _ _ _ _ t6 j)

theorem finite_x0 : ∀ j, ∃ r : ℝ, x0 j = (r : EReal) := (tests x0 x1 x2 x3 x4 x5 h).1
theorem finite_x1 : ∀ j, ∃ r : ℝ, x1 j = (r : EReal) := (tests x0 x1 x2 x3 x4 x5 h).2.1
theorem finite_x2 : ∀ j, ∃ r : ℝ, x2 j = (r : EReal) := (tests x0 x1 x2 x3 x4 x5 h).2.2.1
theorem finite_x3 : ∀ j, ∃ r : ℝ, x3 j = (r : EReal) := (tests x0 x1 x2 x3 x4 x5 h).2.2.2.1
theorem finite_x4 : ∀ j, ∃ r : ℝ, x4 j = (r : EReal) := (tests x0 x1 x2 x3 x4 x5 h).2.2.2.2.1
theorem finite_x5 : ∀ j, ∃ r : ℝ, x5 j = (r : EReal) := (tests x0 x1 x2 x3 x4 x5 h).2.2.2.2.2.1
/-- Every printed row denominator is not 0. -/
theorem den_ne_zero_printed : ∀ j, den x0 x1 x2 j ≠ 0 := (tests x0 x1 x2 x3 x4 x5 h).2.2.2.2.2.2

/-! The same at explicit coordinates. -/
theorem finite_arr_x0 : ∀ (b : Fin 8) (t : Fin 2048) (c : Fin 1024), ∃ r : ℝ, Attn.arr3 x0 b t c = (r : EReal) :=
  fun b t c => finite_x0 x0 x1 x2 x3 x4 x5 h (ix3 b t c)
theorem finite_arr_x1 : ∀ (d c : Fin 1024), ∃ r : ℝ, Attn.arr2 x1 d c = (r : EReal) :=
  fun d c => finite_x1 x0 x1 x2 x3 x4 x5 h (ix2 d c)
theorem finite_arr_x2 : ∀ (d c : Fin 1024), ∃ r : ℝ, Attn.arr2 x2 d c = (r : EReal) :=
  fun d c => finite_x2 x0 x1 x2 x3 x4 x5 h (ix2 d c)
theorem finite_arr_x3 : ∀ (d c : Fin 1024), ∃ r : ℝ, Attn.arr2 x3 d c = (r : EReal) :=
  fun d c => finite_x3 x0 x1 x2 x3 x4 x5 h (ix2 d c)
theorem finite_arr_x4 : ∀ (d c : Fin 1024), ∃ r : ℝ, Attn.arr2 x4 d c = (r : EReal) :=
  fun d c => finite_x4 x0 x1 x2 x3 x4 x5 h (ix2 d c)
theorem finite_arr_x5 : ∀ (d : Fin 1024), ∃ r : ℝ, Attn.arr1 x5 d = (r : EReal) :=
  fun d => finite_x5 x0 x1 x2 x3 x4 x5 h (ix1 d)

end

end Cert.PreDecode

end
-- ==== Proof.PreDecodeDen.lean ====
/-
  Under the precondition every row denominator D[b,i] = (0 + Σ_j m[b,i,j]) + e of the reference arrangement is not 0.
  The row denominator the precondition prints is, operation for operation, the term of the reference program's row
  denominator; that one, read at (batch b, row i), is D[b,i] of the argument arrays.
-/
import proofs.«148243_j7679401525936_2_alg».proof.Proof.PreDecode
import proofs.«148243_j7679401525936_2_alg».proof.Proof.RefIsSpec

noncomputable section

namespace Cert.PreDecode

open Idealize.ShloMosaic Idealize.ShloMosaic.ValueIdx Cert.ReferenceIdeal Cert.ReferenceIdeal.Read

variable [hF : Cert.Pre_finite_inputs.Facts]
variable (x0 : FVec Ideal S8x2048x1024 .f32) (x1 x2 x3 x4 : FVec Ideal S1024x1024 .f32) (x5 : FVec Ideal S1024 .f32)
  (h : Cert.Pre_finite_inputs.fn (F := Ideal) x0 x1 x2 x3 x4 x5 = fun _ => 1#1)

/-- The printed row denominator is the reference program's, operation for operation. -/
theorem den_eq_val : den x0 x1 x2 = val_main_v26 (F := Ideal) x0 x1 x2 := rfl

include h

/-- Under the precondition every row denominator D[b,i] is not 0. -/
theorem den_ne_zero : ∀ (b : Fin 8) (i : Fin 2048),
    Attn.DR (Attn.arr3 x0) (Attn.arr2 x1) (Attn.arr2 x2) Attn.aW Attn.eW b i ≠ 0 := fun b i hz =>
  den_ne_zero_printed x0 x1 x2 x3 x4 x5 h (ix3 b i (0 : Fin 1))
    ((congrFun (den_eq_val x0 x1 x2) (ix3 b i (0 : Fin 1))).trans
      ((Cert.RefIsSpec.den_stage x0 x1 x2 b i (0 : Fin 1)).trans hz))

end Cert.PreDecode

end
-- ==== Proof.Assembly.lean ====
/-
  The mathematical half of the certificate, assembled. The reference program's run leaves the reference arrangement's
  output array of its arguments; the idealized kernel's run (a hypothesis here) leaves the kernel arrangement's; under the
  precondition — finite entries, row denominators not 0 — the two arrangements are one array, so from memories that agree
  on the arguments the two programs end with equal results.
-/
import proofs.«148243_j7679401525936_2_alg».proof.Defs
import proofs.«148243_j7679401525936_2_alg».proof.Proof.Gen.Kernel
import proofs.«148243_j7679401525936_2_alg».proof.Proof.Gen.KernelIdeal
import proofs.«148243_j7679401525936_2_alg».proof.Proof.Gen.ReferenceIdeal
import proofs.«148243_j7679401525936_2_alg».proof.Proof.Gen.Pre_finite_inputs
import proofs.«148243_j7679401525936_2_alg».proof.Proof.KernelGoal
import proofs.«148243_j7679401525936_2_alg».proof.Proof.RefIsSpec
import proofs.«148243_j7679401525936_2_alg».proof.Proof.SpecLaw
import proofs.«148243_j7679401525936_2_alg».proof.Proof.Consts
import proofs.«148243_j7679401525936_2_alg».proof.Proof.PreDecodeDen

noncomputable section

namespace Cert.Proof.Assembly

open Idealize.ShloMosaic Idealize.ShloMosaic.TcCoe Idealize.SL.Sem Idealize.ShloMosaic.ValueIdx

/-- The reference runs and leaves its arguments unchanged: its run with the result dropped. -/
theorem frame_ri : Cert.frame_ReferenceIdeal := fun m ρ _ =>
  (θ_run Cert.ReferenceIdeal.defs _ _).mono (fun _ h c => (h c).2) (Cert.RefIsSpec.run_outR m ρ)

/-- The idealization rewrote no operation. -/
theorem preserves : Cert.preserves_Kernel_KernelIdeal := trivial

/-- The idealized kernel runs and leaves its arguments unchanged: its run with the result dropped. -/
theorem frame_ki (hK : Cert.KernelSide.KernelRun) : Cert.frame_KernelIdeal := fun m g _ =>
  (θ_run Cert.KernelIdeal.defs _ _).mono (fun _ h c => (h c).2) (hK m g)

/-- Under the precondition the kernel arrangement's array is the reference arrangement's array. -/
theorem outVec_eq_outArr (x0 : FVec Ideal ⟨3, ![8, 2048, 1024]⟩ .f32) (x1 x2 x3 x4 : FVec Ideal ⟨2, ![1024, 1024]⟩ .f32)
    (x5 : FVec Ideal ⟨1, ![1024]⟩ .f32)
    (h : Cert.Pre_finite_inputs.fn (F := Ideal) x0 x1 x2 x3 x4 x5 = fun _ => 1#1) :
    Cert.KernelSide.outVec x0 x1 x2 x3 x4 x5 = Cert.RefIsSpec.outArr x0 x1 x2 x3 x4 x5 := by
  funext j
  obtain ⟨b, i, n, rfl⟩ : ∃ (b : Fin 8) (i : Fin 2048) (n : Fin 1024), j = ix3 b i n := ⟨j 0, j 1, j 2, eq_ix3 j⟩
  rw [Cert.RefIsSpec.outArr_ix3]
  show Attn.outK (Attn.arr3 x0) (Attn.arr2 x1) (Attn.arr2 x2) (Attn.arr2 x3) (Attn.arr2 x4) (Attn.arr1 x5) Attn.aW Attn.eW
      b (Cert.KernelSide.tileOf i) (Cert.KernelSide.inTile i) n = _
  rw [Attn.outK_eq_outR _ _ _ _ _ _ _ _
    (Cert.PreDecode.finite_arr_x0 x0 x1 x2 x3 x4 x5 h) (Cert.PreDecode.finite_arr_x1 x0 x1 x2 x3 x4 x5 h)
    (Cert.PreDecode.finite_arr_x2 x0 x1 x2 x3 x4 x5 h) (Cert.PreDecode.finite_arr_x3 x0 x1 x2 x3 x4 x5 h)
    (Cert.PreDecode.finite_arr_x4 x0 x1 x2 x3 x4 x5 h) (Cert.PreDecode.finite_arr_x5 x0 x1 x2 x3 x4 x5 h)
    Attn.aW_real Attn.eW_real (Cert.PreDecode.den_ne_zero x0 x1 x2 x3 x4 x5 h),
    Cert.KernelSide.row_tile]

/-- From memories that agree on the arguments both programs run, end with equal results — the reference arrangement's
    output array of the kernel's arguments — and leave their arguments unchanged. -/
theorem algebraic (hK : Cert.KernelSide.KernelRun) : Cert.algebraic_KernelIdeal_ReferenceIdeal := by
  intro m ρ m' ρ' hpre hagree
  refine ⟨fun c => Cert.RefIsSpec.outArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (outVec_eq_outArr _ _ _ _ _ _ (hpre c)), (h c).2⟩) (hK m ρ)
  · refine (θ_run Cert.ReferenceIdeal.defs _ _).mono (fun _ h c => ⟨(h c).1.trans ?_, (h c).2⟩)
      (Cert.RefIsSpec.run_outR m' ρ')
    rw [(hagree c).1, (hagree c).2.1, (hagree c).2.2.1, (hagree c).2.2.2.1, (hagree c).2.2.2.2.1, (hagree c).2.2.2.2.2]

/-- The certificate's claim, from the idealized kernel's run and the printed kernel's frame. -/
theorem claim_of (hK : Cert.KernelSide.KernelRun) (hB : Cert.frame_Kernel) : Cert.Claim :=
  ⟨Cert.Kernel.Gen.facts, Cert.KernelIdeal.Gen.facts, Cert.ReferenceIdeal.Gen.facts, Cert.Pre_finite_inputs.Gen.facts,
    hB, frame_ki hK, frame_ri, preserves, algebraic hK⟩

end Cert.Proof.Assembly

end
-- ==== Proof.ProjBody.lean ====
/-
  The projection kernel (the first region): at every grid point the body reads its block of the rows (512 × 1024), the whole
  weight (1024 × 3072), and stores into the output block (512 × 3072) the product of the rows by the weight, rounded to the
  output's format. Here: what the output block holds after the body as a function of the two input blocks, and the body's
  triple on whole staging buffers.
-/
import proofs.«148243_j7679401525936_2_alg».proof.Proof.Gen.KernelIdeal.Launch
import proofs.«148243_j7679401525936_2_alg».proof.Proof.Gen.KernelIdeal.Skeleton
import proofs.«148243_j7679401525936_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of the rows' block, of the weight, of the output block. -/
abbrev rX : Rect S512x1024 := Rect.unit (s := S512x1024) ![0, 0] S512x1024.size Facts₀.inb_S512x1024_S512x1024_0_0
abbrev rW : Rect S1024x3072 := Rect.unit (s := S1024x3072) ![0, 0] S1024x3072.size Facts₀.inb_S1024x3072_S1024x3072_0_0
abbrev rO : Rect S512x3072 := Rect.unit (s := S512x3072) ![0, 0] S512x3072.size Facts₀.inb_S512x3072_S512x3072_0_0

/-- The output block after the body, from the two input blocks: its one store, of the product's payload. -/
def outBlock (x : Vec F S512x1024 .f32) (w : Vec F S1024x3072 .bf16) : Vec F S512x3072 .bf16 :=
  View.canon [⟨rO, k0_pay1 (View.ld x rX) (View.ld w rW)⟩]

/-- The one store covers the whole output block. -/
theorem coverO (p : Vec F S512x3072 .bf16) (y : S512x3072.Idx) :
    ∃ pc ∈ ([⟨rO, p⟩] : List (View.Piece (Elt F) S512x3072 .bf16)), y ∈ pc.1.set :=
  View.cover_of_tiled [⟨rO, p⟩] S512x3072.size (by rfl) y

set_option maxHeartbeats 1000000 in
/-- The body on whole staging buffers: the two inputs' at contents x and w, the output's at anything; it ends with the inputs'
    as they were and the output's at `outBlock x w`. -/
theorem sound_kernel (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S512x3072 .bf16) (harg3 : arg3.IsWhole)
    (x : Vec F S512x1024 .f32) (w : Vec F S1024x3072 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

end Cert.KernelIdeal.Proj

end
-- ==== Proof.ProjFrame.lean ====
/-
  The projection kernel's region, at any contents V of the core's buffers when the region is entered: what each window's
  staging buffer holds around the body at each grid point (the rows' block and the weight are found in place, fetched or not;
  the output block is the product's payload of the two), and the body's obligation at every point.
-/
import proofs.«148243_j7679401525936_2_alg».proof.Proof.ProjBody

set_option maxRecDepth 16384

noncomputable section

namespace Cert.KernelIdeal.Proj

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight's window holds the whole weight at every point, though it is fetched at the first only. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The region's proof data: the arrays as the region finds them; after the body each input's buffer at its block and the
    output's at the product's payload of the two blocks; the class invariant (the scoped rest and the generator register,
    untouched); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlock (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlock (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the body's triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.AttnShares.lean ====
/-
  The attention kernel's region hands ONE array (the projected q/k/v rows) to three input windows. The buffers behind the
  region's arrays, each held whole at the full share, make the proof data's arrays once that array's full share is dealt among
  the three windows (its left half, and the two halves of its right half); and the other way round at the region's exit, the
  three windows holding the same contents.
-/
import proofs.«148243_j7679401525936_2_alg».proof.Proof.Gen.KernelIdeal.Launch
import Idealize.ShloMosaic.Lib.Pipeline.FrameBody
import Idealize.ShloMosaic.Lib.Pipeline.RegionsLoop
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The distinct buffers behind the region's six windows. -/
theorem image_arr : Finset.univ.image (Pipeline.arrRef spec1) = {main_v9, main_v11, main_v12, main_v13} := by decide

/-- Those buffers, one by one. -/
theorem arrBufs_eq (c : Dev nD) (V : (b : Ref sig .tc) → Buf (Elt F) ((c : Thread nD τ).loc b)) :
    (Pipeline.arrBufs spec1 c V : sProp 𝕄)
      = iprop((((c : Thread nD τ).loc main_v9) ↦{fullShare} V main_v9) ∗ (((c : Thread nD τ).loc main_v11) ↦{fullShare} V main_v11)
          ∗ (((c : Thread nD τ).loc main_v12) ↦{fullShare} V main_v12) ∗ (((c : Thread nD τ).loc main_v13) ↦{fullShare} V main_v13)) := by
  unfold Pipeline.arrBufs
  rw [image_arr, bigSep_insert (by decide), bigSep_insert (by decide), bigSep_insert (by decide), bigSep_singleton]
  rfl

variable {c : Dev nD} (dat : Dat τ (Elt F) Unit ℕ (UR sig nD τ) ℕ cfg1 c)

/-- The proof data's arrays, window by window, each array a whole buffer. -/
theorem arrays_eq (G : (w : Fin cfg1.W) → Buf (Elt F) ((cfg1.win w).arr.view.loc (c : Thread nD τ))) :
    (dat.arrays G : sProp 𝕄)
      = iprop((((c : Thread nD τ).loc (Pipeline.arrRef spec1 0)) ↦{dat.share 0} G 0) ∗ (((c : Thread nD τ).loc (Pipeline.arrRef spec1 1)) ↦{dat.share 1} G 1)
          ∗ (((c : Thread nD τ).loc (Pipeline.arrRef spec1 2)) ↦{dat.share 2} G 2) ∗ (((c : Thread nD τ).loc (Pipeline.arrRef spec1 3)) ↦{dat.share 3} G 3)
          ∗ (((c : Thread nD τ).loc (Pipeline.arrRef spec1 4)) ↦{dat.share 4} G 4) ∗ (((c : Thread nD τ).loc (Pipeline.arrRef spec1 5)) ↦{dat.share 5} G 5)) := by
  unfold Dat.arrays
  rw [← bigSep_W1 (fun w => (((c : Thread nD τ).loc (Pipeline.arrRef spec1 w)) ↦{dat.share w} G w : sProp 𝕄))]
  exact bigSep_congr fun w _ => by rw [(arr_whole1 w).set_eq_univ]

/-- The shares the region's windows hold their arrays at: the one shared array's full share dealt among its three windows. -/
structure Shares : Prop where
  q0 : dat.q 0 = fullShare.left
  q1 : dat.q 1 = fullShare.right.left
  q2 : dat.q 2 = fullShare.right.right
  q3 : dat.q 3 = fullShare
  q4 : dat.q 4 = fullShare

variable {dat}

theorem Shares.s0 (h : Shares dat) : dat.share 0 = fullShare.left := by unfold Dat.share; rw [if_neg (by decide)]; exact h.q0
theorem Shares.s1 (h : Shares dat) : dat.share 1 = fullShare.right.left := by unfold Dat.share; rw [if_neg (by decide)]; exact h.q1
theorem Shares.s2 (h : Shares dat) : dat.share 2 = fullShare.right.right := by unfold Dat.share; rw [if_neg (by decide)]; exact h.q2
theorem Shares.s3 (h : Shares dat) : dat.share 3 = fullShare := by unfold Dat.share; rw [if_neg (by decide)]; exact h.q3
theorem Shares.s4 (h : Shares dat) : dat.share 4 = fullShare := by unfold Dat.share; rw [if_neg (by decide)]; exact h.q4
theorem share5 : dat.share 5 = fullShare := by unfold Dat.share; rw [if_pos (by decide)]

/-- ENTRY: the buffers behind the arrays, whole at contents V, are the proof data's arrays at the same contents. -/
theorem arrays_of_arrBufs (h : Shares dat) (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs spec1 c V : sProp 𝕄) ⊢ dat.arrays G := by
  rw [arrBufs_eq, arrays_eq, h.s0, h.s1, h.s2, h.s3, h.s4, share5, hG 0, hG 1, hG 2, hG 3, hG 4, hG 5]
  simp only [show Pipeline.arrRef spec1 0 = main_v9 from rfl, show Pipeline.arrRef spec1 1 = main_v9 from rfl, show Pipeline.arrRef spec1 2 = main_v9 from rfl, show Pipeline.arrRef spec1 3 = main_v11 from rfl, show Pipeline.arrRef spec1 4 = main_v12 from rfl, show Pipeline.arrRef spec1 5 = main_v13 from rfl]
  have hs : (((c : Thread nD τ).loc main_v9) ↦{fullShare} V main_v9 : sProp 𝕄)
      ⊢ iprop((((c : Thread nD τ).loc main_v9) ↦{fullShare.left} V main_v9) ∗ (((c : Thread nD τ).loc main_v9) ↦{fullShare.right} V main_v9)) :=
    (pointsTo_share (PosShare.mem_left_op_right fullShare)).1
  have hs' : (((c : Thread nD τ).loc main_v9) ↦{fullShare.right} V main_v9 : sProp 𝕄)
      ⊢ iprop((((c : Thread nD τ).loc main_v9) ↦{fullShare.right.left} V main_v9) ∗ (((c : Thread nD τ).loc main_v9) ↦{fullShare.right.right} V main_v9)) :=
    (pointsTo_share (PosShare.mem_left_op_right fullShare.right)).1
  iintro ⟨H9, H11, H12, H13⟩
  ihave H9' := hs $$ H9
  icases H9' with ⟨H9a, H9r⟩
  ihave H9'' := hs' $$ H9r
  icases H9'' with ⟨H9b, H9c⟩
  isplitl [H9a]; · iexact H9a
  isplitl [H9b]; · iexact H9b
  isplitl [H9c]; · iexact H9c
  isplitl [H11]; · iexact H11
  isplitl [H12]; · iexact H12
  iexact H13

/-- EXIT: the proof data's arrays, each at the contents V' has at its buffer, are the buffers behind them whole at V'. -/
theorem arrBufs_of_arrays (h : Shares dat) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (dat.arrays G : sProp 𝕄) ⊢ Pipeline.arrBufs spec1 c V' := by
  rw [arrBufs_eq, arrays_eq, h.s0, h.s1, h.s2, h.s3, h.s4, share5, hG 0, hG 1, hG 2, hG 3, hG 4, hG 5]
  simp only [show Pipeline.arrRef spec1 0 = main_v9 from rfl, show Pipeline.arrRef spec1 1 = main_v9 from rfl, show Pipeline.arrRef spec1 2 = main_v9 from rfl, show Pipeline.arrRef spec1 3 = main_v11 from rfl, show Pipeline.arrRef spec1 4 = main_v12 from rfl, show Pipeline.arrRef spec1 5 = main_v13 from rfl]
  have hs : (iprop((((c : Thread nD τ).loc main_v9) ↦{fullShare.left} V' main_v9) ∗ (((c : Thread nD τ).loc main_v9) ↦{fullShare.right} V' main_v9)) : sProp 𝕄)
      ⊢ (((c : Thread nD τ).loc main_v9) ↦{fullShare} V' main_v9) :=
    (pointsTo_share (PosShare.mem_left_op_right fullShare)).2
  have hs' : (iprop((((c : Thread nD τ).loc main_v9) ↦{fullShare.right.left} V' main_v9) ∗ (((c : Thread nD τ).loc main_v9) ↦{fullShare.right.right} V' main_v9)) : sProp 𝕄)
      ⊢ (((c : Thread nD τ).loc main_v9) ↦{fullShare.right} V' main_v9) :=
    (pointsTo_share (PosShare.mem_left_op_right fullShare.right)).2
  iintro ⟨H9a, H9b, H9c, H11, H12, H13⟩
  ihave H9r := hs' $$ [H9b H9c]
  · isplitl [H9b]; · iexact H9b
    iexact H9c
  ihave H9 := hs $$ [H9a H9r]
  · isplitl [H9a]; · iexact H9a
    iexact H9r
  isplitl [H9]; · iexact H9
  isplitl [H11]; · iexact H11
  isplitl [H12]; · iexact H12
  iexact H13

end Cert.KernelIdeal.Attn

end
-- ==== Proof.KernelLaunch.lean ====
/-
  The whole program's run: @main is a host stretch, the projection region, a host stretch, the attention region. The contents of
  the core's buffers between the items are a fold from the launch memory; each region is entered from every unscoped buffer at
  the contents before it and left at the contents after it. The attention region's proof data is a parameter here, with what
  the launch needs of it stated as a record.
-/
import proofs.«148243_j7679401525936_2_alg».proof.Proof.ProjFrame
import proofs.«148243_j7679401525936_2_alg».proof.Proof.AttnShares

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's buffers when a region is entered. -/
abbrev Entry (F : FTy → Type) [FloatOps F] : Type := (c : Dev nD) → (b : Ref sig .tc) → Buf (Elt F) ((c : Thread nD τ).loc b)

/-- What the launch needs of the attention region's proof data, at any entry contents. -/
structure AttnData (dat1 : (V : Entry F) → (c : Dev nD) → Dat τ (Elt F) Unit ℕ (UR sig nD τ) ℕ cfg1 c) : Prop where
  A_eq : ∀ V c w, (dat1 V c).A w = V c (Pipeline.arrRef spec1 w)
  shares : ∀ V c, Attn.Shares (dat1 V c)
  owed : ∀ V c t, (dat1 V c).owed t = 0
  recorded : ∀ V c t, (dat1 V c).recorded t = Set.univ
  hin : ∀ V c, (Pipeline.ΦA spec1 c : sProp 𝕄) ⊢ (dat1 V c).Φ 0
  hout : ∀ V c, (dat1 V c).Φ (Fin.last cfg1.N) ⊢ (Pipeline.ΦA spec1 c : sProp 𝕄)
  body : ∀ V c, BodyObligation (dat1 V c) (defs₀ (F := F)) Variants.none () Set.univ

variable (m : (ℓ : Loc nD τ sig) → Buf (Elt F) ℓ) (ρ : Dev nD → PrngReg)
variable (dat1 : (V : Entry F) → (c : Dev nD) → Dat τ (Elt F) Unit ℕ (UR sig nD τ) ℕ cfg1 c)

/-! ## The contents between the items -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : Entry F := fun c b => W1 m ρ c b
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : Entry F := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : Entry F := fun c b => W3 m ρ c b
/-- After the attention region: the result's buffer at what the region's write-backs leave, every other buffer as entered. -/
def W4 (c : Dev nD) : Valuation τ sig (Elt F) :=
  Function.update (W3 m ρ c) (Proc.devRef .tc main_v13) ((dat1 (V3 m ρ) c).arrAt 5 cfg1.N)
abbrev V4 : Entry F := fun c b => W4 m ρ dat1 c b

theorem W4_out (c : Dev nD) : W4 m ρ dat1 c (Proc.devRef .tc main_v13) = (dat1 (V3 m ρ) c).arrAt 5 cfg1.N := by
  unfold W4; exact Function.update_self _ _ _
theorem W4_of_ne (c : Dev nD) (b : Ref sig .tc) (hb : b ≠ main_v13) :
    W4 m ρ dat1 c (Proc.devRef .tc b) = W3 m ρ c (Proc.devRef .tc b) := by
  unfold W4; exact Function.update_of_ne (StableHlo.devRef_ne_of_ne hb) _ _

theorem hF1 (h : AttnData dat1) (c : Dev nD) (w : Fin cfg1.W) :
    (dat1 (V3 m ρ) c).arrAt w cfg1.N = V4 m ρ dat1 c (Pipeline.arrRef spec1 w) := by
  match w with
  | ⟨0, _⟩ => exact (((dat1 (V3 m ρ) c).arrAt_in 0 rfl _).trans (h.A_eq _ c 0)).trans (W4_of_ne m ρ dat1 c _ (by decide)).symm
  | ⟨1, _⟩ => exact (((dat1 (V3 m ρ) c).arrAt_in 1 rfl _).trans (h.A_eq _ c 1)).trans (W4_of_ne m ρ dat1 c _ (by decide)).symm
  | ⟨2, _⟩ => exact (((dat1 (V3 m ρ) c).arrAt_in 2 rfl _).trans (h.A_eq _ c 2)).trans (W4_of_ne m ρ dat1 c _ (by decide)).symm
  | ⟨3, _⟩ => exact (((dat1 (V3 m ρ) c).arrAt_in 3 rfl _).trans (h.A_eq _ c 3)).trans (W4_of_ne m ρ dat1 c _ (by decide)).symm
  | ⟨4, _⟩ => exact (((dat1 (V3 m ρ) c).arrAt_in 4 rfl _).trans (h.A_eq _ c 4)).trans (W4_of_ne m ρ dat1 c _ (by decide)).symm
  | ⟨5, _⟩ => exact (W4_out m ρ dat1 c).symm

theorem hrest1 (c : Dev nD) : ∀ b, b ∉ Finset.univ.image (Pipeline.arrRef spec1) → V4 m ρ dat1 c b = V3 m ρ c b :=
  fun b hb => W4_of_ne m ρ dat1 c b fun e => hb (e ▸ Finset.mem_image.mpr ⟨5, Finset.mem_univ _, rfl⟩)

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (W4 m ρ dat1 c) ∗ ∃ r, prngReg c r)

/-! ## The regions as segments -/

set_option backward.isDefEq.respectTransparency.types false in
/-- The projection region: entered from every unscoped buffer at W1, left at W2. -/
def reg0 : Pipeline.RegionSeg (pcfgs (F := F)) adm (pdats m ρ dat1) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ dat1) launch0.win launch0.arr_whole c
      ((pdats m ρ dat1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ dat1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ dat1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat1) ((pdats m ρ dat1 0 c).share_full fun _ => rfl)
      (V1 m ρ c) (V2 m ρ c) ((pdats m ρ dat1 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W3, left at W4. One of its arrays is read by three windows:
    its full share is dealt among them at the entry and rejoined at the exit. -/
def reg1 (h : AttnData dat1) : Pipeline.RegionSeg (pcfgs (F := F)) adm (pdats m ρ dat1) () defs₀ 𝒱₀ L lv 1 where
  win := winFacts₀1
  block_pos := block_pos1
  stage_whole := stage_whole1
  K := PEmpty
  osem k := k.elim
  ho := Pipeline.OwnSemFacts.none _
  hbody c := (h.body (V3 m ρ) c).loose
  hwaits := Pipeline.hwaits_of_owed_zero _ _ _ _ L lv 1 fun c t => h.owed (V3 m ρ) c t
  pre c := iprop(StableHlo.held (c : Thread nD τ) (Pipeline.ucRefs τ sig) (W3 m ρ c) ∗ R c)
  post c := iprop(Tₙ m ρ dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (StableHlo.held (c : Thread nD τ) (Pipeline.ucRefs τ sig) (W3 m ρ c) : sProp 𝕄)
        ⊢ iprop((dat1 (V3 m ρ) c).arrays (dat1 (V3 m ρ) c).A
            ∗ Pipeline.unscopedRest (Ix := Unit) (Name := ℕ) (U := UR sig nD τ) (Lvl := ℕ) spec1 c (V3 m ρ c)) := by
      rw [← Pipeline.unscopedBufs_held c (W3 m ρ c),
        Pipeline.unscopedBufs_split₀ (Pipeline.pin (pcfgs (F := F)) adm) 1 winFacts₀1.arr_unscoped c (V3 m ρ c)]
      exact sep_mono (Attn.arrays_of_arrBufs (h.shares (V3 m ρ) c) (V3 m ρ c) _ (fun w => h.A_eq (V3 m ρ) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ dat1 1 c).owed 0 = 0 from h.owed (V3 m ρ) c 0]
      icases HO with ⟨%W, HO⟩; iexists W; isplitr
      · ipureintro; exact fun x _ => Or.inl (by rw [show (pdats m ρ dat1 1 c).recorded 0 = Set.univ from h.recorded (V3 m ρ) c 0]; trivial)
      iexact HO
    isplitl [Hp]; · iexact Hp
    iexact Hrest
  hin c := by
    refine (?_ : _ ⊢ (Pipeline.ΦA spec1 c : sProp 𝕄)).trans (h.hin (V3 m ρ) c)
    unfold Pipeline.ΦA
    iintro ⟨Hp, -, Hr⟩
    isplitl [Hr]; · iexact Hr
    iexact Hp
  hout c := by
    rw [Pipeline.ownSems0_none]
    refine (h.hout (V3 m ρ) c).trans ?_
    unfold Pipeline.ΦA
    iintro ⟨Hr, Hp⟩
    isplitl [Hp]; · iexact Hp
    isplitr; · iempintro
    iexact Hr
  hexit c := by
    have hjoin : (iprop((dat1 (V3 m ρ) c).arrays ((dat1 (V3 m ρ) c).arrAt · cfg1.N)
            ∗ Pipeline.unscopedRest (Ix := Unit) (Name := ℕ) (U := UR sig nD τ) (Lvl := ℕ) spec1 c (V3 m ρ c)) : sProp 𝕄)
        ⊢ StableHlo.held (c : Thread nD τ) (Pipeline.ucRefs τ sig) (W4 m ρ dat1 c) := by
      rw [← Pipeline.unscopedBufs_held c (W4 m ρ dat1 c),
        Pipeline.unscopedBufs_split₀ (Pipeline.pin (pcfgs (F := F)) adm) 1 winFacts₀1.arr_unscoped c (V4 m ρ dat1 c)]
      refine sep_mono (Attn.arrBufs_of_arrays (h.shares (V3 m ρ) c) (V4 m ρ dat1 c) _ (hF1 m ρ dat1 h c)) (Entails.of_eq ?_)
      unfold Pipeline.unscopedRest
      exact bigSep_congr fun b hb => by rw [hrest1 m ρ dat1 c b (Finset.mem_sdiff.mp hb).2]
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    rw [show (pdats m ρ dat1 1 c).owed (Fin.last (Pipeline.pin (pcfgs (F := F)) adm 1).N) = 0 from h.owed (V3 m ρ) c _]
    icases HO with ⟨%W, -, HO⟩; iexists W; iexact HO

/-! ## @main as segments, and the launch -/

abbrev segs (h : AttnData dat1) : List (Pipeline.Seg (pcfgs (F := F)) adm (pdats m ρ dat1) () defs₀ 𝒱₀ L lv) :=
  [ .host (hseg hostOps0 hostOps0_sub hostOps0_fresh (W0 m ρ)),
    .region (reg0 m ρ dat1),
    .host (hseg hostOps1 hostOps1_sub hostOps1_fresh (W2 m ρ)),
    .region (reg1 m ρ dat1 h) ]
theorem main_run (h : AttnData dat1) (c : Dev nD) : main (F := F) c = Pipeline.Seg.run (segs m ρ dat1 h) :=
  (main_chain c).trans (by chain_rfl)

set_option backward.isDefEq.respectTransparency.types false in
/-- THE RUN: from any memory with zero counters, every weakly fair execution of @main terminates, nothing faulting, and every
    final memory holds every unscoped buffer at the last contents W4. -/
theorem run_all (h : AttnData dat1) : θ_run defs (onTc (τ := τ) (main (F := F))) ⟨m, fun _ => 0, ρ⟩ (fun r => ∀ c : Dev nD,
      ∀ b ∈ Pipeline.ucRefs τ sig, r.2.mem (((c : Thread nD τ)).1, b) = W4 m ρ dat1 c b) :=
  Pipeline.θ_run_regions_kit (pcfgs (F := F)) adm (pdats m ρ dat1) () cellOf_inj emb₁ defs₀ 𝒱₀ L lv m ρ main (segs m ρ dat1 h)
    (fun c Q => by rw [main_run m ρ dat1 h c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ dat1)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ dat1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ dat1 c) s')
      isplitl [Hh] <;> iassumption)
    (hQ := fun s h' c => h' c)

end Cert.KernelIdeal.Run

end
-- ==== Proof.KernelArgs.lean ====
/-
  The argument arrays end as launched. No host operation writes an argument and no region's output window lies on one (the
  projection region's arrays are the re-laid rows, the fused weight and its own result; the attention region writes its result
  only), so the contents of an argument's buffer after the last item walk back, item by item, to the launch memory. With the
  whole program's run this gives the frame: every weakly fair execution terminates, nothing faulting, the six arguments unchanged.
-/
import proofs.«148243_j7679401525936_2_alg».proof.Proof.KernelLaunch
import proofs.«148243_j7679401525936_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)
variable (dat1 : (V : Entry F) → (c : Dev nD) → Dat τ (Elt F) Unit ℕ (UR sig nD τ) ℕ cfg1 c)

/-! ## An argument's buffer holds the launch contents after every item -/

theorem W1_main_arg0 (c : Dev nD) : W1 m ρ c (Proc.devRef .tc main_arg0) = m ((c : Thread nD τ).loc main_arg0) :=
  (StableHlo.after_of_writes_sub hostOps0 _ Gen.hostOps0_writes (by decide)).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (StableHlo.after_of_writes_sub hostOps1 _ Gen.hostOps1_writes (by decide)).trans (W2_main_arg0 m ρ c)
theorem W4_main_arg0 (c : Dev nD) : W4 m ρ dat1 c (Proc.devRef .tc main_arg0) = m ((c : Thread nD τ).loc main_arg0) :=
  (W4_of_ne m ρ dat1 c main_arg0 (by decide)).trans (W3_main_arg0 m ρ c)

theorem W1_main_arg1 (c : Dev nD) : W1 m ρ c (Proc.devRef .tc main_arg1) = m ((c : Thread nD τ).loc main_arg1) :=
  (StableHlo.after_of_writes_sub hostOps0 _ Gen.hostOps0_writes (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_writes_sub hostOps1 _ Gen.hostOps1_writes (by decide)).trans (W2_main_arg1 m ρ c)
theorem W4_main_arg1 (c : Dev nD) : W4 m ρ dat1 c (Proc.devRef .tc main_arg1) = m ((c : Thread nD τ).loc main_arg1) :=
  (W4_of_ne m ρ dat1 c main_arg1 (by decide)).trans (W3_main_arg1 m ρ c)

theorem W1_main_arg2 (c : Dev nD) : W1 m ρ c (Proc.devRef .tc main_arg2) = m ((c : Thread nD τ).loc main_arg2) :=
  (StableHlo.after_of_writes_sub hostOps0 _ Gen.hostOps0_writes (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_writes_sub hostOps1 _ Gen.hostOps1_writes (by decide)).trans (W2_main_arg2 m ρ c)
theorem W4_main_arg2 (c : Dev nD) : W4 m ρ dat1 c (Proc.devRef .tc main_arg2) = m ((c : Thread nD τ).loc main_arg2) :=
  (W4_of_ne m ρ dat1 c main_arg2 (by decide)).trans (W3_main_arg2 m ρ c)

theorem W1_main_arg3 (c : Dev nD) : W1 m ρ c (Proc.devRef .tc main_arg3) = m ((c : Thread nD τ).loc main_arg3) :=
  (StableHlo.after_of_writes_sub hostOps0 _ Gen.hostOps0_writes (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_writes_sub hostOps1 _ Gen.hostOps1_writes (by decide)).trans (W2_main_arg3 m ρ c)
theorem W4_main_arg3 (c : Dev nD) : W4 m ρ dat1 c (Proc.devRef .tc main_arg3) = m ((c : Thread nD τ).loc main_arg3) :=
  (W4_of_ne m ρ dat1 c main_arg3 (by decide)).trans (W3_main_arg3 m ρ c)

theorem W1_main_arg4 (c : Dev nD) : W1 m ρ c (Proc.devRef .tc main_arg4) = m ((c : Thread nD τ).loc main_arg4) :=
  (StableHlo.after_of_writes_sub hostOps0 _ Gen.hostOps0_writes (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_writes_sub hostOps1 _ Gen.hostOps1_writes (by decide)).trans (W2_main_arg4 m ρ c)
theorem W4_main_arg4 (c : Dev nD) : W4 m ρ dat1 c (Proc.devRef .tc main_arg4) = m ((c : Thread nD τ).loc main_arg4) :=
  (W4_of_ne m ρ dat1 c main_arg4 (by decide)).trans (W3_main_arg4 m ρ c)

theorem W1_main_arg5 (c : Dev nD) : W1 m ρ c (Proc.devRef .tc main_arg5) = m ((c : Thread nD τ).loc main_arg5) :=
  (StableHlo.after_of_writes_sub hostOps0 _ Gen.hostOps0_writes (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_writes_sub hostOps1 _ Gen.hostOps1_writes (by decide)).trans (W2_main_arg5 m ρ c)
theorem W4_main_arg5 (c : Dev nD) : W4 m ρ dat1 c (Proc.devRef .tc main_arg5) = m ((c : Thread nD τ).loc main_arg5) :=
  (W4_of_ne m ρ dat1 c main_arg5 (by decide)).trans (W3_main_arg5 m ρ c)

/-! ## The frame -/

/-- From any memory with zero counters every weakly fair execution of @main terminates, nothing faulting, and the six argument
    arrays end as launched. -/
theorem frame_of (h : AttnData dat1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c =>
    ⟨(hr c _ (mem_uc main_arg0 (by decide))).trans (W4_main_arg0 m ρ dat1 c),
     (hr c _ (mem_uc main_arg1 (by decide))).trans (W4_main_arg1 m ρ dat1 c),
     (hr c _ (mem_uc main_arg2 (by decide))).trans (W4_main_arg2 m ρ dat1 c),
     (hr c _ (mem_uc main_arg3 (by decide))).trans (W4_main_arg3 m ρ dat1 c),
     (hr c _ (mem_uc main_arg4 (by decide))).trans (W4_main_arg4 m ρ dat1 c),
     (hr c _ (mem_uc main_arg5 (by decide))).trans (W4_main_arg5 m ρ dat1 c)⟩)
    (run_all m ρ dat1 h)

end Cert.KernelIdeal.Run

end
-- ==== Proof.ProjValueHost.lean ====
/-
  The host operations around the fused projection, read at one entry, at the exact values.

  * Before the projection the rows x[b,t,c] are re-laid as a 16384 × 1024 matrix: row b·2048 + t holds x[b,t,:].
  * The three weights are stacked — Wq·a on rows 0…1023, Wk·a on rows 1024…2047, Wv on rows 2048…3071, a the scale —,
    the stack is transposed to 1024 × 3072 and changed to the narrow format (the identity on extended reals): column n
    of the result is row n of the stack.
  * After the projection its 16384 × 3072 result is re-laid as [8, 2048, 3072]; the output weight is transposed; the
    bias is re-laid as one row.
  * Together: if the projection's result is the product of the re-laid rows by the fused weight, then the re-laid result
    holds q, k and v of the kernel's arrangement on its columns d, 1024 + d and 2048 + d.
-/
import proofs.«148243_j7679401525936_2_alg».proof.Proof.Gen.KernelIdeal.Regions
import proofs.«148243_j7679401525936_2_alg».proof.Proof.Views
import Idealize.ShloMosaic.Lib.Pipeline.Value

noncomputable section

open scoped BigOperators

namespace Cert.KernelIdeal.ProjValue

open Cert.KernelIdeal Cert.KernelIdeal.Gen
open Idealize.ShloMosaic Idealize.ShloMosaic.ValueIdx

/-! ## The operations' terms -/

/-- The rows re-laid as a 16384 × 1024 matrix. -/
def rows2d (x : FVec Ideal S8x2048x1024 .f32) : FVec Ideal S16384x1024 .f32 :=
  shapeCast S16384x1024 x Gen.shapeCasts_S8x2048x1024_S16384x1024

/-- A weight times the scale, entry by entry. -/
def scaled (w : FVec Ideal S1024x1024 .f32) : FVec Ideal S1024x1024 .f32 :=
  mulf w (broadcastInDim S1024x1024 ![] Gen.bcast_S_S1024x1024 (constant (F := Ideal) S_ .f32 0x3DCCCCCD#32))

/-- The three weights stacked along the rows: Wq·a, Wk·a, Wv. -/
def stackW (Wq Wk Wv : FVec Ideal S1024x1024 .f32) : FVec Ideal S3072x1024 .f32 :=
  concatenate S3072x1024 0 [⟨S1024x1024, scaled Wq⟩, ⟨S1024x1024, scaled Wk⟩, ⟨S1024x1024, Wv⟩]
    Gen.concatenates_S1024x1024_S1024x1024_S1024x1024_S3072x1024_d0

/-- The fused weight: the stack transposed, in the narrow format. -/
def fusedW (Wq Wk Wv : FVec Ideal S1024x1024 .f32) : FVec Ideal S1024x3072 .bf16 :=
  truncf .bf16 (transpose S1024x3072 [1, 0] (stackW Wq Wk Wv) Gen.transposes_S3072x1024_S1024x3072_1_0) Gen.bitsLt_bf16_f32

/-! ## The terms at an entry -/

/-- Row `row` of the re-laid rows is x[row / 2048, row % 2048, :]. -/
theorem rows2d_apply (x : FVec Ideal S8x2048x1024 .f32) (row : Fin 16384) (k : Fin 1024) :
    rows2d x (ix2 row k)
      = x (ix3 (⟨row.val / 2048, by have := row.isLt; omega⟩ : Fin 8) (⟨row.val % 2048, by omega⟩ : Fin 2048) k) :=
  shapeCast_apply x _ _ _ (by
    rw [Shape.rowMajor_val_three, Shape.rowMajor_val_two]
    show (row.val / 2048 * 2048 + row.val % 2048) * 1024 + k.val = row.val * 1024 + k.val
    have := Nat.div_add_mod' row.val 2048
    omega)

/-- Row b·2048 + t of the re-laid rows is x[b, t, :]. -/
theorem rows2d_apply_bt (x : FVec Ideal S8x2048x1024 .f32) (b : Fin 8) (t : Fin 2048) (k : Fin 1024) :
    rows2d x (ix2 (⟨b.val * 2048 + t.val, by have := b.isLt; have := t.isLt; omega⟩ : Fin 16384) k) = x (ix3 b t k) :=
  shapeCast_apply x _ _ _ (by
    rw [Shape.rowMajor_val_three, Shape.rowMajor_val_two]
    rfl)

/-- A scaled weight at an entry. -/
theorem scaled_apply (w : FVec Ideal S1024x1024 .f32) (d c : Fin 1024) : scaled w (ix2 d c) = w (ix2 d c) * Attn.aW := by
  unfold scaled
  rw [mulf_apply, broadcastInDim_apply ![] Gen.bcast_S_S1024x1024 _ (ix2 d c) ix0 (fun a => a.elim0)]
  rfl

/-- Rows 0 … 1023 of the stack: Wq·a. -/
theorem stackW_q (Wq Wk Wv : FVec Ideal S1024x1024 .f32) (d c : Fin 1024) :
    stackW Wq Wk Wv (ix2 (⟨d.val, by have := d.isLt; omega⟩ : Fin 3072) c) = Wq (ix2 d c) * Attn.aW := by
  unfold stackW
  refine (concatenate_apply_piece (t := S3072x1024) (0 : Fin 2) ([⟨S1024x1024, scaled Wq⟩, ⟨S1024x1024, scaled Wk⟩, ⟨S1024x1024, Wv⟩] : List ((s : Shape) × (s.Idx → EReal)))
    Gen.concatenates_S1024x1024_S1024x1024_S1024x1024_S3072x1024_d0 _ 0 (by show (0 : ℕ) < 3; omega) S1024x1024 (scaled Wq) rfl rfl 0 rfl (ix2 d c)
    (fun b hb => ?_) ?_).trans (scaled_apply Wq d c)
  · match b with
    | ⟨0, _⟩ => exact absurd rfl hb
    | ⟨1, _⟩ => rfl
  · exact Nat.zero_add _

/-- Rows 1024 … 2047 of the stack: Wk·a. -/
theorem stackW_k (Wq Wk Wv : FVec Ideal S1024x1024 .f32) (d c : Fin 1024) :
    stackW Wq Wk Wv (ix2 (⟨1024 + d.val, by have := d.isLt; omega⟩ : Fin 3072) c) = Wk (ix2 d c) * Attn.aW := by
  unfold stackW
  refine (concatenate_apply_piece (t := S3072x1024) (0 : Fin 2) ([⟨S1024x1024, scaled Wq⟩, ⟨S1024x1024, scaled Wk⟩, ⟨S1024x1024, Wv⟩] : List ((s : Shape) × (s.Idx → EReal)))
    Gen.concatenates_S1024x1024_S1024x1024_S1024x1024_S3072x1024_d0 _ 1 (by show (1 : ℕ) < 3; omega) S1024x1024 (scaled Wk) rfl rfl 1024 rfl (ix2 d c)
    (fun b hb => ?_) ?_).trans (scaled_apply Wk d c)
  · match b with
    | ⟨0, _⟩ => exact absurd rfl hb
    | ⟨1, _⟩ => rfl
  · rfl

/-- Rows 2048 … 3071 of the stack: Wv. -/
theorem stackW_v (Wq Wk Wv : FVec Ideal S1024x1024 .f32) (d c : Fin 1024) :
    stackW Wq Wk Wv (ix2 (⟨2048 + d.val, by have := d.isLt; omega⟩ : Fin 3072) c) = Wv (ix2 d c) := by
  unfold stackW
  refine concatenate_apply_piece (t := S3072x1024) (0 : Fin 2) ([⟨S1024x1024, scaled Wq⟩, ⟨S1024x1024, scaled Wk⟩, ⟨S1024x1024, Wv⟩] : List ((s : Shape) × (s.Idx → EReal)))
    Gen.concatenates_S1024x1024_S1024x1024_S1024x1024_S3072x1024_d0 _ 2 (by show (2 : ℕ) < 3; omega) S1024x1024 Wv rfl rfl 2048 rfl (ix2 d c)
    (fun b hb => ?_) ?_
  · match b with
    | ⟨0, _⟩ => exact absurd rfl hb
    | ⟨1, _⟩ => rfl
  · rfl

/-- Column n of the fused weight is row n of the stack. -/
theorem fusedW_apply (Wq Wk Wv : FVec Ideal S1024x1024 .f32) (k : Fin 1024) (n : Fin 3072) :
    fusedW Wq Wk Wv (ix2 k n) = stackW Wq Wk Wv (ix2 n k) := by
  unfold fusedW
  show transpose S1024x3072 [1, 0] (stackW Wq Wk Wv) Gen.transposes_S3072x1024_S1024x3072_1_0 (ix2 k n) = _
  exact transpose_apply [1, 0] _ _ (ix2 k n) (ix2 n k) (fun b => match b with
    | ⟨0, _⟩ => rfl
    | ⟨1, _⟩ => rfl)

/-! ## The projection's result re-laid, and the second kernel's other operands -/

/-- The projection's 16384 × 3072 result re-laid as [8, 2048, 3072]: entry (b, t, n) is entry (b·2048 + t, n). -/
theorem relaid_apply (P : FVec Ideal S16384x3072 .bf16) (b : Fin 8) (t : Fin 2048) (n : Fin 3072) :
    shapeCast S8x2048x3072 P Gen.shapeCasts_S16384x3072_S8x2048x3072 (ix3 b t n)
      = P (ix2 (⟨b.val * 2048 + t.val, by have := b.isLt; have := t.isLt; omega⟩ : Fin 16384) n) :=
  shapeCast_apply P _ _ _ (by
    rw [Shape.rowMajor_val_three, Shape.rowMajor_val_two]
    rfl)

/-- The output weight transposed, in the narrow format. -/
def woT (Wo : FVec Ideal S1024x1024 .f32) : FVec Ideal S1024x1024 .bf16 :=
  truncf .bf16 (transpose S1024x1024 [1, 0] Wo Gen.transposes_S1024x1024_S1024x1024_1_0) Gen.bitsLt_bf16_f32

/-- Entry (c, n) of the transposed output weight is Wo[n, c]. -/
theorem woT_apply (Wo : FVec Ideal S1024x1024 .f32) (c n : Fin 1024) : woT Wo (ix2 c n) = Wo (ix2 n c) := by
  unfold woT
  show transpose S1024x1024 [1, 0] Wo Gen.transposes_S1024x1024_S1024x1024_1_0 (ix2 c n) = _
  exact transpose_apply [1, 0] _ _ (ix2 c n) (ix2 n c) (fun b => match b with
    | ⟨0, _⟩ => rfl
    | ⟨1, _⟩ => rfl)

/-- The bias re-laid as one row: entry (0, n) is bo[n]. -/
theorem boRow_apply (bo : FVec Ideal S1024 .f32) (n : Fin 1024) :
    shapeCast S1x1024 bo Gen.shapeCasts_S1024_S1x1024 (ix2 (0 : Fin 1) n) = bo (ix1 n) :=
  shapeCast_apply bo _ _ _ (by
    rw [Shape.rowMajor_val_one, Shape.rowMajor_val_two]
    show n.val = 0 * 1024 + n.val
    omega)

/-! ## The combination: the projection's result holds q, k and v -/

section Combination

variable (x : FVec Ideal S8x2048x1024 .f32) (Wq Wk Wv : FVec Ideal S1024x1024 .f32) (P : FVec Ideal S16384x3072 .bf16)
  (hP : ∀ (row : Fin 16384) (n : Fin 3072), P (ix2 row n) = ∑ k : Fin 1024, rows2d x (ix2 row k) * fusedW Wq Wk Wv (ix2 k n))

include hP

/-- Column d of the re-laid result is q. -/
theorem relaid_q (b : Fin 8) (t : Fin 2048) (d : Fin 1024) :
    shapeCast S8x2048x3072 P Gen.shapeCasts_S16384x3072_S8x2048x3072 (ix3 b t (⟨d.val, by have := d.isLt; omega⟩ : Fin 3072))
      = Attn.qK (Attn.arr3 x) (Attn.arr2 Wq) Attn.aW b t d := by
  rw [relaid_apply, hP]
  unfold Attn.qK
  refine Finset.sum_congr rfl fun c _ => ?_
  rw [rows2d_apply_bt, fusedW_apply, stackW_q]
  rfl

/-- Column 1024 + d of the re-laid result is k. -/
theorem relaid_k (b : Fin 8) (t : Fin 2048) (d : Fin 1024) :
    shapeCast S8x2048x3072 P Gen.shapeCasts_S16384x3072_S8x2048x3072 (ix3 b t (⟨1024 + d.val, by have := d.isLt; omega⟩ : Fin 3072))
      = Attn.kK (Attn.arr3 x) (Attn.arr2 Wk) Attn.aW b t d := by
  rw [relaid_apply, hP]
  unfold Attn.kK
  refine Finset.sum_congr rfl fun c _ => ?_
  rw [rows2d_apply_bt, fusedW_apply, stackW_k]
  rfl

/-- Column 2048 + d of the re-laid result is v. -/
theorem relaid_v (b : Fin 8) (t : Fin 2048) (d : Fin 1024) :
    shapeCast S8x2048x3072 P Gen.shapeCasts_S16384x3072_S8x2048x3072 (ix3 b t (⟨2048 + d.val, by have := d.isLt; omega⟩ : Fin 3072))
      = Attn.vK (Attn.arr3 x) (Attn.arr2 Wv) b t d := by
  rw [relaid_apply, hP]
  unfold Attn.vK
  refine Finset.sum_congr rfl fun c _ => ?_
  rw [rows2d_apply_bt, fusedW_apply, stackW_v]
  rfl

end Combination

/-! ## The host stretches' results are these terms -/

section Results

open Idealize.ShloMosaic.StableHlo

/-- An operation of three literal operands writes its function of the three operands' contents, each at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

variable (W : Valuation τ sig (Elt Ideal))

/-- After the first host stretch the re-laid rows' array holds the rows re-laid. -/
theorem after0_main_v0 :
    (StableHlo.after (hostOps0 (F := Ideal)) W (Proc.devRef .tc main_v0) : S16384x1024.Idx → EReal)
      = rows2d (W (Proc.devRef .tc main_arg0)) := by
  dsimp only [hostOps0]
  after_results
  rfl

/-- After the first host stretch the fused weight's array holds the fused weight of the three weights. -/
theorem after0_main_v7 :
    (StableHlo.after (hostOps0 (F := Ideal)) W (Proc.devRef .tc main_v7) : S1024x3072.Idx → EReal)
      = fusedW (W (Proc.devRef .tc main_arg1)) (W (Proc.devRef .tc main_arg2)) (W (Proc.devRef .tc main_arg3)) := by
  dsimp only [hostOps0]
  simp only [after_cons, after_nil]
  rw [unary_result, unary_result, nary3_result]
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))
  rfl

/-- After the second host stretch the re-laid result's array holds the projection's result re-laid. -/
theorem after1_main_v9 :
    (StableHlo.after (hostOps1 (F := Ideal)) W (Proc.devRef .tc main_v9) : S8x2048x3072.Idx → EReal)
      = shapeCast S8x2048x3072 (W (Proc.devRef .tc main_v8) : S16384x3072.Idx → EReal) Gen.shapeCasts_S16384x3072_S8x2048x3072 := by
  dsimp only [hostOps1]
  after_results
  rfl

/-- After the second host stretch the transposed output weight's array holds the output weight transposed, in the narrow format. -/
theorem after1_main_v11 :
    (StableHlo.after (hostOps1 (F := Ideal)) W (Proc.devRef .tc main_v11) : S1024x1024.Idx → EReal)
      = woT (W (Proc.devRef .tc main_arg4)) := by
  dsimp only [hostOps1]
  after_results
  rfl

/-- After the second host stretch the bias row's array holds the bias re-laid as one row. -/
theorem after1_main_v12 :
    (StableHlo.after (hostOps1 (F := Ideal)) W (Proc.devRef .tc main_v12) : S1x1024.Idx → EReal)
      = shapeCast S1x1024 (W (Proc.devRef .tc main_arg5) : S1024.Idx → EReal) Gen.shapeCasts_S1024_S1x1024 := by
  dsimp only [hostOps1]
  after_results
  rfl

/-- A buffer the first host stretch does not write keeps its contents. -/
theorem after0_of (r : Ref sig .tc) (h : r ∉ hostOps0_W) :
    StableHlo.after (hostOps0 (F := Ideal)) W (Proc.devRef .tc r) = W (Proc.devRef .tc r) :=
  StableHlo.after_of_writes_sub hostOps0 _ hostOps0_writes h

/-- A buffer the second host stretch does not write keeps its contents. -/
theorem after1_of (r : Ref sig .tc) (h : r ∉ hostOps1_W) :
    StableHlo.after (hostOps1 (F := Ideal)) W (Proc.devRef .tc r) = W (Proc.devRef .tc r) :=
  StableHlo.after_of_writes_sub hostOps1 _ hostOps1_writes h

theorem after0_main_arg0 : StableHlo.after (hostOps0 (F := Ideal)) W (Proc.devRef .tc main_arg0) = W (Proc.devRef .tc main_arg0) := after0_of W main_arg0 (by decide)
theorem after0_main_arg1 : StableHlo.after (hostOps0 (F := Ideal)) W (Proc.devRef .tc main_arg1) = W (Proc.devRef .tc main_arg1) := after0_of W main_arg1 (by decide)
theorem after0_main_arg2 : StableHlo.after (hostOps0 (F := Ideal)) W (Proc.devRef .tc main_arg2) = W (Proc.devRef .tc main_arg2) := after0_of W main_arg2 (by decide)
theorem after0_main_arg3 : StableHlo.after (hostOps0 (F := Ideal)) W (Proc.devRef .tc main_arg3) = W (Proc.devRef .tc main_arg3) := after0_of W main_arg3 (by decide)
theorem after0_main_arg4 : StableHlo.after (hostOps0 (F := Ideal)) W (Proc.devRef .tc main_arg4) = W (Proc.devRef .tc main_arg4) := after0_of W main_arg4 (by decide)
theorem after0_main_arg5 : StableHlo.after (hostOps0 (F := Ideal)) W (Proc.devRef .tc main_arg5) = W (Proc.devRef .tc main_arg5) := after0_of W main_arg5 (by decide)
theorem after1_main_arg0 : StableHlo.after (hostOps1 (F := Ideal)) W (Proc.devRef .tc main_arg0) = W (Proc.devRef .tc main_arg0) := after1_of W main_arg0 (by decide)
theorem after1_main_arg1 : StableHlo.after (hostOps1 (F := Ideal)) W (Proc.devRef .tc main_arg1) = W (Proc.devRef .tc main_arg1) := after1_of W main_arg1 (by decide)
theorem after1_main_arg2 : StableHlo.after (hostOps1 (F := Ideal)) W (Proc.devRef .tc main_arg2) = W (Proc.devRef .tc main_arg2) := after1_of W main_arg2 (by decide)
theorem after1_main_arg3 : StableHlo.after (hostOps1 (F := Ideal)) W (Proc.devRef .tc main_arg3) = W (Proc.devRef .tc main_arg3) := after1_of W main_arg3 (by decide)
theorem after1_main_arg4 : StableHlo.after (hostOps1 (F := Ideal)) W (Proc.devRef .tc main_arg4) = W (Proc.devRef .tc main_arg4) := after1_of W main_arg4 (by decide)
theorem after1_main_arg5 : StableHlo.after (hostOps1 (F := Ideal)) W (Proc.devRef .tc main_arg5) = W (Proc.devRef .tc main_arg5) := after1_of W main_arg5 (by decide)
theorem after1_main_v0 : StableHlo.after (hostOps1 (F := Ideal)) W (Proc.devRef .tc main_v0) = W (Proc.devRef .tc main_v0) := after1_of W main_v0 (by decide)
theorem after1_main_v7 : StableHlo.after (hostOps1 (F := Ideal)) W (Proc.devRef .tc main_v7) = W (Proc.devRef .tc main_v7) := after1_of W main_v7 (by decide)
theorem after1_main_v8 : StableHlo.after (hostOps1 (F := Ideal)) W (Proc.devRef .tc main_v8) = W (Proc.devRef .tc main_v8) := after1_of W main_v8 (by decide)

end Results

end Cert.KernelIdeal.ProjValue

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.ProjValue.lean ====
/-
  The fused projection's body and the host operations around it, read at one entry, at the exact values.

  * The body of the projection kernel multiplies its 512 × 1024 block of rows by the whole 1024 × 3072 weight
    into a zero accumulator; the format changes and the casts to the same shape are the identity on extended
    reals, so the entry at row p and column j of what it stores is  ∑ k, rows[p,k] · weight[k,j].
-/
import proofs.«148243_j7679401525936_2_alg».proof.Proof.Gen.KernelIdeal.Skeleton
import proofs.«148243_j7679401525936_2_alg».proof.Proof.LibMatmulRows
import Idealize.ShloMosaic.Lib.Pipeline.Value

noncomputable section

open scoped BigOperators

namespace Cert.KernelIdeal.ProjValue

open Cert.KernelIdeal Cert.KernelIdeal.Gen Cert.KernelIdeal.Facts₀
open Idealize.ShloMosaic Idealize.ShloMosaic.ValueIdx

/-! ## The product's operand coordinates -/

theorem lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-! ## The body's stored block at an entry -/

/-- Entry (p, j) of the block the projection's body stores is the inner product of row p of its rows with column j of the weight. -/
theorem pay_apply (v0 : Vec Ideal S512x1024 .f32) (v3 : Vec Ideal S1024x3072 .bf16) (p : Fin 512) (j : Fin 3072) :
    k0_pay1 (F := Ideal) v0 v3 (ix2 p j) = ∑ k : Fin 1024, v0 (ix2 p k) * v3 (ix2 k j) := by
  unfold k0_pay1
  rw [shapeCast_self, shapeCast_self]
  show matmul (φ₁ := .bf16) (φ₂ := .bf16) dot_S512x1024_S1024x3072_S512x3072_1_0_0_1_n_n none (truncf .bf16 v0 Gen.bitsLt_bf16_f32) v3
      (constant (F := Ideal) S512x3072 .f32 0x00000000#32) (ix2 p j) = _
  exact Cert.LibMatmulRows.matmul_zero_apply dot_S512x1024_S1024x3072_S512x3072_1_0_0_1_n_n rfl rfl lhs_0 lhs_1 rhs_0 rhs_1 none
    (φ₁ := .bf16) (φ₂ := .bf16) (truncf .bf16 v0 Gen.bitsLt_bf16_f32) v3 p j

end Cert.KernelIdeal.ProjValue

end
-- ==== Proof.ProjArray.lean ====
/-
  The projection kernel's region, from blocks to arrays: at any contents V of the core's buffers when the region is entered,
  the two input arrays (the rows and the weight) end as they were found, and the output array ends holding the product of the
  rows' array by the weight array: entry (r, n) is Σ_k rows[r,k]·weight[k,n].

  Point t of the 32 reads rows 512·t … 512·t + 511 (all 1024 columns) and the whole weight, and writes back rows
  512·t … 512·t + 511 (all 3072 columns) of the output; what it writes is that block of the one product array, and the 32
  blocks cover the output array.
-/
import proofs.«148243_j7679401525936_2_alg».proof.Proof.ProjFrame
import proofs.«148243_j7679401525936_2_alg».proof.Proof.ProjValue
import Idealize.ShloMosaic.Lib.Pipeline.Value
import Idealize.ShloMosaic.Lib.ValueIdx

set_option maxRecDepth 16384

noncomputable section

namespace Cert.KernelIdeal.Proj

open Cert.KernelIdeal Cert.KernelIdeal.Gen Cert.KernelIdeal.Facts₀
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps, decided over the grid: point t's rows' block and output block are block t of their arrays'
    rows, at column block 0; the weight's block is the whole weight. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two input arrays are never written. -/
theorem in_array_0 (c : Dev nD) : (dat (F := Ideal) V c).arrAt 0 cfg0.N = V c (Pipeline.arrRef spec0 0) :=
  ((dat (F := Ideal) V c).arrAt_in 0 rfl cfg0.N).trans (A_eq V c 0)
theorem in_array_1 (c : Dev nD) : (dat (F := Ideal) V c).arrAt 1 cfg0.N = V c (Pipeline.arrRef spec0 1) :=
  ((dat (F := Ideal) V c).arrAt_in 1 rfl cfg0.N).trans (A_eq V c 1)

/-- An input window's array is never written. -/
theorem in_array (c : Dev nD) (w : Fin cfg0.W) (hw : (cfg0.win w).isOut = false) :
    (dat (F := Ideal) V c).arrAt w cfg0.N = V c (Pipeline.arrRef spec0 w) :=
  ((dat (F := Ideal) V c).arrAt_in w hw cfg0.N).trans (A_eq V c w)

/-- The windows' arrays: the rows, the weight, the output. -/
theorem arrRef_0 : Pipeline.arrRef spec0 0 = main_v0 := rfl
theorem arrRef_1 : Pipeline.arrRef spec0 1 = main_v7 := rfl
theorem arrRef_2 : Pipeline.arrRef spec0 2 = main_v8 := rfl

/-- An index of the output array is in point t's block iff each coordinate is in the block's range on its axis. -/
theorem mem_out_block (t : Fin cfg0.N) (i : S16384x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v8).slice (win0_2.rect t)).set ↔ _
  rw [View.set_slice_whole, Rect.mem_set_unit]
  exact Iff.rfl

/-- Every index of the output array is in the block of the point its row lies in. -/
theorem out_cover (i : S16384x3072.Idx) : ∃ t : Fin cfg0.N, (cfg0.win 2).flush t = true ∧ i ∈ ((cfg0.win 2).blk t).view.set := by
  have hi0 : (i 0).val < 16384 := (i 0).isLt
  have hi1 : (i 1).val < 3072 := (i 1).isLt
  refine ⟨⟨(i 0).val / 512, by show (i 0).val / 512 < 32; omega⟩, flush0_2 _, ?_⟩
  rw [mem_out_block]
  obtain ⟨-, -, -, -, e4, e5⟩ := index_facts ⟨(i 0).val / 512, by show (i 0).val / 512 < 32; omega⟩
  intro a
  match a with
  | ⟨0, _⟩ =>
    show win0_2.index _ (0 : Fin 2) * 512 ≤ (i 0).val ∧ (i 0).val < win0_2.index _ (0 : Fin 2) * 512 + 512
    rw [e4]; show (i 0).val / 512 * 512 ≤ (i 0).val ∧ (i 0).val < (i 0).val / 512 * 512 + 512; omega
  | ⟨1, _⟩ =>
    show win0_2.index _ (1 : Fin 2) * 3072 ≤ (i 1).val ∧ (i 1).val < win0_2.index _ (1 : Fin 2) * 3072 + 3072
    rw [e5]; omega

theorem zero_offsets : (![0, 0] : Fin 2 → Nat) = fun _ => 0 := funext fun a => by fin_cases a <;> rfl

/-- Entry (p, j) of the output block the body leaves: row p of the rows' block times column j of the weight. -/
theorem block_entry (x : Vec Ideal S512x1024 .f32) (w : Vec Ideal S1024x3072 .bf16) (y : S512x3072.Idx) :
    outBlock x w y = ∑ k : Fin 1024, x (ix2 (y 0) k) * w (ix2 k (y 1)) := by
  unfold outBlock
  rw [View.canon_unit_zero zero_offsets]
  simp only [View.ld_unit_zero (S := S512x1024) zero_offsets, View.ld_unit_zero (S := S1024x3072) zero_offsets]
  exact (congrArg (k0_pay1 (F := Ideal) x w) (eq_ix2 y)).trans (Cert.KernelIdeal.ProjValue.pay_apply x w (y 0) (y 1))

/-- The rows' array and the weight array as the region finds them, as functions into the extended reals. -/
def rowsArr (c : Dev nD) : S16384x1024.Idx → EReal := V c main_v0
def weightArr (c : Dev nD) : S1024x3072.Idx → EReal := V c main_v7

/-- Row r of the rows' array times column n of the weight array. -/
def prodAt (c : Dev nD) (r : Fin 16384) (n : Fin 3072) : EReal :=
  ∑ k : Fin 1024, rowsArr V c (ix2 r k) * weightArr V c (ix2 k n)

/-- The product of the rows' array by the weight array, as an array over the output's indices. -/
def prodArr (c : Dev nD) : S16384x3072.Idx → EReal := fun j => prodAt V c (j 0) (j 1)

theorem prodArr_ix2 (c : Dev nD) (r : Fin 16384) (n : Fin 3072) :
    prodArr V c (ix2 r n) = ∑ k : Fin 1024, rowsArr V c (ix2 r k) * weightArr V c (ix2 k n) := rfl

/-- What point t writes back is block t of the product array. -/
theorem flushed_eq (c : Dev nD) (t : Fin cfg0.N) :
    (dat (F := Ideal) V c).flushed 2 t = ((cfg0.win 2).blk t).view.read (Elt Ideal) (prodArr V c) := by
  show (cfg0.win 2).cut (grid0.coords t) ((dat (F := Ideal) V c).after 2 t) = _
  rw [after_2]
  obtain ⟨e0, e1, e2, e3, e4, e5⟩ := index_facts t
  funext y
  refine (block_entry (iblk V c 0 t) (iblk V c 1 t) y).trans ?_
  show _ = ∑ k : Fin 1024, rowsArr V c (ix2 ((((cfg0.win 2).blk t).view.emb y) 0) k)
      * weightArr V c (ix2 k ((((cfg0.win 2).blk t).view.emb y) 1))
  refine Finset.sum_congr rfl fun k _ => ?_
  refine congrArg₂ (· * ·) ?_ ?_
  · show rowsArr V c (((cfg0.win 0).blk t).view.emb (ix2 (y 0) k)) = _
    refine congrArg (rowsArr V c) (funext fun a => Fin.ext ?_)
    match a with
    | ⟨0, _⟩ => show win0_0.index t (0 : Fin 2) * 512 + 1 * (y 0).val = win0_2.index t (0 : Fin 2) * 512 + 1 * (y 0).val; omega
    | ⟨1, _⟩ => show win0_0.index t (1 : Fin 2) * 1024 + 1 * k.val = k.val; omega
  · show weightArr V c (((cfg0.win 1).blk t).view.emb (ix2 k (y 1))) = _
    refine congrArg (weightArr V c) (funext fun a => Fin.ext ?_)
    match a with
    | ⟨0, _⟩ => show win0_1.index t (0 : Fin 2) * 1024 + 1 * k.val = k.val; omega
    | ⟨1, _⟩ => show win0_1.index t (1 : Fin 2) * 3072 + 1 * (y 1).val = win0_2.index t (1 : Fin 2) * 3072 + 1 * (y 1).val; omega

/-- The output array after the region: the product of the rows' array by the weight array. -/
theorem out_array (c : Dev nD) : (dat (F := Ideal) V c).arrAt 2 cfg0.N = prodArr V c :=
  (dat (F := Ideal) V c).arrAt_eq_of_cover 2 (prodArr V c) (fun t _ => flushed_eq V c t) out_cover

end Cert.KernelIdeal.Proj

end
-- ==== Proof.KernelChain.lean ====
/-
  The chain of values through the whole program, at the exact values.

  * What the attention region finds in its operands: the projection's result re-laid holds, at (batch b, row t), q on the columns
    d, k on the columns 1024 + d and v on the columns 2048 + d of the kernel's arrangement of the launch arguments (the projection
    region leaves in its result array the product of the re-laid rows by the fused weight); the transposed output weight
    holds Wo[n, c] at (c, n); the bias row holds bo[n] at (0, n).
  * The assembly: if the attention region leaves the kernel's arrangement of the launch arguments in the result array, the whole
    program's run is the statement of what the idealized kernel computes.
-/
import proofs.«148243_j7679401525936_2_alg».proof.Proof.KernelArgs
import proofs.«148243_j7679401525936_2_alg».proof.Proof.ProjValueHost
import proofs.«148243_j7679401525936_2_alg».proof.Proof.ProjArray
import proofs.«148243_j7679401525936_2_alg».proof.Proof.KernelGoal

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The arrays the host stretches write, as terms of the launch arguments -/

/-- Before the projection region the re-laid rows' array holds the launch rows re-laid. -/
theorem V1_main_v0 (c : Dev nD) :
    (V1 m ρ c main_v0 : S16384x1024.Idx → EReal) = ProjValue.rows2d (m ((c : Thread nD τ).loc main_arg0)) :=
  ProjValue.after0_main_v0 (W0 m ρ c)

/-- Before the projection region the fused weight's array holds the fused weight of the three launch weights. -/
theorem V1_main_v7 (c : Dev nD) :
    (V1 m ρ c main_v7 : S1024x3072.Idx → EReal)
      = ProjValue.fusedW (m ((c : Thread nD τ).loc main_arg1)) (m ((c : Thread nD τ).loc main_arg2)) (m ((c : Thread nD τ).loc main_arg3)) :=
  ProjValue.after0_main_v7 (W0 m ρ c)

/-- Before the attention region the re-laid result's array holds what the projection region left in its result array, re-laid. -/
theorem V3_main_v9 (c : Dev nD) :
    (V3 m ρ c main_v9 : S8x2048x3072.Idx → EReal)
      = shapeCast S8x2048x3072 ((Proj.dat (F := Ideal) (V1 m ρ) c).arrAt 2 cfg0.N : S16384x3072.Idx → EReal) Gen.shapeCasts_S16384x3072_S8x2048x3072 :=
  (ProjValue.after1_main_v9 (W2 m ρ c)).trans
    (congrArg (fun P : S16384x3072.Idx → EReal => shapeCast S8x2048x3072 P Gen.shapeCasts_S16384x3072_S8x2048x3072) (W2_arr m ρ c 2))

/-- Before the attention region the transposed output weight's array holds the launch output weight transposed. -/
theorem V3_main_v11 (c : Dev nD) :
    (V3 m ρ c main_v11 : S1024x1024.Idx → EReal) = ProjValue.woT (m ((c : Thread nD τ).loc main_arg4)) :=
  (ProjValue.after1_main_v11 (W2 m ρ c)).trans (congrArg ProjValue.woT (W2_main_arg4 m ρ c))

/-- Before the attention region the bias row's array holds the launch bias re-laid as one row. -/
theorem V3_main_v12 (c : Dev nD) :
    (V3 m ρ c main_v12 : S1x1024.Idx → EReal)
      = shapeCast S1x1024 (m ((c : Thread nD τ).loc main_arg5) : S1024.Idx → EReal) Gen.shapeCasts_S1024_S1x1024 :=
  (ProjValue.after1_main_v12 (W2 m ρ c)).trans
    (congrArg (fun v : S1024.Idx → EReal => shapeCast S1x1024 v Gen.shapeCasts_S1024_S1x1024) (W2_main_arg5 m ρ c))

/-! ## What the attention region finds -/

section Found

variable (c : Dev nD)

/-- The projection's result array is the product of the re-laid launch rows by the fused launch weight. -/
theorem proj_product (row : Fin 16384) (n : Fin 3072) :
    ((Proj.dat (F := Ideal) (V1 m ρ) c).arrAt 2 cfg0.N : S16384x3072.Idx → EReal) (ix2 row n)
      = ∑ k : Fin 1024, ProjValue.rows2d (m ((c : Thread nD τ).loc main_arg0)) (ix2 row k)
          * ProjValue.fusedW (m ((c : Thread nD τ).loc main_arg1)) (m ((c : Thread nD τ).loc main_arg2)) (m ((c : Thread nD τ).loc main_arg3)) (ix2 k n) := by
  rw [Proj.out_array (V1 m ρ) c, Proj.prodArr_ix2]
  unfold Proj.rowsArr Proj.weightArr
  rw [V1_main_v0 m ρ c, V1_main_v7 m ρ c]

/-- Column d of the re-laid result: q of the kernel's arrangement. -/
theorem V3_q (b : Fin 8) (t : Fin 2048) (d : Fin 1024) :
    (V3 m ρ c main_v9 : S8x2048x3072.Idx → EReal) (ix3 b t (⟨d.val, by have := d.isLt; omega⟩ : Fin 3072))
      = Attn.qK (Attn.arr3 (φ := .f32) (m ((c : Thread nD τ).loc main_arg0))) (Attn.arr2 (φ := .f32) (m ((c : Thread nD τ).loc main_arg1))) Attn.aW b t d :=
  (congrFun (V3_main_v9 m ρ c) _).trans
    (ProjValue.relaid_q (m ((c : Thread nD τ).loc main_arg0)) (m ((c : Thread nD τ).loc main_arg1)) (m ((c : Thread nD τ).loc main_arg2))
      (m ((c : Thread nD τ).loc main_arg3)) _ (proj_product m ρ c) b t d)

/-- Column 1024 + d of the re-laid result: k of the kernel's arrangement. -/
theorem V3_k (b : Fin 8) (t : Fin 2048) (d : Fin 1024) :
    (V3 m ρ c main_v9 : S8x2048x3072.Idx → EReal) (ix3 b t (⟨1024 + d.val, by have := d.isLt; omega⟩ : Fin 3072))
      = Attn.kK (Attn.arr3 (φ := .f32) (m ((c : Thread nD τ).loc main_arg0))) (Attn.arr2 (φ := .f32) (m ((c : Thread nD τ).loc main_arg2))) Attn.aW b t d :=
  (congrFun (V3_main_v9 m ρ c) _).trans
    (ProjValue.relaid_k (m ((c : Thread nD τ).loc main_arg0)) (m ((c : Thread nD τ).loc main_arg1)) (m ((c : Thread nD τ).loc main_arg2))
      (m ((c : Thread nD τ).loc main_arg3)) _ (proj_product m ρ c) b t d)

/-- Column 2048 + d of the re-laid result: v of the kernel's arrangement. -/
theorem V3_v (b : Fin 8) (t : Fin 2048) (d : Fin 1024) :
    (V3 m ρ c main_v9 : S8x2048x3072.Idx → EReal) (ix3 b t (⟨2048 + d.val, by have := d.isLt; omega⟩ : Fin 3072))
      = Attn.vK (Attn.arr3 (φ := .f32) (m ((c : Thread nD τ).loc main_arg0))) (Attn.arr2 (φ := .f32) (m ((c : Thread nD τ).loc main_arg3))) b t d :=
  (congrFun (V3_main_v9 m ρ c) _).trans
    (ProjValue.relaid_v (m ((c : Thread nD τ).loc main_arg0)) (m ((c : Thread nD τ).loc main_arg1)) (m ((c : Thread nD τ).loc main_arg2))
      (m ((c : Thread nD τ).loc main_arg3)) _ (proj_product m ρ c) b t d)

/-- The transposed output weight at (c', n): Wo[n, c']. -/
theorem V3_wo (c' n : Fin 1024) :
    (V3 m ρ c main_v11 : S1024x1024.Idx → EReal) (ix2 c' n) = Attn.arr2 (φ := .f32) (m ((c : Thread nD τ).loc main_arg4)) n c' :=
  (congrFun (V3_main_v11 m ρ c) _).trans (ProjValue.woT_apply _ c' n)

/-- The bias row at (0, n): bo[n]. -/
theorem V3_bo (n : Fin 1024) :
    (V3 m ρ c main_v12 : S1x1024.Idx → EReal) (ix2 (0 : Fin 1) n) = Attn.arr1 (φ := .f32) (m ((c : Thread nD τ).loc main_arg5)) n :=
  (congrFun (V3_main_v12 m ρ c) _).trans (ProjValue.boRow_apply _ n)

end Found

/-! ## The assembly -/

/-- If the attention region, entered at the contents the chain gives it, leaves the kernel's arrangement of the launch arguments in the
    result array, then the idealized kernel's run is as stated: its result is that arrangement and its arguments are unchanged. -/
theorem kernel_run_of (dat1 : (V : Entry Ideal) → (c : Dev nD) → Dat τ (Elt Ideal) Unit ℕ (UR sig nD τ) ℕ cfg1 c)
    (h : AttnData (F := Ideal) dat1)
    (hval : ∀ (m : (ℓ : Loc nD τ sig) → Buf (Elt Ideal) ℓ) (ρ : Dev nD → PrngReg) (c : Dev nD),
      ((dat1 (V3 m ρ) c).arrAt 5 cfg1.N : S8x2048x1024.Idx → EReal)
        = Cert.KernelSide.outVec (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))) :
    Cert.KernelSide.KernelRun :=
  fun m g => (θ_run defs _ _).mono (fun r hr c =>
    ⟨((hr c _ (mem_uc main_v13 (by decide))).trans (W4_out m g dat1 c)).trans (hval m g c),
     (hr c _ (mem_uc main_arg0 (by decide))).trans (W4_main_arg0 m g dat1 c),
     (hr c _ (mem_uc main_arg1 (by decide))).trans (W4_main_arg1 m g dat1 c),
     (hr c _ (mem_uc main_arg2 (by decide))).trans (W4_main_arg2 m g dat1 c),
     (hr c _ (mem_uc main_arg3 (by decide))).trans (W4_main_arg3 m g dat1 c),
     (hr c _ (mem_uc main_arg4 (by decide))).trans (W4_main_arg4 m g dat1 c),
     (hr c _ (mem_uc main_arg5 (by decide))).trans (W4_main_arg5 m g dat1 c)⟩)
    (run_all m g dat1 h)

end Cert.KernelIdeal.Run

end
-- ==== Proof.AttnRuns.lean ====
/-
  What the runs of the attention kernel's body share: the body's five branch conditions as propositions on the grid
  coordinates and their closed forms over the 128 grid points (point t = batch · 16 + query tile · 4 + key tile); where the
  output window is idle and where it is written back, case by case; the staging memrefs at a point as the pipeline passes
  them; the two scratch buffers the body carries between points (the running row sum, 512 × 1, and the running accumulator,
  512 × 1024) as memrefs and views; and the region's invariant with the two scratches owned as memrefs.

  The seven cases the grid meets, by (first key tile, below the diagonal, on it, above it, last key tile):
  A = (T,F,T,F,F), B = (T,T,F,F,F), C = (F,T,F,F,F), D = (F,F,T,F,F), E = (F,F,F,T,F), F = (F,F,T,F,T), G = (F,F,F,T,T).
-/
import proofs.«148243_j7679401525936_2_alg».proof.Proof.Gen.KernelIdeal.Launch
import proofs.«148243_j7679401525936_2_alg».proof.Proof.Gen.KernelIdeal.Skeleton
import proofs.«148243_j7679401525936_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch (zero the two scratches): the key tile is the first. -/
abbrev cond1_1 (i : grid1.Coords) : Prop :=
  (Scalar.cmpi .ne (Scalar.extui (Scalar.cmpi .eq (BitVec.ofNat 32 (i 2).val) 0#32)) 0#32) = 1#1
/-- It holds at the points ≡ 0 (mod 4). -/
theorem hcond1_1 : ∀ t : Fin cfg1.N, cond1_1 (grid1.coords t) ↔ t.val % 4 = 0 :=
  (by decide +kernel : ∀ t : Fin grid1.N, cond1_1 (grid1.coords t) ↔ t.val % 4 = 0)

/-- The second branch (a tile below the diagonal): the key tile is before the query tile. -/
abbrev cond1_2 (i : grid1.Coords) : Prop :=
  (Scalar.cmpi .ne (Scalar.extui (Scalar.cmpi .slt (BitVec.ofNat 32 (i 2).val) (BitVec.ofNat 32 (i 1).val))) 0#32) = 1#1
theorem hcond1_2 : ∀ t : Fin cfg1.N, cond1_2 (grid1.coords t) ↔ t.val % 4 < t.val / 4 % 4 :=
  (by decide +kernel : ∀ t : Fin grid1.N, cond1_2 (grid1.coords t) ↔ t.val % 4 < t.val / 4 % 4)

/-- The third branch (the diagonal tile): the key tile is the query tile. -/
abbrev cond1_3 (i : grid1.Coords) : Prop :=
  (Scalar.cmpi .ne (Scalar.extui (Scalar.cmpi .eq (BitVec.ofNat 32 (i 2).val) (BitVec.ofNat 32 (i 1).val))) 0#32) = 1#1
theorem hcond1_3 : ∀ t : Fin cfg1.N, cond1_3 (grid1.coords t) ↔ t.val % 4 = t.val / 4 % 4 :=
  (by decide +kernel : ∀ t : Fin grid1.N, cond1_3 (grid1.coords t) ↔ t.val % 4 = t.val / 4 % 4)

/-- The fourth branch (a tile above the diagonal): the key tile is after the query tile. -/
abbrev cond1_4 (i : grid1.Coords) : Prop :=
  (Scalar.cmpi .ne (Scalar.extui (Scalar.cmpi .sgt (BitVec.ofNat 32 (i 2).val) (BitVec.ofNat 32 (i 1).val))) 0#32) = 1#1
theorem hcond1_4 : ∀ t : Fin cfg1.N, cond1_4 (grid1.coords t) ↔ t.val / 4 % 4 < t.val % 4 :=
  (by decide +kernel : ∀ t : Fin grid1.N, cond1_4 (grid1.coords t) ↔ t.val / 4 % 4 < t.val % 4)

/-- The fifth branch (finalize into the output block): the key tile is the last. -/
abbrev cond1_5 (i : grid1.Coords) : Prop := k1_cond5 i = 1#1
theorem hcond1_5 : ∀ t : Fin cfg1.N, cond1_5 (grid1.coords t) ↔ t.val % 4 = 3 :=
  (by decide +kernel : ∀ t : Fin grid1.N, cond1_5 (grid1.coords t) ↔ t.val % 4 = 3)

/-! ## Where the windows are idle -/

/-- The five input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

/-- At the points where the key tile is not the last (cases A to E) the output window is idle: the body stores nothing
    into it. -/
theorem idleAt1_5 : ∀ t : Fin cfg1.N, ¬cond1_5 (grid1.coords t) → cfg1.idle 5 (grid1.coords t) = true := by decide +kernel
/-- There the pipeline does not write the output's block back. -/
theorem noFlush1_5 : ∀ t : Fin cfg1.N, ¬cond1_5 (grid1.coords t) → (cfg1.win 5).flush t = false := by decide +kernel
/-- At the points where the key tile is the last (cases F and G) the output window is live: the body stores into it. -/
theorem liveAt1_5 : ∀ t : Fin cfg1.N, cond1_5 (grid1.coords t) → cfg1.idle 5 (grid1.coords t) = false := by decide +kernel

theorem idleAt1_5_A : ∀ t : Fin cfg1.N, cond1_1 (grid1.coords t) → ¬cond1_2 (grid1.coords t) → cond1_3 (grid1.coords t) → ¬cond1_4 (grid1.coords t) → ¬cond1_5 (grid1.coords t) → cfg1.idle 5 (grid1.coords t) = true := fun t _ _ _ _ h => idleAt1_5 t h
theorem noFlush1_5_A : ∀ t : Fin cfg1.N, cond1_1 (grid1.coords t) → ¬cond1_2 (grid1.coords t) → cond1_3 (grid1.coords t) → ¬cond1_4 (grid1.coords t) → ¬cond1_5 (grid1.coords t) → (cfg1.win 5).flush t = false := fun t _ _ _ _ h => noFlush1_5 t h
theorem idleAt1_5_B : ∀ t : Fin cfg1.N, cond1_1 (grid1.coords t) → cond1_2 (grid1.coords t) → ¬cond1_3 (grid1.coords t) → ¬cond1_4 (grid1.coords t) → ¬cond1_5 (grid1.coords t) → cfg1.idle 5 (grid1.coords t) = true := fun t _ _ _ _ h => idleAt1_5 t h
theorem noFlush1_5_B : ∀ t : Fin cfg1.N, cond1_1 (grid1.coords t) → cond1_2 (grid1.coords t) → ¬cond1_3 (grid1.coords t) → ¬cond1_4 (grid1.coords t) → ¬cond1_5 (grid1.coords t) → (cfg1.win 5).flush t = false := fun t _ _ _ _ h => noFlush1_5 t h
theorem idleAt1_5_C : ∀ t : Fin cfg1.N, ¬cond1_1 (grid1.coords t) → cond1_2 (grid1.coords t) → ¬cond1_3 (grid1.coords t) → ¬cond1_4 (grid1.coords t) → ¬cond1_5 (grid1.coords t) → cfg1.idle 5 (grid1.coords t) = true := fun t _ _ _ _ h => idleAt1_5 t h
theorem noFlush1_5_C : ∀ t : Fin cfg1.N, ¬cond1_1 (grid1.coords t) → cond1_2 (grid1.coords t) → ¬cond1_3 (grid1.coords t) → ¬cond1_4 (grid1.coords t) → ¬cond1_5 (grid1.coords t) → (cfg1.win 5).flush t = false := fun t _ _ _ _ h => noFlush1_5 t h
theorem idleAt1_5_D : ∀ t : Fin cfg1.N, ¬cond1_1 (grid1.coords t) → ¬cond1_2 (grid1.coords t) → cond1_3 (grid1.coords t) → ¬cond1_4 (grid1.coords t) → ¬cond1_5 (grid1.coords t) → cfg1.idle 5 (grid1.coords t) = true := fun t _ _ _ _ h => idleAt1_5 t h
theorem noFlush1_5_D : ∀ t : Fin cfg1.N, ¬cond1_1 (grid1.coords t) → ¬cond1_2 (grid1.coords t) → cond1_3 (grid1.coords t) → ¬cond1_4 (grid1.coords t) → ¬cond1_5 (grid1.coords t) → (cfg1.win 5).flush t = false := fun t _ _ _ _ h => noFlush1_5 t h
theorem idleAt1_5_E : ∀ t : Fin cfg1.N, ¬cond1_1 (grid1.coords t) → ¬cond1_2 (grid1.coords t) → ¬cond1_3 (grid1.coords t) → cond1_4 (grid1.coords t) → ¬cond1_5 (grid1.coords t) → cfg1.idle 5 (grid1.coords t) = true := fun t _ _ _ _ h => idleAt1_5 t h
theorem noFlush1_5_E : ∀ t : Fin cfg1.N, ¬cond1_1 (grid1.coords t) → ¬cond1_2 (grid1.coords t) → ¬cond1_3 (grid1.coords t) → cond1_4 (grid1.coords t) → ¬cond1_5 (grid1.coords t) → (cfg1.win 5).flush t = false := fun t _ _ _ _ h => noFlush1_5 t h
theorem liveAt1_5_F : ∀ t : Fin cfg1.N, ¬cond1_1 (grid1.coords t) → ¬cond1_2 (grid1.coords t) → cond1_3 (grid1.coords t) → ¬cond1_4 (grid1.coords t) → cond1_5 (grid1.coords t) → cfg1.idle 5 (grid1.coords t) = false := fun t _ _ _ _ h => liveAt1_5 t h
theorem liveAt1_5_G : ∀ t : Fin cfg1.N, ¬cond1_1 (grid1.coords t) → ¬cond1_2 (grid1.coords t) → ¬cond1_3 (grid1.coords t) → cond1_4 (grid1.coords t) → cond1_5 (grid1.coords t) → cfg1.idle 5 (grid1.coords t) = false := fun t _ _ _ _ h => liveAt1_5 t h

/-! ## The staging and scratch memrefs -/

/-- One staging buffer of the output window, through which its contents are stated. -/
abbrev VO1_5 : View sig .tc .vmem S1x512x1024 .f32 := (Memref.whole cc1_stg5_0 : Memref sig .tc .vmem S1x512x1024 .f32).view
/-- Each window's current staging memref at point `t`, as the pipeline passes it to the body, and its wholeness. -/
abbrev ms1_0 (t : Fin cfg1.N) : Memref sig .tc .vmem S1x512x1024 .bf16 := win1_0.stage (cfg1.slots t 0)
abbrev hs1_0 (t : Fin cfg1.N) : (ms1_0 t).IsWhole := Facts₀.hstage1_0 ((cfg1.slots t 0).cast Facts₀.nbuf1_0)
abbrev ms1_1 (t : Fin cfg1.N) : Memref sig .tc .vmem S1x2048x1024 .bf16 := win1_1.stage (cfg1.slots t 1)
abbrev hs1_1 (t : Fin cfg1.N) : (ms1_1 t).IsWhole := Facts₀.hstage1_1 ((cfg1.slots t 1).cast Facts₀.nbuf1_1)
abbrev ms1_2 (t : Fin cfg1.N) : Memref sig .tc .vmem S1x2048x1024 .bf16 := win1_2.stage (cfg1.slots t 2)
abbrev hs1_2 (t : Fin cfg1.N) : (ms1_2 t).IsWhole := Facts₀.hstage1_2 ((cfg1.slots t 2).cast Facts₀.nbuf1_2)
abbrev ms1_3 (t : Fin cfg1.N) : Memref sig .tc .vmem S1024x1024 .bf16 := win1_3.stage (cfg1.slots t 3)
abbrev hs1_3 (t : Fin cfg1.N) : (ms1_3 t).IsWhole := Facts₀.hstage1_3 ((cfg1.slots t 3).cast Facts₀.nbuf1_3)
abbrev ms1_4 (t : Fin cfg1.N) : Memref sig .tc .vmem S1x1024 .f32 := win1_4.stage (cfg1.slots t 4)
abbrev hs1_4 (t : Fin cfg1.N) : (ms1_4 t).IsWhole := Facts₀.hstage1_4 ((cfg1.slots t 4).cast Facts₀.nbuf1_4)
abbrev ms1_5 (t : Fin cfg1.N) : Memref sig .tc .vmem S1x512x1024 .f32 := win1_5.stage (cfg1.slots t 5)
abbrev hs1_5 (t : Fin cfg1.N) : (ms1_5 t).IsWhole := Facts₀.hstage1_5 ((cfg1.slots t 5).cast Facts₀.nbuf1_5)
/-- The scratch operands: whole scoped buffers of the kernel's own, passed beside the windows. -/
abbrev scM1_0 : Memref sig .tc .vmem S512x1 .f32 := Memref.whole cc1_scratch0
abbrev scM1_1 : Memref sig .tc .vmem S512x1024 .f32 := Memref.whole cc1_scratch1
/-- The running row sum and the running accumulator, as views: what they hold is stated through these. -/
abbrev VS1_0 : View sig .tc .vmem S512x1 .f32 := scM1_0.view
abbrev VS1_1 : View sig .tc .vmem S512x1024 .f32 := scM1_1.view

/-- The body at point `t` is the kernel function on these memrefs. -/
theorem bodyAt1_eq (t : Fin cfg1.N) :
    bodyAt1 (F := F) t = cc1__attn_kernel (grid1.coords t) (ms1_0 t) (hs1_0 t) (ms1_1 t) (hs1_1 t) (ms1_2 t) (hs1_2 t)
      (ms1_3 t) (hs1_3 t) (ms1_4 t) (hs1_4 t) (ms1_5 t) (hs1_5 t) scM1_0 (Memref.isWhole_whole _) scM1_1 (Memref.isWhole_whole _) := rfl

/-- The region's invariant with the two scratch operands as memrefs owned at some contents: beside them it holds the
    first region's five staging buffers (scoped buffers this region does not use) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d))
        ∗ (∃ r, prngReg c r)) := by
  unfold Pipeline.ΦA; rw [scopedRest1_eq]; simp only [scM1_0, scM1_1, owns_whole]; try rfl

end Cert.KernelIdeal.Attn

end
-- ==== Proof.AttnRunA.lean ====
/-
  The attention kernel's body run in case A: the body's triple on whole staging and scratch memrefs by symbolic execution
  of its skeleton, each branch decided by the case's hypotheses; the pieces each stored buffer ends with are the witness
  the run finds.
-/
import proofs.«148243_j7679401525936_2_alg».proof.Proof.AttnRuns

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case A,
    with the proof that on whole memrefs — the five inputs' at their contents, the output's (idle here) at contents handed back untouched,
    the two scratches at anything (the case stores them whole before reading them) — the body runs to the continuation holding
    the inputs' as they were and each stored buffer with its pieces written. -/
noncomputable def kernelRun1_A (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) :
    Σ' (L5 : List (View.Piece (Elt F) S1x512x1024 .f32)), Σ' (LS0 : List (View.Piece (Elt F) S512x1 .f32)),
      { LS1 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Attn

end
-- ==== Proof.AttnRunB.lean ====
/-
  The attention kernel's body run in case B: the body's triple on whole staging and scratch memrefs by symbolic execution
  of its skeleton, each branch decided by the case's hypotheses; the pieces each stored buffer ends with are the witness
  the run finds.
-/
import proofs.«148243_j7679401525936_2_alg».proof.Proof.AttnRuns

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case B,
    with the proof that on whole memrefs — the five inputs' at their contents, the output's (idle here) at contents handed back untouched,
    the two scratches at anything (the case stores them whole before reading them) — the body runs to the continuation holding
    the inputs' as they were and each stored buffer with its pieces written. -/
noncomputable def kernelRun1_B (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) :
    Σ' (L5 : List (View.Piece (Elt F) S1x512x1024 .f32)), Σ' (LS0 : List (View.Piece (Elt F) S512x1 .f32)),
      { LS1 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Attn

end
-- ==== Proof.AttnRunC.lean ====
/-
  The attention kernel's body run in case C: the body's triple on whole staging and scratch memrefs by symbolic execution
  of its skeleton, each branch decided by the case's hypotheses; the pieces each stored buffer ends with are the witness
  the run finds.
-/
import proofs.«148243_j7679401525936_2_alg».proof.Proof.AttnRuns

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case C,
    with the proof that on whole memrefs — the five inputs' at their contents, the output's (idle here) at contents handed back untouched,
    the two scratches at the contents the point before left — the body runs to the continuation holding
    the inputs' as they were and each stored buffer with its pieces written. -/
noncomputable def kernelRun1_C (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) :
    Σ' (L5 : List (View.Piece (Elt F) S1x512x1024 .f32)), Σ' (LS0 : List (View.Piece (Elt F) S512x1 .f32)),
      { LS1 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Attn

end
-- ==== Proof.AttnRunD.lean ====
/-
  The attention kernel's body run in case D: the body's triple on whole staging and scratch memrefs by symbolic execution
  of its skeleton, each branch decided by the case's hypotheses; the pieces each stored buffer ends with are the witness
  the run finds.
-/
import proofs.«148243_j7679401525936_2_alg».proof.Proof.AttnRuns

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case D,
    with the proof that on whole memrefs — the five inputs' at their contents, the output's (idle here) at contents handed back untouched,
    the two scratches at the contents the point before left — the body runs to the continuation holding
    the inputs' as they were and each stored buffer with its pieces written. -/
noncomputable def kernelRun1_D (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) :
    Σ' (L5 : List (View.Piece (Elt F) S1x512x1024 .f32)), Σ' (LS0 : List (View.Piece (Elt F) S512x1 .f32)),
      { LS1 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Attn

end
-- ==== Proof.AttnRunE.lean ====
/-
  The attention kernel's body run in case E: the body's triple on whole staging and scratch memrefs by symbolic execution
  of its skeleton, each branch decided by the case's hypotheses; the pieces each stored buffer ends with are the witness
  the run finds.
-/
import proofs.«148243_j7679401525936_2_alg».proof.Proof.AttnRuns

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case E,
    with the proof that on whole memrefs — the five inputs' at their contents, the output's (idle here) at contents handed back untouched,
    the two scratches at the contents the point before left — the body runs to the continuation holding
    the inputs' as they were and each stored buffer with its pieces written. -/
noncomputable def kernelRun1_E (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) :
    Σ' (L5 : List (View.Piece (Elt F) S1x512x1024 .f32)), Σ' (LS0 : List (View.Piece (Elt F) S512x1 .f32)),
      { LS1 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.KernelIdeal.Attn

end
-- ==== Proof.AttnRunF.lean ====
/-
  The attention kernel's body run in case F: the body's triple on whole staging and scratch memrefs by symbolic execution
  of its skeleton, each branch decided by the case's hypotheses; the pieces each stored buffer ends with are the witness
  the run finds.
-/
import proofs.«148243_j7679401525936_2_alg».proof.Proof.AttnRuns

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case F,
    with the proof that on whole memrefs — the five inputs' at their contents, the output's at anything,
    the two scratches at the contents the point before left — the body runs to the continuation holding
    the inputs' as they were and each stored buffer with its pieces written. -/
noncomputable def kernelRun1_F (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) :
    Σ' (L5 : List (View.Piece (Elt F) S1x512x1024 .f32)), Σ' (LS0 : List (View.Piece (Elt F) S512x1 .f32)),
      { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.KernelIdeal.Attn

end
-- ==== Proof.AttnRunG.lean ====
/-
  The attention kernel's body run in case G: the body's triple on whole staging and scratch memrefs by symbolic execution
  of its skeleton, each branch decided by the case's hypotheses; the pieces each stored buffer ends with are the witness
  the run finds.
-/
import proofs.«148243_j7679401525936_2_alg».proof.Proof.AttnRuns

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case G,
    with the proof that on whole memrefs — the five inputs' at their contents, the output's at anything,
    the two scratches at the contents the point before left — the body runs to the continuation holding
    the inputs' as they were and each stored buffer with its pieces written. -/
noncomputable def kernelRun1_G (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) :
    Σ' (L5 : List (View.Piece (Elt F) S1x512x1024 .f32)), Σ' (LS0 : List (View.Piece (Elt F) S512x1 .f32)),
      { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.KernelIdeal.Attn

end
-- ==== Proof.AttnRunAll.lean ====
/-
  The seven case runs of the attention kernel's body, gathered: one module to import for all of them.
-/
import proofs.«148243_j7679401525936_2_alg».proof.Proof.AttnRunA
import proofs.«148243_j7679401525936_2_alg».proof.Proof.AttnRunB
import proofs.«148243_j7679401525936_2_alg».proof.Proof.AttnRunC
import proofs.«148243_j7679401525936_2_alg».proof.Proof.AttnRunD
import proofs.«148243_j7679401525936_2_alg».proof.Proof.AttnRunE
import proofs.«148243_j7679401525936_2_alg».proof.Proof.AttnRunF
import proofs.«148243_j7679401525936_2_alg».proof.Proof.AttnRunG
-- ==== Proof.AttnFrame.lean ====
/-
  The attention kernel's region, at any contents V of the core's buffers when the region is entered: what each window's staging
  buffer holds around the body at each of the 128 grid points (point t = batch · 16 + query tile · 4 + key tile). The five input
  windows hold their blocks, fetched at the point or not. The body carries two scratch buffers from point to point — the running
  row sum l (512 × 1) and the running accumulator acc (512 × 1024) — and stores the output block only at a query tile's last key
  tile; elsewhere the output window is idle and its buffer is handed back untouched. Which of the body's seven cases a point is
  in is decided by its key tile ki = t mod 4 and its query tile qi = (t / 4) mod 4; what the output block and the two scratches
  hold after each point is defined by recursion on the point, each case run over what the point before left in the scratches
  (the two cases of the first key tile store the scratches whole before reading them, so they need nothing from before).
-/
import proofs.«148243_j7679401525936_2_alg».proof.Proof.AttnRunAll

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The input windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's window (fetched when the query tile changes) holds its block at every point, fetched there or not: unfetched, the block index has not moved. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The keys' window (fetched when the batch changes) holds its block at every point, fetched there or not: unfetched, the block index has not moved. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The values' window (fetched when the batch changes) holds its block at every point, fetched there or not: unfetched, the block index has not moved. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The output projection's weight (fetched at the first point only) holds its block at every point, fetched there or not: unfetched, the block index has not moved. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The output projection's bias (fetched at the first point only) holds its block at every point, fetched there or not: unfetched, the block index has not moved. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the output block and in the two scratches -/

/-! ### Case A: the first key tile on the diagonal (the first point of query tile 0) -/

/-- Case A stores nothing into the output block (the window is idle at its points and not written back there): a placeholder
    that nothing consults. -/
def out1_A_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S1x512x1024 .f32 :=
  VO1_5.read (Elt F) (VO1_5.writes (Elt F) VO1_5.junk (kernelRun1_A c i arg3 harg3 arg4 harg4 arg5 harg5 arg6 harg6 arg7 harg7 arg8 harg8 arg9 harg9 arg10 harg10 hc1 hc2 hc3 hc4 hc5 x0 x1 x2 x3 x4).1)

/-- The pieces case A stores into the running row sum cover it. -/
theorem scover1_A_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (y : S512x1.Idx) :
    ∃ pc ∈ (kernelRun1_A c i arg3 harg3 arg4 harg4 arg5 harg5 arg6 harg6 arg7 harg7 arg8 harg8 arg9 harg9 arg10 harg10 hc1 hc2 hc3 hc4 hc5 x0 x1 x2 x3 x4).2.1, y ∈ pc.1.set :=
  View.cover_of_tiledL (kernelRun1_A c i arg3 harg3 arg4 harg4 arg5 harg5 arg6 harg6 arg7 harg7 arg8 harg8 arg9 harg9 arg10 harg10 hc1 hc2 hc3 hc4 hc5 x0 x1 x2 x3 x4).2.1 S512x1.size (by sl_kernel_rfl) y

/-- What case A leaves in the running row sum: its pieces read back. -/
def sout1_A_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S512x1 .f32 :=
  VS1_0.read (Elt F) (VS1_0.writes (Elt F) VS1_0.junk (kernelRun1_A c i arg3 harg3 arg4 harg4 arg5 harg5 arg6 harg6 arg7 harg7 arg8 harg8 arg9 harg9 arg10 harg10 hc1 hc2 hc3 hc4 hc5 x0 x1 x2 x3 x4).2.1)

/-- The pieces case A stores into the running accumulator cover it. -/
theorem scover1_A_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (y : S512x1024.Idx) :
    ∃ pc ∈ (kernelRun1_A c i arg3 harg3 arg4 harg4 arg5 harg5 arg6 harg6 arg7 harg7 arg8 harg8 arg9 harg9 arg10 harg10 hc1 hc2 hc3 hc4 hc5 x0 x1 x2 x3 x4).2.2.1, y ∈ pc.1.set :=
  View.cover_of_tiledL (kernelRun1_A c i arg3 harg3 arg4 harg4 arg5 harg5 arg6 harg6 arg7 harg7 arg8 harg8 arg9 harg9 arg10 harg10 hc1 hc2 hc3 hc4 hc5 x0 x1 x2 x3 x4).2.2.1 S512x1024.size (by sl_kernel_rfl) y

/-- What case A leaves in the running accumulator: its pieces read back. -/
def sout1_A_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S512x1024 .f32 :=
  VS1_1.read (Elt F) (VS1_1.writes (Elt F) VS1_1.junk (kernelRun1_A c i arg3 harg3 arg4 harg4 arg5 harg5 arg6 harg6 arg7 harg7 arg8 harg8 arg9 harg9 arg10 harg10 hc1 hc2 hc3 hc4 hc5 x0 x1 x2 x3 x4).2.2.1)

/-! ### Case B: the first key tile, below the diagonal -/

/-- Case B stores nothing into the output block (the window is idle at its points and not written back there): a placeholder
    that nothing consults. -/
def out1_B_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S1x512x1024 .f32 :=
  VO1_5.read (Elt F) (VO1_5.writes (Elt F) VO1_5.junk (kernelRun1_B c i arg3 harg3 arg4 harg4 arg5 harg5 arg6 harg6 arg7 harg7 arg8 harg8 arg9 harg9 arg10 harg10 hc1 hc2 hc3 hc4 hc5 x0 x1 x2 x3 x4).1)

/-- The pieces case B stores into the running row sum cover it. -/
theorem scover1_B_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (y : S512x1.Idx) :
    ∃ pc ∈ (kernelRun1_B c i arg3 harg3 arg4 harg4 arg5 harg5 arg6 harg6 arg7 harg7 arg8 harg8 arg9 harg9 arg10 harg10 hc1 hc2 hc3 hc4 hc5 x0 x1 x2 x3 x4).2.1, y ∈ pc.1.set :=
  View.cover_of_tiledL (kernelRun1_B c i arg3 harg3 arg4 harg4 arg5 harg5 arg6 harg6 arg7 harg7 arg8 harg8 arg9 harg9 arg10 harg10 hc1 hc2 hc3 hc4 hc5 x0 x1 x2 x3 x4).2.1 S512x1.size (by sl_kernel_rfl) y

/-- What case B leaves in the running row sum: its pieces read back. -/
def sout1_B_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 arg10 harg10 hc1 hc2 hc3 hc4 hc5 x0 x1 x2 x3 x4).2.1)

/-- The pieces case B stores into the running accumulator cover it. -/
theorem scover1_B_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (y : S512x1024.Idx) :
    ∃ pc ∈ (kernelRun1_B c i arg3 harg3 arg4 harg4 arg5 harg5 arg6 harg6 arg7 harg7 arg8 harg8 arg9 harg9 arg10 harg10 hc1 hc2 hc3 hc4 hc5 x0 x1 x2 x3 x4).2.2.1, y ∈ pc.1.set :=
  View.cover_of_tiledL (kernelRun1_B c i arg3 harg3 arg4 harg4 arg5 harg5 arg6 harg6 arg7 harg7 arg8 harg8 arg9 harg9 arg10 harg10 hc1 hc2 hc3 hc4 hc5 x0 x1 x2 x3 x4).2.2.1 S512x1024.size (by sl_kernel_rfl) y

/-- What case B leaves in the running accumulator: its pieces read back. -/
def sout1_B_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S512x1024 .f32 :=
  VS1_1.read (Elt F) (VS1_1.writes (Elt F) VS1_1.junk (kernelRun1_B c i arg3 harg3 arg4 harg4 arg5 harg5 arg6 harg6 arg7 harg7 arg8 harg8 arg9 harg9 arg10 harg10 hc1 hc2 hc3 hc4 hc5 x0 x1 x2 x3 x4).2.2.1)

/-! ### Case C: a later key tile below the diagonal -/

/-- Case C stores nothing into the output block (the window is idle at its points and not written back there): a placeholder
    that nothing consults. -/
def out1_C_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S1x512x1024 .f32 :=
  VO1_5.read (Elt F) (VO1_5.writes (Elt F) VO1_5.junk (kernelRun1_C c i arg3 harg3 arg4 harg4 arg5 harg5 arg6 harg6 arg7 harg7 arg8 harg8 arg9 harg9 arg10 harg10 hc1 hc2 hc3 hc4 hc5 x0 x1 x2 x3 x4 xs0 xs1).1)

/-- The pieces case C stores into the running row sum cover it. -/
theorem scover1_C_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1.Idx) :
    ∃ pc ∈ (kernelRun1_C c i arg3 harg3 arg4 harg4 arg5 harg5 arg6 harg6 arg7 harg7 arg8 harg8 arg9 harg9 arg10 harg10 hc1 hc2 hc3 hc4 hc5 x0 x1 x2 x3 x4 xs0 xs1).2.1, y ∈ pc.1.set :=
  View.cover_of_tiledL (kernelRun1_C c i arg3 harg3 arg4 harg4 arg5 harg5 arg6 harg6 arg7 harg7 arg8 harg8 arg9 harg9 arg10 harg10 hc1 hc2 hc3 hc4 hc5 x0 x1 x2 x3 x4 xs0 xs1).2.1 S512x1.size (by sl_kernel_rfl) y

/-- What case C leaves in the running row sum: its pieces read back. -/
def sout1_C_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 arg10 harg10 hc1 hc2 hc3 hc4 hc5 x0 x1 x2 x3 x4 xs0 xs1).2.1)

/-- The pieces case C stores into the running accumulator cover it. -/
theorem scover1_C_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1024.Idx) :
    ∃ pc ∈ (kernelRun1_C c i arg3 harg3 arg4 harg4 arg5 harg5 arg6 harg6 arg7 harg7 arg8 harg8 arg9 harg9 arg10 harg10 hc1 hc2 hc3 hc4 hc5 x0 x1 x2 x3 x4 xs0 xs1).2.2.1, y ∈ pc.1.set :=
  View.cover_of_tiledL (kernelRun1_C c i arg3 harg3 arg4 harg4 arg5 harg5 arg6 harg6 arg7 harg7 arg8 harg8 arg9 harg9 arg10 harg10 hc1 hc2 hc3 hc4 hc5 x0 x1 x2 x3 x4 xs0 xs1).2.2.1 S512x1024.size (by sl_kernel_rfl) y

/-- What case C leaves in the running accumulator: its pieces read back. -/
def sout1_C_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1024 .f32 :=
  VS1_1.read (Elt F) (VS1_1.writes (Elt F) VS1_1.junk (kernelRun1_C c i arg3 harg3 arg4 harg4 arg5 harg5 arg6 harg6 arg7 harg7 arg8 harg8 arg9 harg9 arg10 harg10 hc1 hc2 hc3 hc4 hc5 x0 x1 x2 x3 x4 xs0 xs1).2.2.1)

/-! ### Case D: the diagonal tile, neither first nor last -/

/-- Case D stores nothing into the output block (the window is idle at its points and not written back there): a placeholder
    that nothing consults. -/
def out1_D_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S1x512x1024 .f32 :=
  VO1_5.read (Elt F) (VO1_5.writes (Elt F) VO1_5.junk (kernelRun1_D c i arg3 harg3 arg4 harg4 arg5 harg5 arg6 harg6 arg7 harg7 arg8 harg8 arg9 harg9 arg10 harg10 hc1 hc2 hc3 hc4 hc5 x0 x1 x2 x3 x4 xs0 xs1).1)

/-- The pieces case D stores into the running row sum cover it. -/
theorem scover1_D_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1.Idx) :
    ∃ pc ∈ (kernelRun1_D c i arg3 harg3 arg4 harg4 arg5 harg5 arg6 harg6 arg7 harg7 arg8 harg8 arg9 harg9 arg10 harg10 hc1 hc2 hc3 hc4 hc5 x0 x1 x2 x3 x4 xs0 xs1).2.1, y ∈ pc.1.set :=
  View.cover_of_tiledL (kernelRun1_D c i arg3 harg3 arg4 harg4 arg5 harg5 arg6 harg6 arg7 harg7 arg8 harg8 arg9 harg9 arg10 harg10 hc1 hc2 hc3 hc4 hc5 x0 x1 x2 x3 x4 xs0 xs1).2.1 S512x1.size (by sl_kernel_rfl) y

/-- What case D leaves in the running row sum: its pieces read back. -/
def sout1_D_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1 .f32 :=
  VS1_0.read (Elt F) (VS1_0.writes (Elt F) VS1_0.junk (kernelRun1_D c i arg3 harg3 arg4 harg4 arg5 harg5 arg6 harg6 arg7 harg7 arg8 harg8 arg9 harg9 arg10 harg10 hc1 hc2 hc3 hc4 hc5 x0 x1 x2 x3 x4 xs0 xs1).2.1)

/-- The pieces case D stores into the running accumulator cover it. -/
theorem scover1_D_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1024.Idx) :
    ∃ pc ∈ (kernelRun1_D c i arg3 harg3 arg4 harg4 arg5 harg5 arg6 harg6 arg7 harg7 arg8 harg8 arg9 harg9 arg10 harg10 hc1 hc2 hc3 hc4 hc5 x0 x1 x2 x3 x4 xs0 xs1).2.2.1, y ∈ pc.1.set :=
  View.cover_of_tiledL (kernelRun1_D c i arg3 harg3 arg4 harg4 arg5 harg5 arg6 harg6 arg7 harg7 arg8 harg8 arg9 harg9 arg10 harg10 hc1 hc2 hc3 hc4 hc5 x0 x1 x2 x3 x4 xs0 xs1).2.2.1 S512x1024.size (by sl_kernel_rfl) y

/-- What case D leaves in the running accumulator: its pieces read back. -/
def sout1_D_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1024 .f32 :=
  VS1_1.read (Elt F) (VS1_1.writes (Elt F) VS1_1.junk (kernelRun1_D c i arg3 harg3 arg4 harg4 arg5 harg5 arg6 harg6 arg7 harg7 arg8 harg8 arg9 harg9 arg10 harg10 hc1 hc2 hc3 hc4 hc5 x0 x1 x2 x3 x4 xs0 xs1).2.2.1)

/-! ### Case E: a tile above the diagonal, not the last -/

/-- Case E stores nothing into the output block (the window is idle at its points and not written back there): a placeholder
    that nothing consults. -/
def out1_E_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S1x512x1024 .f32 :=
  VO1_5.read (Elt F) (VO1_5.writes (Elt F) VO1_5.junk (kernelRun1_E c i arg3 harg3 arg4 harg4 arg5 harg5 arg6 harg6 arg7 harg7 arg8 harg8 arg9 harg9 arg10 harg10 hc1 hc2 hc3 hc4 hc5 x0 x1 x2 x3 x4 xs0 xs1).1)

/-- The pieces case E stores into the running row sum cover it. -/
theorem scover1_E_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1.Idx) :
    ∃ pc ∈ (kernelRun1_E c i arg3 harg3 arg4 harg4 arg5 harg5 arg6 harg6 arg7 harg7 arg8 harg8 arg9 harg9 arg10 harg10 hc1 hc2 hc3 hc4 hc5 x0 x1 x2 x3 x4 xs0 xs1).2.1, y ∈ pc.1.set :=
  View.cover_of_tiledL (kernelRun1_E c i arg3 harg3 arg4 harg4 arg5 harg5 arg6 harg6 arg7 harg7 arg8 harg8 arg9 harg9 arg10 harg10 hc1 hc2 hc3 hc4 hc5 x0 x1 x2 x3 x4 xs0 xs1).2.1 S512x1.size (by sl_kernel_rfl) y

/-- What case E leaves in the running row sum: its pieces read back. -/
def sout1_E_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1 .f32 :=
  VS1_0.read (Elt F) (VS1_0.writes (Elt F) VS1_0.junk (kernelRun1_E c i arg3 harg3 arg4 harg4 arg5 harg5 arg6 harg6 arg7 harg7 arg8 harg8 arg9 harg9 arg10 harg10 hc1 hc2 hc3 hc4 hc5 x0 x1 x2 x3 x4 xs0 xs1).2.1)

/-- The pieces case E stores into the running accumulator cover it. -/
theorem scover1_E_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1024.Idx) :
    ∃ pc ∈ (kernelRun1_E c i arg3 harg3 arg4 harg4 arg5 harg5 arg6 harg6 arg7 harg7 arg8 harg8 arg9 harg9 arg10 harg10 hc1 hc2 hc3 hc4 hc5 x0 x1 x2 x3 x4 xs0 xs1).2.2.1, y ∈ pc.1.set :=
  View.cover_of_tiledL (kernelRun1_E c i arg3 harg3 arg4 harg4 arg5 harg5 arg6 harg6 arg7 harg7 arg8 harg8 arg9 harg9 arg10 harg10 hc1 hc2 hc3 hc4 hc5 x0 x1 x2 x3 x4 xs0 xs1).2.2.1 S512x1024.size (by sl_kernel_rfl) y

/-- What case E leaves in the running accumulator: its pieces read back. -/
def sout1_E_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1024 .f32 :=
  VS1_1.read (Elt F) (VS1_1.writes (Elt F) VS1_1.junk (kernelRun1_E c i arg3 harg3 arg4 harg4 arg5 harg5 arg6 harg6 arg7 harg7 arg8 harg8 arg9 harg9 arg10 harg10 hc1 hc2 hc3 hc4 hc5 x0 x1 x2 x3 x4 xs0 xs1).2.2.1)

/-! ### Case F: the last key tile on the diagonal -/

/-- The pieces case F stores into the output block tile it, so they cover it. -/
theorem cover1_F_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S1x512x1024.Idx) :
    ∃ pc ∈ (kernelRun1_F c i arg3 harg3 arg4 harg4 arg5 harg5 arg6 harg6 arg7 harg7 arg8 harg8 arg9 harg9 arg10 harg10 hc1 hc2 hc3 hc4 hc5 x0 x1 x2 x3 x4 xs0 xs1).1, y ∈ pc.1.set :=
  View.cover_of_tiledL (kernelRun1_F c i arg3 harg3 arg4 harg4 arg5 harg5 arg6 harg6 arg7 harg7 arg8 harg8 arg9 harg9 arg10 harg10 hc1 hc2 hc3 hc4 hc5 x0 x1 x2 x3 x4 xs0 xs1).1 S1x512x1024.size (by sl_kernel_rfl) y

/-- What case F leaves in the output block's staging buffer: its pieces read back. -/
def out1_F_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S1x512x1024 .f32 :=
  VO1_5.read (Elt F) (VO1_5.writes (Elt F) VO1_5.junk (kernelRun1_F c i arg3 harg3 arg4 harg4 arg5 harg5 arg6 harg6 arg7 harg7 arg8 harg8 arg9 harg9 arg10 harg10 hc1 hc2 hc3 hc4 hc5 x0 x1 x2 x3 x4 xs0 xs1).1)

/-- The pieces case F stores into the running row sum cover it. -/
theorem scover1_F_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1.Idx) :
    ∃ pc ∈ (kernelRun1_F c i arg3 harg3 arg4 harg4 arg5 harg5 arg6 harg6 arg7 harg7 arg8 harg8 arg9 harg9 arg10 harg10 hc1 hc2 hc3 hc4 hc5 x0 x1 x2 x3 x4 xs0 xs1).2.1, y ∈ pc.1.set :=
  View.cover_of_tiledL (kernelRun1_F c i arg3 harg3 arg4 harg4 arg5 harg5 arg6 harg6 arg7 harg7 arg8 harg8 arg9 harg9 arg10 harg10 hc1 hc2 hc3 hc4 hc5 x0 x1 x2 x3 x4 xs0 xs1).2.1 S512x1.size (by sl_kernel_rfl) y

/-- What case F leaves in the running row sum: its pieces read back. -/
def sout1_F_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1 .f32 :=
  VS1_0.read (Elt F) (VS1_0.writes (Elt F) VS1_0.junk (kernelRun1_F c i arg3 harg3 arg4 harg4 arg5 harg5 arg6 harg6 arg7 harg7 arg8 harg8 arg9 harg9 arg10 harg10 hc1 hc2 hc3 hc4 hc5 x0 x1 x2 x3 x4 xs0 xs1).2.1)

/-- The pieces case F stores into the running accumulator cover it. -/
theorem scover1_F_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1024.Idx) :
    ∃ pc ∈ (kernelRun1_F c i arg3 harg3 arg4 harg4 arg5 harg5 arg6 harg6 arg7 harg7 arg8 harg8 arg9 harg9 arg10 harg10 hc1 hc2 hc3 hc4 hc5 x0 x1 x2 x3 x4 xs0 xs1).2.2.1, y ∈ pc.1.set :=
  View.cover_of_tiledL (kernelRun1_F c i arg3 harg3 arg4 harg4 arg5 harg5 arg6 harg6 arg7 harg7 arg8 harg8 arg9 harg9 arg10 harg10 hc1 hc2 hc3 hc4 hc5 x0 x1 x2 x3 x4 xs0 xs1).2.2.1 S512x1024.size (by sl_kernel_rfl) y

/-- What case F leaves in the running accumulator: its pieces read back. -/
def sout1_F_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1024 .f32 :=
  VS1_1.read (Elt F) (VS1_1.writes (Elt F) VS1_1.junk (kernelRun1_F c i arg3 harg3 arg4 harg4 arg5 harg5 arg6 harg6 arg7 harg7 arg8 harg8 arg9 harg9 arg10 harg10 hc1 hc2 hc3 hc4 hc5 x0 x1 x2 x3 x4 xs0 xs1).2.2.1)

/-! ### Case G: the last key tile, above the diagonal -/

/-- The pieces case G stores into the output block tile it, so they cover it. -/
theorem cover1_G_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S1x512x1024.Idx) :
    ∃ pc ∈ (kernelRun1_G c i arg3 harg3 arg4 harg4 arg5 harg5 arg6 harg6 arg7 harg7 arg8 harg8 arg9 harg9 arg10 harg10 hc1 hc2 hc3 hc4 hc5 x0 x1 x2 x3 x4 xs0 xs1).1, y ∈ pc.1.set :=
  View.cover_of_tiledL (kernelRun1_G c i arg3 harg3 arg4 harg4 arg5 harg5 arg6 harg6 arg7 harg7 arg8 harg8 arg9 harg9 arg10 harg10 hc1 hc2 hc3 hc4 hc5 x0 x1 x2 x3 x4 xs0 xs1).1 S1x512x1024.size (by sl_kernel_rfl) y

/-- What case G leaves in the output block's staging buffer: its pieces read back. -/
def out1_G_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S1x512x1024 .f32 :=
  VO1_5.read (Elt F) (VO1_5.writes (Elt F) VO1_5.junk (kernelRun1_G c i arg3 harg3 arg4 harg4 arg5 harg5 arg6 harg6 arg7 harg7 arg8 harg8 arg9 harg9 arg10 harg10 hc1 hc2 hc3 hc4 hc5 x0 x1 x2 x3 x4 xs0 xs1).1)

/-- The pieces case G stores into the running row sum cover it. -/
theorem scover1_G_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1.Idx) :
    ∃ pc ∈ (kernelRun1_G c i arg3 harg3 arg4 harg4 arg5 harg5 arg6 harg6 arg7 harg7 arg8 harg8 arg9 harg9 arg10 harg10 hc1 hc2 hc3 hc4 hc5 x0 x1 x2 x3 x4 xs0 xs1).2.1, y ∈ pc.1.set :=
  View.cover_of_tiledL (kernelRun1_G c i arg3 harg3 arg4 harg4 arg5 harg5 arg6 harg6 arg7 harg7 arg8 harg8 arg9 harg9 arg10 harg10 hc1 hc2 hc3 hc4 hc5 x0 x1 x2 x3 x4 xs0 xs1).2.1 S512x1.size (by sl_kernel_rfl) y

/-- What case G leaves in the running row sum: its pieces read back. -/
def sout1_G_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1 .f32 :=
  VS1_0.read (Elt F) (VS1_0.writes (Elt F) VS1_0.junk (kernelRun1_G c i arg3 harg3 arg4 harg4 arg5 harg5 arg6 harg6 arg7 harg7 arg8 harg8 arg9 harg9 arg10 harg10 hc1 hc2 hc3 hc4 hc5 x0 x1 x2 x3 x4 xs0 xs1).2.1)

/-- The pieces case G stores into the running accumulator cover it. -/
theorem scover1_G_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1024.Idx) :
    ∃ pc ∈ (kernelRun1_G c i arg3 harg3 arg4 harg4 arg5 harg5 arg6 harg6 arg7 harg7 arg8 harg8 arg9 harg9 arg10 harg10 hc1 hc2 hc3 hc4 hc5 x0 x1 x2 x3 x4 xs0 xs1).2.2.1, y ∈ pc.1.set :=
  View.cover_of_tiledL (kernelRun1_G c i arg3 harg3 arg4 harg4 arg5 harg5 arg6 harg6 arg7 harg7 arg8 harg8 arg9 harg9 arg10 harg10 hc1 hc2 hc3 hc4 hc5 x0 x1 x2 x3 x4 xs0 xs1).2.2.1 S512x1024.size (by sl_kernel_rfl) y

/-- What case G leaves in the running accumulator: its pieces read back. -/
def sout1_G_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1024 .f32 :=
  VS1_1.read (Elt F) (VS1_1.writes (Elt F) VS1_1.junk (kernelRun1_G c i arg3 harg3 arg4 harg4 arg5 harg5 arg6 harg6 arg7 harg7 arg8 harg8 arg9 harg9 arg10 harg10 hc1 hc2 hc3 hc4 hc5 x0 x1 x2 x3 x4 xs0 xs1).2.2.1)

/-! ## What the output block and the two scratches hold after each point -/

/-- THE ACCUMULATION: the output block's staging buffer, the running row sum and the running accumulator after the body at
    position n. The case is selected by the key tile n mod 4 and the query tile (n / 4) mod 4: the first key tile (on the diagonal
    for query tile 0, below it otherwise) starts the scratches afresh; the last key tile (on the diagonal for query tile 3, above
    it otherwise) also stores the output block; between them a tile is below, on or above the diagonal. Every case but the first
    key tile's two runs over what position n - 1 left in the scratches. -/
def outsAt (c : Dev nD) : (n : ℕ) → n < cfg1.N → Vec F S1x512x1024 .f32 × Vec F S512x1 .f32 × Vec F S512x1024 .f32
  | 0, hn =>
      (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_1 ⟨0, hn⟩).mpr (show 0 % 4 = 0 by omega)) (fun h => absurd ((hcond1_2 ⟨0, hn⟩).mp h) (show ¬(0 % 4 < 0 / 4 % 4) by omega)) ((hcond1_3 ⟨0, hn⟩).mpr (show 0 % 4 = 0 / 4 % 4 by omega)) (fun h => absurd ((hcond1_4 ⟨0, hn⟩).mp h) (show ¬(0 / 4 % 4 < 0 % 4) by omega)) (fun h => absurd ((hcond1_5 ⟨0, hn⟩).mp h) (show ¬(0 % 4 = 3) by omega)) (iblk V c 0 ⟨0, hn⟩) (iblk V c 1 ⟨0, hn⟩) (iblk V c 2 ⟨0, hn⟩) (iblk V c 3 ⟨0, hn⟩) (iblk V c 4 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_1 ⟨0, hn⟩).mpr (show 0 % 4 = 0 by omega)) (fun h => absurd ((hcond1_2 ⟨0, hn⟩).mp h) (show ¬(0 % 4 < 0 / 4 % 4) by omega)) ((hcond1_3 ⟨0, hn⟩).mpr (show 0 % 4 = 0 / 4 % 4 by omega)) (fun h => absurd ((hcond1_4 ⟨0, hn⟩).mp h) (show ¬(0 / 4 % 4 < 0 % 4) by omega)) (fun h => absurd ((hcond1_5 ⟨0, hn⟩).mp h) (show ¬(0 % 4 = 3) by omega)) (iblk V c 0 ⟨0, hn⟩) (iblk V c 1 ⟨0, hn⟩) (iblk V c 2 ⟨0, hn⟩) (iblk V c 3 ⟨0, hn⟩) (iblk V c 4 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_1 ⟨0, hn⟩).mpr (show 0 % 4 = 0 by omega)) (fun h => absurd ((hcond1_2 ⟨0, hn⟩).mp h) (show ¬(0 % 4 < 0 / 4 % 4) by omega)) ((hcond1_3 ⟨0, hn⟩).mpr (show 0 % 4 = 0 / 4 % 4 by omega)) (fun h => absurd ((hcond1_4 ⟨0, hn⟩).mp h) (show ¬(0 / 4 % 4 < 0 % 4) by omega)) (fun h => absurd ((hcond1_5 ⟨0, hn⟩).mp h) (show ¬(0 % 4 = 3) by omega)) (iblk V c 0 ⟨0, hn⟩) (iblk V c 1 ⟨0, hn⟩) (iblk V c 2 ⟨0, hn⟩) (iblk V c 3 ⟨0, hn⟩) (iblk V c 4 ⟨0, hn⟩))
  | n + 1, hn =>
    if h1 : (n + 1) % 4 = 0 then
      if h3 : (n + 1) % 4 = (n + 1) / 4 % 4 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩))
      else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩),
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩),
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else if h5 : (n + 1) % 4 = 3 then
      if h3 : (n + 1) % 4 = (n + 1) / 4 % 4 then
      (out1_F_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_F_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_F_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)
      else
      (out1_G_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_G_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_G_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)
    else if h2 : (n + 1) % 4 < (n + 1) / 4 % 4 then
      (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)
    else if h3 : (n + 1) % 4 = (n + 1) / 4 % 4 then
      (out1_D_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)
    else
      (out1_E_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_E_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_E_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)

/-- `outsAt` at a point of case A: that case's contents. -/
theorem outsAt_A (c : Dev nD) (t : Fin cfg1.N) (h1 : t.val % 4 = 0) (h3 : t.val % 4 = t.val / 4 % 4) :
    outsAt V c t.val t.isLt =
      (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t),
        sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t),
        sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t)) := by
  obtain ⟨n, hn⟩ := t
  cases n with
  | zero => exact rfl
  | succ n => exact (dif_pos h1).trans ((dif_pos h3).trans (rfl))

/-- `outsAt` at a point of case B: that case's contents. -/
theorem outsAt_B (c : Dev nD) (t : Fin cfg1.N) (h1 : t.val % 4 = 0) (h3 : ¬(t.val % 4 = t.val / 4 % 4)) :
    outsAt V c t.val t.isLt =
      (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t),
        sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t),
        sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t)) := by
  obtain ⟨n, hn⟩ := t
  cases n with
  | zero => exact absurd (by decide : (0 : ℕ) % 4 = 0 / 4 % 4) h3
  | succ n => exact (dif_pos h1).trans ((dif_neg h3).trans (rfl))

/-- `outsAt` at a point of case C: that case's contents, over what the point before left in the scratches. -/
theorem outsAt_C (c : Dev nD) (t : Fin cfg1.N) (h1 : ¬(t.val % 4 = 0)) (h5 : ¬(t.val % 4 = 3)) (h2 : t.val % 4 < t.val / 4 % 4) :
    outsAt V c t.val t.isLt =
      (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_neg h5).trans ((dif_pos h2).trans (rfl)))

/-- `outsAt` at a point of case D: that case's contents, over what the point before left in the scratches. -/
theorem outsAt_D (c : Dev nD) (t : Fin cfg1.N) (h1 : ¬(t.val % 4 = 0)) (h5 : ¬(t.val % 4 = 3)) (h2 : ¬(t.val % 4 < t.val / 4 % 4)) (h3 : t.val % 4 = t.val / 4 % 4) :
    outsAt V c t.val t.isLt =
      (out1_D_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_D_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_D_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_neg h5).trans ((dif_neg h2).trans ((dif_pos h3).trans (rfl))))

/-- `outsAt` at a point of case E: that case's contents, over what the point before left in the scratches. -/
theorem outsAt_E (c : Dev nD) (t : Fin cfg1.N) (h1 : ¬(t.val % 4 = 0)) (h5 : ¬(t.val % 4 = 3)) (h2 : ¬(t.val % 4 < t.val / 4 % 4)) (h3 : ¬(t.val % 4 = t.val / 4 % 4)) :
    outsAt V c t.val t.isLt =
      (out1_E_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_E_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_E_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_neg h5).trans ((dif_neg h2).trans ((dif_neg h3).trans (rfl))))

/-- `outsAt` at a point of case F: that case's contents, over what the point before left in the scratches. -/
theorem outsAt_F (c : Dev nD) (t : Fin cfg1.N) (h1 : ¬(t.val % 4 = 0)) (h5 : t.val % 4 = 3) (h3 : t.val % 4 = t.val / 4 % 4) :
    outsAt V c t.val t.isLt =
      (out1_F_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_F_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_F_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_pos h5).trans ((dif_pos h3).trans (rfl)))

/-- `outsAt` at a point of case G: that case's contents, over what the point before left in the scratches. -/
theorem outsAt_G (c : Dev nD) (t : Fin cfg1.N) (h1 : ¬(t.val % 4 = 0)) (h5 : t.val % 4 = 3) (h3 : ¬(t.val % 4 = t.val / 4 % 4)) :
    outsAt V c t.val t.isLt =
      (out1_G_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_G_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_G_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_pos h5).trans ((dif_neg h3).trans (rfl)))

/-! ## The region's invariant -/

/-- The invariant before position n: before the first point the class invariant (every scoped buffer that is no staging buffer
    of this region at anything, and the generator register); afterwards the same with the two scratches at what the point before
    left in them — the other five (the first region's staging buffers, which this region does not use) still at anything. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt V c n hn).2.1 ∗ owns (c : Thread nD τ) scM1_1 fullShare (outsAt V c n hn).2.2)
        ∗ (∃ r, prngReg c r))

theorem PhiS_zero (c : Dev nD) (n : ℕ) (h : n ≤ cfg1.N) (hz : n = 0) : PhiS V c n h = Pipeline.ΦA spec1 c := by
  subst hz; rfl

/-- After point n (before point n + 1): the scratches at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt V c n hn).2.1 ∗ owns (c : Thread nD τ) scM1_1 fullShare (outsAt V c n hn).2.2)
        ∗ (∃ r, prngReg c r)) := rfl

/-- Before a point that is not the first: the scratches at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt V c (n - 1) (by omega)).2.1 ∗ owns (c : Thread nD τ) scM1_1 fullShare (outsAt V c (n - 1) (by omega)).2.2)
        ∗ (∃ r, prngReg c r)) := by
  cases n with
  | zero => exact absurd rfl hz
  | succ n => rfl

/-! ## The region's proof data -/

/-- The region's proof data on core c: the arrays as the region finds them; after the body at point t each input's buffer at its
    block and the output's at `outsAt`'s first component; the invariant `PhiS`; nothing owed. The three windows of the projected
    rows read ONE array: its full share is dealt among them (the left half, and the two halves of the right half); the other
    arrays are held at the full share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's number. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

/-- Each input's current staging buffer holds its block at every point. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation's two sides, the windows one by one -/

/-- What the body is called with at point t, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

end Cert.KernelIdeal.Attn

end
-- ==== Proof.AttnFrame2.lean ====
/-
  The attention kernel's body obligation and the invariant at the region's two ends, at any contents V of the core's buffers when
  the region is entered. At each grid point the key tile and the query tile decide which of the body's seven cases runs; in each
  the five input buffers hold their blocks, the invariant hands the body the two scratches (the running row sum and the running
  accumulator) at what the point before left in them — at anything where the case stores them whole before reading —, and
  takes them back at the contents the case's stores leave, which cover them. The output block's buffer is covered by the two
  cases of the last key tile and comes back untouched from the other five. The first region's staging buffers and the generator
  register pass through unread, and the core owes nothing throughout.
-/
import proofs.«148243_j7679401525936_2_alg».proof.Proof.AttnFrame

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body, case by case -/

set_option maxHeartbeats 4000000 in
/-- The body at a point of case A (the first key tile on the diagonal (the first point of query tile 0)): the inputs' buffers hold their blocks, the invariant hands over the two scratches
    (at anything: the case stores them whole before reading them), so the case's run applies; it returns the scratches with its pieces written, which cover them; the output's buffer comes back untouched. -/
theorem sound_A (c : Dev nD) (t : Fin cfg1.N) (h1 : t.val % 4 = 0) (h3 : t.val % 4 = t.val / 4 % 4) :
    bodyPre V c t ⊢ wp frame (wpE (defs₀ (F := F)) Variants.none c none) Set.univ (bodyAt1 t) (fun _ => bodyPost V c t) := by
  have hc5 : ¬cond1_5 (grid1.coords t) := fun h => absurd ((hcond1_5 t).mp h) (show ¬(t.val % 4 = 3) by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [Dat.leavesExact_idle (dat V c) 5 t (idleAt1_5 t hc5) (noFlush1_5 t hc5)]
  rw [outsAt_A V c t h1 h3]
  unfold sout1_A_0 sout1_A_1; (try dsimp only)
  by_cases hz : t.val = 0
  · rw [PhiS_castSucc V c t, PhiS_zero V c _ _ hz, PhiA1_eq]
    iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [Hb0 Hb1 Hb2 Hb3 Hb4 HS0 HS1 Hg]
    · isplitl [Hb0 Hb1 Hb2 Hb3 Hb4 HS0 HS1]
      · isplitl [Hb0]; · iexact Hb0
        isplitl [Hb1]; · iexact Hb1
        isplitl [Hb2]; · iexact Hb2
        isplitl [Hb3]; · iexact Hb3
        isplitl [Hb4]; · iexact Hb4
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
        unfold owns; iexists _; isplitr
        swap; · iexact HS1
        ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS_castSucc V c t, PhiS_pos V c _ _ hz]
    iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, ⟨%es0, HS0⟩, ⟨%es1, HS1⟩⟩
    isplitl [Hb0 Hb1 Hb2 Hb3 Hb4 HS0 HS1 Hg]
    · isplitl [Hb0 Hb1 Hb2 Hb3 Hb4 HS0 HS1]
      · isplitl [Hb0]; · iexact Hb0
        isplitl [Hb1]; · iexact Hb1
        isplitl [Hb2]; · iexact Hb2
        isplitl [Hb3]; · iexact Hb3
        isplitl [Hb4]; · iexact Hb4
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
        unfold owns; iexists _; isplitr
        swap; · iexact HS1
        ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 4000000 in
/-- The body at a point of case B (the first key tile, below the diagonal): the inputs' buffers hold their blocks, the invariant hands over the two scratches
    (at anything: the case stores them whole before reading them), so the case's run applies; it returns the scratches with its pieces written, which cover them; the output's buffer comes back untouched. -/
theorem sound_B (c : Dev nD) (t : Fin cfg1.N) (h1 : t.val % 4 = 0) (h3 : ¬(t.val % 4 = t.val / 4 % 4)) :
    bodyPre V c t ⊢ wp frame (wpE (defs₀ (F := F)) Variants.none c none) Set.univ (bodyAt1 t) (fun _ => bodyPost V c t) := by
  have hc5 : ¬cond1_5 (grid1.coords t) := fun h => absurd ((hcond1_5 t).mp h) (show ¬(t.val % 4 = 3) by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [Dat.leavesExact_idle (dat V c) 5 t (idleAt1_5 t hc5) (noFlush1_5 t hc5)]
  rw [outsAt_B V c t h1 h3]
  unfold sout1_B_0 sout1_B_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t)).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  iintro ⟨H0, H1, H2, H3, H4, H5, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
      unfold owns; iexists _; isplitr
      swap; · iexact HS1
      ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
/-- The body at a point of case C (a later key tile below the diagonal): the inputs' buffers hold their blocks, the invariant hands over the two scratches
    at what the point before left in them, so the case's run applies; it returns the scratches with its pieces written, which cover them; the output's buffer comes back untouched. -/
theorem sound_C (c : Dev nD) (t : Fin cfg1.N) (h1 : ¬(t.val % 4 = 0)) (h5 : ¬(t.val % 4 = 3)) (h2 : t.val % 4 < t.val / 4 % 4) :
    bodyPre V c t ⊢ wp frame (wpE (defs₀ (F := F)) Variants.none c none) Set.univ (bodyAt1 t) (fun _ => bodyPost V c t) := by
  have hc5 : ¬cond1_5 (grid1.coords t) := fun h => absurd ((hcond1_5 t).mp h) (show ¬(t.val % 4 = 3) by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [Dat.leavesExact_idle (dat V c) 5 t (idleAt1_5 t hc5) (noFlush1_5 t hc5)]
  rw [outsAt_C V c t h1 h5 h2]
  unfold sout1_C_0 sout1_C_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
      unfold owns; iexists _; isplitr
      swap; · iexact HS1
      ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
/-- The body at a point of case D (the diagonal tile, neither first nor last): the inputs' buffers hold their blocks, the invariant hands over the two scratches
    at what the point before left in them, so the case's run applies; it returns the scratches with its pieces written, which cover them; the output's buffer comes back untouched. -/
theorem sound_D (c : Dev nD) (t : Fin cfg1.N) (h1 : ¬(t.val % 4 = 0)) (h5 : ¬(t.val % 4 = 3)) (h2 : ¬(t.val % 4 < t.val / 4 % 4)) (h3 : t.val % 4 = t.val / 4 % 4) :
    bodyPre V c t ⊢ wp frame (wpE (defs₀ (F := F)) Variants.none c none) Set.univ (bodyAt1 t) (fun _ => bodyPost V c t) := by
  have hc5 : ¬cond1_5 (grid1.coords t) := fun h => absurd ((hcond1_5 t).mp h) (show ¬(t.val % 4 = 3) by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [Dat.leavesExact_idle (dat V c) 5 t (idleAt1_5 t hc5) (noFlush1_5 t hc5)]
  rw [outsAt_D V c t h1 h5 h2 h3]
  unfold sout1_D_0 sout1_D_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_D c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_D_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
      unfold owns; iexists _; isplitr
      swap; · iexact HS1
      ipureintro; exact View.read_writes_of_cover _ _ _ _ _ (scover1_D_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
/-- The body at a point of case E (a tile above the diagonal, not the last): the inputs' buffers hold their blocks, the invariant hands over the two scratches
    at what the point before left in them, so the case's run applies; it returns the scratches with its pieces written, which cover them; the output's buffer comes back untouched. -/
theorem sound_E (c : Dev nD) (t : Fin cfg1.N) (h1 : ¬(t.val % 4 = 0)) (h5 : ¬(t.val % 4 = 3)) (h2 : ¬(t.val % 4 < t.val / 4 % 4)) (h3 : ¬(t.val % 4 = t.val / 4 % 4)) :
    bodyPre V c t ⊢ wp frame (wpE (defs₀ (F := F)) Variants.none c none) Set.univ (bodyAt1 t) (fun _ => bodyPost V c t) := by
  have hc5 : ¬cond1_5 (grid1.coords t) := fun h => absurd ((hcond1_5 t).mp h) (show ¬(t.val % 4 = 3) by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [Dat.leavesExact_idle (dat V c) 5 t (idleAt1_5 t hc5) (noFlush1_5 t hc5)]
  rw [outsAt_E V c t h1 h5 h2 h3]
  unfold sout1_E_0 sout1_E_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_E c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_E_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
      unfold owns; iexists _; isplitr
      swap; · iexact HS1
      ipureintro; exact View.read_writes_of_cover _ _ _ _ _ (scover1_E_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
/-- The body at a point of case F (the last key tile on the diagonal): the inputs' buffers hold their blocks, the invariant hands over the two scratches
    at what the point before left in them, so the case's run applies; it returns the scratches with its pieces written, which cover them, and the output block covered by its pieces. -/
theorem sound_F (c : Dev nD) (t : Fin cfg1.N) (h1 : ¬(t.val % 4 = 0)) (h5 : t.val % 4 = 3) (h3 : t.val % 4 = t.val / 4 % 4) :
    bodyPre V c t ⊢ wp frame (wpE (defs₀ (F := F)) Variants.none c none) Set.univ (bodyAt1 t) (fun _ => bodyPost V c t) := by
  have hc5 : cond1_5 (grid1.coords t) := (hcond1_5 t).mpr (show t.val % 4 = 3 by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [show (dat V c).leavesExact 5 t = owns (c : Thread nD τ) (ms1_5 t) fullShare ((dat V c).after 5 t) from by
    unfold Dat.leavesExact; rw [liveAt1_5 t hc5], after_5]
  rw [outsAt_F V c t h1 h5 h3]
  unfold out1_F_5 sout1_F_0 sout1_F_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_F c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_F_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
      unfold owns; iexists _; isplitr
      swap; · iexact HS1
      ipureintro; exact View.read_writes_of_cover _ _ _ _ _ (scover1_F_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_F_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)

set_option maxHeartbeats 4000000 in
/-- The body at a point of case G (the last key tile, above the diagonal): the inputs' buffers hold their blocks, the invariant hands over the two scratches
    at what the point before left in them, so the case's run applies; it returns the scratches with its pieces written, which cover them, and the output block covered by its pieces. -/
theorem sound_G (c : Dev nD) (t : Fin cfg1.N) (h1 : ¬(t.val % 4 = 0)) (h5 : t.val % 4 = 3) (h3 : ¬(t.val % 4 = t.val / 4 % 4)) :
    bodyPre V c t ⊢ wp frame (wpE (defs₀ (F := F)) Variants.none c none) Set.univ (bodyAt1 t) (fun _ => bodyPost V c t) := by
  have hc5 : cond1_5 (grid1.coords t) := (hcond1_5 t).mpr (show t.val % 4 = 3 by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [show (dat V c).leavesExact 5 t = owns (c : Thread nD τ) (ms1_5 t) fullShare ((dat V c).after 5 t) from by
    unfold Dat.leavesExact; rw [liveAt1_5 t hc5], after_5]
  rw [outsAt_G V c t h1 h5 h3]
  unfold out1_G_5 sout1_G_0 sout1_G_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_G c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_G_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
      unfold owns; iexists _; isplitr
      swap; · iexact HS1
      ipureintro; exact View.read_writes_of_cover _ _ _ _ _ (scover1_G_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_G_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)

/-! ## The body obligation -/

/-- The body at any point: its key tile and query tile say which of the seven cases it is in. -/
theorem sound_body (c : Dev nD) (t : Fin cfg1.N) :
    bodyPre V c t ⊢ wp frame (wpE (defs₀ (F := F)) Variants.none c none) Set.univ (bodyAt1 t) (fun _ => bodyPost V c t) := by
  have hN : t.val < 128 := lt_of_lt_of_eq t.isLt (show cfg1.N = 128 from N_1)
  by_cases h1 : t.val % 4 = 0
  · by_cases h3 : t.val % 4 = t.val / 4 % 4
    · exact sound_A V c t h1 h3
    · exact sound_B V c t h1 h3
  · by_cases h5 : t.val % 4 = 3
    · by_cases h3 : t.val % 4 = t.val / 4 % 4
      · exact sound_F V c t h1 h5 h3
      · exact sound_G V c t h1 h5 h3
    · by_cases h2 : t.val % 4 < t.val / 4 % 4
      · exact sound_C V c t h1 h5 h2
      · by_cases h3 : t.val % 4 = t.val / 4 % 4
        · exact sound_D V c t h1 h5 h2 h3
        · exact sound_E V c t h1 h5 h2 h3

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: what the scratches hold is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨Hb0, Hb1, Hb2, Hb3, Hb4, HS0, HS1⟩, Hg⟩
  isplitl [Hb0 Hb1 Hb2 Hb3 Hb4 HS0 HS1]
  · isplitl [Hb0]; · iexact Hb0
    isplitl [Hb1]; · iexact Hb1
    isplitl [Hb2]; · iexact Hb2
    isplitl [Hb3]; · iexact Hb3
    isplitl [Hb4]; · iexact Hb4
    isplitl [HS0]; · iexists _; iexact HS0
    iexists _; iexact HS1
  iexact Hg

/-- The same after the last point. -/
theorem hout (c : Dev nD) : (dat V c).Φ (Fin.last cfg1.N) ⊢ Pipeline.ΦA spec1 c :=
  Phi_out V c _ (by rw [Fin.val_last]; have : cfg1.N = 128 := N_1; omega)

end Cert.KernelIdeal.Attn

end
-- ==== Proof.KernelFinalData.lean ====
/-
  The attention region's proof data meets what the whole program's run asks of it, at any contents of the core's buffers when the
  region is entered: its arrays are the entry contents, the array three windows read is dealt among them by the fixed shares, the
  core owes nothing, the invariant at the region's two ends is the windows' staging state, and the body meets its obligation at
  every grid point. With it the whole program's frame: every weakly fair execution terminates, nothing faulting, and the six
  argument arrays end as launched.
-/
import proofs.«148243_j7679401525936_2_alg».proof.Proof.KernelArgs
import proofs.«148243_j7679401525936_2_alg».proof.Proof.AttnFrame2

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- The attention region's proof data, at every entry contents, is what the launch needs. -/
theorem attnData : AttnData (F := F) (fun V c => Attn.dat V c) where
  A_eq V c w := Attn.A_eq V c w
  shares V c := ⟨rfl, rfl, rfl, rfl, rfl⟩
  owed V c t := rfl
  recorded V c t := rfl
  hin V c := Attn.hin V c
  hout V c := Attn.hout V c
  body V c := Attn.body_obligation V c

/-- From any memory with zero counters every weakly fair execution of @main terminates, nothing faulting, and the six argument
    arrays end as launched. -/
theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ _ attnData

end Cert.KernelIdeal.Run

end
-- ==== Proof.AttnArray.lean ====
/-
  The attention kernel's region, from blocks to arrays: at any contents V of the core's buffers when the region is entered,
  the five input arrays end as they were found, and the output array ends holding, at (batch b, row i, channel n), what the
  body left in the output block after the last key tile of row i's query tile — the point (b, i / 512, 3) — at row i % 512
  and channel n.

  Point t = b·16 + qi·4 + ki reads the query tile's rows 512·qi … 512·qi + 511 (channels 0 … 1023 of the projected rows),
  all the keys (channels 1024 … 2047) and all the values (channels 2048 … 3071) of batch b, the whole output weight and the
  bias; the output block (batch b, rows 512·qi … 512·qi + 511) does not move along ki and is written back at ki = 3 only;
  those 32 blocks cover the output array.
-/
import proofs.«148243_j7679401525936_2_alg».proof.Proof.AttnFrame
import proofs.«148243_j7679401525936_2_alg».proof.Proof.KernelGoal
import Idealize.ShloMosaic.Lib.Pipeline.Value
import Idealize.ShloMosaic.Lib.ValueIdx

set_option maxRecDepth 16384

noncomputable section

namespace Cert.KernelIdeal.Attn

open Cert.KernelIdeal Cert.KernelIdeal.Gen Cert.KernelIdeal.Facts₀
open Idealize.ShloMosaic Idealize.ShloMosaic.TcCoe Idealize.ShloMosaic.ValueIdx
open Idealize.SL Idealize.SL.Sem
open Idealize.ShloMosaic.Pipeline (Dat Cfg Window)
open Cert.KernelSide (tileOf inTile)

variable {F : FTy → Type} [FloatOps F]
variable (V : (c : Dev nD) → (b : Ref sig .tc) → Buf (Elt F) ((c : Thread nD τ).loc b))

/-- The printed index maps, decided over the 128 points (point t = b·16 + qi·4 + ki): the query tile's block and the output
    block are block (b, qi, 0) of their arrays; the keys' and the values' blocks are blocks (b, 0, 1) and (b, 0, 2) of the
    projected rows; the output weight and the bias are read whole. -/
theorem index_facts : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = 0 ∧ win1_1.index t (2 : Fin 3) = 1
    ∧ win1_2.index t (0 : Fin 3) = t.val / 16 ∧ win1_2.index t (1 : Fin 3) = 0 ∧ win1_2.index t (2 : Fin 3) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 16 ∧ win1_5.index t (1 : Fin 3) = t.val / 4 % 4 ∧ win1_5.index t (2 : Fin 3) = 0 :=
  (by decide +kernel : ∀ t : Fin grid1.N, _)

/-! ## The input arrays -/

/-- An input window's array is never written. -/
theorem in_array (c : Dev nD) (w : Fin cfg1.W) (hw : (cfg1.win w).isOut = false) :
    (dat V c).arrAt w cfg1.N = V c (Pipeline.arrRef spec1 w) :=
  ((dat V c).arrAt_in w hw cfg1.N).trans (A_eq V c w)

/-- The windows' arrays: the projected rows (three windows), the output weight, the bias, the output. -/
theorem arrRef_0 : Pipeline.arrRef spec1 0 = main_v9 := rfl
theorem arrRef_1 : Pipeline.arrRef spec1 1 = main_v9 := rfl
theorem arrRef_2 : Pipeline.arrRef spec1 2 = main_v9 := rfl
theorem arrRef_3 : Pipeline.arrRef spec1 3 = main_v11 := rfl
theorem arrRef_4 : Pipeline.arrRef spec1 4 = main_v12 := rfl
theorem arrRef_5 : Pipeline.arrRef spec1 5 = main_v13 := rfl

/-- The projected rows, the output weight and the bias as the region finds them, as functions of their indices. -/
def projArr (c : Dev nD) : S8x2048x3072.Idx → Elt F .bf16 := V c main_v9
def woArr (c : Dev nD) : S1024x1024.Idx → Elt F .bf16 := V c main_v11
def biasArr (c : Dev nD) : S1x1024.Idx → Elt F .f32 := V c main_v12

/-! ## The input blocks at an index -/

/-- The query tile's block at point t: rows 512·qi … of batch b, channels 0 … 1023 of the projected rows. -/
theorem iblk0_apply (c : Dev nD) (t : Fin cfg1.N) (r : Fin 512) (d : Fin 1024) (j : S8x2048x3072.Idx)
    (h0 : (j 0).val = t.val / 16) (h1 : (j 1).val = t.val / 4 % 4 * 512 + r.val) (h2 : (j 2).val = d.val) :
    iblk V c 0 t (ix3 (0 : Fin 1) r d) = projArr V c j := by
  obtain ⟨e0, e1, e2, -⟩ := index_facts t
  show projArr V c (((cfg1.win 0).blk t).view.emb (ix3 (0 : Fin 1) r d)) = _
  refine congrArg (projArr V c) (funext fun a => Fin.ext ?_)
  match a with
  | ⟨0, _⟩ => show win1_0.index t (0 : Fin 3) * 1 + 1 * (0 : Fin 1).val = (j 0).val; rw [h0, e0]; show t.val / 16 * 1 + 1 * 0 = t.val / 16; omega
  | ⟨1, _⟩ => show win1_0.index t (1 : Fin 3) * 512 + 1 * r.val = (j 1).val; rw [h1, e1]; omega
  | ⟨2, _⟩ => show win1_0.index t (2 : Fin 3) * 1024 + 1 * d.val = (j 2).val; rw [h2, e2]; omega

/-- The keys' block at point t: all 2048 rows of batch b, channels 1024 … 2047 of the projected rows. -/
theorem iblk1_apply (c : Dev nD) (t : Fin cfg1.N) (k : Fin 2048) (d : Fin 1024) (j : S8x2048x3072.Idx)
    (h0 : (j 0).val = t.val / 16) (h1 : (j 1).val = k.val) (h2 : (j 2).val = 1024 + d.val) :
    iblk V c 1 t (ix3 (0 : Fin 1) k d) = projArr V c j := by
  obtain ⟨-, -, -, e0, e1, e2, -⟩ := index_facts t
  show projArr V c (((cfg1.win 1).blk t).view.emb (ix3 (0 : Fin 1) k d)) = _
  refine congrArg (projArr V c) (funext fun a => Fin.ext ?_)
  match a with
  | ⟨0, _⟩ => show win1_1.index t (0 : Fin 3) * 1 + 1 * (0 : Fin 1).val = (j 0).val; rw [h0, e0]; show t.val / 16 * 1 + 1 * 0 = t.val / 16; omega
  | ⟨1, _⟩ => show win1_1.index t (1 : Fin 3) * 2048 + 1 * k.val = (j 1).val; rw [h1, e1]; omega
  | ⟨2, _⟩ => show win1_1.index t (2 : Fin 3) * 1024 + 1 * d.val = (j 2).val; rw [h2, e2]; omega

/-- The values' block at point t: all 2048 rows of batch b, channels 2048 … 3071 of the projected rows. -/
theorem iblk2_apply (c : Dev nD) (t : Fin cfg1.N) (k : Fin 2048) (d : Fin 1024) (j : S8x2048x3072.Idx)
    (h0 : (j 0).val = t.val / 16) (h1 : (j 1).val = k.val) (h2 : (j 2).val = 2048 + d.val) :
    iblk V c 2 t (ix3 (0 : Fin 1) k d) = projArr V c j := by
  obtain ⟨-, -, -, -, -, -, e0, e1, e2, -⟩ := index_facts t
  show projArr V c (((cfg1.win 2).blk t).view.emb (ix3 (0 : Fin 1) k d)) = _
  refine congrArg (projArr V c) (funext fun a => Fin.ext ?_)
  match a with
  | ⟨0, _⟩ => show win1_2.index t (0 : Fin 3) * 1 + 1 * (0 : Fin 1).val = (j 0).val; rw [h0, e0]; show t.val / 16 * 1 + 1 * 0 = t.val / 16; omega
  | ⟨1, _⟩ => show win1_2.index t (1 : Fin 3) * 2048 + 1 * k.val = (j 1).val; rw [h1, e1]; omega
  | ⟨2, _⟩ => show win1_2.index t (2 : Fin 3) * 1024 + 1 * d.val = (j 2).val; rw [h2, e2]; omega

/-- The output weight's block is the whole weight, at every point. -/
theorem iblk3_eq (c : Dev nD) (t : Fin cfg1.N) : iblk V c 3 t = woArr V c := by
  obtain ⟨-, -, -, -, -, -, -, -, -, e0, e1, -⟩ := index_facts t
  funext y
  show woArr V c (((cfg1.win 3).blk t).view.emb y) = woArr V c y
  refine congrArg (woArr V c) (funext fun a => Fin.ext ?_)
  match a with
  | ⟨0, _⟩ => show win1_3.index t (0 : Fin 2) * 1024 + 1 * (y 0).val = (y 0).val; rw [e0]; omega
  | ⟨1, _⟩ => show win1_3.index t (1 : Fin 2) * 1024 + 1 * (y 1).val = (y 1).val; rw [e1]; omega

/-- The bias's block is the whole bias, at every point. -/
theorem iblk4_eq (c : Dev nD) (t : Fin cfg1.N) : iblk V c 4 t = biasArr V c := by
  obtain ⟨-, -, -, -, -, -, -, -, -, -, -, e0, e1, -⟩ := index_facts t
  funext y
  show biasArr V c (((cfg1.win 4).blk t).view.emb y) = biasArr V c y
  refine congrArg (biasArr V c) (funext fun a => Fin.ext ?_)
  match a with
  | ⟨0, _⟩ => show win1_4.index t (0 : Fin 2) * 1 + 1 * (y 0).val = (y 0).val; rw [e0]; omega
  | ⟨1, _⟩ => show win1_4.index t (1 : Fin 2) * 1024 + 1 * (y 1).val = (y 1).val; rw [e1]; omega

/-! ## The output array -/

/-- The last key tile's point of batch b and query tile qi. -/
def lastPoint (b : Fin 8) (qi : Fin 4) : Fin cfg1.N :=
  ⟨b.val * 16 + qi.val * 4 + 3, by have := b.isLt; have := qi.isLt; show b.val * 16 + qi.val * 4 + 3 < 128; omega⟩

theorem lastPoint_val (b : Fin 8) (qi : Fin 4) : (lastPoint b qi).val = b.val * 16 + qi.val * 4 + 3 := rfl

/-- What the output array ends holding: at (b, i, n), the output block left after the last key tile of row i's query tile,
    at row i mod 512 and channel n. -/
def outArr (c : Dev nD) : S8x2048x1024.Idx → Elt F .f32 := fun j =>
  (outsAt V c (lastPoint (j 0) (tileOf (j 1))).val (lastPoint (j 0) (tileOf (j 1))).isLt).1 (ix3 (0 : Fin 1) (inTile (j 1)) (j 2))

theorem outArr_ix3 (c : Dev nD) (b : Fin 8) (i : Fin 2048) (n : Fin 1024) :
    outArr V c (ix3 b i n)
      = (outsAt V c (lastPoint b (tileOf i)).val (lastPoint b (tileOf i)).isLt).1 (ix3 (0 : Fin 1) (inTile i) n) := rfl

/-- An index of the output array is in point t's block iff each coordinate is in the block's range on its axis. -/
theorem mem_out_block (t : Fin cfg1.N) (i : S8x2048x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v13).slice (win1_5.rect t)).set ↔ _
  rw [View.set_slice_whole, Rect.mem_set_unit]
  exact Iff.rfl

/-- What a writing point t writes back is block t of that array. -/
theorem flushed_eq (c : Dev nD) (t : Fin cfg1.N) (hf : (cfg1.win 5).flush t = true) :
    (dat V c).flushed 5 t = ((cfg1.win 5).blk t).view.read (Elt F) (outArr V c) := by
  have h3 : t.val % 4 = 3 := (flush1_5 t).mp hf
  have hN : t.val < 128 := t.isLt
  show (cfg1.win 5).cut (grid1.coords t) ((dat V c).after 5 t) = _
  rw [after_5]
  obtain ⟨-, -, -, -, -, -, -, -, -, -, -, -, -, e0, e1, e2⟩ := index_facts t
  funext y
  have hy0 : (y 0).val < 1 := (y 0).isLt
  have hy1 : (y 1).val < 512 := (y 1).isLt
  have hy2 : (y 2).val < 1024 := (y 2).isLt
  have j0 : ((((cfg1.win 5).blk t).view.emb y) 0).val = t.val / 16 := by
    show win1_5.index t (0 : Fin 3) * 1 + 1 * (y 0).val = _; rw [e0]; omega
  have j1 : ((((cfg1.win 5).blk t).view.emb y) 1).val = t.val / 4 % 4 * 512 + (y 1).val := by
    show win1_5.index t (1 : Fin 3) * 512 + 1 * (y 1).val = _; rw [e1]; omega
  have j2 : ((((cfg1.win 5).blk t).view.emb y) 2).val = (y 2).val := by
    show win1_5.index t (2 : Fin 3) * 1024 + 1 * (y 2).val = _; rw [e2]; omega
  have hp : lastPoint ((((cfg1.win 5).blk t).view.emb y) 0) (tileOf ((((cfg1.win 5).blk t).view.emb y) 1)) = t :=
    Fin.ext (by
      show ((((cfg1.win 5).blk t).view.emb y) 0).val * 16 + ((((cfg1.win 5).blk t).view.emb y) 1).val / 512 * 4 + 3 = t.val
      rw [j0, j1]; omega)
  show (outsAt V c t.val t.isLt).1 y
    = (outsAt V c (lastPoint ((((cfg1.win 5).blk t).view.emb y) 0) (tileOf ((((cfg1.win 5).blk t).view.emb y) 1))).val
        (lastPoint ((((cfg1.win 5).blk t).view.emb y) 0) (tileOf ((((cfg1.win 5).blk t).view.emb y) 1))).isLt).1
      (ix3 (0 : Fin 1) (inTile ((((cfg1.win 5).blk t).view.emb y) 1)) ((((cfg1.win 5).blk t).view.emb y) 2))
  rw [hp]
  refine congrArg (outsAt V c t.val t.isLt).1 (funext fun a => Fin.ext ?_)
  match a with
  | ⟨0, _⟩ => show (y 0).val = (0 : Fin 1).val; show (y 0).val = 0; omega
  | ⟨1, _⟩ => show (y 1).val = ((((cfg1.win 5).blk t).view.emb y) 1).val % 512; rw [j1]; omega
  | ⟨2, _⟩ => show (y 2).val = ((((cfg1.win 5).blk t).view.emb y) 2).val; rw [j2]

/-- Every index of the output array is in the block of its batch's and query tile's last point, which writes back. -/
theorem out_cover (i : S8x2048x1024.Idx) : ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 1024 := (i 2).isLt
  obtain ⟨t, ht⟩ : ∃ t : Fin cfg1.N, t.val = (i 0).val * 16 + (i 1).val / 512 * 4 + 3 :=
    ⟨⟨(i 0).val * 16 + (i 1).val / 512 * 4 + 3, by show _ < 128; omega⟩, rfl⟩
  refine ⟨t, (flush1_5 t).mpr (by omega), ?_⟩
  rw [mem_out_block]
  obtain ⟨-, -, -, -, -, -, -, -, -, -, -, -, -, e0, e1, e2⟩ := index_facts t
  intro a
  match a with
  | ⟨0, _⟩ =>
    show win1_5.index t (0 : Fin 3) * 1 ≤ (i 0).val ∧ (i 0).val < win1_5.index t (0 : Fin 3) * 1 + 1
    rw [e0]; omega
  | ⟨1, _⟩ =>
    show win1_5.index t (1 : Fin 3) * 512 ≤ (i 1).val ∧ (i 1).val < win1_5.index t (1 : Fin 3) * 512 + 512
    rw [e1]; omega
  | ⟨2, _⟩ =>
    show win1_5.index t (2 : Fin 3) * 1024 ≤ (i 2).val ∧ (i 2).val < win1_5.index t (2 : Fin 3) * 1024 + 1024
    rw [e2]; omega

/-- The output array after the region. -/
theorem out_array (c : Dev nD) : (dat V c).arrAt 5 cfg1.N = outArr V c :=
  (dat V c).arrAt_eq_of_cover 5 (outArr V c) (flushed_eq V c) out_cover

end Cert.KernelIdeal.Attn

end
-- ==== Proof.AttnPartial.lean ====
/-
  The running row sum and accumulator after the first k key tiles: what the two carried scratches hold between grid points.
  After all four tiles they are the kernel arrangement's row sum and accumulator.
-/
import proofs.«148243_j7679401525936_2_alg».proof.Proof.Spec

noncomputable section

namespace Attn

variable (x : Fin 8 → Fin 2048 → Fin 1024 → EReal) (Wq Wk Wv : Fin 1024 → Fin 1024 → EReal) (a : EReal)

/-- The row sum of query row (qi, r) after the first k key tiles, accumulated from 0. -/
def lP (b : Fin 8) (qi : Fin 4) (r : Fin 512) : ℕ → EReal
  | 0 => 0
  | k + 1 => lP b qi r k + (if h : k < 4 then lC x Wq Wk a b qi r ⟨k, h⟩ else 0)

/-- The accumulator of query row (qi, r), channel d, after the first k key tiles. -/
def accP (b : Fin 8) (qi : Fin 4) (r : Fin 512) (d : Fin 1024) : ℕ → EReal
  | 0 => 0
  | k + 1 => accP b qi r d k + (if h : k < 4 then accC x Wq Wk Wv a b qi r ⟨k, h⟩ d else 0)

theorem lP_zero (b : Fin 8) (qi : Fin 4) (r : Fin 512) : lP x Wq Wk a b qi r 0 = 0 := rfl
theorem lP_succ (b : Fin 8) (qi : Fin 4) (r : Fin 512) (k : Fin 4) :
    lP x Wq Wk a b qi r (k.val + 1) = lP x Wq Wk a b qi r k.val + lC x Wq Wk a b qi r k := by
  obtain ⟨k, hk⟩ := k
  show lP x Wq Wk a b qi r k + (if h : k < 4 then lC x Wq Wk a b qi r ⟨k, h⟩ else 0) = _
  rw [dif_pos hk]
theorem accP_zero (b : Fin 8) (qi : Fin 4) (r : Fin 512) (d : Fin 1024) : accP x Wq Wk Wv a b qi r d 0 = 0 := rfl
theorem accP_succ (b : Fin 8) (qi : Fin 4) (r : Fin 512) (d : Fin 1024) (k : Fin 4) :
    accP x Wq Wk Wv a b qi r d (k.val + 1) = accP x Wq Wk Wv a b qi r d k.val + accC x Wq Wk Wv a b qi r k d := by
  obtain ⟨k, hk⟩ := k
  show accP x Wq Wk Wv a b qi r d k + (if h : k < 4 then accC x Wq Wk Wv a b qi r ⟨k, h⟩ d else 0) = _
  rw [dif_pos hk]

/-- After the four tiles the running row sum is the kernel arrangement's. -/
theorem lP_four (b : Fin 8) (qi : Fin 4) (r : Fin 512) : lP x Wq Wk a b qi r 4 = lK x Wq Wk a b qi r := by
  show lP x Wq Wk a b qi r ((3 : Fin 4).val + 1) = _
  rw [lP_succ, show ((3 : Fin 4).val) = (2 : Fin 4).val + 1 from rfl, lP_succ, show ((2 : Fin 4).val) = (1 : Fin 4).val + 1 from rfl,
    lP_succ, show ((1 : Fin 4).val) = (0 : Fin 4).val + 1 from rfl, lP_succ]
  rfl

/-- After the four tiles the running accumulator is the kernel arrangement's. -/
theorem accP_four (b : Fin 8) (qi : Fin 4) (r : Fin 512) (d : Fin 1024) :
    accP x Wq Wk Wv a b qi r d 4 = accK x Wq Wk Wv a b qi r d := by
  show accP x Wq Wk Wv a b qi r d ((3 : Fin 4).val + 1) = _
  rw [accP_succ, show ((3 : Fin 4).val) = (2 : Fin 4).val + 1 from rfl, accP_succ, show ((2 : Fin 4).val) = (1 : Fin 4).val + 1 from rfl,
    accP_succ, show ((1 : Fin 4).val) = (0 : Fin 4).val + 1 from rfl, accP_succ]
  rfl

end Attn

end
-- ==== Proof.LibRowOps.lean ====
/-
  Row operations on a two-axis array, read at one entry.

  A matrix with `a` rows and `b` columns meets four operations whenever a quantity is computed per row and
  spread back over the row: the sum of a row (a reduction along the second axis), the column of per-row
  values viewed as an `a × 1` matrix, that column spread across the `b` columns, and a product of two matrices
  that contracts the second axis of both (each entry is the inner product of a row of the left operand
  with a row of the right one).  Each lemma says what the result holds at row `r` and column `c`.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

variable {α : Type}

/-- A vector of `a` entries viewed as an `a × 1` column holds entry `r` at `(r, 0)`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- An `a × 1` column spread over `b` columns holds, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the exact values the sum along the second axis, read at row `r`, is the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  apply Fin.ext
  match ax with
  | ⟨0, _⟩ => rfl
  | ⟨1, _⟩ => rfl

/-- `(l · rᵀ)[p, j] = ∑ k, l[p,k] · r[j,k]`: a product into the zero accumulator that contracts the second axis
    of both operands, so that its left operand index at output `i` and contraction position `q` is `(i 0, q)`
    and its right operand index is `(i 1, q)`. -/
theorem matmul_rows_zero_apply {M K N : ℕ} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (prec : Option ContractPrecision) (l : FVec Ideal ⟨2, ![M, K]⟩ φ₁) (r : FVec Ideal ⟨2, ![N, K]⟩ φ₂)
    (p : Fin M) (j : Fin N) :
    matmul D prec l r (constant (F := Ideal) ⟨2, ![M, N]⟩ .f32 0x00000000#32) (ix2 p j)
      = ∑ k : Fin K, l (ix2 p k) * r (ix2 j k) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

end Cert.LibRowOps

end
-- ==== Proof.AttnPayScore.lean ====
/-
  The score tile of the attention kernel, read at one entry.

  The kernel holds a block of 512 query rows and a tile of 512 key rows, each row with 1024 channels.  It transposes the
  key tile to 1024 × 512 and multiplies the 512 × 1024 query block by it into a zero accumulator, so the entry at
  (query row r, key row jj) is the inner product of the two rows: S r jj = ∑ d, Q r d · K jj d.
-/
import proofs.«148243_j7679401525936_2_alg».proof.Proof.Gen.KernelIdeal.Skeleton
import proofs.«148243_j7679401525936_2_alg».proof.Proof.LibMatmulRows
import proofs.«148243_j7679401525936_2_alg».proof.Proof.LibRowOps
import Idealize.ShloMosaic.Lib.ValueLayout

noncomputable section

open scoped BigOperators

namespace Cert.KernelIdeal.AttnValue

open Cert.KernelIdeal Cert.KernelIdeal.Gen Idealize.ShloMosaic Idealize.ShloMosaic.ValueIdx

/-! The coordinate facts of the dimension record `dot_S512x1024_S1024x512_S512x512_1_0_0_1_n_n`: a plain row-by-column product. -/

theorem dotS_rank : dot_S512x1024_S1024x512_S512x512_1_0_0_1_n_n.contr.rank = 1 := rfl
theorem dotS_l0 (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem dotS_l1 (i : S512x512.Idx) (q : dot_S512x1024_S1024x512_S512x512_1_0_0_1_n_n.contr.Idx) : (dot_S512x1024_S1024x512_S512x512_1_0_0_1_n_n.lhsIdx i q 1).val = (q ⟨0, by decide⟩).val :=
  dot_S512x1024_S1024x512_S512x512_1_0_0_1_n_n.lhsIdx_val_of_single rfl i q
theorem dotS_r0 (i : S512x512.Idx) (q : dot_S512x1024_S1024x512_S512x512_1_0_0_1_n_n.contr.Idx) : (dot_S512x1024_S1024x512_S512x512_1_0_0_1_n_n.rhsIdx i q 0).val = (q ⟨0, by decide⟩).val :=
  dot_S512x1024_S1024x512_S512x512_1_0_0_1_n_n.rhsIdx_val_of_single rfl i q
theorem dotS_r1 (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The inner product of query row `r` of the loaded query block with key row `jj` of the loaded key tile. -/
def score (v3 v8 : Vec Ideal S1x512x1024 .bf16) (r jj : Fin 512) : EReal :=
  ∑ d : Fin 1024, v3 (ix3 (0 : Fin 1) r d) * v8 (ix3 (0 : Fin 1) jj d)

/-- The product of the query block by the transposed key tile into a zero accumulator, at (r, jj), is the score. -/
theorem scoreTile_apply (v3 v8 : Vec Ideal S1x512x1024 .bf16) (r jj : Fin 512) :
    matmul dot_S512x1024_S1024x512_S512x512_1_0_0_1_n_n none (k1_pay3 (F := Ideal) v3)
        (transpose S1024x512 [1, 0] (k1_pay4 (F := Ideal) v8) transposes_S512x1024_p1_0_S1024x512)
        (constant (F := Ideal) S512x512 .f32 0x00000000#32) (ix2 r jj)
      = score v3 v8 r jj := by
  refine (Cert.LibMatmulRows.matmul_zero_apply dot_S512x1024_S1024x512_S512x512_1_0_0_1_n_n dotS_rank rfl dotS_l0 dotS_l1 dotS_r0 dotS_r1 none _ _ r jj).trans ?_
  unfold score
  refine Finset.sum_congr rfl fun d _ => ?_
  rw [transpose_ix2_apply]
  unfold k1_pay3 k1_pay4
  rw [shapeCast_1ab_ab_apply, shapeCast_1ab_ab_apply]

/-- The score payload at (r, jj). -/
theorem pay6_apply (v3 v8 : Vec Ideal S1x512x1024 .bf16) (r jj : Fin 512) :
    k1_pay6 (F := Ideal) v3 v8 (ix2 r jj) = score v3 v8 r jj :=
  scoreTile_apply v3 v8 r jj

end Cert.KernelIdeal.AttnValue

end
-- ==== Proof.AttnPayBelow.lean ====
/-
  What a key tile strictly below the diagonal adds to the running row sum and to the running accumulator.

  The row sum: the 512 scores of query row r against the tile's keys are summed along the key axis, the vector of the 512
  row sums is viewed as a 512 × 1 column and added to the running column.  The accumulator: the score tile (rounded to
  the product unit's input format, which at the exact values changes nothing) is multiplied by the 512 × 1024 tile of value
  rows into a zero accumulator and the product is added to the running 512 × 1024 accumulator.
-/
import proofs.«148243_j7679401525936_2_alg».proof.Proof.AttnPayScore

noncomputable section

open scoped BigOperators

namespace Cert.KernelIdeal.AttnValue

open Cert.KernelIdeal Cert.KernelIdeal.Gen Idealize.ShloMosaic Idealize.ShloMosaic.ValueIdx

/-! The coordinate facts of the dimension record `dot_S512x512_S512x1024_S512x1024_1_0_0_1_n_n`: a plain row-by-column product. -/

theorem dotV_rank : dot_S512x512_S512x1024_S512x1024_1_0_0_1_n_n.contr.rank = 1 := rfl
theorem dotV_l0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem dotV_l1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem dotV_r0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem dotV_r1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The row sum after a tile below the diagonal: the running value plus the sum of the row's 512 scores. -/
theorem pay7_apply (v3 v8 : Vec Ideal S1x512x1024 .bf16) (v27 : Vec Ideal S512x1 .f32) (r : Fin 512) (z : Fin 1) :
    k1_pay7 (F := Ideal) v3 v8 v27 (ix2 r z) = v27 (ix2 r z) + ∑ jj : Fin 512, score v3 v8 r jj := by
  simp only [k1_pay7, shapeCast_self]
  rw [addf_apply, Cert.LibRowOps.shapeCast_a_a1_apply]
  refine congrArg (fun t => v27 (ix2 r z) + t) ?_
  refine (Cert.LibRowOps.rowSum_apply _ _ _ _ r).trans ?_
  exact Finset.sum_congr rfl fun jj _ => pay6_apply v3 v8 r jj

/-- A weight tile times the tile of value rows into a zero accumulator, at (r, d): ∑ jj, w r jj · V jj d. -/
theorem weightedValues_apply (w : FVec Ideal S512x512 .f32) (v11 : Vec Ideal S1x512x1024 .bf16) (r : Fin 512) (d : Fin 1024) :
    matmul dot_S512x512_S512x1024_S512x1024_1_0_0_1_n_n none (truncf .bf16 w bitsLt_bf16_f32) (k1_pay5 (F := Ideal) v11)
        (constant (F := Ideal) S512x1024 .f32 0x00000000#32) (ix2 r d)
      = ∑ jj : Fin 512, w (ix2 r jj) * v11 (ix3 (0 : Fin 1) jj d) := by
  refine (Cert.LibMatmulRows.matmul_zero_apply dot_S512x512_S512x1024_S512x1024_1_0_0_1_n_n dotV_rank rfl dotV_l0 dotV_l1 dotV_r0 dotV_r1 none _ _ r d).trans ?_
  refine Finset.sum_congr rfl fun jj _ => ?_
  unfold k1_pay5
  rw [truncf_apply, shapeCast_1ab_ab_apply]

/-- The accumulator after a tile below the diagonal: the running value plus ∑ jj, S r jj · V jj d. -/
theorem pay8_apply (v3 v8 v11 : Vec Ideal S1x512x1024 .bf16) (v34 : Vec Ideal S512x1024 .f32) (r : Fin 512) (d : Fin 1024) :
    k1_pay8 (F := Ideal) v3 v8 v11 v34 (ix2 r d)
      = v34 (ix2 r d) + ∑ jj : Fin 512, score v3 v8 r jj * v11 (ix3 (0 : Fin 1) jj d) := by
  simp only [k1_pay8, shapeCast_self]
  rw [addf_apply, weightedValues_apply]
  refine congrArg (fun t => v34 (ix2 r d) + t) ?_
  exact Finset.sum_congr rfl fun jj _ => by rw [pay6_apply]

end Cert.KernelIdeal.AttnValue

end
-- ==== Proof.AttnPayDiag.lean ====
/-
  What the diagonal key tile adds to the running row sum and accumulator, and the starting values.

  On the diagonal tile (key tile number = query tile number) the kernel compares, entry by entry, the query's row number
  tile·512 + r with the key's row number tile·512 + jj, both formed on 32-bit words and compared as signed integers; the tile
  number is below 4, so both numbers are below 2048 and neither the products, the sums nor the signed reading wrap.  Where
  the key is at or before the query (jj ≤ r) the score is kept, elsewhere it is replaced by −1.  The masked tile is then
  used exactly as a tile below the diagonal uses its scores.  Before the first key tile the row sum and the accumulator
  are set to zero.
-/
import proofs.«148243_j7679401525936_2_alg».proof.Proof.AttnPayBelow
import proofs.«148243_j7679401525936_2_alg».proof.Proof.Consts
import Idealize.ShloMosaic.Lib.Affine

noncomputable section

open scoped BigOperators

namespace Cert.KernelIdeal.AttnValue

open Cert.KernelIdeal Cert.KernelIdeal.Gen Idealize.ShloMosaic Idealize.ShloMosaic.ValueIdx

/-- A number below 2048, as a 32-bit word read signed, is itself. -/
theorem toInt_ofNat32 (n : Nat) (h : n < 2048) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The word of a tile number times the word of 512 plus the word of a position is the word of tile·512 + position. -/
theorem tileWord (t p : Nat) :
    IntOp.addi (Scalar.muli (BitVec.ofNat 32 t) 512#32) (BitVec.ofNat 32 p) = BitVec.ofNat 32 (t * 512 + p) := by
  show BitVec.ofNat 32 t * BitVec.ofNat 32 512 + BitVec.ofNat 32 p = _
  rw [← BitVec.ofNat_mul, ← BitVec.ofNat_add]

/-- Inside tile t < 4 the signed comparison "row number ≥ column number" holds exactly when jj ≤ r. -/
theorem diagMask_word (t : Nat) (ht : t < 4) (r jj : Fin 512) :
    IntOp.cmpi .sge (BitVec.ofNat 32 (t * 512 + r.val)) (BitVec.ofNat 32 (t * 512 + jj.val)) = 1#1 ↔ jj.val ≤ r.val := by
  have hr := r.isLt
  have hj := jj.isLt
  rw [IntOp.cmpi_sge, toInt_ofNat32 _ (by omega), toInt_ofNat32 _ (by omega)]
  omega

/-- The score the diagonal tile uses at (r, jj): the score where jj ≤ r, −1 elsewhere. -/
def diagScore (v3 v8 : Vec Ideal S1x512x1024 .bf16) (r jj : Fin 512) : EReal :=
  if jj.val ≤ r.val then score v3 v8 r jj else -1

/-- The masked score payload on the diagonal tile. -/
theorem pay9_apply (i : grid1.Coords) (hd : (i 1).val = (i 2).val) (v3 v8 : Vec Ideal S1x512x1024 .bf16) (r jj : Fin 512) :
    k1_pay9 (F := Ideal) i v3 v8 (ix2 r jj) = diagScore v3 v8 r jj := by
  have hq : (i 1).val < 4 := (i 1).isLt
  simp only [k1_pay9]
  rw [select_apply, scoreTile_apply, broadcast_apply]
  change Scalar.select (IntOp.cmpi .sge
      (IntOp.addi (Scalar.muli (BitVec.ofNat 32 (i 1).val) 512#32) (iota .tc S512x512 32 [0] iota_S512x512_d0_w32 (ix2 r jj)))
      (IntOp.addi (Scalar.muli (BitVec.ofNat 32 (i 2).val) 512#32) (iota .tc S512x512 32 [1] iota_S512x512_d1_w32 (ix2 r jj))))
    _ _ = _
  rw [iota_single_apply, iota_single_apply, tileWord, tileWord, ← hd]
  change Scalar.select (IntOp.cmpi .sge (BitVec.ofNat 32 ((i 1).val * 512 + r.val)) (BitVec.ofNat 32 ((i 1).val * 512 + jj.val)))
    _ _ = _
  unfold diagScore
  by_cases h : jj.val ≤ r.val
  · rw [if_pos h, (diagMask_word _ hq r jj).mpr h, select_one]
  · rw [if_neg h, eq_zero_of_ne_one (fun e => h ((diagMask_word _ hq r jj).mp e)), select_zero]
    exact Attn.negOne_word

/-- The row sum after the diagonal tile: the running value plus the sum of the row's 512 masked scores. -/
theorem pay10_apply (i : grid1.Coords) (hd : (i 1).val = (i 2).val) (v3 v8 : Vec Ideal S1x512x1024 .bf16)
    (v38 : Vec Ideal S512x1 .f32) (r : Fin 512) (z : Fin 1) :
    k1_pay10 (F := Ideal) i v3 v8 v38 (ix2 r z) = v38 (ix2 r z) + ∑ jj : Fin 512, diagScore v3 v8 r jj := by
  simp only [k1_pay10, shapeCast_self]
  rw [addf_apply, Cert.LibRowOps.shapeCast_a_a1_apply]
  refine congrArg (fun t => v38 (ix2 r z) + t) ?_
  refine (Cert.LibRowOps.rowSum_apply _ _ _ _ r).trans ?_
  exact Finset.sum_congr rfl fun jj _ => pay9_apply i hd v3 v8 r jj

/-- The accumulator after the diagonal tile: the running value plus ∑ jj, (masked score) r jj · V jj d. -/
theorem pay11_apply (i : grid1.Coords) (hd : (i 1).val = (i 2).val) (v3 v8 v11 : Vec Ideal S1x512x1024 .bf16)
    (v45 : Vec Ideal S512x1024 .f32) (r : Fin 512) (d : Fin 1024) :
    k1_pay11 (F := Ideal) i v3 v8 v11 v45 (ix2 r d)
      = v45 (ix2 r d) + ∑ jj : Fin 512, diagScore v3 v8 r jj * v11 (ix3 (0 : Fin 1) jj d) := by
  simp only [k1_pay11, shapeCast_self]
  rw [addf_apply, weightedValues_apply]
  refine congrArg (fun t => v45 (ix2 r d) + t) ?_
  exact Finset.sum_congr rfl fun jj _ => by rw [pay9_apply i hd]

/-- The row sum starts at zero. -/
theorem pay1_apply (j : S512x1.Idx) : k1_pay1 (F := Ideal) j = 0 := by
  simp only [k1_pay1, shapeCast_self]
  rw [broadcast_apply]
  exact Ideal.ofBits_zero_f32

/-- The accumulator starts at zero. -/
theorem pay2_apply (j : S512x1024.Idx) : k1_pay2 (F := Ideal) j = 0 := by
  simp only [k1_pay2, shapeCast_self]
  rw [broadcast_apply]
  exact Ideal.ofBits_zero_f32

end Cert.KernelIdeal.AttnValue

end
-- ==== Proof.AttnPayAbove.lean ====
/-
  What a key tile strictly above the diagonal adds to the running row sum and accumulator, and the final step.

  Above the diagonal every one of the tile's 512 scores counts as −1: the row sum gets −512 and the accumulator gets, at
  channel d, zero minus the sum over the tile's 512 value rows of their channel d (one row of column sums, spread over the
  512 query rows).  The final step divides the accumulator by the row sum plus the offset (the 512 × 1 column spread over
  the 1024 channels), multiplies the 512 × 1024 quotient by the 1024 × 1024 output weight into a zero accumulator, adds
  the bias row spread over the 512 rows, and views the result as a 1 × 512 × 1024 block.
-/
import proofs.«148243_j7679401525936_2_alg».proof.Proof.AttnPayScore
import proofs.«148243_j7679401525936_2_alg».proof.Proof.Consts

noncomputable section

open scoped BigOperators

namespace Cert.KernelIdeal.AttnValue

open Cert.KernelIdeal Cert.KernelIdeal.Gen Idealize.ShloMosaic Idealize.ShloMosaic.ValueIdx

/-! The coordinate facts of the dimension record `dot_S512x1024_S1024x1024_S512x1024_1_0_0_1_n_n`: a plain row-by-column product. -/

theorem dotO_rank : dot_S512x1024_S1024x1024_S512x1024_1_0_0_1_n_n.contr.rank = 1 := rfl
theorem dotO_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dotO_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem dotO_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem dotO_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- At the exact values the sum along the first axis, read at column `c`, is the sum of that column's entries. -/
theorem colSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  refine Finset.sum_congr rfl fun k _ => congrArg src ?_
  funext ax
  apply Fin.ext
  match ax with
  | ⟨0, _⟩ => rfl
  | ⟨1, _⟩ => rfl

/-- The row sum after a tile above the diagonal: the running value plus −512. -/
theorem pay12_apply (v28 : Vec Ideal S512x1 .f32) (r : Fin 512) (z : Fin 1) :
    k1_pay12 (F := Ideal) v28 (ix2 r z) = v28 (ix2 r z) + (-512) := by
  simp only [k1_pay12, shapeCast_self]
  rw [addf_apply, broadcast_apply]
  show v28 (ix2 r z) + Ideal.ofBits .f32 0xC4000000#32 = _
  rw [Attn.neg512_word]

/-- The accumulator after a tile above the diagonal, exactly as computed: the running value plus (0 − the column sum of the
    tile's value rows). -/
theorem pay13_apply_sub (v11 : Vec Ideal S1x512x1024 .bf16) (v34 : Vec Ideal S512x1024 .f32) (r : Fin 512) (d : Fin 1024) :
    k1_pay13 (F := Ideal) v11 v34 (ix2 r d) = v34 (ix2 r d) + (0 - ∑ jj : Fin 512, v11 (ix3 (0 : Fin 1) jj d)) := by
  simp only [k1_pay13, shapeCast_self]
  rw [addf_apply, broadcastTo_1b_ab_apply, subf_apply, broadcast_apply, shapeCast_a_1a_apply]
  refine congrArg (fun t => v34 (ix2 r d) + t) ?_
  show Ideal.ofBits .f32 0x00000000#32 - _ = _
  rw [Ideal.ofBits_zero_f32]
  refine congrArg (fun t => (0 : EReal) - t) ?_
  refine (colSum_apply _ _ _ _ d).trans ?_
  refine Finset.sum_congr rfl fun jj _ => ?_
  unfold k1_pay5
  rw [extf_apply, shapeCast_1ab_ab_apply]

/-- The same with the subtraction from zero written as a negation. -/
theorem pay13_apply (v11 : Vec Ideal S1x512x1024 .bf16) (v34 : Vec Ideal S512x1024 .f32) (r : Fin 512) (d : Fin 1024) :
    k1_pay13 (F := Ideal) v11 v34 (ix2 r d) = v34 (ix2 r d) + -(∑ jj : Fin 512, v11 (ix3 (0 : Fin 1) jj d)) := by
  rw [pay13_apply_sub, zero_sub]

/-- The final step at (row r, output channel n): the quotients acc / (l + e) against the output weight, plus the bias. -/
theorem pay14_apply (v25 : Vec Ideal S512x1024 .f32) (v26 : Vec Ideal S512x1 .f32) (v32 : Vec Ideal S1024x1024 .bf16)
    (v35 : Vec Ideal S1x1024 .f32) (u : Fin 1) (r : Fin 512) (n : Fin 1024) :
    k1_pay14 (F := Ideal) v25 v26 v32 v35 (ix3 u r n)
      = (∑ c : Fin 1024, Ideal.div (v25 (ix2 r c)) (v26 (ix2 r (0 : Fin 1)) + Attn.eW) * v32 (ix2 c n))
          + v35 (ix2 (0 : Fin 1) n) := by
  simp only [k1_pay14, shapeCast_self]
  rw [shapeCast_ab_1ab_apply, addf_apply, broadcastTo_1b_ab_apply]
  refine congrArg (fun t => t + v35 (ix2 (0 : Fin 1) n)) ?_
  refine (Cert.LibMatmulRows.matmul_zero_apply (φ₁ := .bf16) (φ₂ := .bf16) dot_S512x1024_S1024x1024_S512x1024_1_0_0_1_n_n dotO_rank rfl dotO_l0 dotO_l1 dotO_r0 dotO_r1 none _ _ r n).trans ?_
  refine Finset.sum_congr rfl fun c _ => ?_
  rw [truncf_apply, divf_apply, Cert.LibRowOps.broadcastTo_a1_ab_apply, addf_apply, broadcast_apply]
  rfl

end Cert.KernelIdeal.AttnValue

end
-- ==== Proof.AttnStep.lean ====
/-
  The kernel's steps in the terms of the two arrangements of the computation.

  Fix a batch b, a query tile qi and a key tile ki, and suppose the loaded query block holds the rows of q of tile qi, the
  loaded key tile the rows of k of tile ki, the loaded value tile the rows of v of tile ki.  Then the score tile is the score
  of the kernel's arrangement at those rows, and each of the three kinds of step (key tile below, on, above the diagonal)
  adds to the running row sum and to the running accumulator exactly the tile's contribution lC, accC of that
  arrangement.  Four such steps from zero give lK and accK, and the final step gives the output outK.
-/
import proofs.«148243_j7679401525936_2_alg».proof.Proof.AttnPayDiag
import proofs.«148243_j7679401525936_2_alg».proof.Proof.AttnPayAbove
import proofs.«148243_j7679401525936_2_alg».proof.Proof.Spec

noncomputable section

open scoped BigOperators

namespace Cert.KernelIdeal.AttnValue

open Cert.KernelIdeal Cert.KernelIdeal.Gen Idealize.ShloMosaic Idealize.ShloMosaic.ValueIdx

/-- The score tile holds the kernel arrangement's scores of query tile qi against key tile ki. -/
theorem score_eq (x : Fin 8 → Fin 2048 → Fin 1024 → EReal) (Wq Wk : Fin 1024 → Fin 1024 → EReal) (a : EReal) (b : Fin 8) (qi ki : Fin 4)
    (v3 v8 : Vec Ideal S1x512x1024 .bf16)
    (hQ : ∀ (r : Fin 512) (d : Fin 1024), v3 (ix3 (0 : Fin 1) r d) = Attn.qK x Wq a b (Attn.row qi r) d)
    (hK : ∀ (jj : Fin 512) (d : Fin 1024), v8 (ix3 (0 : Fin 1) jj d) = Attn.kK x Wk a b (Attn.row ki jj) d)
    (r jj : Fin 512) :
    score v3 v8 r jj = Attn.sK x Wq Wk a b (Attn.row qi r) (Attn.row ki jj) := by
  unfold score Attn.sK
  exact Finset.sum_congr rfl fun d _ => by rw [hQ, hK]

/-- On the diagonal tile the masked score is the arrangement's diagonal score. -/
theorem diag_eq (x : Fin 8 → Fin 2048 → Fin 1024 → EReal) (Wq Wk : Fin 1024 → Fin 1024 → EReal) (a : EReal) (b : Fin 8) (qi ki : Fin 4)
    (v3 v8 : Vec Ideal S1x512x1024 .bf16)
    (hQ : ∀ (r : Fin 512) (d : Fin 1024), v3 (ix3 (0 : Fin 1) r d) = Attn.qK x Wq a b (Attn.row qi r) d)
    (hK : ∀ (jj : Fin 512) (d : Fin 1024), v8 (ix3 (0 : Fin 1) jj d) = Attn.kK x Wk a b (Attn.row ki jj) d)
    (h : ki = qi) (r jj : Fin 512) :
    diagScore v3 v8 r jj = Attn.dK x Wq Wk a b qi r jj := by
  unfold diagScore Attn.dK
  rw [score_eq x Wq Wk a b qi ki v3 v8 hQ hK r jj, h]

/-- A key tile below the diagonal adds its contribution to the row sum. -/
theorem below_l (x : Fin 8 → Fin 2048 → Fin 1024 → EReal) (Wq Wk : Fin 1024 → Fin 1024 → EReal) (a : EReal) (b : Fin 8) (qi ki : Fin 4)
    (v3 v8 : Vec Ideal S1x512x1024 .bf16)
    (hQ : ∀ (r : Fin 512) (d : Fin 1024), v3 (ix3 (0 : Fin 1) r d) = Attn.qK x Wq a b (Attn.row qi r) d)
    (hK : ∀ (jj : Fin 512) (d : Fin 1024), v8 (ix3 (0 : Fin 1) jj d) = Attn.kK x Wk a b (Attn.row ki jj) d)
    (h : ki.val < qi.val) (v27 : Vec Ideal S512x1 .f32) (r : Fin 512) (z : Fin 1) :
    k1_pay7 (F := Ideal) v3 v8 v27 (ix2 r z) = v27 (ix2 r z) + Attn.lC x Wq Wk a b qi r ki := by
  rw [pay7_apply]
  unfold Attn.lC
  rw [if_pos h]
  exact congrArg (fun t => v27 (ix2 r z) + t)
    (Finset.sum_congr rfl fun jj _ => score_eq x Wq Wk a b qi ki v3 v8 hQ hK r jj)

/-- A key tile below the diagonal adds its contribution to the accumulator. -/
theorem below_acc (x : Fin 8 → Fin 2048 → Fin 1024 → EReal) (Wq Wk Wv : Fin 1024 → Fin 1024 → EReal) (a : EReal) (b : Fin 8) (qi ki : Fin 4)
    (v3 v8 v11 : Vec Ideal S1x512x1024 .bf16)
    (hQ : ∀ (r : Fin 512) (d : Fin 1024), v3 (ix3 (0 : Fin 1) r d) = Attn.qK x Wq a b (Attn.row qi r) d)
    (hK : ∀ (jj : Fin 512) (d : Fin 1024), v8 (ix3 (0 : Fin 1) jj d) = Attn.kK x Wk a b (Attn.row ki jj) d)
    (hV : ∀ (jj : Fin 512) (d : Fin 1024), v11 (ix3 (0 : Fin 1) jj d) = Attn.vK x Wv b (Attn.row ki jj) d)
    (h : ki.val < qi.val) (v34 : Vec Ideal S512x1024 .f32) (r : Fin 512) (d : Fin 1024) :
    k1_pay8 (F := Ideal) v3 v8 v11 v34 (ix2 r d) = v34 (ix2 r d) + Attn.accC x Wq Wk Wv a b qi r ki d := by
  rw [pay8_apply]
  unfold Attn.accC
  rw [if_pos h]
  exact congrArg (fun t => v34 (ix2 r d) + t)
    (Finset.sum_congr rfl fun jj _ => by rw [score_eq x Wq Wk a b qi ki v3 v8 hQ hK r jj, hV])

/-- The diagonal key tile adds its contribution to the row sum. -/
theorem diag_l (x : Fin 8 → Fin 2048 → Fin 1024 → EReal) (Wq Wk : Fin 1024 → Fin 1024 → EReal) (a : EReal) (b : Fin 8) (qi ki : Fin 4)
    (v3 v8 : Vec Ideal S1x512x1024 .bf16)
    (hQ : ∀ (r : Fin 512) (d : Fin 1024), v3 (ix3 (0 : Fin 1) r d) = Attn.qK x Wq a b (Attn.row qi r) d)
    (hK : ∀ (jj : Fin 512) (d : Fin 1024), v8 (ix3 (0 : Fin 1) jj d) = Attn.kK x Wk a b (Attn.row ki jj) d)
    (i : grid1.Coords) (hi1 : (i 1).val = qi.val) (hi2 : (i 2).val = ki.val) (h : ki = qi)
    (v38 : Vec Ideal S512x1 .f32) (r : Fin 512) (z : Fin 1) :
    k1_pay10 (F := Ideal) i v3 v8 v38 (ix2 r z) = v38 (ix2 r z) + Attn.lC x Wq Wk a b qi r ki := by
  rw [pay10_apply i (by rw [hi1, hi2, h])]
  unfold Attn.lC
  rw [if_neg (by rw [h]; exact lt_irrefl _), if_pos (by rw [h])]
  exact congrArg (fun t => v38 (ix2 r z) + t)
    (Finset.sum_congr rfl fun jj _ => diag_eq x Wq Wk a b qi ki v3 v8 hQ hK h r jj)

/-- The diagonal key tile adds its contribution to the accumulator. -/
theorem diag_acc (x : Fin 8 → Fin 2048 → Fin 1024 → EReal) (Wq Wk Wv : Fin 1024 → Fin 1024 → EReal) (a : EReal) (b : Fin 8) (qi ki : Fin 4)
    (v3 v8 v11 : Vec Ideal S1x512x1024 .bf16)
    (hQ : ∀ (r : Fin 512) (d : Fin 1024), v3 (ix3 (0 : Fin 1) r d) = Attn.qK x Wq a b (Attn.row qi r) d)
    (hK : ∀ (jj : Fin 512) (d : Fin 1024), v8 (ix3 (0 : Fin 1) jj d) = Attn.kK x Wk a b (Attn.row ki jj) d)
    (hV : ∀ (jj : Fin 512) (d : Fin 1024), v11 (ix3 (0 : Fin 1) jj d) = Attn.vK x Wv b (Attn.row ki jj) d)
    (i : grid1.Coords) (hi1 : (i 1).val = qi.val) (hi2 : (i 2).val = ki.val) (h : ki = qi)
    (v45 : Vec Ideal S512x1024 .f32) (r : Fin 512) (d : Fin 1024) :
    k1_pay11 (F := Ideal) i v3 v8 v11 v45 (ix2 r d) = v45 (ix2 r d) + Attn.accC x Wq Wk Wv a b qi r ki d := by
  rw [pay11_apply i (by rw [hi1, hi2, h])]
  unfold Attn.accC
  rw [if_neg (by rw [h]; exact lt_irrefl _), if_pos (by rw [h])]
  refine congrArg (fun t => v45 (ix2 r d) + t) (Finset.sum_congr rfl fun jj _ => ?_)
  rw [diag_eq x Wq Wk a b qi ki v3 v8 hQ hK h r jj, hV, h]

/-- A key tile above the diagonal adds its contribution (−512) to the row sum. -/
theorem above_l (x : Fin 8 → Fin 2048 → Fin 1024 → EReal) (Wq Wk : Fin 1024 → Fin 1024 → EReal) (a : EReal) (b : Fin 8) (qi ki : Fin 4)
    (h : qi.val < ki.val) (v28 : Vec Ideal S512x1 .f32) (r : Fin 512) (z : Fin 1) :
    k1_pay12 (F := Ideal) v28 (ix2 r z) = v28 (ix2 r z) + Attn.lC x Wq Wk a b qi r ki := by
  rw [pay12_apply]
  unfold Attn.lC
  rw [if_neg (by omega), if_neg (by omega)]

/-- A key tile above the diagonal adds its contribution (minus the column sums of its value rows) to the accumulator. -/
theorem above_acc (x : Fin 8 → Fin 2048 → Fin 1024 → EReal) (Wq Wk Wv : Fin 1024 → Fin 1024 → EReal) (a : EReal) (b : Fin 8) (qi ki : Fin 4)
    (v11 : Vec Ideal S1x512x1024 .bf16)
    (hV : ∀ (jj : Fin 512) (d : Fin 1024), v11 (ix3 (0 : Fin 1) jj d) = Attn.vK x Wv b (Attn.row ki jj) d)
    (h : qi.val < ki.val) (v34 : Vec Ideal S512x1024 .f32) (r : Fin 512) (d : Fin 1024) :
    k1_pay13 (F := Ideal) v11 v34 (ix2 r d) = v34 (ix2 r d) + Attn.accC x Wq Wk Wv a b qi r ki d := by
  rw [pay13_apply]
  unfold Attn.accC
  rw [if_neg (by omega), if_neg (by omega)]
  exact congrArg (fun t => v34 (ix2 r d) + -t) (Finset.sum_congr rfl fun jj _ => hV jj d)

/-- Four steps from zero give the arrangement's row sum. -/
theorem lK_of_steps (x : Fin 8 → Fin 2048 → Fin 1024 → EReal) (Wq Wk : Fin 1024 → Fin 1024 → EReal) (a : EReal) (b : Fin 8)
    (qi : Fin 4) (r : Fin 512) (l0 l1 l2 l3 l4 : EReal) (h0 : l0 = 0)
    (h1 : l1 = l0 + Attn.lC x Wq Wk a b qi r 0) (h2 : l2 = l1 + Attn.lC x Wq Wk a b qi r 1)
    (h3 : l3 = l2 + Attn.lC x Wq Wk a b qi r 2) (h4 : l4 = l3 + Attn.lC x Wq Wk a b qi r 3) :
    l4 = Attn.lK x Wq Wk a b qi r := by
  rw [h4, h3, h2, h1, h0]
  rfl

/-- Four steps from zero give the arrangement's accumulator. -/
theorem accK_of_steps (x : Fin 8 → Fin 2048 → Fin 1024 → EReal) (Wq Wk Wv : Fin 1024 → Fin 1024 → EReal) (a : EReal) (b : Fin 8)
    (qi : Fin 4) (r : Fin 512) (d : Fin 1024) (c0 c1 c2 c3 c4 : EReal) (h0 : c0 = 0)
    (h1 : c1 = c0 + Attn.accC x Wq Wk Wv a b qi r 0 d) (h2 : c2 = c1 + Attn.accC x Wq Wk Wv a b qi r 1 d)
    (h3 : c3 = c2 + Attn.accC x Wq Wk Wv a b qi r 2 d) (h4 : c4 = c3 + Attn.accC x Wq Wk Wv a b qi r 3 d) :
    c4 = Attn.accK x Wq Wk Wv a b qi r d := by
  rw [h4, h3, h2, h1, h0]
  rfl

/-- The final step gives the arrangement's output at (row r of tile qi, channel n), with the offset the word of 1e-5. -/
theorem final_out (x : Fin 8 → Fin 2048 → Fin 1024 → EReal) (Wq Wk Wv Wo : Fin 1024 → Fin 1024 → EReal) (bo : Fin 1024 → EReal)
    (a : EReal) (b : Fin 8) (qi : Fin 4)
    (v25 : Vec Ideal S512x1024 .f32) (v26 : Vec Ideal S512x1 .f32) (v32 : Vec Ideal S1024x1024 .bf16) (v35 : Vec Ideal S1x1024 .f32)
    (hacc : ∀ (r : Fin 512) (c : Fin 1024), v25 (ix2 r c) = Attn.accK x Wq Wk Wv a b qi r c)
    (hl : ∀ r : Fin 512, v26 (ix2 r (0 : Fin 1)) = Attn.lK x Wq Wk a b qi r)
    (hWo : ∀ c n : Fin 1024, v32 (ix2 c n) = Wo n c)
    (hbo : ∀ n : Fin 1024, v35 (ix2 (0 : Fin 1) n) = bo n)
    (u : Fin 1) (r : Fin 512) (n : Fin 1024) :
    k1_pay14 (F := Ideal) v25 v26 v32 v35 (ix3 u r n) = Attn.outK x Wq Wk Wv Wo bo a Attn.eW b qi r n := by
  rw [pay14_apply]
  unfold Attn.outK Attn.yK
  rw [hbo]
  refine congrArg (fun t => t + bo n) (Finset.sum_congr rfl fun c _ => ?_)
  rw [hacc, hl, hWo]

end Cert.KernelIdeal.AttnValue

end
-- ==== Proof.AttnPiecesShared.lean ====
/-
  What the runs of the attention kernel's body share when their found pieces are read as values.

  The key tile and the value tile are loaded from the whole 2048-row arrays of the batch through one rectangle: 512 rows
  from row (key tile number) · 512, all 1024 channels.  Read at (jj, d) such a load is the array at row
  (key tile number) · 512 + jj.  The three branch conditions that compare the key tile number with the query tile number
  are comparisons of two numbers below 4 formed on 32-bit words; each is the comparison of the numbers.
-/
import proofs.«148243_j7679401525936_2_alg».proof.Proof.AttnRuns
import proofs.«148243_j7679401525936_2_alg».proof.Proof.AttnStep
import Idealize.ShloMosaic.Lib.Pipeline.Value
import Idealize.ShloMosaic.Lib.Affine

set_option maxRecDepth 16384

noncomputable section

open scoped BigOperators

namespace Cert.KernelIdeal.AttnValue

open Cert.KernelIdeal Cert.KernelIdeal.Gen Cert.KernelIdeal.Attn
open Idealize.ShloMosaic Idealize.ShloMosaic.TcCoe Idealize.ShloMosaic.Tactic Idealize.ShloMosaic.ValueIdx
open Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The rectangle through which the body loads its key tile and its value tile: 512 rows from the key tile's first row. -/
abbrev tileRect (i : grid1.Coords) : Rect S1x2048x1024 :=
  Rect.unit (s := S1x2048x1024) (k1_off1 i) S1x512x1024.size (Gen.k1_off1_inb i)

/-- The tile loaded from a [1, 2048, 1024] array, as a [1, 512, 1024] block. -/
abbrev tileOf (i : grid1.Coords) (X : Vec F S1x2048x1024 .bf16) : Vec F S1x512x1024 .bf16 := View.ld X (tileRect i)

/-- The loaded tile at (jj, d) is the array at row (key tile) · 512 + jj. -/
theorem tileOf_apply (i : grid1.Coords) (ki : Fin 4) (hi2 : (i 2).val = ki.val) (X : Vec F S1x2048x1024 .bf16)
    (u : Fin 1) (jj : Fin 512) (d : Fin 1024) :
    tileOf i X (ix3 u jj d) = X (ix3 (0 : Fin 1) (Attn.row ki jj) d) := by
  have ho := k1_off1_eq i
  have hu : u.val = 0 := by omega
  refine congrArg X (funext fun a => Fin.ext ?_)
  match a with
  | ⟨0, _⟩ =>
    show k1_off1 i 0 + 1 * u.val = 0
    rw [ho, hu]; rfl
  | ⟨1, _⟩ =>
    show k1_off1 i 1 + 1 * jj.val = ki.val * 512 + jj.val
    rw [ho, ← hi2]
    show 512 * (i 2).val + 1 * jj.val = (i 2).val * 512 + jj.val
    omega
  | ⟨2, _⟩ =>
    show k1_off1 i 2 + 1 * d.val = d.val
    rw [ho]
    show 0 + 1 * d.val = d.val
    omega

/-- A one-bit word widened to 32 bits differs from zero exactly when it is 1. -/
theorem extui_ne_zero (b : BitVec 1) : Scalar.cmpi .ne (Scalar.extui b) 0#32 = 1#1 ↔ b = 1#1 := by
  rcases BitVec.eq_zero_or_eq_one b with h | h <;> subst h <;> decide

/-- The second branch's condition: the key tile is before the query tile. -/
theorem lt_of_cond1_2 (i : grid1.Coords) (h : cond1_2 i) : (i 2).val < (i 1).val := by
  have h1 : (i 1).val < 4 := (i 1).isLt
  have h2 : (i 2).val < 4 := (i 2).isLt
  have := IntOp.cmpi_slt.mp ((extui_ne_zero _).mp h)
  rw [toInt_ofNat32 _ (by omega), toInt_ofNat32 _ (by omega)] at this
  exact_mod_cast this

/-- The third branch's condition: the key tile is the query tile. -/
theorem eq_of_cond1_3 (i : grid1.Coords) (h : cond1_3 i) : (i 2).val = (i 1).val := by
  have h1 : (i 1).val < 4 := (i 1).isLt
  have h2 : (i 2).val < 4 := (i 2).isLt
  have := congrArg BitVec.toInt (IntOp.cmpi_eq.mp ((extui_ne_zero _).mp h))
  rw [toInt_ofNat32 _ (by omega), toInt_ofNat32 _ (by omega)] at this
  exact_mod_cast this

/-- The fourth branch's condition: the key tile is after the query tile. -/
theorem lt_of_cond1_4 (i : grid1.Coords) (h : cond1_4 i) : (i 1).val < (i 2).val := by
  have h1 : (i 1).val < 4 := (i 1).isLt
  have h2 : (i 2).val < 4 := (i 2).isLt
  have := IntOp.cmpi_sgt.mp ((extui_ne_zero _).mp h)
  rw [toInt_ofNat32 _ (by omega), toInt_ofNat32 _ (by omega)] at this
  exact_mod_cast this

end Cert.KernelIdeal.AttnValue

end
-- ==== Proof.AttnPiecesA.lean ====
/-
  The found pieces of the body's run in case A (the first key tile, on the diagonal: query tile 0) as values.

  The run first stores zero whole into each scratch, then the diagonal step reads that zero back and leaves one covering
  store in each scratch: the row-sum scratch holds the diagonal row-sum payload of the loaded query block, the loaded key
  tile and the zero; the accumulator scratch holds the diagonal accumulator payload of the loaded blocks and the zero.
  In the terms of the kernel's arrangement: zero plus the key tile's contribution.
-/
import proofs.«148243_j7679401525936_2_alg».proof.Proof.AttnRunA
import proofs.«148243_j7679401525936_2_alg».proof.Proof.AttnPiecesShared

set_option maxRecDepth 16384

noncomputable section

open scoped BigOperators

namespace Cert.KernelIdeal.AttnValue

open Cert.KernelIdeal Cert.KernelIdeal.Gen Cert.KernelIdeal.Attn
open Idealize.ShloMosaic Idealize.ShloMosaic.TcCoe Idealize.ShloMosaic.Tactic Idealize.ShloMosaic.ValueIdx
open Idealize.SL.Sem

variable {F : FTy → Type} [FloatOps F]

/-- The row-sum scratch after case A, read through any view of its shape from the run's pieces. -/
theorem sA_l (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (v : View sig .tc .vmem S512x1 .f32) :
    v.read (Elt F) (v.writes (Elt F) v.junk (kernelRun1_A (F := F) c i arg3 harg3 arg4 harg4 arg5 harg5 arg6 harg6 arg7 harg7 arg8 harg8 arg9 harg9 arg10 harg10 hc1 hc2 hc3 hc4 hc5 x0 x1 x2 x3 x4).2.1)
      = k1_pay10 i x0 (tileOf i x1) (k1_pay1 (F := F)) := by
  rw [View.read_writes_junk_eq_canon]
  unfold kernelRun1_A
  dsimp only
  sl_unfold_run_names
  rw [View.canon_cons_unit_zero hz2]
  simp only [View.readAt_eq_ld, harg3.read_unread, harg4.read_unread,
    View.ld_unit_zero (S := S1x512x1024) hz3, View.readCov_unit_zero (S := S512x1) arg9.view hz2]

/-- The accumulator scratch after case A, read through any view of its shape from the run's pieces. -/
theorem sA_acc (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (v : View sig .tc .vmem S512x1024 .f32) :
    v.read (Elt F) (v.writes (Elt F) v.junk (kernelRun1_A (F := F) c i arg3 harg3 arg4 harg4 arg5 harg5 arg6 harg6 arg7 harg7 arg8 harg8 arg9 harg9 arg10 harg10 hc1 hc2 hc3 hc4 hc5 x0 x1 x2 x3 x4).2.2.1)
      = k1_pay11 i x0 (tileOf i x1) (tileOf i x2) (k1_pay2 (F := F)) := by
  rw [View.read_writes_junk_eq_canon]
  unfold kernelRun1_A
  dsimp only
  sl_unfold_run_names
  rw [View.canon_cons_unit_zero hz2]
  simp only [View.readAt_eq_ld, harg3.read_unread, harg4.read_unread, harg5.read_unread,
    View.ld_unit_zero (S := S1x512x1024) hz3, View.readCov_unit_zero (S := S512x1024) arg10.view hz2]

/-- Case A in the arrangement's terms: the row sum is zero plus the key tile's contribution. -/
theorem caseA_l (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec Ideal S1x512x1024 .bf16) (x1 x2 : Vec Ideal S1x2048x1024 .bf16) (x3 : Vec Ideal S1024x1024 .bf16) (x4 : Vec Ideal S1x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1 .f32) (r : Fin 512) (z : Fin 1) :
    v.read (Elt Ideal) (v.writes (Elt Ideal) v.junk (kernelRun1_A (F := Ideal) c i arg3 harg3 arg4 harg4 arg5 harg5 arg6 harg6 arg7 harg7 arg8 harg8 arg9 harg9 arg10 harg10 hc1 hc2 hc3 hc4 hc5 x0 x1 x2 x3 x4).2.1) (ix2 r z)
      = 0 + Attn.lC x Wq Wk a b qi r ki := by
  rw [sA_l]
  have heq : ki = qi := Fin.ext (by have := eq_of_cond1_3 i hc3; omega)
  rw [diag_l x Wq Wk a b qi ki x0 (tileOf i x1) hQ
    (fun jj d => (tileOf_apply i ki hi2 x1 0 jj d).trans (hK _ d)) i hi1 hi2 heq (k1_pay1 (F := Ideal)) r z, pay1_apply]

/-- Case A in the arrangement's terms: the accumulator is zero plus the key tile's contribution. -/
theorem caseA_acc (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec Ideal S1x512x1024 .bf16) (x1 x2 : Vec Ideal S1x2048x1024 .bf16) (x3 : Vec Ideal S1024x1024 .bf16) (x4 : Vec Ideal S1x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1024 .f32) (r : Fin 512) (d : Fin 1024) :
    v.read (Elt Ideal) (v.writes (Elt Ideal) v.junk (kernelRun1_A (F := Ideal) c i arg3 harg3 arg4 harg4 arg5 harg5 arg6 harg6 arg7 harg7 arg8 harg8 arg9 harg9 arg10 harg10 hc1 hc2 hc3 hc4 hc5 x0 x1 x2 x3 x4).2.2.1) (ix2 r d)
      = 0 + Attn.accC x Wq Wk Wv a b qi r ki d := by
  rw [sA_acc]
  have heq : ki = qi := Fin.ext (by have := eq_of_cond1_3 i hc3; omega)
  rw [diag_acc x Wq Wk Wv a b qi ki x0 (tileOf i x1) (tileOf i x2) hQ
    (fun jj d => (tileOf_apply i ki hi2 x1 0 jj d).trans (hK _ d))
    (fun jj d => (tileOf_apply i ki hi2 x2 0 jj d).trans (hV _ d)) i hi1 hi2 heq (k1_pay2 (F := Ideal)) r d, pay2_apply]

end Cert.KernelIdeal.AttnValue

end
-- ==== Proof.AttnPiecesB.lean ====
/-
  The found pieces of the body's run in case B (the first key tile, strictly below the diagonal) as values.

  The run first stores zero whole into each scratch, then the below-diagonal step reads that zero back and leaves one
  covering store in each scratch: the row-sum scratch holds the row-sum payload of the loaded query block, the loaded key
  tile and the zero; the accumulator scratch holds the accumulator payload of the loaded blocks and the zero.
  In the terms of the kernel's arrangement: zero plus the key tile's contribution.
-/
import proofs.«148243_j7679401525936_2_alg».proof.Proof.AttnRunB
import proofs.«148243_j7679401525936_2_alg».proof.Proof.AttnPiecesShared

set_option maxRecDepth 16384

noncomputable section

open scoped BigOperators

namespace Cert.KernelIdeal.AttnValue

open Cert.KernelIdeal Cert.KernelIdeal.Gen Cert.KernelIdeal.Attn
open Idealize.ShloMosaic Idealize.ShloMosaic.TcCoe Idealize.ShloMosaic.Tactic Idealize.ShloMosaic.ValueIdx
open Idealize.SL.Sem

variable {F : FTy → Type} [FloatOps F]

/-- The row-sum scratch after case B, read through any view of its shape from the run's pieces. -/
theorem sB_l (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (v : View sig .tc .vmem S512x1 .f32) :
    v.read (Elt F) (v.writes (Elt F) v.junk (kernelRun1_B (F := F) c i arg3 harg3 arg4 harg4 arg5 harg5 arg6 harg6 arg7 harg7 arg8 harg8 arg9 harg9 arg10 harg10 hc1 hc2 hc3 hc4 hc5 x0 x1 x2 x3 x4).2.1)
      = k1_pay7 x0 (tileOf i x1) (k1_pay1 (F := F)) := by
  rw [View.read_writes_junk_eq_canon]
  unfold kernelRun1_B
  dsimp only
  sl_unfold_run_names
  rw [View.canon_cons_unit_zero hz2]
  simp only [View.readAt_eq_ld, harg3.read_unread, harg4.read_unread,
    View.ld_unit_zero (S := S1x512x1024) hz3, View.readCov_unit_zero (S := S512x1) arg9.view hz2]

/-- The accumulator scratch after case B, read through any view of its shape from the run's pieces. -/
theorem sB_acc (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (v : View sig .tc .vmem S512x1024 .f32) :
    v.read (Elt F) (v.writes (Elt F) v.junk (kernelRun1_B (F := F) c i arg3 harg3 arg4 harg4 arg5 harg5 arg6 harg6 arg7 harg7 arg8 harg8 arg9 harg9 arg10 harg10 hc1 hc2 hc3 hc4 hc5 x0 x1 x2 x3 x4).2.2.1)
      = k1_pay8 x0 (tileOf i x1) (tileOf i x2) (k1_pay2 (F := F)) := by
  rw [View.read_writes_junk_eq_canon]
  unfold kernelRun1_B
  dsimp only
  sl_unfold_run_names
  rw [View.canon_cons_unit_zero hz2]
  simp only [View.readAt_eq_ld, harg3.read_unread, harg4.read_unread, harg5.read_unread,
    View.ld_unit_zero (S := S1x512x1024) hz3, View.readCov_unit_zero (S := S512x1024) arg10.view hz2]

/-- Case B in the arrangement's terms: the row sum is zero plus the key tile's contribution. -/
theorem caseB_l (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec Ideal S1x512x1024 .bf16) (x1 x2 : Vec Ideal S1x2048x1024 .bf16) (x3 : Vec Ideal S1024x1024 .bf16) (x4 : Vec Ideal S1x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1 .f32) (r : Fin 512) (z : Fin 1) :
    v.read (Elt Ideal) (v.writes (Elt Ideal) v.junk (kernelRun1_B (F := Ideal) c i arg3 harg3 arg4 harg4 arg5 harg5 arg6 harg6 arg7 harg7 arg8 harg8 arg9 harg9 arg10 harg10 hc1 hc2 hc3 hc4 hc5 x0 x1 x2 x3 x4).2.1) (ix2 r z)
      = 0 + Attn.lC x Wq Wk a b qi r ki := by
  rw [sB_l]
  have hlt : ki.val < qi.val := by have := lt_of_cond1_2 i hc2; omega
  rw [below_l x Wq Wk a b qi ki x0 (tileOf i x1) hQ
    (fun jj d => (tileOf_apply i ki hi2 x1 0 jj d).trans (hK _ d)) hlt (k1_pay1 (F := Ideal)) r z, pay1_apply]

/-- Case B in the arrangement's terms: the accumulator is zero plus the key tile's contribution. -/
theorem caseB_acc (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec Ideal S1x512x1024 .bf16) (x1 x2 : Vec Ideal S1x2048x1024 .bf16) (x3 : Vec Ideal S1024x1024 .bf16) (x4 : Vec Ideal S1x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1024 .f32) (r : Fin 512) (d : Fin 1024) :
    v.read (Elt Ideal) (v.writes (Elt Ideal) v.junk (kernelRun1_B (F := Ideal) c i arg3 harg3 arg4 harg4 arg5 harg5 arg6 harg6 arg7 harg7 arg8 harg8 arg9 harg9 arg10 harg10 hc1 hc2 hc3 hc4 hc5 x0 x1 x2 x3 x4).2.2.1) (ix2 r d)
      = 0 + Attn.accC x Wq Wk Wv a b qi r ki d := by
  rw [sB_acc]
  have hlt : ki.val < qi.val := by have := lt_of_cond1_2 i hc2; omega
  rw [below_acc x Wq Wk Wv a b qi ki x0 (tileOf i x1) (tileOf i x2) hQ
    (fun jj d => (tileOf_apply i ki hi2 x1 0 jj d).trans (hK _ d))
    (fun jj d => (tileOf_apply i ki hi2 x2 0 jj d).trans (hV _ d)) hlt (k1_pay2 (F := Ideal)) r d, pay2_apply]

end Cert.KernelIdeal.AttnValue

end
-- ==== Proof.AttnPiecesC.lean ====
/-
  The found pieces of the body's run in case C (a key tile strictly below the diagonal, neither first nor last) as values.

  The run leaves one covering store in each scratch: the row-sum scratch holds the row-sum payload of the loaded query block,
  the loaded key tile and the scratch's previous contents; the accumulator scratch holds the accumulator payload of the
  loaded blocks and its previous contents.  In the terms of the kernel's arrangement: each scratch's previous value plus the
  key tile's contribution.
-/
import proofs.«148243_j7679401525936_2_alg».proof.Proof.AttnRunC
import proofs.«148243_j7679401525936_2_alg».proof.Proof.AttnPiecesShared

set_option maxRecDepth 16384

noncomputable section

open scoped BigOperators

namespace Cert.KernelIdeal.AttnValue

open Cert.KernelIdeal Cert.KernelIdeal.Gen Cert.KernelIdeal.Attn
open Idealize.ShloMosaic Idealize.ShloMosaic.TcCoe Idealize.ShloMosaic.Tactic Idealize.ShloMosaic.ValueIdx
open Idealize.SL.Sem

variable {F : FTy → Type} [FloatOps F]

/-- The row-sum scratch after case C, read through any view of its shape from the run's pieces. -/
theorem sC_l (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S512x1 .f32) :
    v.read (Elt F) (v.writes (Elt F) v.junk (kernelRun1_C (F := F) c i arg3 harg3 arg4 harg4 arg5 harg5 arg6 harg6 arg7 harg7 arg8 harg8 arg9 harg9 arg10 harg10 hc1 hc2 hc3 hc4 hc5 x0 x1 x2 x3 x4 xs0 xs1).2.1)
      = k1_pay7 x0 (tileOf i x1) xs0 := by
  rw [View.read_writes_junk_eq_canon]
  unfold kernelRun1_C
  dsimp only
  rw [View.canon_unit_zero hz2]
  simp only [View.readAt_eq_ld, harg3.read_unread, harg4.read_unread, harg9.read_unread,
    View.ld_unit_zero (S := S1x512x1024) hz3, View.ld_unit_zero (S := S512x1) hz2]

/-- The accumulator scratch after case C, read through any view of its shape from the run's pieces. -/
theorem sC_acc (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S512x1024 .f32) :
    v.read (Elt F) (v.writes (Elt F) v.junk (kernelRun1_C (F := F) c i arg3 harg3 arg4 harg4 arg5 harg5 arg6 harg6 arg7 harg7 arg8 harg8 arg9 harg9 arg10 harg10 hc1 hc2 hc3 hc4 hc5 x0 x1 x2 x3 x4 xs0 xs1).2.2.1)
      = k1_pay8 x0 (tileOf i x1) (tileOf i x2) xs1 := by
  rw [View.read_writes_junk_eq_canon]
  unfold kernelRun1_C
  dsimp only
  rw [View.canon_unit_zero hz2]
  simp only [View.readAt_eq_ld, harg3.read_unread, harg4.read_unread, harg5.read_unread, harg10.read_unread,
    View.ld_unit_zero (S := S1x512x1024) hz3, View.ld_unit_zero (S := S512x1024) hz2]

/-- Case C in the arrangement's terms: the row sum gains the key tile's contribution. -/
theorem caseC_l (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1 .f32) (r : Fin 512) (z : Fin 1) :
    v.read (Elt Ideal) (v.writes (Elt Ideal) v.junk (kernelRun1_C (F := Ideal) c i arg3 harg3 arg4 harg4 arg5 harg5 arg6 harg6 arg7 harg7 arg8 harg8 arg9 harg9 arg10 harg10 hc1 hc2 hc3 hc4 hc5 x0 x1 x2 x3 x4 xs0 xs1).2.1) (ix2 r z)
      = xs0 (ix2 r z) + Attn.lC x Wq Wk a b qi r ki := by
  rw [sC_l]
  have hlt : ki.val < qi.val := by have := lt_of_cond1_2 i hc2; omega
  exact below_l x Wq Wk a b qi ki x0 (tileOf i x1) hQ
    (fun jj d => (tileOf_apply i ki hi2 x1 0 jj d).trans (hK _ d)) hlt xs0 r z

/-- Case C in the arrangement's terms: the accumulator gains the key tile's contribution. -/
theorem caseC_acc (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1024 .f32) (r : Fin 512) (d : Fin 1024) :
    v.read (Elt Ideal) (v.writes (Elt Ideal) v.junk (kernelRun1_C (F := Ideal) c i arg3 harg3 arg4 harg4 arg5 harg5 arg6 harg6 arg7 harg7 arg8 harg8 arg9 harg9 arg10 harg10 hc1 hc2 hc3 hc4 hc5 x0 x1 x2 x3 x4 xs0 xs1).2.2.1) (ix2 r d)
      = xs1 (ix2 r d) + Attn.accC x Wq Wk Wv a b qi r ki d := by
  rw [sC_acc]
  have hlt : ki.val < qi.val := by have := lt_of_cond1_2 i hc2; omega
  exact below_acc x Wq Wk Wv a b qi ki x0 (tileOf i x1) (tileOf i x2) hQ
    (fun jj d => (tileOf_apply i ki hi2 x1 0 jj d).trans (hK _ d))
    (fun jj d => (tileOf_apply i ki hi2 x2 0 jj d).trans (hV _ d)) hlt xs1 r d

end Cert.KernelIdeal.AttnValue

end
-- ==== Proof.AttnPiecesD.lean ====
/-
  The found pieces of the body's run in case D (the diagonal key tile, neither first nor last) as values.

  The run leaves one covering store in each scratch: the row-sum scratch holds the diagonal row-sum payload of the loaded
  query block, the loaded key tile and the scratch's previous contents; the accumulator scratch holds the diagonal accumulator
  payload of the loaded blocks and its previous contents.  In the terms of the kernel's arrangement: each scratch's previous
  value plus the diagonal tile's contribution.
-/
import proofs.«148243_j7679401525936_2_alg».proof.Proof.AttnRunD
import proofs.«148243_j7679401525936_2_alg».proof.Proof.AttnPiecesShared

set_option maxRecDepth 16384

noncomputable section

open scoped BigOperators

namespace Cert.KernelIdeal.AttnValue

open Cert.KernelIdeal Cert.KernelIdeal.Gen Cert.KernelIdeal.Attn
open Idealize.ShloMosaic Idealize.ShloMosaic.TcCoe Idealize.ShloMosaic.Tactic Idealize.ShloMosaic.ValueIdx
open Idealize.SL.Sem

variable {F : FTy → Type} [FloatOps F]

/-- The row-sum scratch after case D, read through any view of its shape from the run's pieces. -/
theorem sD_l (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S512x1 .f32) :
    v.read (Elt F) (v.writes (Elt F) v.junk (kernelRun1_D (F := F) c i arg3 harg3 arg4 harg4 arg5 harg5 arg6 harg6 arg7 harg7 arg8 harg8 arg9 harg9 arg10 harg10 hc1 hc2 hc3 hc4 hc5 x0 x1 x2 x3 x4 xs0 xs1).2.1)
      = k1_pay10 i x0 (tileOf i x1) xs0 := by
  rw [View.read_writes_junk_eq_canon]
  unfold kernelRun1_D
  dsimp only
  rw [View.canon_unit_zero hz2]
  simp only [View.readAt_eq_ld, harg3.read_unread, harg4.read_unread, harg9.read_unread,
    View.ld_unit_zero (S := S1x512x1024) hz3, View.ld_unit_zero (S := S512x1) hz2]

/-- The accumulator scratch after case D, read through any view of its shape from the run's pieces. -/
theorem sD_acc (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S512x1024 .f32) :
    v.read (Elt F) (v.writes (Elt F) v.junk (kernelRun1_D (F := F) c i arg3 harg3 arg4 harg4 arg5 harg5 arg6 harg6 arg7 harg7 arg8 harg8 arg9 harg9 arg10 harg10 hc1 hc2 hc3 hc4 hc5 x0 x1 x2 x3 x4 xs0 xs1).2.2.1)
      = k1_pay11 i x0 (tileOf i x1) (tileOf i x2) xs1 := by
  rw [View.read_writes_junk_eq_canon]
  unfold kernelRun1_D
  dsimp only
  rw [View.canon_unit_zero hz2]
  simp only [View.readAt_eq_ld, harg3.read_unread, harg4.read_unread, harg5.read_unread, harg10.read_unread,
    View.ld_unit_zero (S := S1x512x1024) hz3, View.ld_unit_zero (S := S512x1024) hz2]

/-- Case D in the arrangement's terms: the row sum gains the diagonal tile's contribution. -/
theorem caseD_l (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1 .f32) (r : Fin 512) (z : Fin 1) :
    v.read (Elt Ideal) (v.writes (Elt Ideal) v.junk (kernelRun1_D (F := Ideal) c i arg3 harg3 arg4 harg4 arg5 harg5 arg6 harg6 arg7 harg7 arg8 harg8 arg9 harg9 arg10 harg10 hc1 hc2 hc3 hc4 hc5 x0 x1 x2 x3 x4 xs0 xs1).2.1) (ix2 r z)
      = xs0 (ix2 r z) + Attn.lC x Wq Wk a b qi r ki := by
  rw [sD_l]
  have heq : ki = qi := Fin.ext (by have := eq_of_cond1_3 i hc3; omega)
  exact diag_l x Wq Wk a b qi ki x0 (tileOf i x1) hQ
    (fun jj d => (tileOf_apply i ki hi2 x1 0 jj d).trans (hK _ d)) i hi1 hi2 heq xs0 r z

/-- Case D in the arrangement's terms: the accumulator gains the diagonal tile's contribution. -/
theorem caseD_acc (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1024 .f32) (r : Fin 512) (d : Fin 1024) :
    v.read (Elt Ideal) (v.writes (Elt Ideal) v.junk (kernelRun1_D (F := Ideal) c i arg3 harg3 arg4 harg4 arg5 harg5 arg6 harg6 arg7 harg7 arg8 harg8 arg9 harg9 arg10 harg10 hc1 hc2 hc3 hc4 hc5 x0 x1 x2 x3 x4 xs0 xs1).2.2.1) (ix2 r d)
      = xs1 (ix2 r d) + Attn.accC x Wq Wk Wv a b qi r ki d := by
  rw [sD_acc]
  have heq : ki = qi := Fin.ext (by have := eq_of_cond1_3 i hc3; omega)
  exact diag_acc x Wq Wk Wv a b qi ki x0 (tileOf i x1) (tileOf i x2) hQ
    (fun jj d => (tileOf_apply i ki hi2 x1 0 jj d).trans (hK _ d))
    (fun jj d => (tileOf_apply i ki hi2 x2 0 jj d).trans (hV _ d)) i hi1 hi2 heq xs1 r d

end Cert.KernelIdeal.AttnValue

end
-- ==== Proof.AttnPiecesE.lean ====
/-
  The found pieces of the body's run in case E (a key tile strictly above the diagonal, not the last) as values.

  The run leaves one covering store in each scratch: the row-sum scratch holds its previous contents plus −512; the
  accumulator scratch holds its previous contents plus zero minus the column sums of the loaded value tile.  In the terms of
  the kernel's arrangement: each scratch's previous value plus the key tile's contribution.
-/
import proofs.«148243_j7679401525936_2_alg».proof.Proof.AttnRunE
import proofs.«148243_j7679401525936_2_alg».proof.Proof.AttnPiecesShared

set_option maxRecDepth 16384

noncomputable section

open scoped BigOperators

namespace Cert.KernelIdeal.AttnValue

open Cert.KernelIdeal Cert.KernelIdeal.Gen Cert.KernelIdeal.Attn
open Idealize.ShloMosaic Idealize.ShloMosaic.TcCoe Idealize.ShloMosaic.Tactic Idealize.ShloMosaic.ValueIdx
open Idealize.SL.Sem

variable {F : FTy → Type} [FloatOps F]

/-- The row-sum scratch after case E, read through any view of its shape from the run's pieces. -/
theorem sE_l (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S512x1 .f32) :
    v.read (Elt F) (v.writes (Elt F) v.junk (kernelRun1_E (F := F) c i arg3 harg3 arg4 harg4 arg5 harg5 arg6 harg6 arg7 harg7 arg8 harg8 arg9 harg9 arg10 harg10 hc1 hc2 hc3 hc4 hc5 x0 x1 x2 x3 x4 xs0 xs1).2.1)
      = k1_pay12 xs0 := by
  rw [View.read_writes_junk_eq_canon]
  unfold kernelRun1_E
  dsimp only
  rw [View.canon_unit_zero hz2]
  simp only [View.readAt_eq_ld, harg9.read_unread, View.ld_unit_zero (S := S512x1) hz2]

/-- The accumulator scratch after case E, read through any view of its shape from the run's pieces. -/
theorem sE_acc (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S512x1024 .f32) :
    v.read (Elt F) (v.writes (Elt F) v.junk (kernelRun1_E (F := F) c i arg3 harg3 arg4 harg4 arg5 harg5 arg6 harg6 arg7 harg7 arg8 harg8 arg9 harg9 arg10 harg10 hc1 hc2 hc3 hc4 hc5 x0 x1 x2 x3 x4 xs0 xs1).2.2.1)
      = k1_pay13 (tileOf i x2) xs1 := by
  rw [View.read_writes_junk_eq_canon]
  unfold kernelRun1_E
  dsimp only
  rw [View.canon_unit_zero hz2]
  simp only [View.readAt_eq_ld, harg5.read_unread, harg10.read_unread, View.ld_unit_zero (S := S512x1024) hz2]

/-- Case E in the arrangement's terms: the row sum gains the key tile's contribution (−512). -/
theorem caseE_l (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1 .f32) (r : Fin 512) (z : Fin 1) :
    v.read (Elt Ideal) (v.writes (Elt Ideal) v.junk (kernelRun1_E (F := Ideal) c i arg3 harg3 arg4 harg4 arg5 harg5 arg6 harg6 arg7 harg7 arg8 harg8 arg9 harg9 arg10 harg10 hc1 hc2 hc3 hc4 hc5 x0 x1 x2 x3 x4 xs0 xs1).2.1) (ix2 r z)
      = xs0 (ix2 r z) + Attn.lC x Wq Wk a b qi r ki := by
  rw [sE_l]
  have hlt : qi.val < ki.val := by have := lt_of_cond1_4 i hc4; omega
  exact above_l x Wq Wk a b qi ki hlt xs0 r z

/-- Case E in the arrangement's terms: the accumulator gains the key tile's contribution. -/
theorem caseE_acc (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1024 .f32) (r : Fin 512) (d : Fin 1024) :
    v.read (Elt Ideal) (v.writes (Elt Ideal) v.junk (kernelRun1_E (F := Ideal) c i arg3 harg3 arg4 harg4 arg5 harg5 arg6 harg6 arg7 harg7 arg8 harg8 arg9 harg9 arg10 harg10 hc1 hc2 hc3 hc4 hc5 x0 x1 x2 x3 x4 xs0 xs1).2.2.1) (ix2 r d)
      = xs1 (ix2 r d) + Attn.accC x Wq Wk Wv a b qi r ki d := by
  rw [sE_acc]
  have hlt : qi.val < ki.val := by have := lt_of_cond1_4 i hc4; omega
  exact above_acc x Wq Wk Wv a b qi ki (tileOf i x2)
    (fun jj d => (tileOf_apply i ki hi2 x2 0 jj d).trans (hV _ d)) hlt xs1 r d

end Cert.KernelIdeal.AttnValue

end
-- ==== Proof.AttnPiecesF.lean ====
/-
  The found pieces of the body's run in case F (the last key tile, on the diagonal: query tile 3) as values.

  The diagonal step leaves one covering store in each scratch (the diagonal payloads of the loaded blocks and the scratch's
  previous contents); the final step then reads both scratches back and stores into the output block the final payload:
  the accumulator over the row sum plus the offset, projected by the output weight, plus the bias.
-/
import proofs.«148243_j7679401525936_2_alg».proof.Proof.AttnRunF
import proofs.«148243_j7679401525936_2_alg».proof.Proof.AttnPiecesShared

set_option maxRecDepth 16384

noncomputable section

open scoped BigOperators

namespace Cert.KernelIdeal.AttnValue

open Cert.KernelIdeal Cert.KernelIdeal.Gen Cert.KernelIdeal.Attn
open Idealize.ShloMosaic Idealize.ShloMosaic.TcCoe Idealize.ShloMosaic.Tactic Idealize.ShloMosaic.ValueIdx
open Idealize.SL.Sem

variable {F : FTy → Type} [FloatOps F]

/-- The row-sum scratch after case F, read through any view of its shape from the run's pieces. -/
theorem sF_l (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S512x1 .f32) :
    v.read (Elt F) (v.writes (Elt F) v.junk (kernelRun1_F (F := F) c i arg3 harg3 arg4 harg4 arg5 harg5 arg6 harg6 arg7 harg7 arg8 harg8 arg9 harg9 arg10 harg10 hc1 hc2 hc3 hc4 hc5 x0 x1 x2 x3 x4 xs0 xs1).2.1)
      = k1_pay10 i x0 (tileOf i x1) xs0 := by
  rw [View.read_writes_junk_eq_canon]
  unfold kernelRun1_F
  dsimp only
  sl_unfold_run_names
  rw [View.canon_cons_unit_zero hz2]
  simp only [View.readAt_eq_ld, harg3.read_unread, harg4.read_unread, harg5.read_unread, harg6.read_unread,
    harg7.read_unread, harg9.read_unread, harg10.read_unread,
    View.ld_unit_zero (S := S1x512x1024) hz3, View.ld_unit_zero (S := S512x1) hz2, View.ld_unit_zero (S := S512x1024) hz2,
    View.ld_unit_zero (S := S1024x1024) hz2, View.ld_unit_zero (S := S1x1024) hz2,
    View.readCov_unit_zero (S := S512x1) arg9.view hz2, View.readCov_unit_zero (S := S512x1024) arg10.view hz2]

/-- The accumulator scratch after case F, read through any view of its shape from the run's pieces. -/
theorem sF_acc (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S512x1024 .f32) :
    v.read (Elt F) (v.writes (Elt F) v.junk (kernelRun1_F (F := F) c i arg3 harg3 arg4 harg4 arg5 harg5 arg6 harg6 arg7 harg7 arg8 harg8 arg9 harg9 arg10 harg10 hc1 hc2 hc3 hc4 hc5 x0 x1 x2 x3 x4 xs0 xs1).2.2.1)
      = k1_pay11 i x0 (tileOf i x1) (tileOf i x2) xs1 := by
  rw [View.read_writes_junk_eq_canon]
  unfold kernelRun1_F
  dsimp only
  sl_unfold_run_names
  rw [View.canon_cons_unit_zero hz2]
  simp only [View.readAt_eq_ld, harg3.read_unread, harg4.read_unread, harg5.read_unread, harg6.read_unread,
    harg7.read_unread, harg9.read_unread, harg10.read_unread,
    View.ld_unit_zero (S := S1x512x1024) hz3, View.ld_unit_zero (S := S512x1) hz2, View.ld_unit_zero (S := S512x1024) hz2,
    View.ld_unit_zero (S := S1024x1024) hz2, View.ld_unit_zero (S := S1x1024) hz2,
    View.readCov_unit_zero (S := S512x1) arg9.view hz2, View.readCov_unit_zero (S := S512x1024) arg10.view hz2]

/-- The output block after case F, read through any view of its shape from the run's pieces: the final payload of the
    two scratches as this step leaves them, the output weight and the bias. -/
theorem sF_out (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S1x512x1024 .f32) :
    v.read (Elt F) (v.writes (Elt F) v.junk (kernelRun1_F (F := F) c i arg3 harg3 arg4 harg4 arg5 harg5 arg6 harg6 arg7 harg7 arg8 harg8 arg9 harg9 arg10 harg10 hc1 hc2 hc3 hc4 hc5 x0 x1 x2 x3 x4 xs0 xs1).1)
      = k1_pay14 (k1_pay11 i x0 (tileOf i x1) (tileOf i x2) xs1) (k1_pay10 i x0 (tileOf i x1) xs0) x3 x4 := by
  rw [View.read_writes_junk_eq_canon]
  unfold kernelRun1_F
  dsimp only
  sl_unfold_run_names
  rw [View.canon_cons_unit_zero hz3]
  simp only [View.readAt_eq_ld, harg3.read_unread, harg4.read_unread, harg5.read_unread, harg6.read_unread,
    harg7.read_unread, harg9.read_unread, harg10.read_unread,
    View.ld_unit_zero (S := S1x512x1024) hz3, View.ld_unit_zero (S := S512x1) hz2, View.ld_unit_zero (S := S512x1024) hz2,
    View.ld_unit_zero (S := S1024x1024) hz2, View.ld_unit_zero (S := S1x1024) hz2,
    View.readCov_unit_zero (S := S512x1) arg9.view hz2, View.readCov_unit_zero (S := S512x1024) arg10.view hz2]

/-- Case F in the arrangement's terms: the row sum gains the key tile's contribution. -/
theorem caseF_l (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1 .f32) (r : Fin 512) (z : Fin 1) :
    v.read (Elt Ideal) (v.writes (Elt Ideal) v.junk (kernelRun1_F (F := Ideal) c i arg3 harg3 arg4 harg4 arg5 harg5 arg6 harg6 arg7 harg7 arg8 harg8 arg9 harg9 arg10 harg10 hc1 hc2 hc3 hc4 hc5 x0 x1 x2 x3 x4 xs0 xs1).2.1) (ix2 r z)
      = xs0 (ix2 r z) + Attn.lC x Wq Wk a b qi r ki := by
  rw [sF_l]
  have heq : ki = qi := Fin.ext (by have := eq_of_cond1_3 i hc3; omega)
  exact diag_l x Wq Wk a b qi ki x0 (tileOf i x1) hQ
    (fun jj d => (tileOf_apply i ki hi2 x1 0 jj d).trans (hK _ d)) i hi1 hi2 heq xs0 r z

/-- Case F in the arrangement's terms: the accumulator gains the key tile's contribution. -/
theorem caseF_acc (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1024 .f32) (r : Fin 512) (d : Fin 1024) :
    v.read (Elt Ideal) (v.writes (Elt Ideal) v.junk (kernelRun1_F (F := Ideal) c i arg3 harg3 arg4 harg4 arg5 harg5 arg6 harg6 arg7 harg7 arg8 harg8 arg9 harg9 arg10 harg10 hc1 hc2 hc3 hc4 hc5 x0 x1 x2 x3 x4 xs0 xs1).2.2.1) (ix2 r d)
      = xs1 (ix2 r d) + Attn.accC x Wq Wk Wv a b qi r ki d := by
  rw [sF_acc]
  have heq : ki = qi := Fin.ext (by have := eq_of_cond1_3 i hc3; omega)
  exact diag_acc x Wq Wk Wv a b qi ki x0 (tileOf i x1) (tileOf i x2) hQ
    (fun jj d => (tileOf_apply i ki hi2 x1 0 jj d).trans (hK _ d))
    (fun jj d => (tileOf_apply i ki hi2 x2 0 jj d).trans (hV _ d)) i hi1 hi2 heq xs1 r d

/-- Case F in the arrangement's terms: if the two scratches as this step leaves them (as payloads) hold the arrangement's
    row sum and accumulator, the loaded weight block holds Wo transposed and the loaded bias row holds bo, the output block
    holds the arrangement's output. -/
theorem caseF_out_of_pay (x : Fin 8 → Fin 2048 → Fin 1024 → EReal) (Wq Wk Wv Wo : Fin 1024 → Fin 1024 → EReal) (bo : Fin 1024 → EReal) (a : EReal) (b : Fin 8) (qi : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hl : ∀ r : Fin 512, (k1_pay10 (F := Ideal) i x0 (tileOf i x1) xs0) (ix2 r (0 : Fin 1)) = Attn.lK x Wq Wk a b qi r)
    (hacc : ∀ (r : Fin 512) (d : Fin 1024), (k1_pay11 (F := Ideal) i x0 (tileOf i x1) (tileOf i x2) xs1) (ix2 r d) = Attn.accK x Wq Wk Wv a b qi r d)
    (hWo : ∀ cc n : Fin 1024, x3 (ix2 cc n) = Wo n cc)
    (hbo : ∀ n : Fin 1024, x4 (ix2 (0 : Fin 1) n) = bo n)
    (v : View sig .tc .vmem S1x512x1024 .f32) (u : Fin 1) (r : Fin 512) (n : Fin 1024) :
    v.read (Elt Ideal) (v.writes (Elt Ideal) v.junk (kernelRun1_F (F := Ideal) c i arg3 harg3 arg4 harg4 arg5 harg5 arg6 harg6 arg7 harg7 arg8 harg8 arg9 harg9 arg10 harg10 hc1 hc2 hc3 hc4 hc5 x0 x1 x2 x3 x4 xs0 xs1).1) (ix3 u r n)
      = Attn.outK x Wq Wk Wv Wo bo a Attn.eW b qi r n := by
  rw [sF_out]
  exact final_out x Wq Wk Wv Wo bo a b qi _ _ x3 x4 hacc hl hWo hbo u r n

/-- The same with the two scratches read back from the run's pieces through any views of their shapes. -/
theorem caseF_out (x : Fin 8 → Fin 2048 → Fin 1024 → EReal) (Wq Wk Wv Wo : Fin 1024 → Fin 1024 → EReal) (bo : Fin 1024 → EReal) (a : EReal) (b : Fin 8) (qi : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (v0 : View sig .tc .vmem S512x1 .f32) (v1 : View sig .tc .vmem S512x1024 .f32)
    (hl : ∀ r : Fin 512, v0.read (Elt Ideal) (v0.writes (Elt Ideal) v0.junk (kernelRun1_F (F := Ideal) c i arg3 harg3 arg4 harg4 arg5 harg5 arg6 harg6 arg7 harg7 arg8 harg8 arg9 harg9 arg10 harg10 hc1 hc2 hc3 hc4 hc5 x0 x1 x2 x3 x4 xs0 xs1).2.1) (ix2 r (0 : Fin 1)) = Attn.lK x Wq Wk a b qi r)
    (hacc : ∀ (r : Fin 512) (d : Fin 1024), v1.read (Elt Ideal) (v1.writes (Elt Ideal) v1.junk (kernelRun1_F (F := Ideal) c i arg3 harg3 arg4 harg4 arg5 harg5 arg6 harg6 arg7 harg7 arg8 harg8 arg9 harg9 arg10 harg10 hc1 hc2 hc3 hc4 hc5 x0 x1 x2 x3 x4 xs0 xs1).2.2.1) (ix2 r d) = Attn.accK x Wq Wk Wv a b qi r d)
    (hWo : ∀ cc n : Fin 1024, x3 (ix2 cc n) = Wo n cc)
    (hbo : ∀ n : Fin 1024, x4 (ix2 (0 : Fin 1) n) = bo n)
    (v : View sig .tc .vmem S1x512x1024 .f32) (u : Fin 1) (r : Fin 512) (n : Fin 1024) :
    v.read (Elt Ideal) (v.writes (Elt Ideal) v.junk (kernelRun1_F (F := Ideal) c i arg3 harg3 arg4 harg4 arg5 harg5 arg6 harg6 arg7 harg7 arg8 harg8 arg9 harg9 arg10 harg10 hc1 hc2 hc3 hc4 hc5 x0 x1 x2 x3 x4 xs0 xs1).1) (ix3 u r n)
      = Attn.outK x Wq Wk Wv Wo bo a Attn.eW b qi r n :=
  caseF_out_of_pay x Wq Wk Wv Wo bo a b qi c i arg3 harg3 arg4 harg4 arg5 harg5 arg6 harg6 arg7 harg7 arg8 harg8 arg9 harg9 arg10 harg10
    hc1 hc2 hc3 hc4 hc5 x0 x1 x2 x3 x4 xs0 xs1
    (fun r => by
      rw [← sF_l c i arg3 harg3 arg4 harg4 arg5 harg5 arg6 harg6 arg7 harg7 arg8 harg8 arg9 harg9 arg10 harg10 hc1 hc2 hc3 hc4 hc5 x0 x1 x2 x3 x4 xs0 xs1 v0]
      exact hl r)
    (fun r d => by
      rw [← sF_acc c i arg3 harg3 arg4 harg4 arg5 harg5 arg6 harg6 arg7 harg7 arg8 harg8 arg9 harg9 arg10 harg10 hc1 hc2 hc3 hc4 hc5 x0 x1 x2 x3 x4 xs0 xs1 v1]
      exact hacc r d)
    hWo hbo v u r n

end Cert.KernelIdeal.AttnValue

end
-- ==== Proof.AttnPiecesG.lean ====
/-
  The found pieces of the body's run in case G (the last key tile, strictly above the diagonal) as values.

  The above-diagonal step leaves one covering store in each scratch (the row sum gains −512, the accumulator loses the column
  sums of the loaded value tile); the final step then reads both scratches back and stores into the output block the final
  payload: the accumulator over the row sum plus the offset, projected by the output weight, plus the bias.
-/
import proofs.«148243_j7679401525936_2_alg».proof.Proof.AttnRunG
import proofs.«148243_j7679401525936_2_alg».proof.Proof.AttnPiecesShared

set_option maxRecDepth 16384

noncomputable section

open scoped BigOperators

namespace Cert.KernelIdeal.AttnValue

open Cert.KernelIdeal Cert.KernelIdeal.Gen Cert.KernelIdeal.Attn
open Idealize.ShloMosaic Idealize.ShloMosaic.TcCoe Idealize.ShloMosaic.Tactic Idealize.ShloMosaic.ValueIdx
open Idealize.SL.Sem

variable {F : FTy → Type} [FloatOps F]

/-- The row-sum scratch after case G, read through any view of its shape from the run's pieces. -/
theorem sG_l (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S512x1 .f32) :
    v.read (Elt F) (v.writes (Elt F) v.junk (kernelRun1_G (F := F) c i arg3 harg3 arg4 harg4 arg5 harg5 arg6 harg6 arg7 harg7 arg8 harg8 arg9 harg9 arg10 harg10 hc1 hc2 hc3 hc4 hc5 x0 x1 x2 x3 x4 xs0 xs1).2.1)
      = k1_pay12 xs0 := by
  rw [View.read_writes_junk_eq_canon]
  unfold kernelRun1_G
  dsimp only
  sl_unfold_run_names
  rw [View.canon_cons_unit_zero hz2]
  simp only [View.readAt_eq_ld, harg3.read_unread, harg4.read_unread, harg5.read_unread, harg6.read_unread,
    harg7.read_unread, harg9.read_unread, harg10.read_unread,
    View.ld_unit_zero (S := S1x512x1024) hz3, View.ld_unit_zero (S := S512x1) hz2, View.ld_unit_zero (S := S512x1024) hz2,
    View.ld_unit_zero (S := S1024x1024) hz2, View.ld_unit_zero (S := S1x1024) hz2,
    View.readCov_unit_zero (S := S512x1) arg9.view hz2, View.readCov_unit_zero (S := S512x1024) arg10.view hz2]

/-- The accumulator scratch after case G, read through any view of its shape from the run's pieces. -/
theorem sG_acc (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S512x1024 .f32) :
    v.read (Elt F) (v.writes (Elt F) v.junk (kernelRun1_G (F := F) c i arg3 harg3 arg4 harg4 arg5 harg5 arg6 harg6 arg7 harg7 arg8 harg8 arg9 harg9 arg10 harg10 hc1 hc2 hc3 hc4 hc5 x0 x1 x2 x3 x4 xs0 xs1).2.2.1)
      = k1_pay13 (tileOf i x2) xs1 := by
  rw [View.read_writes_junk_eq_canon]
  unfold kernelRun1_G
  dsimp only
  sl_unfold_run_names
  rw [View.canon_cons_unit_zero hz2]
  simp only [View.readAt_eq_ld, harg3.read_unread, harg4.read_unread, harg5.read_unread, harg6.read_unread,
    harg7.read_unread, harg9.read_unread, harg10.read_unread,
    View.ld_unit_zero (S := S1x512x1024) hz3, View.ld_unit_zero (S := S512x1) hz2, View.ld_unit_zero (S := S512x1024) hz2,
    View.ld_unit_zero (S := S1024x1024) hz2, View.ld_unit_zero (S := S1x1024) hz2,
    View.readCov_unit_zero (S := S512x1) arg9.view hz2, View.readCov_unit_zero (S := S512x1024) arg10.view hz2]

/-- The output block after case G, read through any view of its shape from the run's pieces: the final payload of the
    two scratches as this step leaves them, the output weight and the bias. -/
theorem sG_out (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32) (xs0 : Vec F S512x1 .f32) (xs1 : Vec F S512x1024 .f32)
    (v : View sig .tc .vmem S1x512x1024 .f32) :
    v.read (Elt F) (v.writes (Elt F) v.junk (kernelRun1_G (F := F) c i arg3 harg3 arg4 harg4 arg5 harg5 arg6 harg6 arg7 harg7 arg8 harg8 arg9 harg9 arg10 harg10 hc1 hc2 hc3 hc4 hc5 x0 x1 x2 x3 x4 xs0 xs1).1)
      = k1_pay14 (k1_pay13 (tileOf i x2) xs1) (k1_pay12 xs0) x3 x4 := by
  rw [View.read_writes_junk_eq_canon]
  unfold kernelRun1_G
  dsimp only
  sl_unfold_run_names
  rw [View.canon_cons_unit_zero hz3]
  simp only [View.readAt_eq_ld, harg3.read_unread, harg4.read_unread, harg5.read_unread, harg6.read_unread,
    harg7.read_unread, harg9.read_unread, harg10.read_unread,
    View.ld_unit_zero (S := S1x512x1024) hz3, View.ld_unit_zero (S := S512x1) hz2, View.ld_unit_zero (S := S512x1024) hz2,
    View.ld_unit_zero (S := S1024x1024) hz2, View.ld_unit_zero (S := S1x1024) hz2,
    View.readCov_unit_zero (S := S512x1) arg9.view hz2, View.readCov_unit_zero (S := S512x1024) arg10.view hz2]

/-- Case G in the arrangement's terms: the row sum gains the key tile's contribution. -/
theorem caseG_l (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1 .f32) (r : Fin 512) (z : Fin 1) :
    v.read (Elt Ideal) (v.writes (Elt Ideal) v.junk (kernelRun1_G (F := Ideal) c i arg3 harg3 arg4 harg4 arg5 harg5 arg6 harg6 arg7 harg7 arg8 harg8 arg9 harg9 arg10 harg10 hc1 hc2 hc3 hc4 hc5 x0 x1 x2 x3 x4 xs0 xs1).2.1) (ix2 r z)
      = xs0 (ix2 r z) + Attn.lC x Wq Wk a b qi r ki := by
  rw [sG_l]
  have hgt : qi.val < ki.val := by have := lt_of_cond1_4 i hc4; omega
  exact above_l x Wq Wk a b qi ki hgt xs0 r z

/-- Case G in the arrangement's terms: the accumulator gains the key tile's contribution. -/
theorem caseG_acc (x : Fin 8 → Fin 2048 → Fin 1024 → EReal) (Wq Wk Wv : Fin 1024 → Fin 1024 → EReal) (a : EReal) (b : Fin 8) (qi ki : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hQ : ∀ (r : Fin 512) (d : Fin 1024), x0 (ix3 (0 : Fin 1) r d) = Attn.qK x Wq a b (Attn.row qi r) d)
    (hK : ∀ (j : Fin 2048) (d : Fin 1024), x1 (ix3 (0 : Fin 1) j d) = Attn.kK x Wk a b j d)
    (hV : ∀ (j : Fin 2048) (d : Fin 1024), x2 (ix3 (0 : Fin 1) j d) = Attn.vK x Wv b j d)
    (hi1 : (i 1).val = qi.val) (hi2 : (i 2).val = ki.val)
    (v : View sig .tc .vmem S512x1024 .f32) (r : Fin 512) (d : Fin 1024) :
    v.read (Elt Ideal) (v.writes (Elt Ideal) v.junk (kernelRun1_G (F := Ideal) c i arg3 harg3 arg4 harg4 arg5 harg5 arg6 harg6 arg7 harg7 arg8 harg8 arg9 harg9 arg10 harg10 hc1 hc2 hc3 hc4 hc5 x0 x1 x2 x3 x4 xs0 xs1).2.2.1) (ix2 r d)
      = xs1 (ix2 r d) + Attn.accC x Wq Wk Wv a b qi r ki d := by
  rw [sG_acc]
  have hgt : qi.val < ki.val := by have := lt_of_cond1_4 i hc4; omega
  exact above_acc x Wq Wk Wv a b qi ki (tileOf i x2)
    (fun jj d => (tileOf_apply i ki hi2 x2 0 jj d).trans (hV _ d)) hgt xs1 r d

/-- Case G in the arrangement's terms: if the two scratches as this step leaves them (as payloads) hold the arrangement's
    row sum and accumulator, the loaded weight block holds Wo transposed and the loaded bias row holds bo, the output block
    holds the arrangement's output. -/
theorem caseG_out_of_pay (x : Fin 8 → Fin 2048 → Fin 1024 → EReal) (Wq Wk Wv Wo : Fin 1024 → Fin 1024 → EReal) (bo : Fin 1024 → EReal) (a : EReal) (b : Fin 8) (qi : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (hl : ∀ r : Fin 512, (k1_pay12 (F := Ideal) xs0) (ix2 r (0 : Fin 1)) = Attn.lK x Wq Wk a b qi r)
    (hacc : ∀ (r : Fin 512) (d : Fin 1024), (k1_pay13 (F := Ideal) (tileOf i x2) xs1) (ix2 r d) = Attn.accK x Wq Wk Wv a b qi r d)
    (hWo : ∀ cc n : Fin 1024, x3 (ix2 cc n) = Wo n cc)
    (hbo : ∀ n : Fin 1024, x4 (ix2 (0 : Fin 1) n) = bo n)
    (v : View sig .tc .vmem S1x512x1024 .f32) (u : Fin 1) (r : Fin 512) (n : Fin 1024) :
    v.read (Elt Ideal) (v.writes (Elt Ideal) v.junk (kernelRun1_G (F := Ideal) c i arg3 harg3 arg4 harg4 arg5 harg5 arg6 harg6 arg7 harg7 arg8 harg8 arg9 harg9 arg10 harg10 hc1 hc2 hc3 hc4 hc5 x0 x1 x2 x3 x4 xs0 xs1).1) (ix3 u r n)
      = Attn.outK x Wq Wk Wv Wo bo a Attn.eW b qi r n := by
  rw [sG_out]
  exact final_out x Wq Wk Wv Wo bo a b qi _ _ x3 x4 hacc hl hWo hbo u r n

/-- The same with the two scratches read back from the run's pieces through any views of their shapes. -/
theorem caseG_out (x : Fin 8 → Fin 2048 → Fin 1024 → EReal) (Wq Wk Wv Wo : Fin 1024 → Fin 1024 → EReal) (bo : Fin 1024 → EReal) (a : EReal) (b : Fin 8) (qi : Fin 4)
    (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec Ideal S1x512x1024 .bf16) (x1 x2 : Vec Ideal S1x2048x1024 .bf16) (x3 : Vec Ideal S1024x1024 .bf16) (x4 : Vec Ideal S1x1024 .f32) (xs0 : Vec Ideal S512x1 .f32) (xs1 : Vec Ideal S512x1024 .f32)
    (v0 : View sig .tc .vmem S512x1 .f32) (v1 : View sig .tc .vmem S512x1024 .f32)
    (hl : ∀ r : Fin 512, v0.read (Elt Ideal) (v0.writes (Elt Ideal) v0.junk (kernelRun1_G (F := Ideal) c i arg3 harg3 arg4 harg4 arg5 harg5 arg6 harg6 arg7 harg7 arg8 harg8 arg9 harg9 arg10 harg10 hc1 hc2 hc3 hc4 hc5 x0 x1 x2 x3 x4 xs0 xs1).2.1) (ix2 r (0 : Fin 1)) = Attn.lK x Wq Wk a b qi r)
    (hacc : ∀ (r : Fin 512) (d : Fin 1024), v1.read (Elt Ideal) (v1.writes (Elt Ideal) v1.junk (kernelRun1_G (F := Ideal) c i arg3 harg3 arg4 harg4 arg5 harg5 arg6 harg6 arg7 harg7 arg8 harg8 arg9 harg9 arg10 harg10 hc1 hc2 hc3 hc4 hc5 x0 x1 x2 x3 x4 xs0 xs1).2.2.1) (ix2 r d) = Attn.accK x Wq Wk Wv a b qi r d)
    (hWo : ∀ cc n : Fin 1024, x3 (ix2 cc n) = Wo n cc)
    (hbo : ∀ n : Fin 1024, x4 (ix2 (0 : Fin 1) n) = bo n)
    (v : View sig .tc .vmem S1x512x1024 .f32) (u : Fin 1) (r : Fin 512) (n : Fin 1024) :
    v.read (Elt Ideal) (v.writes (Elt Ideal) v.junk (kernelRun1_G (F := Ideal) c i arg3 harg3 arg4 harg4 arg5 harg5 arg6 harg6 arg7 harg7 arg8 harg8 arg9 harg9 arg10 harg10 hc1 hc2 hc3 hc4 hc5 x0 x1 x2 x3 x4 xs0 xs1).1) (ix3 u r n)
      = Attn.outK x Wq Wk Wv Wo bo a Attn.eW b qi r n :=
  caseG_out_of_pay x Wq Wk Wv Wo bo a b qi c i arg3 harg3 arg4 harg4 arg5 harg5 arg6 harg6 arg7 harg7 arg8 harg8 arg9 harg9 arg10 harg10
    hc1 hc2 hc3 hc4 hc5 x0 x1 x2 x3 x4 xs0 xs1
    (fun r => by
      rw [← sG_l c i arg3 harg3 arg4 harg4 arg5 harg5 arg6 harg6 arg7 harg7 arg8 harg8 arg9 harg9 arg10 harg10 hc1 hc2 hc3 hc4 hc5 x0 x1 x2 x3 x4 xs0 xs1 v0]
      exact hl r)
    (fun r d => by
      rw [← sG_acc c i arg3 harg3 arg4 harg4 arg5 harg5 arg6 harg6 arg7 harg7 arg8 harg8 arg9 harg9 arg10 harg10 hc1 hc2 hc3 hc4 hc5 x0 x1 x2 x3 x4 xs0 xs1 v1]
      exact hacc r d)
    hWo hbo v u r n

end Cert.KernelIdeal.AttnValue

end
-- ==== Proof.AttnValue.lean ====
/-
  The two scratches of the attention kernel's region after every grid point, in the terms of the kernel's arrangement.

  Point n = batch · 16 + query tile · 4 + key tile.  After point n the running row sum holds, at row r, the row sum of query row
  (query tile, r) after the first (key tile + 1) key tiles, and the running accumulator the accumulator after those tiles: at
  the first key tile the body zeroes the scratches and adds the tile's contributions; at every other point it adds the tile's
  contributions to what the point before left, which has the same batch and query tile and the key tile before.  The input
  blocks at a point are the rows of q of the query tile and all the rows of k and v of the batch (the three thirds of the
  projected rows' channels).
-/
import proofs.«148243_j7679401525936_2_alg».proof.Proof.AttnArray
import proofs.«148243_j7679401525936_2_alg».proof.Proof.AttnPartial
import proofs.«148243_j7679401525936_2_alg».proof.Proof.AttnPiecesA
import proofs.«148243_j7679401525936_2_alg».proof.Proof.AttnPiecesB
import proofs.«148243_j7679401525936_2_alg».proof.Proof.AttnPiecesC
import proofs.«148243_j7679401525936_2_alg».proof.Proof.AttnPiecesD
import proofs.«148243_j7679401525936_2_alg».proof.Proof.AttnPiecesE
import proofs.«148243_j7679401525936_2_alg».proof.Proof.AttnPiecesF
import proofs.«148243_j7679401525936_2_alg».proof.Proof.AttnPiecesG

set_option maxRecDepth 16384

noncomputable section

namespace Cert.KernelIdeal.Attn

open Cert.KernelIdeal Cert.KernelIdeal.Gen Cert.KernelIdeal.AttnValue
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Channel d of q, of k, of v inside a projected row of 3072 channels. -/
abbrev colQ (d : Fin 1024) : Fin 3072 := ⟨d.val, by have := d.isLt; omega⟩
abbrev colK (d : Fin 1024) : Fin 3072 := ⟨1024 + d.val, by have := d.isLt; omega⟩
abbrev colV (d : Fin 1024) : Fin 3072 := ⟨2048 + d.val, by have := d.isLt; omega⟩

/-- The grid coordinates of point t: its query tile and its key tile. -/
theorem coords_facts : ∀ t : Fin cfg1.N, (grid1.coords t 1).val = t.val / 4 % 4 ∧ (grid1.coords t 2).val = t.val % 4 :=
  (by decide +kernel : ∀ t : Fin grid1.N, (grid1.coords t 1).val = t.val / 4 % 4 ∧ (grid1.coords t 2).val = t.val % 4)

theorem bound16 {n : ℕ} (hn : n < cfg1.N) : n / 16 < 8 := by
  have h : n < 128 := hn
  omega

/-- The query block at point t holds the rows of q of the point's batch and query tile. -/
theorem hQ_at (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d)
    (t : Fin cfg1.N) (b : Fin 8) (qi : Fin 4) (hb : b.val = t.val / 16) (hq : qi.val = t.val / 4 % 4)
    (r : Fin 512) (d : Fin 1024) :
    (iblk V c 0 t) (ix3 (0 : Fin 1) r d) = Attn.qK x Wq Attn.aW b (Attn.row qi r) d :=
  (iblk0_apply V c t r d (ix3 b (Attn.row qi r) (colQ d)) hb (by show qi.val * 512 + r.val = _; rw [hq]) rfl).trans (h9q b _ d)

/-- The keys' block at point t holds all the rows of k of the point's batch. -/
theorem hK_at (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d)
    (t : Fin cfg1.N) (b : Fin 8) (hb : b.val = t.val / 16) (j : Fin 2048) (d : Fin 1024) :
    (iblk V c 1 t) (ix3 (0 : Fin 1) j d) = Attn.kK x Wk Attn.aW b j d :=
  (iblk1_apply V c t j d (ix3 b j (colK d)) hb rfl rfl).trans (h9k b j d)

/-- The values' block at point t holds all the rows of v of the point's batch. -/
theorem hV_at (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d)
    (t : Fin cfg1.N) (b : Fin 8) (hb : b.val = t.val / 16) (j : Fin 2048) (d : Fin 1024) :
    (iblk V c 2 t) (ix3 (0 : Fin 1) j d) = Attn.vK x Wv b j d :=
  (iblk2_apply V c t j d (ix3 b j (colV d)) hb rfl rfl).trans (h9v b j d)

/-- The two scratches after a point of case A (the first key tile, on the diagonal (query tile 0)): the key tile's contributions, from zero. -/
theorem inv_A (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d)
    (t : Fin cfg1.N) (h1 : t.val % 4 = 0) (h3 : t.val % 4 = t.val / 4 % 4)
    (b : Fin 8) (qi ki : Fin 4) (hb : b.val = t.val / 16) (hq : qi.val = t.val / 4 % 4) (hk : ki.val = t.val % 4) :
    (∀ (r : Fin 512) (z : Fin 1), (outsAt V c t.val t.isLt).2.1 (ix2 r z) = Attn.lP x Wq Wk Attn.aW b qi r (ki.val + 1))
      ∧ (∀ (r : Fin 512) (d : Fin 1024), (outsAt V c t.val t.isLt).2.2 (ix2 r d) = Attn.accP x Wq Wk Wv Attn.aW b qi r d (ki.val + 1)) := by
  have h2 : ¬(t.val % 4 < t.val / 4 % 4) := by omega
  have h4 : ¬(t.val / 4 % 4 < t.val % 4) := by omega
  have h5 : ¬(t.val % 4 = 3) := by omega
  have hi1 : (grid1.coords t 1).val = qi.val := by rw [(coords_facts t).1, hq]
  have hi2 : (grid1.coords t 2).val = ki.val := by rw [(coords_facts t).2, hk]
  rw [outsAt_A V c t h1 h3]
  dsimp only
  refine ⟨fun r z => ?_, fun r d => ?_⟩
  · unfold sout1_A_0
    refine (caseA_l x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr h1) (fun h => h2 ((hcond1_2 t).mp h)) ((hcond1_3 t).mpr h3) (fun h => h4 ((hcond1_4 t).mp h)) (fun h => h5 ((hcond1_5 t).mp h))
      (iblk V c 0 t) (iblk V c 1 t) (iblk V c 2 t) (iblk V c 3 t) (iblk V c 4 t)
      (hQ_at V c x Wq Wk Wv h9q h9k h9v t b qi hb hq) (hK_at V c x Wq Wk Wv h9q h9k h9v t b hb) (hV_at V c x Wq Wk Wv h9q h9k h9v t b hb)
      hi1 hi2 VS1_0 r z).trans ?_
    rw [Attn.lP_succ, show ki.val = 0 from by omega, Attn.lP_zero]
  · unfold sout1_A_1
    refine (caseA_acc x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr h1) (fun h => h2 ((hcond1_2 t).mp h)) ((hcond1_3 t).mpr h3) (fun h => h4 ((hcond1_4 t).mp h)) (fun h => h5 ((hcond1_5 t).mp h))
      (iblk V c 0 t) (iblk V c 1 t) (iblk V c 2 t) (iblk V c 3 t) (iblk V c 4 t)
      (hQ_at V c x Wq Wk Wv h9q h9k h9v t b qi hb hq) (hK_at V c x Wq Wk Wv h9q h9k h9v t b hb) (hV_at V c x Wq Wk Wv h9q h9k h9v t b hb)
      hi1 hi2 VS1_1 r d).trans ?_
    rw [Attn.accP_succ, show ki.val = 0 from by omega, Attn.accP_zero]

/-- The two scratches after a point of case B (the first key tile, below the diagonal): the key tile's contributions, from zero. -/
theorem inv_B (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d)
    (t : Fin cfg1.N) (h1 : t.val % 4 = 0) (h3 : ¬(t.val % 4 = t.val / 4 % 4))
    (b : Fin 8) (qi ki : Fin 4) (hb : b.val = t.val / 16) (hq : qi.val = t.val / 4 % 4) (hk : ki.val = t.val % 4) :
    (∀ (r : Fin 512) (z : Fin 1), (outsAt V c t.val t.isLt).2.1 (ix2 r z) = Attn.lP x Wq Wk Attn.aW b qi r (ki.val + 1))
      ∧ (∀ (r : Fin 512) (d : Fin 1024), (outsAt V c t.val t.isLt).2.2 (ix2 r d) = Attn.accP x Wq Wk Wv Attn.aW b qi r d (ki.val + 1)) := by
  have h2 : t.val % 4 < t.val / 4 % 4 := by omega
  have h4 : ¬(t.val / 4 % 4 < t.val % 4) := by omega
  have h5 : ¬(t.val % 4 = 3) := by omega
  have hi1 : (grid1.coords t 1).val = qi.val := by rw [(coords_facts t).1, hq]
  have hi2 : (grid1.coords t 2).val = ki.val := by rw [(coords_facts t).2, hk]
  rw [outsAt_B V c t h1 h3]
  dsimp only
  refine ⟨fun r z => ?_, fun r d => ?_⟩
  · unfold sout1_B_0
    refine (caseB_l x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr h1) ((hcond1_2 t).mpr h2) (fun h => h3 ((hcond1_3 t).mp h)) (fun h => h4 ((hcond1_4 t).mp h)) (fun h => h5 ((hcond1_5 t).mp h))
      (iblk V c 0 t) (iblk V c 1 t) (iblk V c 2 t) (iblk V c 3 t) (iblk V c 4 t)
      (hQ_at V c x Wq Wk Wv h9q h9k h9v t b qi hb hq) (hK_at V c x Wq Wk Wv h9q h9k h9v t b hb) (hV_at V c x Wq Wk Wv h9q h9k h9v t b hb)
      hi1 hi2 VS1_0 r z).trans ?_
    rw [Attn.lP_succ, show ki.val = 0 from by omega, Attn.lP_zero]
  · unfold sout1_B_1
    refine (caseB_acc x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr h1) ((hcond1_2 t).mpr h2) (fun h => h3 ((hcond1_3 t).mp h)) (fun h => h4 ((hcond1_4 t).mp h)) (fun h => h5 ((hcond1_5 t).mp h))
      (iblk V c 0 t) (iblk V c 1 t) (iblk V c 2 t) (iblk V c 3 t) (iblk V c 4 t)
      (hQ_at V c x Wq Wk Wv h9q h9k h9v t b qi hb hq) (hK_at V c x Wq Wk Wv h9q h9k h9v t b hb) (hV_at V c x Wq Wk Wv h9q h9k h9v t b hb)
      hi1 hi2 VS1_1 r d).trans ?_
    rw [Attn.accP_succ, show ki.val = 0 from by omega, Attn.accP_zero]

/-- The two scratches after a point of case C (a middle key tile below the diagonal): what the point before left, plus the key tile's contributions. -/
theorem inv_C (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d)
    (t : Fin cfg1.N) (h1 : ¬(t.val % 4 = 0)) (h5 : ¬(t.val % 4 = 3)) (h2 : t.val % 4 < t.val / 4 % 4)
    (b : Fin 8) (qi ki : Fin 4) (hb : b.val = t.val / 16) (hq : qi.val = t.val / 4 % 4) (hk : ki.val = t.val % 4)
    (hp : t.val - 1 < cfg1.N)
    (ihl : ∀ (r : Fin 512) (z : Fin 1), (outsAt V c (t.val - 1) hp).2.1 (ix2 r z) = Attn.lP x Wq Wk Attn.aW b qi r ki.val)
    (ihacc : ∀ (r : Fin 512) (d : Fin 1024), (outsAt V c (t.val - 1) hp).2.2 (ix2 r d) = Attn.accP x Wq Wk Wv Attn.aW b qi r d ki.val) :
    (∀ (r : Fin 512) (z : Fin 1), (outsAt V c t.val t.isLt).2.1 (ix2 r z) = Attn.lP x Wq Wk Attn.aW b qi r (ki.val + 1))
      ∧ (∀ (r : Fin 512) (d : Fin 1024), (outsAt V c t.val t.isLt).2.2 (ix2 r d) = Attn.accP x Wq Wk Wv Attn.aW b qi r d (ki.val + 1)) := by
  have h3 : ¬(t.val % 4 = t.val / 4 % 4) := by omega
  have h4 : ¬(t.val / 4 % 4 < t.val % 4) := by omega
  have hi1 : (grid1.coords t 1).val = qi.val := by rw [(coords_facts t).1, hq]
  have hi2 : (grid1.coords t 2).val = ki.val := by rw [(coords_facts t).2, hk]
  rw [outsAt_C V c t h1 h5 h2]
  dsimp only
  refine ⟨fun r z => ?_, fun r d => ?_⟩
  · unfold sout1_C_0
    refine (caseC_l x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h1 ((hcond1_1 t).mp h)) ((hcond1_2 t).mpr h2) (fun h => h3 ((hcond1_3 t).mp h)) (fun h => h4 ((hcond1_4 t).mp h)) (fun h => h5 ((hcond1_5 t).mp h))
      (iblk V c 0 t) (iblk V c 1 t) (iblk V c 2 t) (iblk V c 3 t) (iblk V c 4 t) (outsAt V c (t.val - 1) hp).2.1 (outsAt V c (t.val - 1) hp).2.2
      (hQ_at V c x Wq Wk Wv h9q h9k h9v t b qi hb hq) (hK_at V c x Wq Wk Wv h9q h9k h9v t b hb) (hV_at V c x Wq Wk Wv h9q h9k h9v t b hb)
      hi1 hi2 VS1_0 r z).trans ?_
    rw [ihl, ← Attn.lP_succ]
  · unfold sout1_C_1
    refine (caseC_acc x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h1 ((hcond1_1 t).mp h)) ((hcond1_2 t).mpr h2) (fun h => h3 ((hcond1_3 t).mp h)) (fun h => h4 ((hcond1_4 t).mp h)) (fun h => h5 ((hcond1_5 t).mp h))
      (iblk V c 0 t) (iblk V c 1 t) (iblk V c 2 t) (iblk V c 3 t) (iblk V c 4 t) (outsAt V c (t.val - 1) hp).2.1 (outsAt V c (t.val - 1) hp).2.2
      (hQ_at V c x Wq Wk Wv h9q h9k h9v t b qi hb hq) (hK_at V c x Wq Wk Wv h9q h9k h9v t b hb) (hV_at V c x Wq Wk Wv h9q h9k h9v t b hb)
      hi1 hi2 VS1_1 r d).trans ?_
    rw [ihacc, ← Attn.accP_succ]

/-- The two scratches after a point of case D (a middle key tile on the diagonal): what the point before left, plus the key tile's contributions. -/
theorem inv_D (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d)
    (t : Fin cfg1.N) (h1 : ¬(t.val % 4 = 0)) (h5 : ¬(t.val % 4 = 3)) (h2 : ¬(t.val % 4 < t.val / 4 % 4)) (h3 : t.val % 4 = t.val / 4 % 4)
    (b : Fin 8) (qi ki : Fin 4) (hb : b.val = t.val / 16) (hq : qi.val = t.val / 4 % 4) (hk : ki.val = t.val % 4)
    (hp : t.val - 1 < cfg1.N)
    (ihl : ∀ (r : Fin 512) (z : Fin 1), (outsAt V c (t.val - 1) hp).2.1 (ix2 r z) = Attn.lP x Wq Wk Attn.aW b qi r ki.val)
    (ihacc : ∀ (r : Fin 512) (d : Fin 1024), (outsAt V c (t.val - 1) hp).2.2 (ix2 r d) = Attn.accP x Wq Wk Wv Attn.aW b qi r d ki.val) :
    (∀ (r : Fin 512) (z : Fin 1), (outsAt V c t.val t.isLt).2.1 (ix2 r z) = Attn.lP x Wq Wk Attn.aW b qi r (ki.val + 1))
      ∧ (∀ (r : Fin 512) (d : Fin 1024), (outsAt V c t.val t.isLt).2.2 (ix2 r d) = Attn.accP x Wq Wk Wv Attn.aW b qi r d (ki.val + 1)) := by
  have h4 : ¬(t.val / 4 % 4 < t.val % 4) := by omega
  have hi1 : (grid1.coords t 1).val = qi.val := by rw [(coords_facts t).1, hq]
  have hi2 : (grid1.coords t 2).val = ki.val := by rw [(coords_facts t).2, hk]
  rw [outsAt_D V c t h1 h5 h2 h3]
  dsimp only
  refine ⟨fun r z => ?_, fun r d => ?_⟩
  · unfold sout1_D_0
    refine (caseD_l x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h1 ((hcond1_1 t).mp h)) (fun h => h2 ((hcond1_2 t).mp h)) ((hcond1_3 t).mpr h3) (fun h => h4 ((hcond1_4 t).mp h)) (fun h => h5 ((hcond1_5 t).mp h))
      (iblk V c 0 t) (iblk V c 1 t) (iblk V c 2 t) (iblk V c 3 t) (iblk V c 4 t) (outsAt V c (t.val - 1) hp).2.1 (outsAt V c (t.val - 1) hp).2.2
      (hQ_at V c x Wq Wk Wv h9q h9k h9v t b qi hb hq) (hK_at V c x Wq Wk Wv h9q h9k h9v t b hb) (hV_at V c x Wq Wk Wv h9q h9k h9v t b hb)
      hi1 hi2 VS1_0 r z).trans ?_
    rw [ihl, ← Attn.lP_succ]
  · unfold sout1_D_1
    refine (caseD_acc x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h1 ((hcond1_1 t).mp h)) (fun h => h2 ((hcond1_2 t).mp h)) ((hcond1_3 t).mpr h3) (fun h => h4 ((hcond1_4 t).mp h)) (fun h => h5 ((hcond1_5 t).mp h))
      (iblk V c 0 t) (iblk V c 1 t) (iblk V c 2 t) (iblk V c 3 t) (iblk V c 4 t) (outsAt V c (t.val - 1) hp).2.1 (outsAt V c (t.val - 1) hp).2.2
      (hQ_at V c x Wq Wk Wv h9q h9k h9v t b qi hb hq) (hK_at V c x Wq Wk Wv h9q h9k h9v t b hb) (hV_at V c x Wq Wk Wv h9q h9k h9v t b hb)
      hi1 hi2 VS1_1 r d).trans ?_
    rw [ihacc, ← Attn.accP_succ]

/-- The two scratches after a point of case E (a middle key tile above the diagonal): what the point before left, plus the key tile's contributions. -/
theorem inv_E (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d)
    (t : Fin cfg1.N) (h1 : ¬(t.val % 4 = 0)) (h5 : ¬(t.val % 4 = 3)) (h2 : ¬(t.val % 4 < t.val / 4 % 4)) (h3 : ¬(t.val % 4 = t.val / 4 % 4))
    (b : Fin 8) (qi ki : Fin 4) (hb : b.val = t.val / 16) (hq : qi.val = t.val / 4 % 4) (hk : ki.val = t.val % 4)
    (hp : t.val - 1 < cfg1.N)
    (ihl : ∀ (r : Fin 512) (z : Fin 1), (outsAt V c (t.val - 1) hp).2.1 (ix2 r z) = Attn.lP x Wq Wk Attn.aW b qi r ki.val)
    (ihacc : ∀ (r : Fin 512) (d : Fin 1024), (outsAt V c (t.val - 1) hp).2.2 (ix2 r d) = Attn.accP x Wq Wk Wv Attn.aW b qi r d ki.val) :
    (∀ (r : Fin 512) (z : Fin 1), (outsAt V c t.val t.isLt).2.1 (ix2 r z) = Attn.lP x Wq Wk Attn.aW b qi r (ki.val + 1))
      ∧ (∀ (r : Fin 512) (d : Fin 1024), (outsAt V c t.val t.isLt).2.2 (ix2 r d) = Attn.accP x Wq Wk Wv Attn.aW b qi r d (ki.val + 1)) := by
  have h4 : t.val / 4 % 4 < t.val % 4 := by omega
  have hi1 : (grid1.coords t 1).val = qi.val := by rw [(coords_facts t).1, hq]
  have hi2 : (grid1.coords t 2).val = ki.val := by rw [(coords_facts t).2, hk]
  rw [outsAt_E V c t h1 h5 h2 h3]
  dsimp only
  refine ⟨fun r z => ?_, fun r d => ?_⟩
  · unfold sout1_E_0
    refine (caseE_l x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h1 ((hcond1_1 t).mp h)) (fun h => h2 ((hcond1_2 t).mp h)) (fun h => h3 ((hcond1_3 t).mp h)) ((hcond1_4 t).mpr h4) (fun h => h5 ((hcond1_5 t).mp h))
      (iblk V c 0 t) (iblk V c 1 t) (iblk V c 2 t) (iblk V c 3 t) (iblk V c 4 t) (outsAt V c (t.val - 1) hp).2.1 (outsAt V c (t.val - 1) hp).2.2
      (hQ_at V c x Wq Wk Wv h9q h9k h9v t b qi hb hq) (hK_at V c x Wq Wk Wv h9q h9k h9v t b hb) (hV_at V c x Wq Wk Wv h9q h9k h9v t b hb)
      hi1 hi2 VS1_0 r z).trans ?_
    rw [ihl, ← Attn.lP_succ]
  · unfold sout1_E_1
    refine (caseE_acc x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h1 ((hcond1_1 t).mp h)) (fun h => h2 ((hcond1_2 t).mp h)) (fun h => h3 ((hcond1_3 t).mp h)) ((hcond1_4 t).mpr h4) (fun h => h5 ((hcond1_5 t).mp h))
      (iblk V c 0 t) (iblk V c 1 t) (iblk V c 2 t) (iblk V c 3 t) (iblk V c 4 t) (outsAt V c (t.val - 1) hp).2.1 (outsAt V c (t.val - 1) hp).2.2
      (hQ_at V c x Wq Wk Wv h9q h9k h9v t b qi hb hq) (hK_at V c x Wq Wk Wv h9q h9k h9v t b hb) (hV_at V c x Wq Wk Wv h9q h9k h9v t b hb)
      hi1 hi2 VS1_1 r d).trans ?_
    rw [ihacc, ← Attn.accP_succ]

/-- The two scratches after a point of case F (the last key tile, on the diagonal (query tile 3)): what the point before left, plus the key tile's contributions. -/
theorem inv_F (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d)
    (t : Fin cfg1.N) (h1 : ¬(t.val % 4 = 0)) (h5 : t.val % 4 = 3) (h3 : t.val % 4 = t.val / 4 % 4)
    (b : Fin 8) (qi ki : Fin 4) (hb : b.val = t.val / 16) (hq : qi.val = t.val / 4 % 4) (hk : ki.val = t.val % 4)
    (hp : t.val - 1 < cfg1.N)
    (ihl : ∀ (r : Fin 512) (z : Fin 1), (outsAt V c (t.val - 1) hp).2.1 (ix2 r z) = Attn.lP x Wq Wk Attn.aW b qi r ki.val)
    (ihacc : ∀ (r : Fin 512) (d : Fin 1024), (outsAt V c (t.val - 1) hp).2.2 (ix2 r d) = Attn.accP x Wq Wk Wv Attn.aW b qi r d ki.val) :
    (∀ (r : Fin 512) (z : Fin 1), (outsAt V c t.val t.isLt).2.1 (ix2 r z) = Attn.lP x Wq Wk Attn.aW b qi r (ki.val + 1))
      ∧ (∀ (r : Fin 512) (d : Fin 1024), (outsAt V c t.val t.isLt).2.2 (ix2 r d) = Attn.accP x Wq Wk Wv Attn.aW b qi r d (ki.val + 1)) := by
  have h2 : ¬(t.val % 4 < t.val / 4 % 4) := by omega
  have h4 : ¬(t.val / 4 % 4 < t.val % 4) := by omega
  have hi1 : (grid1.coords t 1).val = qi.val := by rw [(coords_facts t).1, hq]
  have hi2 : (grid1.coords t 2).val = ki.val := by rw [(coords_facts t).2, hk]
  rw [outsAt_F V c t h1 h5 h3]
  dsimp only
  refine ⟨fun r z => ?_, fun r d => ?_⟩
  · unfold sout1_F_0
    refine (caseF_l x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h1 ((hcond1_1 t).mp h)) (fun h => h2 ((hcond1_2 t).mp h)) ((hcond1_3 t).mpr h3) (fun h => h4 ((hcond1_4 t).mp h)) ((hcond1_5 t).mpr h5)
      (iblk V c 0 t) (iblk V c 1 t) (iblk V c 2 t) (iblk V c 3 t) (iblk V c 4 t) (outsAt V c (t.val - 1) hp).2.1 (outsAt V c (t.val - 1) hp).2.2
      (hQ_at V c x Wq Wk Wv h9q h9k h9v t b qi hb hq) (hK_at V c x Wq Wk Wv h9q h9k h9v t b hb) (hV_at V c x Wq Wk Wv h9q h9k h9v t b hb)
      hi1 hi2 VS1_0 r z).trans ?_
    rw [ihl, ← Attn.lP_succ]
  · unfold sout1_F_1
    refine (caseF_acc x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h1 ((hcond1_1 t).mp h)) (fun h => h2 ((hcond1_2 t).mp h)) ((hcond1_3 t).mpr h3) (fun h => h4 ((hcond1_4 t).mp h)) ((hcond1_5 t).mpr h5)
      (iblk V c 0 t) (iblk V c 1 t) (iblk V c 2 t) (iblk V c 3 t) (iblk V c 4 t) (outsAt V c (t.val - 1) hp).2.1 (outsAt V c (t.val - 1) hp).2.2
      (hQ_at V c x Wq Wk Wv h9q h9k h9v t b qi hb hq) (hK_at V c x Wq Wk Wv h9q h9k h9v t b hb) (hV_at V c x Wq Wk Wv h9q h9k h9v t b hb)
      hi1 hi2 VS1_1 r d).trans ?_
    rw [ihacc, ← Attn.accP_succ]

/-- The two scratches after a point of case G (the last key tile, above the diagonal): what the point before left, plus the key tile's contributions. -/
theorem inv_G (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d)
    (t : Fin cfg1.N) (h1 : ¬(t.val % 4 = 0)) (h5 : t.val % 4 = 3) (h3 : ¬(t.val % 4 = t.val / 4 % 4))
    (b : Fin 8) (qi ki : Fin 4) (hb : b.val = t.val / 16) (hq : qi.val = t.val / 4 % 4) (hk : ki.val = t.val % 4)
    (hp : t.val - 1 < cfg1.N)
    (ihl : ∀ (r : Fin 512) (z : Fin 1), (outsAt V c (t.val - 1) hp).2.1 (ix2 r z) = Attn.lP x Wq Wk Attn.aW b qi r ki.val)
    (ihacc : ∀ (r : Fin 512) (d : Fin 1024), (outsAt V c (t.val - 1) hp).2.2 (ix2 r d) = Attn.accP x Wq Wk Wv Attn.aW b qi r d ki.val) :
    (∀ (r : Fin 512) (z : Fin 1), (outsAt V c t.val t.isLt).2.1 (ix2 r z) = Attn.lP x Wq Wk Attn.aW b qi r (ki.val + 1))
      ∧ (∀ (r : Fin 512) (d : Fin 1024), (outsAt V c t.val t.isLt).2.2 (ix2 r d) = Attn.accP x Wq Wk Wv Attn.aW b qi r d (ki.val + 1)) := by
  have h2 : ¬(t.val % 4 < t.val / 4 % 4) := by have := t.isLt; have hN : t.val < 128 := t.isLt; omega
  have h4 : t.val / 4 % 4 < t.val % 4 := by omega
  have hi1 : (grid1.coords t 1).val = qi.val := by rw [(coords_facts t).1, hq]
  have hi2 : (grid1.coords t 2).val = ki.val := by rw [(coords_facts t).2, hk]
  rw [outsAt_G V c t h1 h5 h3]
  dsimp only
  refine ⟨fun r z => ?_, fun r d => ?_⟩
  · unfold sout1_G_0
    refine (caseG_l x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h1 ((hcond1_1 t).mp h)) (fun h => h2 ((hcond1_2 t).mp h)) (fun h => h3 ((hcond1_3 t).mp h)) ((hcond1_4 t).mpr h4) ((hcond1_5 t).mpr h5)
      (iblk V c 0 t) (iblk V c 1 t) (iblk V c 2 t) (iblk V c 3 t) (iblk V c 4 t) (outsAt V c (t.val - 1) hp).2.1 (outsAt V c (t.val - 1) hp).2.2
      (hQ_at V c x Wq Wk Wv h9q h9k h9v t b qi hb hq) (hK_at V c x Wq Wk Wv h9q h9k h9v t b hb) (hV_at V c x Wq Wk Wv h9q h9k h9v t b hb)
      hi1 hi2 VS1_0 r z).trans ?_
    rw [ihl, ← Attn.lP_succ]
  · unfold sout1_G_1
    refine (caseG_acc x Wq Wk Wv Attn.aW b qi ki c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h1 ((hcond1_1 t).mp h)) (fun h => h2 ((hcond1_2 t).mp h)) (fun h => h3 ((hcond1_3 t).mp h)) ((hcond1_4 t).mpr h4) ((hcond1_5 t).mpr h5)
      (iblk V c 0 t) (iblk V c 1 t) (iblk V c 2 t) (iblk V c 3 t) (iblk V c 4 t) (outsAt V c (t.val - 1) hp).2.1 (outsAt V c (t.val - 1) hp).2.2
      (hQ_at V c x Wq Wk Wv h9q h9k h9v t b qi hb hq) (hK_at V c x Wq Wk Wv h9q h9k h9v t b hb) (hV_at V c x Wq Wk Wv h9q h9k h9v t b hb)
      hi1 hi2 VS1_1 r d).trans ?_
    rw [ihacc, ← Attn.accP_succ]

/-- After point n the running row sum and the running accumulator hold the row sum and the accumulator of the point's batch and
    query tile after the first (key tile + 1) key tiles. -/
theorem scratch_inv (c : Dev nD) (x : Fin 8 → Fin 2048 → Fin 1024 → EReal) (Wq Wk Wv : Fin 1024 → Fin 1024 → EReal)
    (h9q : ∀ (b : Fin 8) (t : Fin 2048) (d : Fin 1024), projArr V c (ix3 b t (colQ d)) = Attn.qK x Wq Attn.aW b t d)
    (h9k : ∀ (b : Fin 8) (t : Fin 2048) (d : Fin 1024), projArr V c (ix3 b t (colK d)) = Attn.kK x Wk Attn.aW b t d)
    (h9v : ∀ (b : Fin 8) (t : Fin 2048) (d : Fin 1024), projArr V c (ix3 b t (colV d)) = Attn.vK x Wv b t d) :
    ∀ (n : ℕ) (hn : n < cfg1.N),
      (∀ (r : Fin 512) (z : Fin 1), (outsAt V c n hn).2.1 (ix2 r z) = Attn.lP x Wq Wk Attn.aW ⟨n / 16, bound16 hn⟩ ⟨n / 4 % 4, Nat.mod_lt _ (by decide)⟩ r (n % 4 + 1))
      ∧ (∀ (r : Fin 512) (d : Fin 1024), (outsAt V c n hn).2.2 (ix2 r d) = Attn.accP x Wq Wk Wv Attn.aW ⟨n / 16, bound16 hn⟩ ⟨n / 4 % 4, Nat.mod_lt _ (by decide)⟩ r d (n % 4 + 1)) := by
  intro n
  induction n with
  | zero =>
    intro hn
    exact inv_A V c x Wq Wk Wv h9q h9k h9v ⟨0, hn⟩ (by show (0 : ℕ) % 4 = 0; decide) (by show (0 : ℕ) % 4 = 0 / 4 % 4; decide) ⟨0 / 16, bound16 hn⟩ ⟨0 / 4 % 4, Nat.mod_lt _ (by decide)⟩ ⟨0 % 4, Nat.mod_lt _ (by decide)⟩ rfl rfl rfl
  | succ n ih =>
    intro hn
    have hN : n + 1 < 128 := hn
    by_cases h1 : (n + 1) % 4 = 0
    · by_cases h3 : (n + 1) % 4 = (n + 1) / 4 % 4
      · exact inv_A V c x Wq Wk Wv h9q h9k h9v ⟨n + 1, hn⟩ h1 h3 ⟨(n + 1) / 16, bound16 hn⟩ ⟨(n + 1) / 4 % 4, Nat.mod_lt _ (by decide)⟩ ⟨(n + 1) % 4, Nat.mod_lt _ (by decide)⟩ rfl rfl rfl
      · exact inv_B V c x Wq Wk Wv h9q h9k h9v ⟨n + 1, hn⟩ h1 h3 ⟨(n + 1) / 16, bound16 hn⟩ ⟨(n + 1) / 4 % 4, Nat.mod_lt _ (by decide)⟩ ⟨(n + 1) % 4, Nat.mod_lt _ (by decide)⟩ rfl rfl rfl
    · have eb : (⟨n / 16, bound16 (Nat.lt_of_succ_lt hn)⟩ : Fin 8) = ⟨(n + 1) / 16, bound16 hn⟩ :=
        Fin.ext (by show n / 16 = (n + 1) / 16; omega)
      have eq : (⟨n / 4 % 4, Nat.mod_lt _ (by decide)⟩ : Fin 4) = ⟨(n + 1) / 4 % 4, Nat.mod_lt _ (by decide)⟩ :=
        Fin.ext (by show n / 4 % 4 = (n + 1) / 4 % 4; omega)
      have ek : n % 4 + 1 = (n + 1) % 4 := by omega
      have ih' := ih (Nat.lt_of_succ_lt hn)
      rw [eb, eq, ek] at ih'
      by_cases h5 : (n + 1) % 4 = 3
      · by_cases h3 : (n + 1) % 4 = (n + 1) / 4 % 4
        · exact inv_F V c x Wq Wk Wv h9q h9k h9v ⟨n + 1, hn⟩ h1 h5 h3 ⟨(n + 1) / 16, bound16 hn⟩ ⟨(n + 1) / 4 % 4, Nat.mod_lt _ (by decide)⟩ ⟨(n + 1) % 4, Nat.mod_lt _ (by decide)⟩ rfl rfl rfl (Nat.lt_of_succ_lt hn) ih'.1 ih'.2
        · exact inv_G V c x Wq Wk Wv h9q h9k h9v ⟨n + 1, hn⟩ h1 h5 h3 ⟨(n + 1) / 16, bound16 hn⟩ ⟨(n + 1) / 4 % 4, Nat.mod_lt _ (by decide)⟩ ⟨(n + 1) % 4, Nat.mod_lt _ (by decide)⟩ rfl rfl rfl (Nat.lt_of_succ_lt hn) ih'.1 ih'.2
      · by_cases h2 : (n + 1) % 4 < (n + 1) / 4 % 4
        · exact inv_C V c x Wq Wk Wv h9q h9k h9v ⟨n + 1, hn⟩ h1 h5 h2 ⟨(n + 1) / 16, bound16 hn⟩ ⟨(n + 1) / 4 % 4, Nat.mod_lt _ (by decide)⟩ ⟨(n + 1) % 4, Nat.mod_lt _ (by decide)⟩ rfl rfl rfl (Nat.lt_of_succ_lt hn) ih'.1 ih'.2
        · by_cases h3 : (n + 1) % 4 = (n + 1) / 4 % 4
          · exact inv_D V c x Wq Wk Wv h9q h9k h9v ⟨n + 1, hn⟩ h1 h5 h2 h3 ⟨(n + 1) / 16, bound16 hn⟩ ⟨(n + 1) / 4 % 4, Nat.mod_lt _ (by decide)⟩ ⟨(n + 1) % 4, Nat.mod_lt _ (by decide)⟩ rfl rfl rfl (Nat.lt_of_succ_lt hn) ih'.1 ih'.2
          · exact inv_E V c x Wq Wk Wv h9q h9k h9v ⟨n + 1, hn⟩ h1 h5 h2 h3 ⟨(n + 1) / 16, bound16 hn⟩ ⟨(n + 1) / 4 % 4, Nat.mod_lt _ (by decide)⟩ ⟨(n + 1) % 4, Nat.mod_lt _ (by decide)⟩ rfl rfl rfl (Nat.lt_of_succ_lt hn) ih'.1 ih'.2

end Cert.KernelIdeal.Attn

end
-- ==== Proof.AttnValueOut.lean ====
/-
  The closing step of the attention kernel's value: at the last key tile of batch b and query tile qi the output block holds the
  kernel arrangement's output of that tile's rows.

  At that point (the query tile's fourth key tile) the body is in the case of the diagonal tile when qi = 3 and of a tile above
  the diagonal otherwise; either way it updates the two carried scratches and then stores the final payload of the two scratches,
  the output weight and the bias into the output block. Given that after every point the two scratches hold the running row sum
  and the running accumulator of the key tiles visited so far, after this point they hold the arrangement's row sum and
  accumulator (four tiles), so the final payload is the arrangement's output.
-/
import proofs.«148243_j7679401525936_2_alg».proof.Proof.AttnArray
import proofs.«148243_j7679401525936_2_alg».proof.Proof.AttnPartial
import proofs.«148243_j7679401525936_2_alg».proof.Proof.AttnPiecesF
import proofs.«148243_j7679401525936_2_alg».proof.Proof.AttnPiecesG

set_option maxRecDepth 16384

noncomputable section

namespace Cert.KernelIdeal.Attn

open Cert.KernelIdeal Cert.KernelIdeal.Gen Cert.KernelIdeal.Facts₀ Cert.KernelIdeal.AttnValue
open Idealize.ShloMosaic Idealize.ShloMosaic.TcCoe Idealize.ShloMosaic.ValueIdx
open Idealize.SL Idealize.SL.Sem
open Idealize.ShloMosaic.Pipeline (Dat Cfg Window)
open Cert.KernelSide (tileOf inTile)

/-- A point's batch is below 8. -/
theorem div16_lt {n : ℕ} (hn : n < cfg1.N) : n / 16 < 8 := by
  have h : n < 128 := hn
  omega

/-- The running row sum does not depend on how its batch, tile and count are spelt. -/
theorem lP_congr (x : Fin 8 → Fin 2048 → Fin 1024 → EReal) (Wq Wk : Fin 1024 → Fin 1024 → EReal) (a : EReal)
    (b b' : Fin 8) (qi qi' : Fin 4) (r : Fin 512) (k k' : ℕ) (hb : b'.val = b.val) (hq : qi'.val = qi.val) (hk : k' = k) :
    Attn.lP x Wq Wk a b' qi' r k' = Attn.lP x Wq Wk a b qi r k := by
  obtain rfl := Fin.ext hb; obtain rfl := Fin.ext hq; subst hk; rfl

/-- The running accumulator does not depend on how its batch, tile and count are spelt. -/
theorem accP_congr (x : Fin 8 → Fin 2048 → Fin 1024 → EReal) (Wq Wk Wv : Fin 1024 → Fin 1024 → EReal) (a : EReal)
    (b b' : Fin 8) (qi qi' : Fin 4) (r : Fin 512) (d : Fin 1024) (k k' : ℕ) (hb : b'.val = b.val) (hq : qi'.val = qi.val) (hk : k' = k) :
    Attn.accP x Wq Wk Wv a b' qi' r d k' = Attn.accP x Wq Wk Wv a b qi r d k := by
  obtain rfl := Fin.ext hb; obtain rfl := Fin.ext hq; subst hk; rfl

variable (V : (c : Dev nD) → (b : Ref sig .tc) → Buf (Elt Ideal) ((c : Thread nD τ).loc b))

/-- The output block after the last key tile of batch b and query tile qi is the kernel arrangement's output of the tile's
    rows — given the invariant of the two carried scratches after every point, and that the output weight's array holds Wo
    transposed and the bias's array holds bo. -/
theorem out_block_of (c : Dev nD)
    (x : Fin 8 → Fin 2048 → Fin 1024 → EReal) (Wq Wk Wv Wo : Fin 1024 → Fin 1024 → EReal) (bo : Fin 1024 → EReal)
    (hinv : ∀ (n : ℕ) (hn : n < cfg1.N),
      (∀ (r : Fin 512) (z : Fin 1), (outsAt V c n hn).2.1 (ix2 r z)
          = Attn.lP x Wq Wk Attn.aW ⟨n / 16, div16_lt hn⟩ ⟨n / 4 % 4, Nat.mod_lt _ (by decide)⟩ r (n % 4 + 1))
      ∧ (∀ (r : Fin 512) (d : Fin 1024), (outsAt V c n hn).2.2 (ix2 r d)
          = Attn.accP x Wq Wk Wv Attn.aW ⟨n / 16, div16_lt hn⟩ ⟨n / 4 % 4, Nat.mod_lt _ (by decide)⟩ r d (n % 4 + 1)))
    (h11 : ∀ c' n : Fin 1024, woArr V c (ix2 c' n) = Wo n c')
    (h12 : ∀ n : Fin 1024, biasArr V c (ix2 (0 : Fin 1) n) = bo n)
    (b : Fin 8) (qi : Fin 4) (r : Fin 512) (n : Fin 1024) :
    (outsAt V c (lastPoint b qi).val (lastPoint b qi).isLt).1 (ix3 (0 : Fin 1) r n)
      = Attn.outK x Wq Wk Wv Wo bo Attn.aW Attn.eW b qi r n := by
  have hb := b.isLt
  have hq := qi.isLt
  have hv : (lastPoint b qi).val = b.val * 16 + qi.val * 4 + 3 := lastPoint_val b qi
  have h1 : ¬((lastPoint b qi).val % 4 = 0) := by rw [hv]; omega
  have h5 : (lastPoint b qi).val % 4 = 3 := by rw [hv]; omega
  have hb16 : (lastPoint b qi).val / 16 = b.val := by rw [hv]; omega
  have hq4 : (lastPoint b qi).val / 4 % 4 = qi.val := by rw [hv]; omega
  obtain ⟨hl0, hacc0⟩ := hinv (lastPoint b qi).val (lastPoint b qi).isLt
  -- after the fourth key tile the scratches hold the arrangement's row sum and accumulator
  have hl : ∀ r : Fin 512, (outsAt V c (lastPoint b qi).val (lastPoint b qi).isLt).2.1 (ix2 r (0 : Fin 1)) = Attn.lK x Wq Wk Attn.aW b qi r :=
    fun r => (hl0 r 0).trans ((lP_congr x Wq Wk Attn.aW b _ qi _ r 4 _ hb16 hq4 (by rw [h5])).trans (Attn.lP_four x Wq Wk Attn.aW b qi r))
  have hacc : ∀ (r : Fin 512) (d : Fin 1024), (outsAt V c (lastPoint b qi).val (lastPoint b qi).isLt).2.2 (ix2 r d) = Attn.accK x Wq Wk Wv Attn.aW b qi r d :=
    fun r d => (hacc0 r d).trans ((accP_congr x Wq Wk Wv Attn.aW b _ qi _ r d 4 _ hb16 hq4 (by rw [h5])).trans (Attn.accP_four x Wq Wk Wv Attn.aW b qi r d))
  -- the output weight's and the bias's blocks are their whole arrays
  have hWo : ∀ cc n : Fin 1024, iblk V c 3 (lastPoint b qi) (ix2 cc n) = Wo n cc := fun cc n => by
    rw [iblk3_eq]; exact h11 cc n
  have hbo : ∀ n : Fin 1024, iblk V c 4 (lastPoint b qi) (ix2 (0 : Fin 1) n) = bo n := fun n => by
    rw [iblk4_eq]; exact h12 n
  by_cases h3 : (lastPoint b qi).val % 4 = (lastPoint b qi).val / 4 % 4
  · -- the diagonal tile (query tile 3)
    rw [outsAt_F V c (lastPoint b qi) h1 h5 h3] at hl hacc ⊢
    dsimp only at hl hacc ⊢
    unfold sout1_F_0 at hl
    unfold sout1_F_1 at hacc
    unfold out1_F_5
    exact caseF_out x Wq Wk Wv Wo bo Attn.aW b qi c (grid1.coords (lastPoint b qi)) (ms1_0 (lastPoint b qi)) (hs1_0 (lastPoint b qi)) (ms1_1 (lastPoint b qi)) (hs1_1 (lastPoint b qi)) (ms1_2 (lastPoint b qi)) (hs1_2 (lastPoint b qi)) (ms1_3 (lastPoint b qi)) (hs1_3 (lastPoint b qi)) (ms1_4 (lastPoint b qi)) (hs1_4 (lastPoint b qi)) (ms1_5 (lastPoint b qi)) (hs1_5 (lastPoint b qi)) scM1_0 (Memref.isWhole_whole _) scM1_1 (Memref.isWhole_whole _) _ _ _ _ _ (iblk V c 0 (lastPoint b qi)) (iblk V c 1 (lastPoint b qi)) (iblk V c 2 (lastPoint b qi)) (iblk V c 3 (lastPoint b qi)) (iblk V c 4 (lastPoint b qi)) (outsAt V c ((lastPoint b qi).val - 1) (Nat.lt_of_le_of_lt (Nat.sub_le _ _) (lastPoint b qi).isLt)).2.1 (outsAt V c ((lastPoint b qi).val - 1) (Nat.lt_of_le_of_lt (Nat.sub_le _ _) (lastPoint b qi).isLt)).2.2
      VS1_0 VS1_1 hl hacc hWo hbo VO1_5 0 r n
  · -- a tile above the diagonal (query tiles 0, 1, 2)
    rw [outsAt_G V c (lastPoint b qi) h1 h5 h3] at hl hacc ⊢
    dsimp only at hl hacc ⊢
    unfold sout1_G_0 at hl
    unfold sout1_G_1 at hacc
    unfold out1_G_5
    exact caseG_out x Wq Wk Wv Wo bo Attn.aW b qi c (grid1.coords (lastPoint b qi)) (ms1_0 (lastPoint b qi)) (hs1_0 (lastPoint b qi)) (ms1_1 (lastPoint b qi)) (hs1_1 (lastPoint b qi)) (ms1_2 (lastPoint b qi)) (hs1_2 (lastPoint b qi)) (ms1_3 (lastPoint b qi)) (hs1_3 (lastPoint b qi)) (ms1_4 (lastPoint b qi)) (hs1_4 (lastPoint b qi)) (ms1_5 (lastPoint b qi)) (hs1_5 (lastPoint b qi)) scM1_0 (Memref.isWhole_whole _) scM1_1 (Memref.isWhole_whole _) _ _ _ _ _ (iblk V c 0 (lastPoint b qi)) (iblk V c 1 (lastPoint b qi)) (iblk V c 2 (lastPoint b qi)) (iblk V c 3 (lastPoint b qi)) (iblk V c 4 (lastPoint b qi)) (outsAt V c ((lastPoint b qi).val - 1) (Nat.lt_of_le_of_lt (Nat.sub_le _ _) (lastPoint b qi).isLt)).2.1 (outsAt V c ((lastPoint b qi).val - 1) (Nat.lt_of_le_of_lt (Nat.sub_le _ _) (lastPoint b qi).isLt)).2.2
      VS1_0 VS1_1 hl hacc hWo hbo VO1_5 0 r n

/-- The output array after the region, at (batch b, row i, channel n): the kernel arrangement's output at row i's tile and
    place inside it. -/
theorem outArr_eq_of (c : Dev nD)
    (x : Fin 8 → Fin 2048 → Fin 1024 → EReal) (Wq Wk Wv Wo : Fin 1024 → Fin 1024 → EReal) (bo : Fin 1024 → EReal)
    (hinv : ∀ (n : ℕ) (hn : n < cfg1.N),
      (∀ (r : Fin 512) (z : Fin 1), (outsAt V c n hn).2.1 (ix2 r z)
          = Attn.lP x Wq Wk Attn.aW ⟨n / 16, div16_lt hn⟩ ⟨n / 4 % 4, Nat.mod_lt _ (by decide)⟩ r (n % 4 + 1))
      ∧ (∀ (r : Fin 512) (d : Fin 1024), (outsAt V c n hn).2.2 (ix2 r d)
          = Attn.accP x Wq Wk Wv Attn.aW ⟨n / 16, div16_lt hn⟩ ⟨n / 4 % 4, Nat.mod_lt _ (by decide)⟩ r d (n % 4 + 1)))
    (h11 : ∀ c' n : Fin 1024, woArr V c (ix2 c' n) = Wo n c')
    (h12 : ∀ n : Fin 1024, biasArr V c (ix2 (0 : Fin 1) n) = bo n)
    (b : Fin 8) (i : Fin 2048) (n : Fin 1024) :
    outArr V c (ix3 b i n) = Attn.outK x Wq Wk Wv Wo bo Attn.aW Attn.eW b (tileOf i) (inTile i) n :=
  (outArr_ix3 V c b i n).trans (out_block_of V c x Wq Wk Wv Wo bo hinv h11 h12 b (tileOf i) (inTile i) n)

end Cert.KernelIdeal.Attn

end
-- ==== Proof.KernelFinal.lean ====
/-
  The idealized kernel's run, assembled: the attention region, entered at the contents the chain of values gives it, leaves in the
  result array the kernel's arrangement of the launch arguments — the output array is covered by the output blocks the last key
  tile of each query tile leaves, the two carried scratches hold the running row sum and the running accumulator after every point,
  and so each such block is the arrangement at its batch and query tile —, so the whole program's run
  is the statement of what the idealized kernel computes.
-/
import proofs.«148243_j7679401525936_2_alg».proof.Proof.KernelChain
import proofs.«148243_j7679401525936_2_alg».proof.Proof.KernelFinalData
import proofs.«148243_j7679401525936_2_alg».proof.Proof.AttnValue
import proofs.«148243_j7679401525936_2_alg».proof.Proof.AttnValueOut

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- What the attention region leaves in the result array is the kernel's arrangement of the launch arguments. -/
theorem attn_hval (m : (ℓ : Loc nD τ sig) → Buf (Elt Ideal) ℓ) (ρ : Dev nD → PrngReg) (c : Dev nD) :
    ((Attn.dat (F := Ideal) (V3 m ρ) c).arrAt 5 cfg1.N : S8x2048x1024.Idx → EReal)
      = Cert.KernelSide.outVec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (Attn.out_array (V3 m ρ) c).trans (funext fun j => ?_)
  unfold Attn.outArr Cert.KernelSide.outVec
  exact Attn.out_block_of (V3 m ρ) c
    (_root_.Attn.arr3 (φ := .f32) (m ((c : Thread nD τ).loc main_arg0))) (_root_.Attn.arr2 (φ := .f32) (m ((c : Thread nD τ).loc main_arg1)))
    (_root_.Attn.arr2 (φ := .f32) (m ((c : Thread nD τ).loc main_arg2))) (_root_.Attn.arr2 (φ := .f32) (m ((c : Thread nD τ).loc main_arg3)))
    (_root_.Attn.arr2 (φ := .f32) (m ((c : Thread nD τ).loc main_arg4))) (_root_.Attn.arr1 (φ := .f32) (m ((c : Thread nD τ).loc main_arg5)))
    (Attn.scratch_inv (V3 m ρ) c _ _ _ _ (V3_q m ρ c) (V3_k m ρ c) (V3_v m ρ c))
    (V3_wo m ρ c) (V3_bo m ρ c)
    (j 0) (Cert.KernelSide.tileOf (j 1)) (Cert.KernelSide.inTile (j 1)) (j 2)

/-- THE IDEALIZED KERNEL'S RUN: from any memory, every weakly fair execution of @main terminates, nothing faulting; the result array
    holds the kernel's arrangement of the six argument arrays, and the arguments are unchanged. -/
theorem kernel_run : Cert.KernelSide.KernelRun :=
  kernel_run_of _ attnData attn_hval

end Cert.KernelIdeal.Run

end
-- ==== Proof.ProjBodyW.lean ====
/-
  The projection kernel (the first region): at every grid point the body reads its block of the rows (512 × 1024), the whole
  weight (1024 × 3072), and stores into the output block (512 × 3072) the product of the rows by the weight, rounded to the
  output's format. Here: what the output block holds after the body as a function of the two input blocks, and the body's
  triple on whole staging buffers.
-/
import proofs.«148243_j7679401525936_2_alg».proof.Proof.Gen.Kernel.Launch
import proofs.«148243_j7679401525936_2_alg».proof.Proof.Gen.Kernel.Skeleton
import proofs.«148243_j7679401525936_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of the rows' block, of the weight, of the output block. -/
abbrev rX : Rect S512x1024 := Rect.unit (s := S512x1024) ![0, 0] S512x1024.size Facts₀.inb_S512x1024_S512x1024_0_0
abbrev rW : Rect S1024x3072 := Rect.unit (s := S1024x3072) ![0, 0] S1024x3072.size Facts₀.inb_S1024x3072_S1024x3072_0_0
abbrev rO : Rect S512x3072 := Rect.unit (s := S512x3072) ![0, 0] S512x3072.size Facts₀.inb_S512x3072_S512x3072_0_0

/-- The output block after the body, from the two input blocks: its one store, of the product's payload. -/
def outBlock (x : Vec F S512x1024 .f32) (w : Vec F S1024x3072 .bf16) : Vec F S512x3072 .bf16 :=
  View.canon [⟨rO, k0_pay1 (View.ld x rX) (View.ld w rW)⟩]

/-- The one store covers the whole output block. -/
theorem coverO (p : Vec F S512x3072 .bf16) (y : S512x3072.Idx) :
    ∃ pc ∈ ([⟨rO, p⟩] : List (View.Piece (Elt F) S512x3072 .bf16)), y ∈ pc.1.set :=
  View.cover_of_tiled [⟨rO, p⟩] S512x3072.size (by rfl) y

set_option maxHeartbeats 1000000 in
/-- The body on whole staging buffers: the two inputs' at contents x and w, the output's at anything; it ends with the inputs'
    as they were and the output's at `outBlock x w`. -/
theorem sound_kernel (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S512x3072 .bf16) (harg3 : arg3.IsWhole)
    (x : Vec F S512x1024 .f32) (w : Vec F S1024x3072 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

end Cert.Kernel.Proj

end
-- ==== Proof.ProjFrameW.lean ====
/-
  The projection kernel's region, at any contents V of the core's buffers when the region is entered: what each window's
  staging buffer holds around the body at each grid point (the rows' block and the weight are found in place, fetched or not;
  the output block is the product's payload of the two), and the body's obligation at every point.
-/
import proofs.«148243_j7679401525936_2_alg».proof.Proof.ProjBodyW

set_option maxRecDepth 16384

noncomputable section

namespace Cert.Kernel.Proj

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight's window holds the whole weight at every point, though it is fetched at the first only. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The region's proof data: the arrays as the region finds them; after the body each input's buffer at its block and the
    output's at the product's payload of the two blocks; the class invariant (the scoped rest and the generator register,
    untouched); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlock (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlock (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the body's triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.AttnSharesW.lean ====
/-
  The attention kernel's region hands ONE array (the projected q/k/v rows) to three input windows. The buffers behind the
  region's arrays, each held whole at the full share, make the proof data's arrays once that array's full share is dealt among
  the three windows (its left half, and the two halves of its right half); and the other way round at the region's exit, the
  three windows holding the same contents.
-/
import proofs.«148243_j7679401525936_2_alg».proof.Proof.Gen.Kernel.Launch
import Idealize.ShloMosaic.Lib.Pipeline.FrameBody
import Idealize.ShloMosaic.Lib.Pipeline.RegionsLoop
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The distinct buffers behind the region's six windows. -/
theorem image_arr : Finset.univ.image (Pipeline.arrRef spec1) = {main_v9, main_v11, main_v12, main_v13} := by decide

/-- Those buffers, one by one. -/
theorem arrBufs_eq (c : Dev nD) (V : (b : Ref sig .tc) → Buf (Elt F) ((c : Thread nD τ).loc b)) :
    (Pipeline.arrBufs spec1 c V : sProp 𝕄)
      = iprop((((c : Thread nD τ).loc main_v9) ↦{fullShare} V main_v9) ∗ (((c : Thread nD τ).loc main_v11) ↦{fullShare} V main_v11)
          ∗ (((c : Thread nD τ).loc main_v12) ↦{fullShare} V main_v12) ∗ (((c : Thread nD τ).loc main_v13) ↦{fullShare} V main_v13)) := by
  unfold Pipeline.arrBufs
  rw [image_arr, bigSep_insert (by decide), bigSep_insert (by decide), bigSep_insert (by decide), bigSep_singleton]
  rfl

variable {c : Dev nD} (dat : Dat τ (Elt F) Unit ℕ (UR sig nD τ) ℕ cfg1 c)

/-- The proof data's arrays, window by window, each array a whole buffer. -/
theorem arrays_eq (G : (w : Fin cfg1.W) → Buf (Elt F) ((cfg1.win w).arr.view.loc (c : Thread nD τ))) :
    (dat.arrays G : sProp 𝕄)
      = iprop((((c : Thread nD τ).loc (Pipeline.arrRef spec1 0)) ↦{dat.share 0} G 0) ∗ (((c : Thread nD τ).loc (Pipeline.arrRef spec1 1)) ↦{dat.share 1} G 1)
          ∗ (((c : Thread nD τ).loc (Pipeline.arrRef spec1 2)) ↦{dat.share 2} G 2) ∗ (((c : Thread nD τ).loc (Pipeline.arrRef spec1 3)) ↦{dat.share 3} G 3)
          ∗ (((c : Thread nD τ).loc (Pipeline.arrRef spec1 4)) ↦{dat.share 4} G 4) ∗ (((c : Thread nD τ).loc (Pipeline.arrRef spec1 5)) ↦{dat.share 5} G 5)) := by
  unfold Dat.arrays
  rw [← bigSep_W1 (fun w => (((c : Thread nD τ).loc (Pipeline.arrRef spec1 w)) ↦{dat.share w} G w : sProp 𝕄))]
  exact bigSep_congr fun w _ => by rw [(arr_whole1 w).set_eq_univ]

/-- The shares the region's windows hold their arrays at: the one shared array's full share dealt among its three windows. -/
structure Shares : Prop where
  q0 : dat.q 0 = fullShare.left
  q1 : dat.q 1 = fullShare.right.left
  q2 : dat.q 2 = fullShare.right.right
  q3 : dat.q 3 = fullShare
  q4 : dat.q 4 = fullShare

variable {dat}

theorem Shares.s0 (h : Shares dat) : dat.share 0 = fullShare.left := by unfold Dat.share; rw [if_neg (by decide)]; exact h.q0
theorem Shares.s1 (h : Shares dat) : dat.share 1 = fullShare.right.left := by unfold Dat.share; rw [if_neg (by decide)]; exact h.q1
theorem Shares.s2 (h : Shares dat) : dat.share 2 = fullShare.right.right := by unfold Dat.share; rw [if_neg (by decide)]; exact h.q2
theorem Shares.s3 (h : Shares dat) : dat.share 3 = fullShare := by unfold Dat.share; rw [if_neg (by decide)]; exact h.q3
theorem Shares.s4 (h : Shares dat) : dat.share 4 = fullShare := by unfold Dat.share; rw [if_neg (by decide)]; exact h.q4
theorem share5 : dat.share 5 = fullShare := by unfold Dat.share; rw [if_pos (by decide)]

/-- ENTRY: the buffers behind the arrays, whole at contents V, are the proof data's arrays at the same contents. -/
theorem arrays_of_arrBufs (h : Shares dat) (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs spec1 c V : sProp 𝕄) ⊢ dat.arrays G := by
  rw [arrBufs_eq, arrays_eq, h.s0, h.s1, h.s2, h.s3, h.s4, share5, hG 0, hG 1, hG 2, hG 3, hG 4, hG 5]
  simp only [show Pipeline.arrRef spec1 0 = main_v9 from rfl, show Pipeline.arrRef spec1 1 = main_v9 from rfl, show Pipeline.arrRef spec1 2 = main_v9 from rfl, show Pipeline.arrRef spec1 3 = main_v11 from rfl, show Pipeline.arrRef spec1 4 = main_v12 from rfl, show Pipeline.arrRef spec1 5 = main_v13 from rfl]
  have hs : (((c : Thread nD τ).loc main_v9) ↦{fullShare} V main_v9 : sProp 𝕄)
      ⊢ iprop((((c : Thread nD τ).loc main_v9) ↦{fullShare.left} V main_v9) ∗ (((c : Thread nD τ).loc main_v9) ↦{fullShare.right} V main_v9)) :=
    (pointsTo_share (PosShare.mem_left_op_right fullShare)).1
  have hs' : (((c : Thread nD τ).loc main_v9) ↦{fullShare.right} V main_v9 : sProp 𝕄)
      ⊢ iprop((((c : Thread nD τ).loc main_v9) ↦{fullShare.right.left} V main_v9) ∗ (((c : Thread nD τ).loc main_v9) ↦{fullShare.right.right} V main_v9)) :=
    (pointsTo_share (PosShare.mem_left_op_right fullShare.right)).1
  iintro ⟨H9, H11, H12, H13⟩
  ihave H9' := hs $$ H9
  icases H9' with ⟨H9a, H9r⟩
  ihave H9'' := hs' $$ H9r
  icases H9'' with ⟨H9b, H9c⟩
  isplitl [H9a]; · iexact H9a
  isplitl [H9b]; · iexact H9b
  isplitl [H9c]; · iexact H9c
  isplitl [H11]; · iexact H11
  isplitl [H12]; · iexact H12
  iexact H13

/-- EXIT: the proof data's arrays, each at the contents V' has at its buffer, are the buffers behind them whole at V'. -/
theorem arrBufs_of_arrays (h : Shares dat) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (dat.arrays G : sProp 𝕄) ⊢ Pipeline.arrBufs spec1 c V' := by
  rw [arrBufs_eq, arrays_eq, h.s0, h.s1, h.s2, h.s3, h.s4, share5, hG 0, hG 1, hG 2, hG 3, hG 4, hG 5]
  simp only [show Pipeline.arrRef spec1 0 = main_v9 from rfl, show Pipeline.arrRef spec1 1 = main_v9 from rfl, show Pipeline.arrRef spec1 2 = main_v9 from rfl, show Pipeline.arrRef spec1 3 = main_v11 from rfl, show Pipeline.arrRef spec1 4 = main_v12 from rfl, show Pipeline.arrRef spec1 5 = main_v13 from rfl]
  have hs : (iprop((((c : Thread nD τ).loc main_v9) ↦{fullShare.left} V' main_v9) ∗ (((c : Thread nD τ).loc main_v9) ↦{fullShare.right} V' main_v9)) : sProp 𝕄)
      ⊢ (((c : Thread nD τ).loc main_v9) ↦{fullShare} V' main_v9) :=
    (pointsTo_share (PosShare.mem_left_op_right fullShare)).2
  have hs' : (iprop((((c : Thread nD τ).loc main_v9) ↦{fullShare.right.left} V' main_v9) ∗ (((c : Thread nD τ).loc main_v9) ↦{fullShare.right.right} V' main_v9)) : sProp 𝕄)
      ⊢ (((c : Thread nD τ).loc main_v9) ↦{fullShare.right} V' main_v9) :=
    (pointsTo_share (PosShare.mem_left_op_right fullShare.right)).2
  iintro ⟨H9a, H9b, H9c, H11, H12, H13⟩
  ihave H9r := hs' $$ [H9b H9c]
  · isplitl [H9b]; · iexact H9b
    iexact H9c
  ihave H9 := hs $$ [H9a H9r]
  · isplitl [H9a]; · iexact H9a
    iexact H9r
  isplitl [H9]; · iexact H9
  isplitl [H11]; · iexact H11
  isplitl [H12]; · iexact H12
  iexact H13

end Cert.Kernel.Attn

end
-- ==== Proof.KernelLaunchW.lean ====
/-
  The whole program's run: @main is a host stretch, the projection region, a host stretch, the attention region. The contents of
  the core's buffers between the items are a fold from the launch memory; each region is entered from every unscoped buffer at
  the contents before it and left at the contents after it. The attention region's proof data is a parameter here, with what
  the launch needs of it stated as a record.
-/
import proofs.«148243_j7679401525936_2_alg».proof.Proof.ProjFrameW
import proofs.«148243_j7679401525936_2_alg».proof.Proof.AttnSharesW

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's buffers when a region is entered. -/
abbrev Entry (F : FTy → Type) [FloatOps F] : Type := (c : Dev nD) → (b : Ref sig .tc) → Buf (Elt F) ((c : Thread nD τ).loc b)

/-- What the launch needs of the attention region's proof data, at any entry contents. -/
structure AttnData (dat1 : (V : Entry F) → (c : Dev nD) → Dat τ (Elt F) Unit ℕ (UR sig nD τ) ℕ cfg1 c) : Prop where
  A_eq : ∀ V c w, (dat1 V c).A w = V c (Pipeline.arrRef spec1 w)
  shares : ∀ V c, Attn.Shares (dat1 V c)
  owed : ∀ V c t, (dat1 V c).owed t = 0
  recorded : ∀ V c t, (dat1 V c).recorded t = Set.univ
  hin : ∀ V c, (Pipeline.ΦA spec1 c : sProp 𝕄) ⊢ (dat1 V c).Φ 0
  hout : ∀ V c, (dat1 V c).Φ (Fin.last cfg1.N) ⊢ (Pipeline.ΦA spec1 c : sProp 𝕄)
  body : ∀ V c, BodyObligation (dat1 V c) (defs₀ (F := F)) Variants.none () Set.univ

variable (m : (ℓ : Loc nD τ sig) → Buf (Elt F) ℓ) (ρ : Dev nD → PrngReg)
variable (dat1 : (V : Entry F) → (c : Dev nD) → Dat τ (Elt F) Unit ℕ (UR sig nD τ) ℕ cfg1 c)

/-! ## The contents between the items -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : Entry F := fun c b => W1 m ρ c b
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : Entry F := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : Entry F := fun c b => W3 m ρ c b
/-- After the attention region: the result's buffer at what the region's write-backs leave, every other buffer as entered. -/
def W4 (c : Dev nD) : Valuation τ sig (Elt F) :=
  Function.update (W3 m ρ c) (Proc.devRef .tc main_v13) ((dat1 (V3 m ρ) c).arrAt 5 cfg1.N)
abbrev V4 : Entry F := fun c b => W4 m ρ dat1 c b

theorem W4_out (c : Dev nD) : W4 m ρ dat1 c (Proc.devRef .tc main_v13) = (dat1 (V3 m ρ) c).arrAt 5 cfg1.N := by
  unfold W4; exact Function.update_self _ _ _
theorem W4_of_ne (c : Dev nD) (b : Ref sig .tc) (hb : b ≠ main_v13) :
    W4 m ρ dat1 c (Proc.devRef .tc b) = W3 m ρ c (Proc.devRef .tc b) := by
  unfold W4; exact Function.update_of_ne (StableHlo.devRef_ne_of_ne hb) _ _

theorem hF1 (h : AttnData dat1) (c : Dev nD) (w : Fin cfg1.W) :
    (dat1 (V3 m ρ) c).arrAt w cfg1.N = V4 m ρ dat1 c (Pipeline.arrRef spec1 w) := by
  match w with
  | ⟨0, _⟩ => exact (((dat1 (V3 m ρ) c).arrAt_in 0 rfl _).trans (h.A_eq _ c 0)).trans (W4_of_ne m ρ dat1 c _ (by decide)).symm
  | ⟨1, _⟩ => exact (((dat1 (V3 m ρ) c).arrAt_in 1 rfl _).trans (h.A_eq _ c 1)).trans (W4_of_ne m ρ dat1 c _ (by decide)).symm
  | ⟨2, _⟩ => exact (((dat1 (V3 m ρ) c).arrAt_in 2 rfl _).trans (h.A_eq _ c 2)).trans (W4_of_ne m ρ dat1 c _ (by decide)).symm
  | ⟨3, _⟩ => exact (((dat1 (V3 m ρ) c).arrAt_in 3 rfl _).trans (h.A_eq _ c 3)).trans (W4_of_ne m ρ dat1 c _ (by decide)).symm
  | ⟨4, _⟩ => exact (((dat1 (V3 m ρ) c).arrAt_in 4 rfl _).trans (h.A_eq _ c 4)).trans (W4_of_ne m ρ dat1 c _ (by decide)).symm
  | ⟨5, _⟩ => exact (W4_out m ρ dat1 c).symm

theorem hrest1 (c : Dev nD) : ∀ b, b ∉ Finset.univ.image (Pipeline.arrRef spec1) → V4 m ρ dat1 c b = V3 m ρ c b :=
  fun b hb => W4_of_ne m ρ dat1 c b fun e => hb (e ▸ Finset.mem_image.mpr ⟨5, Finset.mem_univ _, rfl⟩)

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (W4 m ρ dat1 c) ∗ ∃ r, prngReg c r)

/-! ## The regions as segments -/

set_option backward.isDefEq.respectTransparency.types false in
/-- The projection region: entered from every unscoped buffer at W1, left at W2. -/
def reg0 : Pipeline.RegionSeg (pcfgs (F := F)) adm (pdats m ρ dat1) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ dat1) launch0.win launch0.arr_whole c
      ((pdats m ρ dat1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ dat1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ dat1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat1) ((pdats m ρ dat1 0 c).share_full fun _ => rfl)
      (V1 m ρ c) (V2 m ρ c) ((pdats m ρ dat1 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at W3, left at W4. One of its arrays is read by three windows:
    its full share is dealt among them at the entry and rejoined at the exit. -/
def reg1 (h : AttnData dat1) : Pipeline.RegionSeg (pcfgs (F := F)) adm (pdats m ρ dat1) () defs₀ 𝒱₀ L lv 1 where
  win := winFacts₀1
  block_pos := block_pos1
  stage_whole := stage_whole1
  K := PEmpty
  osem k := k.elim
  ho := Pipeline.OwnSemFacts.none _
  hbody c := (h.body (V3 m ρ) c).loose
  hwaits := Pipeline.hwaits_of_owed_zero _ _ _ _ L lv 1 fun c t => h.owed (V3 m ρ) c t
  pre c := iprop(StableHlo.held (c : Thread nD τ) (Pipeline.ucRefs τ sig) (W3 m ρ c) ∗ R c)
  post c := iprop(Tₙ m ρ dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (StableHlo.held (c : Thread nD τ) (Pipeline.ucRefs τ sig) (W3 m ρ c) : sProp 𝕄)
        ⊢ iprop((dat1 (V3 m ρ) c).arrays (dat1 (V3 m ρ) c).A
            ∗ Pipeline.unscopedRest (Ix := Unit) (Name := ℕ) (U := UR sig nD τ) (Lvl := ℕ) spec1 c (V3 m ρ c)) := by
      rw [← Pipeline.unscopedBufs_held c (W3 m ρ c),
        Pipeline.unscopedBufs_split₀ (Pipeline.pin (pcfgs (F := F)) adm) 1 winFacts₀1.arr_unscoped c (V3 m ρ c)]
      exact sep_mono (Attn.arrays_of_arrBufs (h.shares (V3 m ρ) c) (V3 m ρ c) _ (fun w => h.A_eq (V3 m ρ) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ dat1 1 c).owed 0 = 0 from h.owed (V3 m ρ) c 0]
      icases HO with ⟨%W, HO⟩; iexists W; isplitr
      · ipureintro; exact fun x _ => Or.inl (by rw [show (pdats m ρ dat1 1 c).recorded 0 = Set.univ from h.recorded (V3 m ρ) c 0]; trivial)
      iexact HO
    isplitl [Hp]; · iexact Hp
    iexact Hrest
  hin c := by
    refine (?_ : _ ⊢ (Pipeline.ΦA spec1 c : sProp 𝕄)).trans (h.hin (V3 m ρ) c)
    unfold Pipeline.ΦA
    iintro ⟨Hp, -, Hr⟩
    isplitl [Hr]; · iexact Hr
    iexact Hp
  hout c := by
    rw [Pipeline.ownSems0_none]
    refine (h.hout (V3 m ρ) c).trans ?_
    unfold Pipeline.ΦA
    iintro ⟨Hr, Hp⟩
    isplitl [Hp]; · iexact Hp
    isplitr; · iempintro
    iexact Hr
  hexit c := by
    have hjoin : (iprop((dat1 (V3 m ρ) c).arrays ((dat1 (V3 m ρ) c).arrAt · cfg1.N)
            ∗ Pipeline.unscopedRest (Ix := Unit) (Name := ℕ) (U := UR sig nD τ) (Lvl := ℕ) spec1 c (V3 m ρ c)) : sProp 𝕄)
        ⊢ StableHlo.held (c : Thread nD τ) (Pipeline.ucRefs τ sig) (W4 m ρ dat1 c) := by
      rw [← Pipeline.unscopedBufs_held c (W4 m ρ dat1 c),
        Pipeline.unscopedBufs_split₀ (Pipeline.pin (pcfgs (F := F)) adm) 1 winFacts₀1.arr_unscoped c (V4 m ρ dat1 c)]
      refine sep_mono (Attn.arrBufs_of_arrays (h.shares (V3 m ρ) c) (V4 m ρ dat1 c) _ (hF1 m ρ dat1 h c)) (Entails.of_eq ?_)
      unfold Pipeline.unscopedRest
      exact bigSep_congr fun b hb => by rw [hrest1 m ρ dat1 c b (Finset.mem_sdiff.mp hb).2]
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    rw [show (pdats m ρ dat1 1 c).owed (Fin.last (Pipeline.pin (pcfgs (F := F)) adm 1).N) = 0 from h.owed (V3 m ρ) c _]
    icases HO with ⟨%W, -, HO⟩; iexists W; iexact HO

/-! ## @main as segments, and the launch -/

abbrev segs (h : AttnData dat1) : List (Pipeline.Seg (pcfgs (F := F)) adm (pdats m ρ dat1) () defs₀ 𝒱₀ L lv) :=
  [ .host (hseg hostOps0 hostOps0_sub hostOps0_fresh (W0 m ρ)),
    .region (reg0 m ρ dat1),
    .host (hseg hostOps1 hostOps1_sub hostOps1_fresh (W2 m ρ)),
    .region (reg1 m ρ dat1 h) ]
theorem main_run (h : AttnData dat1) (c : Dev nD) : main (F := F) c = Pipeline.Seg.run (segs m ρ dat1 h) :=
  (main_chain c).trans (by chain_rfl)

set_option backward.isDefEq.respectTransparency.types false in
/-- THE RUN: from any memory with zero counters, every weakly fair execution of @main terminates, nothing faulting, and every
    final memory holds every unscoped buffer at the last contents W4. -/
theorem run_all (h : AttnData dat1) : θ_run defs (onTc (τ := τ) (main (F := F))) ⟨m, fun _ => 0, ρ⟩ (fun r => ∀ c : Dev nD,
      ∀ b ∈ Pipeline.ucRefs τ sig, r.2.mem (((c : Thread nD τ)).1, b) = W4 m ρ dat1 c b) :=
  Pipeline.θ_run_regions_kit (pcfgs (F := F)) adm (pdats m ρ dat1) () cellOf_inj emb₁ defs₀ 𝒱₀ L lv m ρ main (segs m ρ dat1 h)
    (fun c Q => by rw [main_run m ρ dat1 h c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ dat1)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ dat1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ dat1 c) s')
      isplitl [Hh] <;> iassumption)
    (hQ := fun s h' c => h' c)

end Cert.Kernel.Run

end
-- ==== Proof.KernelArgsW.lean ====
/-
  The argument arrays end as launched. No host operation writes an argument and no region's output window lies on one (the
  projection region's arrays are the re-laid rows, the fused weight and its own result; the attention region writes its result
  only), so the contents of an argument's buffer after the last item walk back, item by item, to the launch memory. With the
  whole program's run this gives the frame: every weakly fair execution terminates, nothing faulting, the six arguments unchanged.
-/
import proofs.«148243_j7679401525936_2_alg».proof.Proof.KernelLaunchW
import proofs.«148243_j7679401525936_2_alg».proof.Proof.Gen.Kernel.Regions

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)
variable (dat1 : (V : Entry F) → (c : Dev nD) → Dat τ (Elt F) Unit ℕ (UR sig nD τ) ℕ cfg1 c)

/-! ## An argument's buffer holds the launch contents after every item -/

theorem W1_main_arg0 (c : Dev nD) : W1 m ρ c (Proc.devRef .tc main_arg0) = m ((c : Thread nD τ).loc main_arg0) :=
  (StableHlo.after_of_writes_sub hostOps0 _ Gen.hostOps0_writes (by decide)).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (StableHlo.after_of_writes_sub hostOps1 _ Gen.hostOps1_writes (by decide)).trans (W2_main_arg0 m ρ c)
theorem W4_main_arg0 (c : Dev nD) : W4 m ρ dat1 c (Proc.devRef .tc main_arg0) = m ((c : Thread nD τ).loc main_arg0) :=
  (W4_of_ne m ρ dat1 c main_arg0 (by decide)).trans (W3_main_arg0 m ρ c)

theorem W1_main_arg1 (c : Dev nD) : W1 m ρ c (Proc.devRef .tc main_arg1) = m ((c : Thread nD τ).loc main_arg1) :=
  (StableHlo.after_of_writes_sub hostOps0 _ Gen.hostOps0_writes (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_writes_sub hostOps1 _ Gen.hostOps1_writes (by decide)).trans (W2_main_arg1 m ρ c)
theorem W4_main_arg1 (c : Dev nD) : W4 m ρ dat1 c (Proc.devRef .tc main_arg1) = m ((c : Thread nD τ).loc main_arg1) :=
  (W4_of_ne m ρ dat1 c main_arg1 (by decide)).trans (W3_main_arg1 m ρ c)

theorem W1_main_arg2 (c : Dev nD) : W1 m ρ c (Proc.devRef .tc main_arg2) = m ((c : Thread nD τ).loc main_arg2) :=
  (StableHlo.after_of_writes_sub hostOps0 _ Gen.hostOps0_writes (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_writes_sub hostOps1 _ Gen.hostOps1_writes (by decide)).trans (W2_main_arg2 m ρ c)
theorem W4_main_arg2 (c : Dev nD) : W4 m ρ dat1 c (Proc.devRef .tc main_arg2) = m ((c : Thread nD τ).loc main_arg2) :=
  (W4_of_ne m ρ dat1 c main_arg2 (by decide)).trans (W3_main_arg2 m ρ c)

theorem W1_main_arg3 (c : Dev nD) : W1 m ρ c (Proc.devRef .tc main_arg3) = m ((c : Thread nD τ).loc main_arg3) :=
  (StableHlo.after_of_writes_sub hostOps0 _ Gen.hostOps0_writes (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_writes_sub hostOps1 _ Gen.hostOps1_writes (by decide)).trans (W2_main_arg3 m ρ c)
theorem W4_main_arg3 (c : Dev nD) : W4 m ρ dat1 c (Proc.devRef .tc main_arg3) = m ((c : Thread nD τ).loc main_arg3) :=
  (W4_of_ne m ρ dat1 c main_arg3 (by decide)).trans (W3_main_arg3 m ρ c)

theorem W1_main_arg4 (c : Dev nD) : W1 m ρ c (Proc.devRef .tc main_arg4) = m ((c : Thread nD τ).loc main_arg4) :=
  (StableHlo.after_of_writes_sub hostOps0 _ Gen.hostOps0_writes (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_writes_sub hostOps1 _ Gen.hostOps1_writes (by decide)).trans (W2_main_arg4 m ρ c)
theorem W4_main_arg4 (c : Dev nD) : W4 m ρ dat1 c (Proc.devRef .tc main_arg4) = m ((c : Thread nD τ).loc main_arg4) :=
  (W4_of_ne m ρ dat1 c main_arg4 (by decide)).trans (W3_main_arg4 m ρ c)

theorem W1_main_arg5 (c : Dev nD) : W1 m ρ c (Proc.devRef .tc main_arg5) = m ((c : Thread nD τ).loc main_arg5) :=
  (StableHlo.after_of_writes_sub hostOps0 _ Gen.hostOps0_writes (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_writes_sub hostOps1 _ Gen.hostOps1_writes (by decide)).trans (W2_main_arg5 m ρ c)
theorem W4_main_arg5 (c : Dev nD) : W4 m ρ dat1 c (Proc.devRef .tc main_arg5) = m ((c : Thread nD τ).loc main_arg5) :=
  (W4_of_ne m ρ dat1 c main_arg5 (by decide)).trans (W3_main_arg5 m ρ c)

/-! ## The frame -/

/-- From any memory with zero counters every weakly fair execution of @main terminates, nothing faulting, and the six argument
    arrays end as launched. -/
theorem frame_of (h : AttnData dat1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c =>
    ⟨(hr c _ (mem_uc main_arg0 (by decide))).trans (W4_main_arg0 m ρ dat1 c),
     (hr c _ (mem_uc main_arg1 (by decide))).trans (W4_main_arg1 m ρ dat1 c),
     (hr c _ (mem_uc main_arg2 (by decide))).trans (W4_main_arg2 m ρ dat1 c),
     (hr c _ (mem_uc main_arg3 (by decide))).trans (W4_main_arg3 m ρ dat1 c),
     (hr c _ (mem_uc main_arg4 (by decide))).trans (W4_main_arg4 m ρ dat1 c),
     (hr c _ (mem_uc main_arg5 (by decide))).trans (W4_main_arg5 m ρ dat1 c)⟩)
    (run_all m ρ dat1 h)

end Cert.Kernel.Run

end
-- ==== Proof.AttnRunsW.lean ====
/-
  What the runs of the attention kernel's body share: the body's five branch conditions as propositions on the grid
  coordinates and their closed forms over the 128 grid points (point t = batch · 16 + query tile · 4 + key tile); where the
  output window is idle and where it is written back, case by case; the staging memrefs at a point as the pipeline passes
  them; the two scratch buffers the body carries between points (the running row sum, 512 × 1, and the running accumulator,
  512 × 1024) as memrefs and views; and the region's invariant with the two scratches owned as memrefs.

  The seven cases the grid meets, by (first key tile, below the diagonal, on it, above it, last key tile):
  A = (T,F,T,F,F), B = (T,T,F,F,F), C = (F,T,F,F,F), D = (F,F,T,F,F), E = (F,F,F,T,F), F = (F,F,T,F,T), G = (F,F,F,T,T).
-/
import proofs.«148243_j7679401525936_2_alg».proof.Proof.Gen.Kernel.Launch
import proofs.«148243_j7679401525936_2_alg».proof.Proof.Gen.Kernel.Skeleton
import proofs.«148243_j7679401525936_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch (zero the two scratches): the key tile is the first. -/
abbrev cond1_1 (i : grid1.Coords) : Prop :=
  (Scalar.cmpi .ne (Scalar.extui (Scalar.cmpi .eq (BitVec.ofNat 32 (i 2).val) 0#32)) 0#32) = 1#1
/-- It holds at the points ≡ 0 (mod 4). -/
theorem hcond1_1 : ∀ t : Fin cfg1.N, cond1_1 (grid1.coords t) ↔ t.val % 4 = 0 :=
  (by decide +kernel : ∀ t : Fin grid1.N, cond1_1 (grid1.coords t) ↔ t.val % 4 = 0)

/-- The second branch (a tile below the diagonal): the key tile is before the query tile. -/
abbrev cond1_2 (i : grid1.Coords) : Prop :=
  (Scalar.cmpi .ne (Scalar.extui (Scalar.cmpi .slt (BitVec.ofNat 32 (i 2).val) (BitVec.ofNat 32 (i 1).val))) 0#32) = 1#1
theorem hcond1_2 : ∀ t : Fin cfg1.N, cond1_2 (grid1.coords t) ↔ t.val % 4 < t.val / 4 % 4 :=
  (by decide +kernel : ∀ t : Fin grid1.N, cond1_2 (grid1.coords t) ↔ t.val % 4 < t.val / 4 % 4)

/-- The third branch (the diagonal tile): the key tile is the query tile. -/
abbrev cond1_3 (i : grid1.Coords) : Prop :=
  (Scalar.cmpi .ne (Scalar.extui (Scalar.cmpi .eq (BitVec.ofNat 32 (i 2).val) (BitVec.ofNat 32 (i 1).val))) 0#32) = 1#1
theorem hcond1_3 : ∀ t : Fin cfg1.N, cond1_3 (grid1.coords t) ↔ t.val % 4 = t.val / 4 % 4 :=
  (by decide +kernel : ∀ t : Fin grid1.N, cond1_3 (grid1.coords t) ↔ t.val % 4 = t.val / 4 % 4)

/-- The fourth branch (a tile above the diagonal): the key tile is after the query tile. -/
abbrev cond1_4 (i : grid1.Coords) : Prop :=
  (Scalar.cmpi .ne (Scalar.extui (Scalar.cmpi .sgt (BitVec.ofNat 32 (i 2).val) (BitVec.ofNat 32 (i 1).val))) 0#32) = 1#1
theorem hcond1_4 : ∀ t : Fin cfg1.N, cond1_4 (grid1.coords t) ↔ t.val / 4 % 4 < t.val % 4 :=
  (by decide +kernel : ∀ t : Fin grid1.N, cond1_4 (grid1.coords t) ↔ t.val / 4 % 4 < t.val % 4)

/-- The fifth branch (finalize into the output block): the key tile is the last. -/
abbrev cond1_5 (i : grid1.Coords) : Prop := k1_cond5 i = 1#1
theorem hcond1_5 : ∀ t : Fin cfg1.N, cond1_5 (grid1.coords t) ↔ t.val % 4 = 3 :=
  (by decide +kernel : ∀ t : Fin grid1.N, cond1_5 (grid1.coords t) ↔ t.val % 4 = 3)

/-! ## Where the windows are idle -/

/-- The five input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

/-- At the points where the key tile is not the last (cases A to E) the output window is idle: the body stores nothing
    into it. -/
theorem idleAt1_5 : ∀ t : Fin cfg1.N, ¬cond1_5 (grid1.coords t) → cfg1.idle 5 (grid1.coords t) = true := by decide +kernel
/-- There the pipeline does not write the output's block back. -/
theorem noFlush1_5 : ∀ t : Fin cfg1.N, ¬cond1_5 (grid1.coords t) → (cfg1.win 5).flush t = false := by decide +kernel
/-- At the points where the key tile is the last (cases F and G) the output window is live: the body stores into it. -/
theorem liveAt1_5 : ∀ t : Fin cfg1.N, cond1_5 (grid1.coords t) → cfg1.idle 5 (grid1.coords t) = false := by decide +kernel

theorem idleAt1_5_A : ∀ t : Fin cfg1.N, cond1_1 (grid1.coords t) → ¬cond1_2 (grid1.coords t) → cond1_3 (grid1.coords t) → ¬cond1_4 (grid1.coords t) → ¬cond1_5 (grid1.coords t) → cfg1.idle 5 (grid1.coords t) = true := fun t _ _ _ _ h => idleAt1_5 t h
theorem noFlush1_5_A : ∀ t : Fin cfg1.N, cond1_1 (grid1.coords t) → ¬cond1_2 (grid1.coords t) → cond1_3 (grid1.coords t) → ¬cond1_4 (grid1.coords t) → ¬cond1_5 (grid1.coords t) → (cfg1.win 5).flush t = false := fun t _ _ _ _ h => noFlush1_5 t h
theorem idleAt1_5_B : ∀ t : Fin cfg1.N, cond1_1 (grid1.coords t) → cond1_2 (grid1.coords t) → ¬cond1_3 (grid1.coords t) → ¬cond1_4 (grid1.coords t) → ¬cond1_5 (grid1.coords t) → cfg1.idle 5 (grid1.coords t) = true := fun t _ _ _ _ h => idleAt1_5 t h
theorem noFlush1_5_B : ∀ t : Fin cfg1.N, cond1_1 (grid1.coords t) → cond1_2 (grid1.coords t) → ¬cond1_3 (grid1.coords t) → ¬cond1_4 (grid1.coords t) → ¬cond1_5 (grid1.coords t) → (cfg1.win 5).flush t = false := fun t _ _ _ _ h => noFlush1_5 t h
theorem idleAt1_5_C : ∀ t : Fin cfg1.N, ¬cond1_1 (grid1.coords t) → cond1_2 (grid1.coords t) → ¬cond1_3 (grid1.coords t) → ¬cond1_4 (grid1.coords t) → ¬cond1_5 (grid1.coords t) → cfg1.idle 5 (grid1.coords t) = true := fun t _ _ _ _ h => idleAt1_5 t h
theorem noFlush1_5_C : ∀ t : Fin cfg1.N, ¬cond1_1 (grid1.coords t) → cond1_2 (grid1.coords t) → ¬cond1_3 (grid1.coords t) → ¬cond1_4 (grid1.coords t) → ¬cond1_5 (grid1.coords t) → (cfg1.win 5).flush t = false := fun t _ _ _ _ h => noFlush1_5 t h
theorem idleAt1_5_D : ∀ t : Fin cfg1.N, ¬cond1_1 (grid1.coords t) → ¬cond1_2 (grid1.coords t) → cond1_3 (grid1.coords t) → ¬cond1_4 (grid1.coords t) → ¬cond1_5 (grid1.coords t) → cfg1.idle 5 (grid1.coords t) = true := fun t _ _ _ _ h => idleAt1_5 t h
theorem noFlush1_5_D : ∀ t : Fin cfg1.N, ¬cond1_1 (grid1.coords t) → ¬cond1_2 (grid1.coords t) → cond1_3 (grid1.coords t) → ¬cond1_4 (grid1.coords t) → ¬cond1_5 (grid1.coords t) → (cfg1.win 5).flush t = false := fun t _ _ _ _ h => noFlush1_5 t h
theorem idleAt1_5_E : ∀ t : Fin cfg1.N, ¬cond1_1 (grid1.coords t) → ¬cond1_2 (grid1.coords t) → ¬cond1_3 (grid1.coords t) → cond1_4 (grid1.coords t) → ¬cond1_5 (grid1.coords t) → cfg1.idle 5 (grid1.coords t) = true := fun t _ _ _ _ h => idleAt1_5 t h
theorem noFlush1_5_E : ∀ t : Fin cfg1.N, ¬cond1_1 (grid1.coords t) → ¬cond1_2 (grid1.coords t) → ¬cond1_3 (grid1.coords t) → cond1_4 (grid1.coords t) → ¬cond1_5 (grid1.coords t) → (cfg1.win 5).flush t = false := fun t _ _ _ _ h => noFlush1_5 t h
theorem liveAt1_5_F : ∀ t : Fin cfg1.N, ¬cond1_1 (grid1.coords t) → ¬cond1_2 (grid1.coords t) → cond1_3 (grid1.coords t) → ¬cond1_4 (grid1.coords t) → cond1_5 (grid1.coords t) → cfg1.idle 5 (grid1.coords t) = false := fun t _ _ _ _ h => liveAt1_5 t h
theorem liveAt1_5_G : ∀ t : Fin cfg1.N, ¬cond1_1 (grid1.coords t) → ¬cond1_2 (grid1.coords t) → ¬cond1_3 (grid1.coords t) → cond1_4 (grid1.coords t) → cond1_5 (grid1.coords t) → cfg1.idle 5 (grid1.coords t) = false := fun t _ _ _ _ h => liveAt1_5 t h

/-! ## The staging and scratch memrefs -/

/-- One staging buffer of the output window, through which its contents are stated. -/
abbrev VO1_5 : View sig .tc .vmem S1x512x1024 .f32 := (Memref.whole cc1_stg5_0 : Memref sig .tc .vmem S1x512x1024 .f32).view
/-- Each window's current staging memref at point `t`, as the pipeline passes it to the body, and its wholeness. -/
abbrev ms1_0 (t : Fin cfg1.N) : Memref sig .tc .vmem S1x512x1024 .bf16 := win1_0.stage (cfg1.slots t 0)
abbrev hs1_0 (t : Fin cfg1.N) : (ms1_0 t).IsWhole := Facts₀.hstage1_0 ((cfg1.slots t 0).cast Facts₀.nbuf1_0)
abbrev ms1_1 (t : Fin cfg1.N) : Memref sig .tc .vmem S1x2048x1024 .bf16 := win1_1.stage (cfg1.slots t 1)
abbrev hs1_1 (t : Fin cfg1.N) : (ms1_1 t).IsWhole := Facts₀.hstage1_1 ((cfg1.slots t 1).cast Facts₀.nbuf1_1)
abbrev ms1_2 (t : Fin cfg1.N) : Memref sig .tc .vmem S1x2048x1024 .bf16 := win1_2.stage (cfg1.slots t 2)
abbrev hs1_2 (t : Fin cfg1.N) : (ms1_2 t).IsWhole := Facts₀.hstage1_2 ((cfg1.slots t 2).cast Facts₀.nbuf1_2)
abbrev ms1_3 (t : Fin cfg1.N) : Memref sig .tc .vmem S1024x1024 .bf16 := win1_3.stage (cfg1.slots t 3)
abbrev hs1_3 (t : Fin cfg1.N) : (ms1_3 t).IsWhole := Facts₀.hstage1_3 ((cfg1.slots t 3).cast Facts₀.nbuf1_3)
abbrev ms1_4 (t : Fin cfg1.N) : Memref sig .tc .vmem S1x1024 .f32 := win1_4.stage (cfg1.slots t 4)
abbrev hs1_4 (t : Fin cfg1.N) : (ms1_4 t).IsWhole := Facts₀.hstage1_4 ((cfg1.slots t 4).cast Facts₀.nbuf1_4)
abbrev ms1_5 (t : Fin cfg1.N) : Memref sig .tc .vmem S1x512x1024 .f32 := win1_5.stage (cfg1.slots t 5)
abbrev hs1_5 (t : Fin cfg1.N) : (ms1_5 t).IsWhole := Facts₀.hstage1_5 ((cfg1.slots t 5).cast Facts₀.nbuf1_5)
/-- The scratch operands: whole scoped buffers of the kernel's own, passed beside the windows. -/
abbrev scM1_0 : Memref sig .tc .vmem S512x1 .f32 := Memref.whole cc1_scratch0
abbrev scM1_1 : Memref sig .tc .vmem S512x1024 .f32 := Memref.whole cc1_scratch1
/-- The running row sum and the running accumulator, as views: what they hold is stated through these. -/
abbrev VS1_0 : View sig .tc .vmem S512x1 .f32 := scM1_0.view
abbrev VS1_1 : View sig .tc .vmem S512x1024 .f32 := scM1_1.view

/-- The body at point `t` is the kernel function on these memrefs. -/
theorem bodyAt1_eq (t : Fin cfg1.N) :
    bodyAt1 (F := F) t = cc1__attn_kernel (grid1.coords t) (ms1_0 t) (hs1_0 t) (ms1_1 t) (hs1_1 t) (ms1_2 t) (hs1_2 t)
      (ms1_3 t) (hs1_3 t) (ms1_4 t) (hs1_4 t) (ms1_5 t) (hs1_5 t) scM1_0 (Memref.isWhole_whole _) scM1_1 (Memref.isWhole_whole _) := rfl

/-- The region's invariant with the two scratch operands as memrefs owned at some contents: beside them it holds the
    first region's five staging buffers (scoped buffers this region does not use) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d))
        ∗ (∃ r, prngReg c r)) := by
  unfold Pipeline.ΦA; rw [scopedRest1_eq]; simp only [scM1_0, scM1_1, owns_whole]; try rfl

end Cert.Kernel.Attn

end
-- ==== Proof.AttnRunAW.lean ====
/-
  The attention kernel's body run in case A: the body's triple on whole staging and scratch memrefs by symbolic execution
  of its skeleton, each branch decided by the case's hypotheses; the pieces each stored buffer ends with are the witness
  the run finds.
-/
import proofs.«148243_j7679401525936_2_alg».proof.Proof.AttnRunsW

set_option maxRecDepth 16384

noncomputable section

namespace Cert.Kernel.Attn

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case A,
    with the proof that on whole memrefs — the five inputs' at their contents, the output's (idle here) at contents handed back untouched,
    the two scratches at anything (the case stores them whole before reading them) — the body runs to the continuation holding
    the inputs' as they were and each stored buffer with its pieces written. -/
noncomputable def kernelRun1_A (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) :
    Σ' (L5 : List (View.Piece (Elt F) S1x512x1024 .f32)), Σ' (LS0 : List (View.Piece (Elt F) S512x1 .f32)),
      { LS1 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Attn

end
-- ==== Proof.AttnRunBW.lean ====
/-
  The attention kernel's body run in case B: the body's triple on whole staging and scratch memrefs by symbolic execution
  of its skeleton, each branch decided by the case's hypotheses; the pieces each stored buffer ends with are the witness
  the run finds.
-/
import proofs.«148243_j7679401525936_2_alg».proof.Proof.AttnRunsW

set_option maxRecDepth 16384

noncomputable section

namespace Cert.Kernel.Attn

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case B,
    with the proof that on whole memrefs — the five inputs' at their contents, the output's (idle here) at contents handed back untouched,
    the two scratches at anything (the case stores them whole before reading them) — the body runs to the continuation holding
    the inputs' as they were and each stored buffer with its pieces written. -/
noncomputable def kernelRun1_B (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) :
    Σ' (L5 : List (View.Piece (Elt F) S1x512x1024 .f32)), Σ' (LS0 : List (View.Piece (Elt F) S512x1 .f32)),
      { LS1 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Attn

end
-- ==== Proof.AttnRunCW.lean ====
/-
  The attention kernel's body run in case C: the body's triple on whole staging and scratch memrefs by symbolic execution
  of its skeleton, each branch decided by the case's hypotheses; the pieces each stored buffer ends with are the witness
  the run finds.
-/
import proofs.«148243_j7679401525936_2_alg».proof.Proof.AttnRunsW

set_option maxRecDepth 16384

noncomputable section

namespace Cert.Kernel.Attn

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case C,
    with the proof that on whole memrefs — the five inputs' at their contents, the output's (idle here) at contents handed back untouched,
    the two scratches at the contents the point before left — the body runs to the continuation holding
    the inputs' as they were and each stored buffer with its pieces written. -/
noncomputable def kernelRun1_C (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) :
    Σ' (L5 : List (View.Piece (Elt F) S1x512x1024 .f32)), Σ' (LS0 : List (View.Piece (Elt F) S512x1 .f32)),
      { LS1 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Attn

end
-- ==== Proof.AttnRunDW.lean ====
/-
  The attention kernel's body run in case D: the body's triple on whole staging and scratch memrefs by symbolic execution
  of its skeleton, each branch decided by the case's hypotheses; the pieces each stored buffer ends with are the witness
  the run finds.
-/
import proofs.«148243_j7679401525936_2_alg».proof.Proof.AttnRunsW

set_option maxRecDepth 16384

noncomputable section

namespace Cert.Kernel.Attn

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case D,
    with the proof that on whole memrefs — the five inputs' at their contents, the output's (idle here) at contents handed back untouched,
    the two scratches at the contents the point before left — the body runs to the continuation holding
    the inputs' as they were and each stored buffer with its pieces written. -/
noncomputable def kernelRun1_D (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) :
    Σ' (L5 : List (View.Piece (Elt F) S1x512x1024 .f32)), Σ' (LS0 : List (View.Piece (Elt F) S512x1 .f32)),
      { LS1 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Attn

end
-- ==== Proof.AttnRunEW.lean ====
/-
  The attention kernel's body run in case E: the body's triple on whole staging and scratch memrefs by symbolic execution
  of its skeleton, each branch decided by the case's hypotheses; the pieces each stored buffer ends with are the witness
  the run finds.
-/
import proofs.«148243_j7679401525936_2_alg».proof.Proof.AttnRunsW

set_option maxRecDepth 16384

noncomputable section

namespace Cert.Kernel.Attn

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case E,
    with the proof that on whole memrefs — the five inputs' at their contents, the output's (idle here) at contents handed back untouched,
    the two scratches at the contents the point before left — the body runs to the continuation holding
    the inputs' as they were and each stored buffer with its pieces written. -/
noncomputable def kernelRun1_E (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) :
    Σ' (L5 : List (View.Piece (Elt F) S1x512x1024 .f32)), Σ' (LS0 : List (View.Piece (Elt F) S512x1 .f32)),
      { LS1 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨[], ?_, ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

end Cert.Kernel.Attn

end
-- ==== Proof.AttnRunFW.lean ====
/-
  The attention kernel's body run in case F: the body's triple on whole staging and scratch memrefs by symbolic execution
  of its skeleton, each branch decided by the case's hypotheses; the pieces each stored buffer ends with are the witness
  the run finds.
-/
import proofs.«148243_j7679401525936_2_alg».proof.Proof.AttnRunsW

set_option maxRecDepth 16384

noncomputable section

namespace Cert.Kernel.Attn

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case F,
    with the proof that on whole memrefs — the five inputs' at their contents, the output's at anything,
    the two scratches at the contents the point before left — the body runs to the continuation holding
    the inputs' as they were and each stored buffer with its pieces written. -/
noncomputable def kernelRun1_F (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) :
    Σ' (L5 : List (View.Piece (Elt F) S1x512x1024 .f32)), Σ' (LS0 : List (View.Piece (Elt F) S512x1 .f32)),
      { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.Kernel.Attn

end
-- ==== Proof.AttnRunGW.lean ====
/-
  The attention kernel's body run in case G: the body's triple on whole staging and scratch memrefs by symbolic execution
  of its skeleton, each branch decided by the case's hypotheses; the pieces each stored buffer ends with are the witness
  the run finds.
-/
import proofs.«148243_j7679401525936_2_alg».proof.Proof.AttnRunsW

set_option maxRecDepth 16384

noncomputable section

namespace Cert.Kernel.Attn

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the two scratches, as pieces (last first), in case G,
    with the proof that on whole memrefs — the five inputs' at their contents, the output's at anything,
    the two scratches at the contents the point before left — the body runs to the continuation holding
    the inputs' as they were and each stored buffer with its pieces written. -/
noncomputable def kernelRun1_G (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) :
    Σ' (L5 : List (View.Piece (Elt F) S1x512x1024 .f32)), Σ' (LS0 : List (View.Piece (Elt F) S512x1 .f32)),
      { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc1 | exact hc2 | exact hc3 | exact hc4 | exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.Kernel.Attn

end
-- ==== Proof.AttnRunAllW.lean ====
/-
  The seven case runs of the attention kernel's body, gathered: one module to import for all of them.
-/
import proofs.«148243_j7679401525936_2_alg».proof.Proof.AttnRunAW
import proofs.«148243_j7679401525936_2_alg».proof.Proof.AttnRunBW
import proofs.«148243_j7679401525936_2_alg».proof.Proof.AttnRunCW
import proofs.«148243_j7679401525936_2_alg».proof.Proof.AttnRunDW
import proofs.«148243_j7679401525936_2_alg».proof.Proof.AttnRunEW
import proofs.«148243_j7679401525936_2_alg».proof.Proof.AttnRunFW
import proofs.«148243_j7679401525936_2_alg».proof.Proof.AttnRunGW
-- ==== Proof.AttnFrameW.lean ====
/-
  The attention kernel's region, at any contents V of the core's buffers when the region is entered: what each window's staging
  buffer holds around the body at each of the 128 grid points (point t = batch · 16 + query tile · 4 + key tile). The five input
  windows hold their blocks, fetched at the point or not. The body carries two scratch buffers from point to point — the running
  row sum l (512 × 1) and the running accumulator acc (512 × 1024) — and stores the output block only at a query tile's last key
  tile; elsewhere the output window is idle and its buffer is handed back untouched. Which of the body's seven cases a point is
  in is decided by its key tile ki = t mod 4 and its query tile qi = (t / 4) mod 4; what the output block and the two scratches
  hold after each point is defined by recursion on the point, each case run over what the point before left in the scratches
  (the two cases of the first key tile store the scratches whole before reading them, so they need nothing from before).
-/
import proofs.«148243_j7679401525936_2_alg».proof.Proof.AttnRunAllW

set_option maxRecDepth 16384

noncomputable section

namespace Cert.Kernel.Attn

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The input windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's window (fetched when the query tile changes) holds its block at every point, fetched there or not: unfetched, the block index has not moved. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The keys' window (fetched when the batch changes) holds its block at every point, fetched there or not: unfetched, the block index has not moved. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The values' window (fetched when the batch changes) holds its block at every point, fetched there or not: unfetched, the block index has not moved. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The output projection's weight (fetched at the first point only) holds its block at every point, fetched there or not: unfetched, the block index has not moved. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The output projection's bias (fetched at the first point only) holds its block at every point, fetched there or not: unfetched, the block index has not moved. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the output block and in the two scratches -/

/-! ### Case A: the first key tile on the diagonal (the first point of query tile 0) -/

/-- Case A stores nothing into the output block (the window is idle at its points and not written back there): a placeholder
    that nothing consults. -/
def out1_A_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S1x512x1024 .f32 :=
  VO1_5.read (Elt F) (VO1_5.writes (Elt F) VO1_5.junk (kernelRun1_A c i arg3 harg3 arg4 harg4 arg5 harg5 arg6 harg6 arg7 harg7 arg8 harg8 arg9 harg9 arg10 harg10 hc1 hc2 hc3 hc4 hc5 x0 x1 x2 x3 x4).1)

/-- The pieces case A stores into the running row sum cover it. -/
theorem scover1_A_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (y : S512x1.Idx) :
    ∃ pc ∈ (kernelRun1_A c i arg3 harg3 arg4 harg4 arg5 harg5 arg6 harg6 arg7 harg7 arg8 harg8 arg9 harg9 arg10 harg10 hc1 hc2 hc3 hc4 hc5 x0 x1 x2 x3 x4).2.1, y ∈ pc.1.set :=
  View.cover_of_tiledL (kernelRun1_A c i arg3 harg3 arg4 harg4 arg5 harg5 arg6 harg6 arg7 harg7 arg8 harg8 arg9 harg9 arg10 harg10 hc1 hc2 hc3 hc4 hc5 x0 x1 x2 x3 x4).2.1 S512x1.size (by sl_kernel_rfl) y

/-- What case A leaves in the running row sum: its pieces read back. -/
def sout1_A_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S512x1 .f32 :=
  VS1_0.read (Elt F) (VS1_0.writes (Elt F) VS1_0.junk (kernelRun1_A c i arg3 harg3 arg4 harg4 arg5 harg5 arg6 harg6 arg7 harg7 arg8 harg8 arg9 harg9 arg10 harg10 hc1 hc2 hc3 hc4 hc5 x0 x1 x2 x3 x4).2.1)

/-- The pieces case A stores into the running accumulator cover it. -/
theorem scover1_A_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (y : S512x1024.Idx) :
    ∃ pc ∈ (kernelRun1_A c i arg3 harg3 arg4 harg4 arg5 harg5 arg6 harg6 arg7 harg7 arg8 harg8 arg9 harg9 arg10 harg10 hc1 hc2 hc3 hc4 hc5 x0 x1 x2 x3 x4).2.2.1, y ∈ pc.1.set :=
  View.cover_of_tiledL (kernelRun1_A c i arg3 harg3 arg4 harg4 arg5 harg5 arg6 harg6 arg7 harg7 arg8 harg8 arg9 harg9 arg10 harg10 hc1 hc2 hc3 hc4 hc5 x0 x1 x2 x3 x4).2.2.1 S512x1024.size (by sl_kernel_rfl) y

/-- What case A leaves in the running accumulator: its pieces read back. -/
def sout1_A_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S512x1024 .f32 :=
  VS1_1.read (Elt F) (VS1_1.writes (Elt F) VS1_1.junk (kernelRun1_A c i arg3 harg3 arg4 harg4 arg5 harg5 arg6 harg6 arg7 harg7 arg8 harg8 arg9 harg9 arg10 harg10 hc1 hc2 hc3 hc4 hc5 x0 x1 x2 x3 x4).2.2.1)

/-! ### Case B: the first key tile, below the diagonal -/

/-- Case B stores nothing into the output block (the window is idle at its points and not written back there): a placeholder
    that nothing consults. -/
def out1_B_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S1x512x1024 .f32 :=
  VO1_5.read (Elt F) (VO1_5.writes (Elt F) VO1_5.junk (kernelRun1_B c i arg3 harg3 arg4 harg4 arg5 harg5 arg6 harg6 arg7 harg7 arg8 harg8 arg9 harg9 arg10 harg10 hc1 hc2 hc3 hc4 hc5 x0 x1 x2 x3 x4).1)

/-- The pieces case B stores into the running row sum cover it. -/
theorem scover1_B_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (y : S512x1.Idx) :
    ∃ pc ∈ (kernelRun1_B c i arg3 harg3 arg4 harg4 arg5 harg5 arg6 harg6 arg7 harg7 arg8 harg8 arg9 harg9 arg10 harg10 hc1 hc2 hc3 hc4 hc5 x0 x1 x2 x3 x4).2.1, y ∈ pc.1.set :=
  View.cover_of_tiledL (kernelRun1_B c i arg3 harg3 arg4 harg4 arg5 harg5 arg6 harg6 arg7 harg7 arg8 harg8 arg9 harg9 arg10 harg10 hc1 hc2 hc3 hc4 hc5 x0 x1 x2 x3 x4).2.1 S512x1.size (by sl_kernel_rfl) y

/-- What case B leaves in the running row sum: its pieces read back. -/
def sout1_B_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 arg10 harg10 hc1 hc2 hc3 hc4 hc5 x0 x1 x2 x3 x4).2.1)

/-- The pieces case B stores into the running accumulator cover it. -/
theorem scover1_B_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) (y : S512x1024.Idx) :
    ∃ pc ∈ (kernelRun1_B c i arg3 harg3 arg4 harg4 arg5 harg5 arg6 harg6 arg7 harg7 arg8 harg8 arg9 harg9 arg10 harg10 hc1 hc2 hc3 hc4 hc5 x0 x1 x2 x3 x4).2.2.1, y ∈ pc.1.set :=
  View.cover_of_tiledL (kernelRun1_B c i arg3 harg3 arg4 harg4 arg5 harg5 arg6 harg6 arg7 harg7 arg8 harg8 arg9 harg9 arg10 harg10 hc1 hc2 hc3 hc4 hc5 x0 x1 x2 x3 x4).2.2.1 S512x1024.size (by sl_kernel_rfl) y

/-- What case B leaves in the running accumulator: its pieces read back. -/
def sout1_B_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32) : Vec F S512x1024 .f32 :=
  VS1_1.read (Elt F) (VS1_1.writes (Elt F) VS1_1.junk (kernelRun1_B c i arg3 harg3 arg4 harg4 arg5 harg5 arg6 harg6 arg7 harg7 arg8 harg8 arg9 harg9 arg10 harg10 hc1 hc2 hc3 hc4 hc5 x0 x1 x2 x3 x4).2.2.1)

/-! ### Case C: a later key tile below the diagonal -/

/-- Case C stores nothing into the output block (the window is idle at its points and not written back there): a placeholder
    that nothing consults. -/
def out1_C_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S1x512x1024 .f32 :=
  VO1_5.read (Elt F) (VO1_5.writes (Elt F) VO1_5.junk (kernelRun1_C c i arg3 harg3 arg4 harg4 arg5 harg5 arg6 harg6 arg7 harg7 arg8 harg8 arg9 harg9 arg10 harg10 hc1 hc2 hc3 hc4 hc5 x0 x1 x2 x3 x4 xs0 xs1).1)

/-- The pieces case C stores into the running row sum cover it. -/
theorem scover1_C_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1.Idx) :
    ∃ pc ∈ (kernelRun1_C c i arg3 harg3 arg4 harg4 arg5 harg5 arg6 harg6 arg7 harg7 arg8 harg8 arg9 harg9 arg10 harg10 hc1 hc2 hc3 hc4 hc5 x0 x1 x2 x3 x4 xs0 xs1).2.1, y ∈ pc.1.set :=
  View.cover_of_tiledL (kernelRun1_C c i arg3 harg3 arg4 harg4 arg5 harg5 arg6 harg6 arg7 harg7 arg8 harg8 arg9 harg9 arg10 harg10 hc1 hc2 hc3 hc4 hc5 x0 x1 x2 x3 x4 xs0 xs1).2.1 S512x1.size (by sl_kernel_rfl) y

/-- What case C leaves in the running row sum: its pieces read back. -/
def sout1_C_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 arg10 harg10 hc1 hc2 hc3 hc4 hc5 x0 x1 x2 x3 x4 xs0 xs1).2.1)

/-- The pieces case C stores into the running accumulator cover it. -/
theorem scover1_C_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1024.Idx) :
    ∃ pc ∈ (kernelRun1_C c i arg3 harg3 arg4 harg4 arg5 harg5 arg6 harg6 arg7 harg7 arg8 harg8 arg9 harg9 arg10 harg10 hc1 hc2 hc3 hc4 hc5 x0 x1 x2 x3 x4 xs0 xs1).2.2.1, y ∈ pc.1.set :=
  View.cover_of_tiledL (kernelRun1_C c i arg3 harg3 arg4 harg4 arg5 harg5 arg6 harg6 arg7 harg7 arg8 harg8 arg9 harg9 arg10 harg10 hc1 hc2 hc3 hc4 hc5 x0 x1 x2 x3 x4 xs0 xs1).2.2.1 S512x1024.size (by sl_kernel_rfl) y

/-- What case C leaves in the running accumulator: its pieces read back. -/
def sout1_C_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : cond1_2 i) (hc3 : ¬cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1024 .f32 :=
  VS1_1.read (Elt F) (VS1_1.writes (Elt F) VS1_1.junk (kernelRun1_C c i arg3 harg3 arg4 harg4 arg5 harg5 arg6 harg6 arg7 harg7 arg8 harg8 arg9 harg9 arg10 harg10 hc1 hc2 hc3 hc4 hc5 x0 x1 x2 x3 x4 xs0 xs1).2.2.1)

/-! ### Case D: the diagonal tile, neither first nor last -/

/-- Case D stores nothing into the output block (the window is idle at its points and not written back there): a placeholder
    that nothing consults. -/
def out1_D_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S1x512x1024 .f32 :=
  VO1_5.read (Elt F) (VO1_5.writes (Elt F) VO1_5.junk (kernelRun1_D c i arg3 harg3 arg4 harg4 arg5 harg5 arg6 harg6 arg7 harg7 arg8 harg8 arg9 harg9 arg10 harg10 hc1 hc2 hc3 hc4 hc5 x0 x1 x2 x3 x4 xs0 xs1).1)

/-- The pieces case D stores into the running row sum cover it. -/
theorem scover1_D_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1.Idx) :
    ∃ pc ∈ (kernelRun1_D c i arg3 harg3 arg4 harg4 arg5 harg5 arg6 harg6 arg7 harg7 arg8 harg8 arg9 harg9 arg10 harg10 hc1 hc2 hc3 hc4 hc5 x0 x1 x2 x3 x4 xs0 xs1).2.1, y ∈ pc.1.set :=
  View.cover_of_tiledL (kernelRun1_D c i arg3 harg3 arg4 harg4 arg5 harg5 arg6 harg6 arg7 harg7 arg8 harg8 arg9 harg9 arg10 harg10 hc1 hc2 hc3 hc4 hc5 x0 x1 x2 x3 x4 xs0 xs1).2.1 S512x1.size (by sl_kernel_rfl) y

/-- What case D leaves in the running row sum: its pieces read back. -/
def sout1_D_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1 .f32 :=
  VS1_0.read (Elt F) (VS1_0.writes (Elt F) VS1_0.junk (kernelRun1_D c i arg3 harg3 arg4 harg4 arg5 harg5 arg6 harg6 arg7 harg7 arg8 harg8 arg9 harg9 arg10 harg10 hc1 hc2 hc3 hc4 hc5 x0 x1 x2 x3 x4 xs0 xs1).2.1)

/-- The pieces case D stores into the running accumulator cover it. -/
theorem scover1_D_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1024.Idx) :
    ∃ pc ∈ (kernelRun1_D c i arg3 harg3 arg4 harg4 arg5 harg5 arg6 harg6 arg7 harg7 arg8 harg8 arg9 harg9 arg10 harg10 hc1 hc2 hc3 hc4 hc5 x0 x1 x2 x3 x4 xs0 xs1).2.2.1, y ∈ pc.1.set :=
  View.cover_of_tiledL (kernelRun1_D c i arg3 harg3 arg4 harg4 arg5 harg5 arg6 harg6 arg7 harg7 arg8 harg8 arg9 harg9 arg10 harg10 hc1 hc2 hc3 hc4 hc5 x0 x1 x2 x3 x4 xs0 xs1).2.2.1 S512x1024.size (by sl_kernel_rfl) y

/-- What case D leaves in the running accumulator: its pieces read back. -/
def sout1_D_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1024 .f32 :=
  VS1_1.read (Elt F) (VS1_1.writes (Elt F) VS1_1.junk (kernelRun1_D c i arg3 harg3 arg4 harg4 arg5 harg5 arg6 harg6 arg7 harg7 arg8 harg8 arg9 harg9 arg10 harg10 hc1 hc2 hc3 hc4 hc5 x0 x1 x2 x3 x4 xs0 xs1).2.2.1)

/-! ### Case E: a tile above the diagonal, not the last -/

/-- Case E stores nothing into the output block (the window is idle at its points and not written back there): a placeholder
    that nothing consults. -/
def out1_E_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S1x512x1024 .f32 :=
  VO1_5.read (Elt F) (VO1_5.writes (Elt F) VO1_5.junk (kernelRun1_E c i arg3 harg3 arg4 harg4 arg5 harg5 arg6 harg6 arg7 harg7 arg8 harg8 arg9 harg9 arg10 harg10 hc1 hc2 hc3 hc4 hc5 x0 x1 x2 x3 x4 xs0 xs1).1)

/-- The pieces case E stores into the running row sum cover it. -/
theorem scover1_E_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1.Idx) :
    ∃ pc ∈ (kernelRun1_E c i arg3 harg3 arg4 harg4 arg5 harg5 arg6 harg6 arg7 harg7 arg8 harg8 arg9 harg9 arg10 harg10 hc1 hc2 hc3 hc4 hc5 x0 x1 x2 x3 x4 xs0 xs1).2.1, y ∈ pc.1.set :=
  View.cover_of_tiledL (kernelRun1_E c i arg3 harg3 arg4 harg4 arg5 harg5 arg6 harg6 arg7 harg7 arg8 harg8 arg9 harg9 arg10 harg10 hc1 hc2 hc3 hc4 hc5 x0 x1 x2 x3 x4 xs0 xs1).2.1 S512x1.size (by sl_kernel_rfl) y

/-- What case E leaves in the running row sum: its pieces read back. -/
def sout1_E_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1 .f32 :=
  VS1_0.read (Elt F) (VS1_0.writes (Elt F) VS1_0.junk (kernelRun1_E c i arg3 harg3 arg4 harg4 arg5 harg5 arg6 harg6 arg7 harg7 arg8 harg8 arg9 harg9 arg10 harg10 hc1 hc2 hc3 hc4 hc5 x0 x1 x2 x3 x4 xs0 xs1).2.1)

/-- The pieces case E stores into the running accumulator cover it. -/
theorem scover1_E_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1024.Idx) :
    ∃ pc ∈ (kernelRun1_E c i arg3 harg3 arg4 harg4 arg5 harg5 arg6 harg6 arg7 harg7 arg8 harg8 arg9 harg9 arg10 harg10 hc1 hc2 hc3 hc4 hc5 x0 x1 x2 x3 x4 xs0 xs1).2.2.1, y ∈ pc.1.set :=
  View.cover_of_tiledL (kernelRun1_E c i arg3 harg3 arg4 harg4 arg5 harg5 arg6 harg6 arg7 harg7 arg8 harg8 arg9 harg9 arg10 harg10 hc1 hc2 hc3 hc4 hc5 x0 x1 x2 x3 x4 xs0 xs1).2.2.1 S512x1024.size (by sl_kernel_rfl) y

/-- What case E leaves in the running accumulator: its pieces read back. -/
def sout1_E_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : ¬cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1024 .f32 :=
  VS1_1.read (Elt F) (VS1_1.writes (Elt F) VS1_1.junk (kernelRun1_E c i arg3 harg3 arg4 harg4 arg5 harg5 arg6 harg6 arg7 harg7 arg8 harg8 arg9 harg9 arg10 harg10 hc1 hc2 hc3 hc4 hc5 x0 x1 x2 x3 x4 xs0 xs1).2.2.1)

/-! ### Case F: the last key tile on the diagonal -/

/-- The pieces case F stores into the output block tile it, so they cover it. -/
theorem cover1_F_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S1x512x1024.Idx) :
    ∃ pc ∈ (kernelRun1_F c i arg3 harg3 arg4 harg4 arg5 harg5 arg6 harg6 arg7 harg7 arg8 harg8 arg9 harg9 arg10 harg10 hc1 hc2 hc3 hc4 hc5 x0 x1 x2 x3 x4 xs0 xs1).1, y ∈ pc.1.set :=
  View.cover_of_tiledL (kernelRun1_F c i arg3 harg3 arg4 harg4 arg5 harg5 arg6 harg6 arg7 harg7 arg8 harg8 arg9 harg9 arg10 harg10 hc1 hc2 hc3 hc4 hc5 x0 x1 x2 x3 x4 xs0 xs1).1 S1x512x1024.size (by sl_kernel_rfl) y

/-- What case F leaves in the output block's staging buffer: its pieces read back. -/
def out1_F_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S1x512x1024 .f32 :=
  VO1_5.read (Elt F) (VO1_5.writes (Elt F) VO1_5.junk (kernelRun1_F c i arg3 harg3 arg4 harg4 arg5 harg5 arg6 harg6 arg7 harg7 arg8 harg8 arg9 harg9 arg10 harg10 hc1 hc2 hc3 hc4 hc5 x0 x1 x2 x3 x4 xs0 xs1).1)

/-- The pieces case F stores into the running row sum cover it. -/
theorem scover1_F_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1.Idx) :
    ∃ pc ∈ (kernelRun1_F c i arg3 harg3 arg4 harg4 arg5 harg5 arg6 harg6 arg7 harg7 arg8 harg8 arg9 harg9 arg10 harg10 hc1 hc2 hc3 hc4 hc5 x0 x1 x2 x3 x4 xs0 xs1).2.1, y ∈ pc.1.set :=
  View.cover_of_tiledL (kernelRun1_F c i arg3 harg3 arg4 harg4 arg5 harg5 arg6 harg6 arg7 harg7 arg8 harg8 arg9 harg9 arg10 harg10 hc1 hc2 hc3 hc4 hc5 x0 x1 x2 x3 x4 xs0 xs1).2.1 S512x1.size (by sl_kernel_rfl) y

/-- What case F leaves in the running row sum: its pieces read back. -/
def sout1_F_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1 .f32 :=
  VS1_0.read (Elt F) (VS1_0.writes (Elt F) VS1_0.junk (kernelRun1_F c i arg3 harg3 arg4 harg4 arg5 harg5 arg6 harg6 arg7 harg7 arg8 harg8 arg9 harg9 arg10 harg10 hc1 hc2 hc3 hc4 hc5 x0 x1 x2 x3 x4 xs0 xs1).2.1)

/-- The pieces case F stores into the running accumulator cover it. -/
theorem scover1_F_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1024.Idx) :
    ∃ pc ∈ (kernelRun1_F c i arg3 harg3 arg4 harg4 arg5 harg5 arg6 harg6 arg7 harg7 arg8 harg8 arg9 harg9 arg10 harg10 hc1 hc2 hc3 hc4 hc5 x0 x1 x2 x3 x4 xs0 xs1).2.2.1, y ∈ pc.1.set :=
  View.cover_of_tiledL (kernelRun1_F c i arg3 harg3 arg4 harg4 arg5 harg5 arg6 harg6 arg7 harg7 arg8 harg8 arg9 harg9 arg10 harg10 hc1 hc2 hc3 hc4 hc5 x0 x1 x2 x3 x4 xs0 xs1).2.2.1 S512x1024.size (by sl_kernel_rfl) y

/-- What case F leaves in the running accumulator: its pieces read back. -/
def sout1_F_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : cond1_3 i) (hc4 : ¬cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1024 .f32 :=
  VS1_1.read (Elt F) (VS1_1.writes (Elt F) VS1_1.junk (kernelRun1_F c i arg3 harg3 arg4 harg4 arg5 harg5 arg6 harg6 arg7 harg7 arg8 harg8 arg9 harg9 arg10 harg10 hc1 hc2 hc3 hc4 hc5 x0 x1 x2 x3 x4 xs0 xs1).2.2.1)

/-! ### Case G: the last key tile, above the diagonal -/

/-- The pieces case G stores into the output block tile it, so they cover it. -/
theorem cover1_G_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S1x512x1024.Idx) :
    ∃ pc ∈ (kernelRun1_G c i arg3 harg3 arg4 harg4 arg5 harg5 arg6 harg6 arg7 harg7 arg8 harg8 arg9 harg9 arg10 harg10 hc1 hc2 hc3 hc4 hc5 x0 x1 x2 x3 x4 xs0 xs1).1, y ∈ pc.1.set :=
  View.cover_of_tiledL (kernelRun1_G c i arg3 harg3 arg4 harg4 arg5 harg5 arg6 harg6 arg7 harg7 arg8 harg8 arg9 harg9 arg10 harg10 hc1 hc2 hc3 hc4 hc5 x0 x1 x2 x3 x4 xs0 xs1).1 S1x512x1024.size (by sl_kernel_rfl) y

/-- What case G leaves in the output block's staging buffer: its pieces read back. -/
def out1_G_5 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S1x512x1024 .f32 :=
  VO1_5.read (Elt F) (VO1_5.writes (Elt F) VO1_5.junk (kernelRun1_G c i arg3 harg3 arg4 harg4 arg5 harg5 arg6 harg6 arg7 harg7 arg8 harg8 arg9 harg9 arg10 harg10 hc1 hc2 hc3 hc4 hc5 x0 x1 x2 x3 x4 xs0 xs1).1)

/-- The pieces case G stores into the running row sum cover it. -/
theorem scover1_G_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1.Idx) :
    ∃ pc ∈ (kernelRun1_G c i arg3 harg3 arg4 harg4 arg5 harg5 arg6 harg6 arg7 harg7 arg8 harg8 arg9 harg9 arg10 harg10 hc1 hc2 hc3 hc4 hc5 x0 x1 x2 x3 x4 xs0 xs1).2.1, y ∈ pc.1.set :=
  View.cover_of_tiledL (kernelRun1_G c i arg3 harg3 arg4 harg4 arg5 harg5 arg6 harg6 arg7 harg7 arg8 harg8 arg9 harg9 arg10 harg10 hc1 hc2 hc3 hc4 hc5 x0 x1 x2 x3 x4 xs0 xs1).2.1 S512x1.size (by sl_kernel_rfl) y

/-- What case G leaves in the running row sum: its pieces read back. -/
def sout1_G_0 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1 .f32 :=
  VS1_0.read (Elt F) (VS1_0.writes (Elt F) VS1_0.junk (kernelRun1_G c i arg3 harg3 arg4 harg4 arg5 harg5 arg6 harg6 arg7 harg7 arg8 harg8 arg9 harg9 arg10 harg10 hc1 hc2 hc3 hc4 hc5 x0 x1 x2 x3 x4 xs0 xs1).2.1)

/-- The pieces case G stores into the running accumulator cover it. -/
theorem scover1_G_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) (y : S512x1024.Idx) :
    ∃ pc ∈ (kernelRun1_G c i arg3 harg3 arg4 harg4 arg5 harg5 arg6 harg6 arg7 harg7 arg8 harg8 arg9 harg9 arg10 harg10 hc1 hc2 hc3 hc4 hc5 x0 x1 x2 x3 x4 xs0 xs1).2.2.1, y ∈ pc.1.set :=
  View.cover_of_tiledL (kernelRun1_G c i arg3 harg3 arg4 harg4 arg5 harg5 arg6 harg6 arg7 harg7 arg8 harg8 arg9 harg9 arg10 harg10 hc1 hc2 hc3 hc4 hc5 x0 x1 x2 x3 x4 xs0 xs1).2.2.1 S512x1024.size (by sl_kernel_rfl) y

/-- What case G leaves in the running accumulator: its pieces read back. -/
def sout1_G_1 (c : Dev nD) (i : grid1.Coords)
    (arg3 : Memref sig .tc .vmem S1x512x1024 .bf16) (harg3 : arg3.IsWhole)
    (arg4 : Memref sig .tc .vmem S1x2048x1024 .bf16) (harg4 : arg4.IsWhole)
    (arg5 : Memref sig .tc .vmem S1x2048x1024 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1x512x1024 .f32) (harg8 : arg8.IsWhole)
    (arg9 : Memref sig .tc .vmem S512x1 .f32) (harg9 : arg9.IsWhole)
    (arg10 : Memref sig .tc .vmem S512x1024 .f32) (harg10 : arg10.IsWhole)
    (hc1 : ¬cond1_1 i) (hc2 : ¬cond1_2 i) (hc3 : ¬cond1_3 i) (hc4 : cond1_4 i) (hc5 : cond1_5 i)
    (x0 : Vec F S1x512x1024 .bf16) (x1 x2 : Vec F S1x2048x1024 .bf16) (x3 : Vec F S1024x1024 .bf16) (x4 : Vec F S1x1024 .f32)
    (xs0 : Vec F S512x1 .f32) (xs1 : Vec F S512x1024 .f32) : Vec F S512x1024 .f32 :=
  VS1_1.read (Elt F) (VS1_1.writes (Elt F) VS1_1.junk (kernelRun1_G c i arg3 harg3 arg4 harg4 arg5 harg5 arg6 harg6 arg7 harg7 arg8 harg8 arg9 harg9 arg10 harg10 hc1 hc2 hc3 hc4 hc5 x0 x1 x2 x3 x4 xs0 xs1).2.2.1)

/-! ## What the output block and the two scratches hold after each point -/

/-- THE ACCUMULATION: the output block's staging buffer, the running row sum and the running accumulator after the body at
    position n. The case is selected by the key tile n mod 4 and the query tile (n / 4) mod 4: the first key tile (on the diagonal
    for query tile 0, below it otherwise) starts the scratches afresh; the last key tile (on the diagonal for query tile 3, above
    it otherwise) also stores the output block; between them a tile is below, on or above the diagonal. Every case but the first
    key tile's two runs over what position n - 1 left in the scratches. -/
def outsAt (c : Dev nD) : (n : ℕ) → n < cfg1.N → Vec F S1x512x1024 .f32 × Vec F S512x1 .f32 × Vec F S512x1024 .f32
  | 0, hn =>
      (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_1 ⟨0, hn⟩).mpr (show 0 % 4 = 0 by omega)) (fun h => absurd ((hcond1_2 ⟨0, hn⟩).mp h) (show ¬(0 % 4 < 0 / 4 % 4) by omega)) ((hcond1_3 ⟨0, hn⟩).mpr (show 0 % 4 = 0 / 4 % 4 by omega)) (fun h => absurd ((hcond1_4 ⟨0, hn⟩).mp h) (show ¬(0 / 4 % 4 < 0 % 4) by omega)) (fun h => absurd ((hcond1_5 ⟨0, hn⟩).mp h) (show ¬(0 % 4 = 3) by omega)) (iblk V c 0 ⟨0, hn⟩) (iblk V c 1 ⟨0, hn⟩) (iblk V c 2 ⟨0, hn⟩) (iblk V c 3 ⟨0, hn⟩) (iblk V c 4 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_1 ⟨0, hn⟩).mpr (show 0 % 4 = 0 by omega)) (fun h => absurd ((hcond1_2 ⟨0, hn⟩).mp h) (show ¬(0 % 4 < 0 / 4 % 4) by omega)) ((hcond1_3 ⟨0, hn⟩).mpr (show 0 % 4 = 0 / 4 % 4 by omega)) (fun h => absurd ((hcond1_4 ⟨0, hn⟩).mp h) (show ¬(0 / 4 % 4 < 0 % 4) by omega)) (fun h => absurd ((hcond1_5 ⟨0, hn⟩).mp h) (show ¬(0 % 4 = 3) by omega)) (iblk V c 0 ⟨0, hn⟩) (iblk V c 1 ⟨0, hn⟩) (iblk V c 2 ⟨0, hn⟩) (iblk V c 3 ⟨0, hn⟩) (iblk V c 4 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_1 ⟨0, hn⟩).mpr (show 0 % 4 = 0 by omega)) (fun h => absurd ((hcond1_2 ⟨0, hn⟩).mp h) (show ¬(0 % 4 < 0 / 4 % 4) by omega)) ((hcond1_3 ⟨0, hn⟩).mpr (show 0 % 4 = 0 / 4 % 4 by omega)) (fun h => absurd ((hcond1_4 ⟨0, hn⟩).mp h) (show ¬(0 / 4 % 4 < 0 % 4) by omega)) (fun h => absurd ((hcond1_5 ⟨0, hn⟩).mp h) (show ¬(0 % 4 = 3) by omega)) (iblk V c 0 ⟨0, hn⟩) (iblk V c 1 ⟨0, hn⟩) (iblk V c 2 ⟨0, hn⟩) (iblk V c 3 ⟨0, hn⟩) (iblk V c 4 ⟨0, hn⟩))
  | n + 1, hn =>
    if h1 : (n + 1) % 4 = 0 then
      if h3 : (n + 1) % 4 = (n + 1) / 4 % 4 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩))
      else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩),
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩),
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_1 ⟨n + 1, hn⟩).mpr (show (n + 1) % 4 = 0 by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else if h5 : (n + 1) % 4 = 3 then
      if h3 : (n + 1) % 4 = (n + 1) / 4 % 4 then
      (out1_F_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_F_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_F_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)
      else
      (out1_G_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_G_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_G_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) ((hcond1_5 ⟨n + 1, hn⟩).mpr (show (n + 1) % 4 = 3 by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)
    else if h2 : (n + 1) % 4 < (n + 1) / 4 % 4 then
      (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) ((hcond1_2 ⟨n + 1, hn⟩).mpr (show (n + 1) % 4 < (n + 1) / 4 % 4 by omega)) (fun h => absurd ((hcond1_3 ⟨n + 1, hn⟩).mp h) (show ¬((n + 1) % 4 = (n + 1) / 4 % 4) by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)
    else if h3 : (n + 1) % 4 = (n + 1) / 4 % 4 then
      (out1_D_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) ((hcond1_3 ⟨n + 1, hn⟩).mpr (show (n + 1) % 4 = (n + 1) / 4 % 4 by omega)) (fun h => absurd ((hcond1_4 ⟨n + 1, hn⟩).mp h) (show ¬((n + 1) / 4 % 4 < (n + 1) % 4) by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)
    else
      (out1_E_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_E_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2,
        sout1_E_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => absurd ((hcond1_1 ⟨n + 1, hn⟩).mp h) (show ¬((n + 1) % 4 = 0) by omega)) (fun h => absurd ((hcond1_2 ⟨n + 1, hn⟩).mp h) (show ¬((n + 1) % 4 < (n + 1) / 4 % 4) by omega)) (fun h => absurd ((hcond1_3 ⟨n + 1, hn⟩).mp h) (show ¬((n + 1) % 4 = (n + 1) / 4 % 4) by omega)) ((hcond1_4 ⟨n + 1, hn⟩).mpr (show (n + 1) / 4 % 4 < (n + 1) % 4 by omega)) (fun h => absurd ((hcond1_5 ⟨n + 1, hn⟩).mp h) (show ¬((n + 1) % 4 = 3) by omega)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2.1 (outsAt c n (Nat.lt_of_succ_lt hn)).2.2)

/-- `outsAt` at a point of case A: that case's contents. -/
theorem outsAt_A (c : Dev nD) (t : Fin cfg1.N) (h1 : t.val % 4 = 0) (h3 : t.val % 4 = t.val / 4 % 4) :
    outsAt V c t.val t.isLt =
      (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t),
        sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t),
        sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t)) := by
  obtain ⟨n, hn⟩ := t
  cases n with
  | zero => exact rfl
  | succ n => exact (dif_pos h1).trans ((dif_pos h3).trans (rfl))

/-- `outsAt` at a point of case B: that case's contents. -/
theorem outsAt_B (c : Dev nD) (t : Fin cfg1.N) (h1 : t.val % 4 = 0) (h3 : ¬(t.val % 4 = t.val / 4 % 4)) :
    outsAt V c t.val t.isLt =
      (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t),
        sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t),
        sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t)) := by
  obtain ⟨n, hn⟩ := t
  cases n with
  | zero => exact absurd (by decide : (0 : ℕ) % 4 = 0 / 4 % 4) h3
  | succ n => exact (dif_pos h1).trans ((dif_neg h3).trans (rfl))

/-- `outsAt` at a point of case C: that case's contents, over what the point before left in the scratches. -/
theorem outsAt_C (c : Dev nD) (t : Fin cfg1.N) (h1 : ¬(t.val % 4 = 0)) (h5 : ¬(t.val % 4 = 3)) (h2 : t.val % 4 < t.val / 4 % 4) :
    outsAt V c t.val t.isLt =
      (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_neg h5).trans ((dif_pos h2).trans (rfl)))

/-- `outsAt` at a point of case D: that case's contents, over what the point before left in the scratches. -/
theorem outsAt_D (c : Dev nD) (t : Fin cfg1.N) (h1 : ¬(t.val % 4 = 0)) (h5 : ¬(t.val % 4 = 3)) (h2 : ¬(t.val % 4 < t.val / 4 % 4)) (h3 : t.val % 4 = t.val / 4 % 4) :
    outsAt V c t.val t.isLt =
      (out1_D_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_D_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_D_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_neg h5).trans ((dif_neg h2).trans ((dif_pos h3).trans (rfl))))

/-- `outsAt` at a point of case E: that case's contents, over what the point before left in the scratches. -/
theorem outsAt_E (c : Dev nD) (t : Fin cfg1.N) (h1 : ¬(t.val % 4 = 0)) (h5 : ¬(t.val % 4 = 3)) (h2 : ¬(t.val % 4 < t.val / 4 % 4)) (h3 : ¬(t.val % 4 = t.val / 4 % 4)) :
    outsAt V c t.val t.isLt =
      (out1_E_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_E_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_E_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_neg h5).trans ((dif_neg h2).trans ((dif_neg h3).trans (rfl))))

/-- `outsAt` at a point of case F: that case's contents, over what the point before left in the scratches. -/
theorem outsAt_F (c : Dev nD) (t : Fin cfg1.N) (h1 : ¬(t.val % 4 = 0)) (h5 : t.val % 4 = 3) (h3 : t.val % 4 = t.val / 4 % 4) :
    outsAt V c t.val t.isLt =
      (out1_F_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_F_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_F_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_pos h5).trans ((dif_pos h3).trans (rfl)))

/-- `outsAt` at a point of case G: that case's contents, over what the point before left in the scratches. -/
theorem outsAt_G (c : Dev nD) (t : Fin cfg1.N) (h1 : ¬(t.val % 4 = 0)) (h5 : t.val % 4 = 3) (h3 : ¬(t.val % 4 = t.val / 4 % 4)) :
    outsAt V c t.val t.isLt =
      (out1_G_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_G_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2,
        sout1_G_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact absurd (Nat.zero_mod 4) h1
  | succ n => exact (dif_neg h1).trans ((dif_pos h5).trans ((dif_neg h3).trans (rfl)))

/-! ## The region's invariant -/

/-- The invariant before position n: before the first point the class invariant (every scoped buffer that is no staging buffer
    of this region at anything, and the generator register); afterwards the same with the two scratches at what the point before
    left in them — the other five (the first region's staging buffers, which this region does not use) still at anything. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt V c n hn).2.1 ∗ owns (c : Thread nD τ) scM1_1 fullShare (outsAt V c n hn).2.2)
        ∗ (∃ r, prngReg c r))

theorem PhiS_zero (c : Dev nD) (n : ℕ) (h : n ≤ cfg1.N) (hz : n = 0) : PhiS V c n h = Pipeline.ΦA spec1 c := by
  subst hz; rfl

/-- After point n (before point n + 1): the scratches at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt V c n hn).2.1 ∗ owns (c : Thread nD τ) scM1_1 fullShare (outsAt V c n hn).2.2)
        ∗ (∃ r, prngReg c r)) := rfl

/-- Before a point that is not the first: the scratches at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare (outsAt V c (n - 1) (by omega)).2.1 ∗ owns (c : Thread nD τ) scM1_1 fullShare (outsAt V c (n - 1) (by omega)).2.2)
        ∗ (∃ r, prngReg c r)) := by
  cases n with
  | zero => exact absurd rfl hz
  | succ n => rfl

/-! ## The region's proof data -/

/-- The region's proof data on core c: the arrays as the region finds them; after the body at point t each input's buffer at its
    block and the output's at `outsAt`'s first component; the invariant `PhiS`; nothing owed. The three windows of the projected
    rows read ONE array: its full share is dealt among them (the left half, and the two halves of the right half); the other
    arrays are held at the full share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's number. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

/-- Each input's current staging buffer holds its block at every point. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation's two sides, the windows one by one -/

/-- What the body is called with at point t, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

end Cert.Kernel.Attn

end
-- ==== Proof.AttnFrame2W.lean ====
/-
  The attention kernel's body obligation and the invariant at the region's two ends, at any contents V of the core's buffers when
  the region is entered. At each grid point the key tile and the query tile decide which of the body's seven cases runs; in each
  the five input buffers hold their blocks, the invariant hands the body the two scratches (the running row sum and the running
  accumulator) at what the point before left in them — at anything where the case stores them whole before reading —, and
  takes them back at the contents the case's stores leave, which cover them. The output block's buffer is covered by the two
  cases of the last key tile and comes back untouched from the other five. The first region's staging buffers and the generator
  register pass through unread, and the core owes nothing throughout.
-/
import proofs.«148243_j7679401525936_2_alg».proof.Proof.AttnFrameW

set_option maxRecDepth 16384

noncomputable section

namespace Cert.Kernel.Attn

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body, case by case -/

set_option maxHeartbeats 4000000 in
/-- The body at a point of case A (the first key tile on the diagonal (the first point of query tile 0)): the inputs' buffers hold their blocks, the invariant hands over the two scratches
    (at anything: the case stores them whole before reading them), so the case's run applies; it returns the scratches with its pieces written, which cover them; the output's buffer comes back untouched. -/
theorem sound_A (c : Dev nD) (t : Fin cfg1.N) (h1 : t.val % 4 = 0) (h3 : t.val % 4 = t.val / 4 % 4) :
    bodyPre V c t ⊢ wp frame (wpE (defs₀ (F := F)) Variants.none c none) Set.univ (bodyAt1 t) (fun _ => bodyPost V c t) := by
  have hc5 : ¬cond1_5 (grid1.coords t) := fun h => absurd ((hcond1_5 t).mp h) (show ¬(t.val % 4 = 3) by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [Dat.leavesExact_idle (dat V c) 5 t (idleAt1_5 t hc5) (noFlush1_5 t hc5)]
  rw [outsAt_A V c t h1 h3]
  unfold sout1_A_0 sout1_A_1; (try dsimp only)
  by_cases hz : t.val = 0
  · rw [PhiS_castSucc V c t, PhiS_zero V c _ _ hz, PhiA1_eq]
    iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [Hb0 Hb1 Hb2 Hb3 Hb4 HS0 HS1 Hg]
    · isplitl [Hb0 Hb1 Hb2 Hb3 Hb4 HS0 HS1]
      · isplitl [Hb0]; · iexact Hb0
        isplitl [Hb1]; · iexact Hb1
        isplitl [Hb2]; · iexact Hb2
        isplitl [Hb3]; · iexact Hb3
        isplitl [Hb4]; · iexact Hb4
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
        unfold owns; iexists _; isplitr
        swap; · iexact HS1
        ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS_castSucc V c t, PhiS_pos V c _ _ hz]
    iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, ⟨%es0, HS0⟩, ⟨%es1, HS1⟩⟩
    isplitl [Hb0 Hb1 Hb2 Hb3 Hb4 HS0 HS1 Hg]
    · isplitl [Hb0 Hb1 Hb2 Hb3 Hb4 HS0 HS1]
      · isplitl [Hb0]; · iexact Hb0
        isplitl [Hb1]; · iexact Hb1
        isplitl [Hb2]; · iexact Hb2
        isplitl [Hb3]; · iexact Hb3
        isplitl [Hb4]; · iexact Hb4
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
        unfold owns; iexists _; isplitr
        swap; · iexact HS1
        ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

set_option maxHeartbeats 4000000 in
/-- The body at a point of case B (the first key tile, below the diagonal): the inputs' buffers hold their blocks, the invariant hands over the two scratches
    (at anything: the case stores them whole before reading them), so the case's run applies; it returns the scratches with its pieces written, which cover them; the output's buffer comes back untouched. -/
theorem sound_B (c : Dev nD) (t : Fin cfg1.N) (h1 : t.val % 4 = 0) (h3 : ¬(t.val % 4 = t.val / 4 % 4)) :
    bodyPre V c t ⊢ wp frame (wpE (defs₀ (F := F)) Variants.none c none) Set.univ (bodyAt1 t) (fun _ => bodyPost V c t) := by
  have hc5 : ¬cond1_5 (grid1.coords t) := fun h => absurd ((hcond1_5 t).mp h) (show ¬(t.val % 4 = 3) by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [Dat.leavesExact_idle (dat V c) 5 t (idleAt1_5 t hc5) (noFlush1_5 t hc5)]
  rw [outsAt_B V c t h1 h3]
  unfold sout1_B_0 sout1_B_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t)).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  iintro ⟨H0, H1, H2, H3, H4, H5, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
      unfold owns; iexists _; isplitr
      swap; · iexact HS1
      ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_1 t).mpr (show t.val % 4 = 0 by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t))
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
/-- The body at a point of case C (a later key tile below the diagonal): the inputs' buffers hold their blocks, the invariant hands over the two scratches
    at what the point before left in them, so the case's run applies; it returns the scratches with its pieces written, which cover them; the output's buffer comes back untouched. -/
theorem sound_C (c : Dev nD) (t : Fin cfg1.N) (h1 : ¬(t.val % 4 = 0)) (h5 : ¬(t.val % 4 = 3)) (h2 : t.val % 4 < t.val / 4 % 4) :
    bodyPre V c t ⊢ wp frame (wpE (defs₀ (F := F)) Variants.none c none) Set.univ (bodyAt1 t) (fun _ => bodyPost V c t) := by
  have hc5 : ¬cond1_5 (grid1.coords t) := fun h => absurd ((hcond1_5 t).mp h) (show ¬(t.val % 4 = 3) by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [Dat.leavesExact_idle (dat V c) 5 t (idleAt1_5 t hc5) (noFlush1_5 t hc5)]
  rw [outsAt_C V c t h1 h5 h2]
  unfold sout1_C_0 sout1_C_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
      unfold owns; iexists _; isplitr
      swap; · iexact HS1
      ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) ((hcond1_2 t).mpr (show t.val % 4 < t.val / 4 % 4 by omega)) (fun h => absurd ((hcond1_3 t).mp h) (show ¬(t.val % 4 = t.val / 4 % 4) by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
/-- The body at a point of case D (the diagonal tile, neither first nor last): the inputs' buffers hold their blocks, the invariant hands over the two scratches
    at what the point before left in them, so the case's run applies; it returns the scratches with its pieces written, which cover them; the output's buffer comes back untouched. -/
theorem sound_D (c : Dev nD) (t : Fin cfg1.N) (h1 : ¬(t.val % 4 = 0)) (h5 : ¬(t.val % 4 = 3)) (h2 : ¬(t.val % 4 < t.val / 4 % 4)) (h3 : t.val % 4 = t.val / 4 % 4) :
    bodyPre V c t ⊢ wp frame (wpE (defs₀ (F := F)) Variants.none c none) Set.univ (bodyAt1 t) (fun _ => bodyPost V c t) := by
  have hc5 : ¬cond1_5 (grid1.coords t) := fun h => absurd ((hcond1_5 t).mp h) (show ¬(t.val % 4 = 3) by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [Dat.leavesExact_idle (dat V c) 5 t (idleAt1_5 t hc5) (noFlush1_5 t hc5)]
  rw [outsAt_D V c t h1 h5 h2 h3]
  unfold sout1_D_0 sout1_D_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_D c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_D_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
      unfold owns; iexists _; isplitr
      swap; · iexact HS1
      ipureintro; exact View.read_writes_of_cover _ _ _ _ _ (scover1_D_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
/-- The body at a point of case E (a tile above the diagonal, not the last): the inputs' buffers hold their blocks, the invariant hands over the two scratches
    at what the point before left in them, so the case's run applies; it returns the scratches with its pieces written, which cover them; the output's buffer comes back untouched. -/
theorem sound_E (c : Dev nD) (t : Fin cfg1.N) (h1 : ¬(t.val % 4 = 0)) (h5 : ¬(t.val % 4 = 3)) (h2 : ¬(t.val % 4 < t.val / 4 % 4)) (h3 : ¬(t.val % 4 = t.val / 4 % 4)) :
    bodyPre V c t ⊢ wp frame (wpE (defs₀ (F := F)) Variants.none c none) Set.univ (bodyAt1 t) (fun _ => bodyPost V c t) := by
  have hc5 : ¬cond1_5 (grid1.coords t) := fun h => absurd ((hcond1_5 t).mp h) (show ¬(t.val % 4 = 3) by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [Dat.leavesExact_idle (dat V c) 5 t (idleAt1_5 t hc5) (noFlush1_5 t hc5)]
  rw [outsAt_E V c t h1 h5 h2 h3]
  unfold sout1_E_0 sout1_E_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_E c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_E_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
      unfold owns; iexists _; isplitr
      swap; · iexact HS1
      ipureintro; exact View.read_writes_of_cover _ _ _ _ _ (scover1_E_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) (fun h => absurd ((hcond1_5 t).mp h) (show ¬(t.val % 4 = 3) by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
/-- The body at a point of case F (the last key tile on the diagonal): the inputs' buffers hold their blocks, the invariant hands over the two scratches
    at what the point before left in them, so the case's run applies; it returns the scratches with its pieces written, which cover them, and the output block covered by its pieces. -/
theorem sound_F (c : Dev nD) (t : Fin cfg1.N) (h1 : ¬(t.val % 4 = 0)) (h5 : t.val % 4 = 3) (h3 : t.val % 4 = t.val / 4 % 4) :
    bodyPre V c t ⊢ wp frame (wpE (defs₀ (F := F)) Variants.none c none) Set.univ (bodyAt1 t) (fun _ => bodyPost V c t) := by
  have hc5 : cond1_5 (grid1.coords t) := (hcond1_5 t).mpr (show t.val % 4 = 3 by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [show (dat V c).leavesExact 5 t = owns (c : Thread nD τ) (ms1_5 t) fullShare ((dat V c).after 5 t) from by
    unfold Dat.leavesExact; rw [liveAt1_5 t hc5], after_5]
  rw [outsAt_F V c t h1 h5 h3]
  unfold out1_F_5 sout1_F_0 sout1_F_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_F c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_F_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
      unfold owns; iexists _; isplitr
      swap; · iexact HS1
      ipureintro; exact View.read_writes_of_cover _ _ _ _ _ (scover1_F_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_F_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) ((hcond1_3 t).mpr (show t.val % 4 = t.val / 4 % 4 by omega)) (fun h => absurd ((hcond1_4 t).mp h) (show ¬(t.val / 4 % 4 < t.val % 4) by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)

set_option maxHeartbeats 4000000 in
/-- The body at a point of case G (the last key tile, above the diagonal): the inputs' buffers hold their blocks, the invariant hands over the two scratches
    at what the point before left in them, so the case's run applies; it returns the scratches with its pieces written, which cover them, and the output block covered by its pieces. -/
theorem sound_G (c : Dev nD) (t : Fin cfg1.N) (h1 : ¬(t.val % 4 = 0)) (h5 : t.val % 4 = 3) (h3 : ¬(t.val % 4 = t.val / 4 % 4)) :
    bodyPre V c t ⊢ wp frame (wpE (defs₀ (F := F)) Variants.none c none) Set.univ (bodyAt1 t) (fun _ => bodyPost V c t) := by
  have hc5 : cond1_5 (grid1.coords t) := (hcond1_5 t).mpr (show t.val % 4 = 3 by omega)
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms1_0 t) fullShare ((dat V c).after 0 t) from by
    unfold Dat.leavesExact; rw [liveAt1_0 t], after_0]
  rw [show (dat V c).leavesExact 1 t = owns (c : Thread nD τ) (ms1_1 t) fullShare ((dat V c).after 1 t) from by
    unfold Dat.leavesExact; rw [liveAt1_1 t], after_1]
  rw [show (dat V c).leavesExact 2 t = owns (c : Thread nD τ) (ms1_2 t) fullShare ((dat V c).after 2 t) from by
    unfold Dat.leavesExact; rw [liveAt1_2 t], after_2]
  rw [show (dat V c).leavesExact 3 t = owns (c : Thread nD τ) (ms1_3 t) fullShare ((dat V c).after 3 t) from by
    unfold Dat.leavesExact; rw [liveAt1_3 t], after_3]
  rw [show (dat V c).leavesExact 4 t = owns (c : Thread nD τ) (ms1_4 t) fullShare ((dat V c).after 4 t) from by
    unfold Dat.leavesExact; rw [liveAt1_4 t], after_4]
  rw [show (dat V c).leavesExact 5 t = owns (c : Thread nD τ) (ms1_5 t) fullShare ((dat V c).after 5 t) from by
    unfold Dat.leavesExact; rw [liveAt1_5 t hc5], after_5]
  rw [outsAt_G V c t h1 h5 h3]
  unfold out1_G_5 sout1_G_0 sout1_G_1; (try dsimp only)
  have hz : t.val ≠ 0 := by omega
  rw [PhiS_castSucc V c t, PhiS_pos V c _ _ hz]
  iintro ⟨⟨⟨Hb0, Hb1, Hb2, Hb3, Hb4, HS0, HS1⟩, Hg⟩, Ho, ⟨%d0, H0⟩, ⟨%d1, H1⟩, ⟨%d2, H2⟩, ⟨%d3, H3⟩, ⟨%d4, H4⟩, ⟨%d5, H5⟩⟩
  iapply ((kernelRun1_G c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, ⟨%es0, HS0⟩, ⟨%es1, HS1⟩⟩
  isplitl [Hb0 Hb1 Hb2 Hb3 Hb4 HS0 HS1 Hg]
  · isplitl [Hb0 Hb1 Hb2 Hb3 Hb4 HS0 HS1]
    · isplitl [Hb0]; · iexact Hb0
      isplitl [Hb1]; · iexact Hb1
      isplitl [Hb2]; · iexact Hb2
      isplitl [Hb3]; · iexact Hb3
      isplitl [Hb4]; · iexact Hb4
      isplitl [HS0]
      · unfold owns; iexists _; isplitr
        swap; · iexact HS0
        ipureintro; exact View.read_writes_of_cover _ _ _ _ _ (scover1_G_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
      unfold owns; iexists _; isplitr
      swap; · iexact HS1
      ipureintro; exact View.read_writes_of_cover _ _ _ _ _ (scover1_G_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_G_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => absurd ((hcond1_1 t).mp h) (show ¬(t.val % 4 = 0) by omega)) (fun h => absurd ((hcond1_2 t).mp h) (show ¬(t.val % 4 < t.val / 4 % 4) by omega)) (fun h => absurd ((hcond1_3 t).mp h) (show ¬(t.val % 4 = t.val / 4 % 4) by omega)) ((hcond1_4 t).mpr (show t.val / 4 % 4 < t.val % 4 by omega)) ((hcond1_5 t).mpr (show t.val % 4 = 3 by omega)) (iblk V c 0 t) (iblk V c 1 t) (iblk V c 2 t) (iblk V c 3 t) (iblk V c 4 t) (outsAt V c (t.val - 1) (Nat.lt_of_le_of_lt (Nat.sub_le _ _) t.isLt)).2.1 (outsAt V c (t.val - 1) (Nat.lt_of_le_of_lt (Nat.sub_le _ _) t.isLt)).2.2)

/-! ## The body obligation -/

/-- The body at any point: its key tile and query tile say which of the seven cases it is in. -/
theorem sound_body (c : Dev nD) (t : Fin cfg1.N) :
    bodyPre V c t ⊢ wp frame (wpE (defs₀ (F := F)) Variants.none c none) Set.univ (bodyAt1 t) (fun _ => bodyPost V c t) := by
  have hN : t.val < 128 := lt_of_lt_of_eq t.isLt (show cfg1.N = 128 from N_1)
  by_cases h1 : t.val % 4 = 0
  · by_cases h3 : t.val % 4 = t.val / 4 % 4
    · exact sound_A V c t h1 h3
    · exact sound_B V c t h1 h3
  · by_cases h5 : t.val % 4 = 3
    · by_cases h3 : t.val % 4 = t.val / 4 % 4
      · exact sound_F V c t h1 h5 h3
      · exact sound_G V c t h1 h5 h3
    · by_cases h2 : t.val % 4 < t.val / 4 % 4
      · exact sound_C V c t h1 h5 h2
      · by_cases h3 : t.val % 4 = t.val / 4 % 4
        · exact sound_D V c t h1 h5 h2 h3
        · exact sound_E V c t h1 h5 h2 h3

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: what the scratches hold is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨Hb0, Hb1, Hb2, Hb3, Hb4, HS0, HS1⟩, Hg⟩
  isplitl [Hb0 Hb1 Hb2 Hb3 Hb4 HS0 HS1]
  · isplitl [Hb0]; · iexact Hb0
    isplitl [Hb1]; · iexact Hb1
    isplitl [Hb2]; · iexact Hb2
    isplitl [Hb3]; · iexact Hb3
    isplitl [Hb4]; · iexact Hb4
    isplitl [HS0]; · iexists _; iexact HS0
    iexists _; iexact HS1
  iexact Hg

/-- The same after the last point. -/
theorem hout (c : Dev nD) : (dat V c).Φ (Fin.last cfg1.N) ⊢ Pipeline.ΦA spec1 c :=
  Phi_out V c _ (by rw [Fin.val_last]; have : cfg1.N = 128 := N_1; omega)

end Cert.Kernel.Attn

end
-- ==== Proof.KernelFinalDataW.lean ====
/-
  The attention region's proof data meets what the whole program's run asks of it, at any contents of the core's buffers when the
  region is entered: its arrays are the entry contents, the array three windows read is dealt among them by the fixed shares, the
  core owes nothing, the invariant at the region's two ends is the windows' staging state, and the body meets its obligation at
  every grid point. With it the whole program's frame: every weakly fair execution terminates, nothing faulting, and the six
  argument arrays end as launched.
-/
import proofs.«148243_j7679401525936_2_alg».proof.Proof.KernelArgsW
import proofs.«148243_j7679401525936_2_alg».proof.Proof.AttnFrame2W

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]

/-- The attention region's proof data, at every entry contents, is what the launch needs. -/
theorem attnData : AttnData (F := F) (fun V c => Attn.dat V c) where
  A_eq V c w := Attn.A_eq V c w
  shares V c := ⟨rfl, rfl, rfl, rfl, rfl⟩
  owed V c t := rfl
  recorded V c t := rfl
  hin V c := Attn.hin V c
  hout V c := Attn.hout V c
  body V c := Attn.body_obligation V c

/-- From any memory with zero counters every weakly fair execution of @main terminates, nothing faulting, and the six argument
    arrays end as launched. -/
theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ _ attnData

end Cert.Kernel.Run

end
-- ==== Proof.lean ====
/-
  The certificate's claim for the attention layer with fused projections.

  The kernel program computes, in two regions, (1) the projected rows x·[Wq·a; Wk·a; Wv]ᵀ as one product with the fused weight,
  and (2) per batch and query tile, visiting the four key tiles in turn, the running row sum l and accumulator acc of the masked
  scores (the score on and below the diagonal, −1 above it: a tile above the diagonal contributes −512 and minus the column sum of
  its value rows), and at the last key tile the output rows (acc / (l + e))·Woᵀ + bo.  The reference computes the scaled
  projections, the full score matrix, the masked scores, divides each by its row's sum plus e, and then multiplies by v and Woᵀ.

  At the exact-arithmetic reading the two agree wherever every entry is a real number and no row's denominator vanishes: the scale
  moves inside the sum over channels, a row's sum over 2048 keys is the sum over four tiles of 512, and the division by the
  nonzero denominator commutes with the sum over keys.  The precondition supplies both facts (its last conjunct is the
  denominators' being nonzero, computed as the reference computes them).

  The frames (every execution of each program ends, faults nowhere and leaves the six argument arrays as they were) come from the
  run of @main through its two regions: the body of each region is run once per control case, the two scratches are carried from
  grid point to grid point by an invariant, and the one array that three windows read is dealt among them by shares.  The
  word-level program is the same text as the idealized one, and its frame is the same proof in its namespace.
-/
import proofs.«148243_j7679401525936_2_alg».proof.Defs
import proofs.«148243_j7679401525936_2_alg».proof.Proof.Assembly
import proofs.«148243_j7679401525936_2_alg».proof.Proof.KernelFinal
import proofs.«148243_j7679401525936_2_alg».proof.Proof.KernelFinalDataW

noncomputable section

namespace Cert.Proof

open Idealize.ShloMosaic

/-- The idealized kernel leaves the kernel arrangement of its arguments in its result (`kernel_run`); the word-level kernel's
    frame is the run of @main at the word-level instance; the rest is the assembly over the reference's run, the law between the
    two arrangements and the decoded precondition. -/
theorem claim : Cert.Claim :=
  Cert.Proof.Assembly.claim_of Cert.KernelIdeal.Run.kernel_run (fun m ρ _ => Cert.Kernel.Run.frame_main (F := Bits) m ρ)

end Cert.Proof

end
